-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x128 : Shape := ⟨3, ![64, 1024, 128]⟩
abbrev S128 : Shape := ⟨1, ![128]⟩
abbrev S5x5x128 : Shape := ⟨3, ![5, 5, 128]⟩
abbrev S128x128 : Shape := ⟨2, ![128, 128]⟩
abbrev S1x128 : Shape := ⟨2, ![1, 128]⟩
abbrev S3x3x128 : Shape := ⟨3, ![3, 3, 128]⟩
abbrev S1x1x128 : Shape := ⟨3, ![1, 1, 128]⟩
abbrev S128x512 : Shape := ⟨2, ![128, 512]⟩
abbrev S512x128 : Shape := ⟨2, ![512, 128]⟩
abbrev S3x3x256x128 : Shape := ⟨4, ![3, 3, 256, 128]⟩
abbrev S3x3x128x128 : Shape := ⟨4, ![3, 3, 128, 128]⟩
abbrev S256x128 : Shape := ⟨2, ![256, 128]⟩
abbrev S_ : Shape := ⟨0, ![]⟩

class Facts : Prop where
  bcast_S_S64x1024x128 : S_.BroadcastsInDim S64x1024x128 (![] : Fin 0 → Fin S64x1024x128.rank)
  reducesTo_S64x1024x128_S_d0_1_2 : S64x1024x128.ReducesTo [0, 1, 2] S_
  h_S_ : 0 < S_.numel
  bcast_S_S128 : S_.BroadcastsInDim S128 (![] : Fin 0 → Fin S128.rank)
  reducesTo_S128_S_d0 : S128.ReducesTo [0] S_
  bcast_S_S5x5x128 : S_.BroadcastsInDim S5x5x128 (![] : Fin 0 → Fin S5x5x128.rank)
  reducesTo_S5x5x128_S_d0_1_2 : S5x5x128.ReducesTo [0, 1, 2] S_
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_
  bcast_S_S3x3x128 : S_.BroadcastsInDim S3x3x128 (![] : Fin 0 → Fin S3x3x128.rank)
  reducesTo_S3x3x128_S_d0_1_2 : S3x3x128.ReducesTo [0, 1, 2] S_
  bcast_S_S1x1x128 : S_.BroadcastsInDim S1x1x128 (![] : Fin 0 → Fin S1x1x128.rank)
  reducesTo_S1x1x128_S_d0_1_2 : S1x1x128.ReducesTo [0, 1, 2] S_
  bcast_S_S128x512 : S_.BroadcastsInDim S128x512 (![] : Fin 0 → Fin S128x512.rank)
  reducesTo_S128x512_S_d0_1 : S128x512.ReducesTo [0, 1] S_
  bcast_S_S512x128 : S_.BroadcastsInDim S512x128 (![] : Fin 0 → Fin S512x128.rank)
  reducesTo_S512x128_S_d0_1 : S512x128.ReducesTo [0, 1] S_
  bcast_S_S3x3x256x128 : S_.BroadcastsInDim S3x3x256x128 (![] : Fin 0 → Fin S3x3x256x128.rank)
  reducesTo_S3x3x256x128_S_d0_1_2_3 : S3x3x256x128.ReducesTo [0, 1, 2, 3] S_
  bcast_S_S3x3x128x128 : S_.BroadcastsInDim S3x3x128x128 (![] : Fin 0 → Fin S3x3x128x128.rank)
  reducesTo_S3x3x128x128_S_d0_1_2_3 : S3x3x128x128.ReducesTo [0, 1, 2, 3] S_
  bcast_S_S256x128 : S_.BroadcastsInDim S256x128 (![] : Fin 0 → Fin S256x128.rank)
  reducesTo_S256x128_S_d0_1 : S256x128.ReducesTo [0, 1] S_

variable [Facts]

def fn_part7 {F : FTy → Type} [FloatOps F] (main_arg25 : FVec F S128 .f32) (main_v118 : IVec S_ 1) (main_v119 : FVec F S256x128 .f32) : IVec S_ 1 :=
  let main_cst_46 : FVec F S_ .f32 := constant S_ .f32 0x7F800000#32
  let main_v120 : FVec F S256x128 .f32 := broadcastInDim S256x128 ![] bcast_S_S256x128 main_cst_46
  let main_v121 : IVec S256x128 1 := cmpf .olt main_v119 main_v120
  let main_c_47 : IVec S_ 1 := constantI S_ 1 1#1
  let main_v122 : IVec S_ 1 := (fun x v => Host.reduce IntOp.andi x v reducesTo_S256x128_S_d0_1 h_S_) main_v121 main_c_47
  let main_v123 : IVec S_ 1 := andi main_v118 main_v122
  let main_v124 : FVec F S128 .f32 := Host.absf main_arg25
  let main_cst_48 : FVec F S_ .f32 := constant S_ .f32 0x7F800000#32
  let main_v125 : FVec F S128 .f32 := broadcastInDim S128 ![] bcast_S_S128 main_cst_48
  let main_v126 : IVec S128 1 := cmpf .olt main_v124 main_v125
  let main_c_49 : IVec S_ 1 := constantI S_ 1 1#1
  let main_v127 : IVec S_ 1 := (fun x v => Host.reduce IntOp.andi x v reducesTo_S128_S_d0 h_S_) main_v126 main_c_49
  let main_v128 : IVec S_ 1 := andi main_v123 main_v127
  main_v128

def fn_part6 {F : FTy → Type} [FloatOps F] (main_arg21 : FVec F S128 .f32) (main_arg22 : FVec F S3x3x128x128 .f32) (main_arg23 : FVec F S128 .f32) (main_arg24 : FVec F S256x128 .f32) (main_arg25 : FVec F S128 .f32) (main_v98 : IVec S_ 1) (main_v101 : IVec S3x3x256x128 1) (main_c_39 : IVec S_ 1) : IVec S_ 1 :=
  let main_v102 : IVec S_ 1 := (fun x v => Host.reduce IntOp.andi x v reducesTo_S3x3x256x128_S_d0_1_2_3 h_S_) main_v101 main_c_39
  let main_v103 : IVec S_ 1 := andi main_v98 main_v102
  let main_v104 : FVec F S128 .f32 := Host.absf main_arg21
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S3x3x128x128 .f32 := Host.absf main_arg22
  let main_cst_42 : FVec F S_ .f32 := constant S_ .f32 0x7F800000#32
  let main_v110 : FVec F S3x3x128x128 .f32 := broadcastInDim S3x3x128x128 ![] bcast_S_S3x3x128x128 main_cst_42
  let main_v111 : IVec S3x3x128x128 1 := cmpf .olt main_v109 main_v110
  let main_c_43 : IVec S_ 1 := constantI S_ 1 1#1
  let main_v112 : IVec S_ 1 := (fun x v => Host.reduce IntOp.andi x v reducesTo_S3x3x128x128_S_d0_1_2_3 h_S_) main_v111 main_c_43
  let main_v113 : IVec S_ 1 := andi main_v108 main_v112
  let main_v114 : FVec F S128 .f32 := Host.absf main_arg23
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  let main_v119 : FVec F S256x128 .f32 := Host.absf main_arg24
  fn_part7 (F := F) main_arg25 main_v118 main_v119

def fn_part5 {F : FTy → Type} [FloatOps F] (main_arg18 : FVec F S512x128 .f32) (main_arg19 : FVec F S128x128 .f32) (main_arg20 : FVec F S3x3x256x128 .f32) (main_arg21 : FVec F S128 .f32) (main_arg22 : FVec F S3x3x128x128 .f32) (main_arg23 : FVec F S128 .f32) (main_arg24 : FVec F S256x128 .f32) (main_arg25 : FVec F S128 .f32) (main_v83 : IVec S_ 1) (main_v84 : FVec F S128x512 .f32) (main_cst_32 : FVec F S_ .f32) : IVec S_ 1 :=
  let main_v85 : FVec F S128x512 .f32 := broadcastInDim S128x512 ![] bcast_S_S128x512 main_cst_32
  let main_v86 : IVec S128x512 1 := cmpf .olt main_v84 main_v85
  let main_c_33 : IVec S_ 1 := constantI S_ 1 1#1
  let main_v87 : IVec S_ 1 := (fun x v => Host.reduce IntOp.andi x v reducesTo_S128x512_S_d0_1 h_S_) main_v86 main_c_33
  let main_v88 : IVec S_ 1 := andi main_v83 main_v87
  let main_v89 : FVec F S512x128 .f32 := Host.absf main_arg18
  let main_cst_34 : FVec F S_ .f32 := constant S_ .f32 0x7F800000#32
  let main_v90 : FVec F S512x128 .f32 := broadcastInDim S512x128 ![] bcast_S_S512x128 main_cst_34
  let main_v91 : IVec S512x128 1 := cmpf .olt main_v89 main_v90
  let main_c_35 : IVec S_ 1 := constantI S_ 1 1#1
  let main_v92 : IVec S_ 1 := (fun x v => Host.reduce IntOp.andi x v reducesTo_S512x128_S_d0_1 h_S_) main_v91 main_c_35
  let main_v93 : IVec S_ 1 := andi main_v88 main_v92
  let main_v94 : FVec F S128x128 .f32 := Host.absf main_arg19
  let main_cst_36 : FVec F S_ .f32 := constant S_ .f32 0x7F800000#32
  let main_v95 : FVec F S128x128 .f32 := broadcastInDim S128x128 ![] bcast_S_S128x128 main_cst_36
  let main_v96 : IVec S128x128 1 := cmpf .olt main_v94 main_v95
  let main_c_37 : IVec S_ 1 := constantI S_ 1 1#1
  let main_v97 : IVec S_ 1 := (fun x v => Host.reduce IntOp.andi x v reducesTo_S128x128_S_d0_1 h_S_) main_v96 main_c_37
  let main_v98 : IVec S_ 1 := andi main_v93 main_v97
  let main_v99 : FVec F S3x3x256x128 .f32 := Host.absf main_arg20
  let main_cst_38 : FVec F S_ .f32 := constant S_ .f32 0x7F800000#32
  let main_v100 : FVec F S3x3x256x128 .f32 := broadcastInDim S3x3x256x128 ![] bcast_S_S3x3x256x128 main_cst_38
  let main_v101 : IVec S3x3x256x128 1 := cmpf .olt main_v99 main_v100
  let main_c_39 : IVec S_ 1 := constantI S_ 1 1#1
  fn_part6 (F := F) main_arg21 main_arg22 main_arg23 main_arg24 main_arg25 main_v98 main_v101 main_c_39

def fn_part4 {F : FTy → Type} [FloatOps F] (main_arg14 : FVec F S1x1x128 .f32) (main_arg15 : FVec F S128x128 .f32) (main_arg16 : FVec F S1x128 .f32) (main_arg17 : FVec F S128x512 .f32) (main_arg18 : FVec F S512x128 .f32) (main_arg19 : FVec F S128x128 .f32) (main_arg20 : FVec F S3x3x256x128 .f32) (main_arg21 : FVec F S128 .f32) (main_arg22 : FVec F S3x3x128x128 .f32) (main_arg23 : FVec F S128 .f32) (main_arg24 : FVec F S256x128 .f32) (main_arg25 : FVec F S128 .f32) (main_v63 : IVec S_ 1) (main_v67 : IVec S_ 1) : IVec S_ 1 :=
  let main_v68 : IVec S_ 1 := andi main_v63 main_v67
  let main_v69 : FVec F S1x1x128 .f32 := Host.absf main_arg14
  let main_cst_26 : FVec F S_ .f32 := constant S_ .f32 0x7F800000#32
  let main_v70 : FVec F S1x1x128 .f32 := broadcastInDim S1x1x128 ![] bcast_S_S1x1x128 main_cst_26
  let main_v71 : IVec S1x1x128 1 := cmpf .olt main_v69 main_v70
  let main_c_27 : IVec S_ 1 := constantI S_ 1 1#1
  let main_v72 : IVec S_ 1 := (fun x v => Host.reduce IntOp.andi x v reducesTo_S1x1x128_S_d0_1_2 h_S_) main_v71 main_c_27
  let main_v73 : IVec S_ 1 := andi main_v68 main_v72
  let main_v74 : FVec F S128x128 .f32 := Host.absf main_arg15
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S1x128 .f32 := Host.absf main_arg16
  let main_cst_30 : FVec F S_ .f32 := constant S_ .f32 0x7F800000#32
  let main_v80 : FVec F S1x128 .f32 := broadcastInDim S1x128 ![] bcast_S_S1x128 main_cst_30
  let main_v81 : IVec S1x128 1 := cmpf .olt main_v79 main_v80
  let main_c_31 : IVec S_ 1 := constantI S_ 1 1#1
  let main_v82 : IVec S_ 1 := (fun x v => Host.reduce IntOp.andi x v reducesTo_S1x128_S_d0_1 h_S_) main_v81 main_c_31
  let main_v83 : IVec S_ 1 := andi main_v78 main_v82
  let main_v84 : FVec F S128x512 .f32 := Host.absf main_arg17
  let main_cst_32 : FVec F S_ .f32 := constant S_ .f32 0x7F800000#32
  fn_part5 (F := F) main_arg18 main_arg19 main_arg20 main_arg21 main_arg22 main_arg23 main_arg24 main_arg25 main_v83 main_v84 main_cst_32

def fn_part3 {F : FTy → Type} [FloatOps F] (main_arg11 : FVec F S1x128 .f32) (main_arg12 : FVec F S1x128 .f32) (main_arg13 : FVec F S3x3x128 .f32) (main_arg14 : FVec F S1x1x128 .f32) (main_arg15 : FVec F S128x128 .f32) (main_arg16 : FVec F S1x128 .f32) (main_arg17 : FVec F S128x512 .f32) (main_arg18 : FVec F S512x128 .f32) (main_arg19 : FVec F S128x128 .f32) (main_arg20 : FVec F S3x3x256x128 .f32) (main_arg21 : FVec F S128 .f32) (main_arg22 : FVec F S3x3x128x128 .f32) (main_arg23 : FVec F S128 .f32) (main_arg24 : FVec F S256x128 .f32) (main_arg25 : FVec F S128 .f32) (main_v48 : IVec S_ 1) (main_v49 : FVec F S1x128 .f32) (main_v50 : FVec F S1x128 .f32) : IVec S_ 1 :=
  let main_v51 : IVec S1x128 1 := cmpf .olt main_v49 main_v50
  let main_c_19 : IVec S_ 1 := constantI S_ 1 1#1
  let main_v52 : IVec S_ 1 := (fun x v => Host.reduce IntOp.andi x v reducesTo_S1x128_S_d0_1 h_S_) main_v51 main_c_19
  let main_v53 : IVec S_ 1 := andi main_v48 main_v52
  let main_v54 : FVec F S1x128 .f32 := Host.absf main_arg11
  let main_cst_20 : FVec F S_ .f32 := constant S_ .f32 0x7F800000#32
  let main_v55 : FVec F S1x128 .f32 := broadcastInDim S1x128 ![] bcast_S_S1x128 main_cst_20
  let main_v56 : IVec S1x128 1 := cmpf .olt main_v54 main_v55
  let main_c_21 : IVec S_ 1 := constantI S_ 1 1#1
  let main_v57 : IVec S_ 1 := (fun x v => Host.reduce IntOp.andi x v reducesTo_S1x128_S_d0_1 h_S_) main_v56 main_c_21
  let main_v58 : IVec S_ 1 := andi main_v53 main_v57
  let main_v59 : FVec F S1x128 .f32 := Host.absf main_arg12
  let main_cst_22 : FVec F S_ .f32 := constant S_ .f32 0x7F800000#32
  let main_v60 : FVec F S1x128 .f32 := broadcastInDim S1x128 ![] bcast_S_S1x128 main_cst_22
  let main_v61 : IVec S1x128 1 := cmpf .olt main_v59 main_v60
  let main_c_23 : IVec S_ 1 := constantI S_ 1 1#1
  let main_v62 : IVec S_ 1 := (fun x v => Host.reduce IntOp.andi x v reducesTo_S1x128_S_d0_1 h_S_) main_v61 main_c_23
  let main_v63 : IVec S_ 1 := andi main_v58 main_v62
  let main_v64 : FVec F S3x3x128 .f32 := Host.absf main_arg13
  let main_cst_24 : FVec F S_ .f32 := constant S_ .f32 0x7F800000#32
  let main_v65 : FVec F S3x3x128 .f32 := broadcastInDim S3x3x128 ![] bcast_S_S3x3x128 main_cst_24
  let main_v66 : IVec S3x3x128 1 := cmpf .olt main_v64 main_v65
  let main_c_25 : IVec S_ 1 := constantI S_ 1 1#1
  let main_v67 : IVec S_ 1 := (fun x v => Host.reduce IntOp.andi x v reducesTo_S3x3x128_S_d0_1_2 h_S_) main_v66 main_c_25
  fn_part4 (F := F) main_arg14 main_arg15 main_arg16 main_arg17 main_arg18 main_arg19 main_arg20 main_arg21 main_arg22 main_arg23 main_arg24 main_arg25 main_v63 main_v67

def fn_part2 {F : FTy → Type} [FloatOps F] (main_arg7 : FVec F S128x128 .f32) (main_arg8 : FVec F S128x128 .f32) (main_arg9 : FVec F S128x128 .f32) (main_arg10 : FVec F S1x128 .f32) (main_arg11 : FVec F S1x128 .f32) (main_arg12 : FVec F S1x128 .f32) (main_arg13 : FVec F S3x3x128 .f32) (main_arg14 : FVec F S1x1x128 .f32) (main_arg15 : FVec F S128x128 .f32) (main_arg16 : FVec F S1x128 .f32) (main_arg17 : FVec F S128x512 .f32) (main_arg18 : FVec F S512x128 .f32) (main_arg19 : FVec F S128x128 .f32) (main_arg20 : FVec F S3x3x256x128 .f32) (main_arg21 : FVec F S128 .f32) (main_arg22 : FVec F S3x3x128x128 .f32) (main_arg23 : FVec F S128 .f32) (main_arg24 : FVec F S256x128 .f32) (main_arg25 : FVec F S128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S1x128 .f32 := Host.absf main_arg10
  let main_cst_18 : FVec F S_ .f32 := constant S_ .f32 0x7F800000#32
  let main_v50 : FVec F S1x128 .f32 := broadcastInDim S1x128 ![] bcast_S_S1x128 main_cst_18
  fn_part3 (F := F) main_arg11 main_arg12 main_arg13 main_arg14 main_arg15 main_arg16 main_arg17 main_arg18 main_arg19 main_arg20 main_arg21 main_arg22 main_arg23 main_arg24 main_arg25 main_v48 main_v49 main_v50

def fn_part1 {F : FTy → Type} [FloatOps F] (main_arg4 : FVec F S128 .f32) (main_arg5 : FVec F S5x5x128 .f32) (main_arg6 : FVec F S5x5x128 .f32) (main_arg7 : FVec F S128x128 .f32) (main_arg8 : FVec F S128x128 .f32) (main_arg9 : FVec F S128x128 .f32) (main_arg10 : FVec F S1x128 .f32) (main_arg11 : FVec F S1x128 .f32) (main_arg12 : FVec F S1x128 .f32) (main_arg13 : FVec F S3x3x128 .f32) (main_arg14 : FVec F S1x1x128 .f32) (main_arg15 : FVec F S128x128 .f32) (main_arg16 : FVec F S1x128 .f32) (main_arg17 : FVec F S128x512 .f32) (main_arg18 : FVec F S512x128 .f32) (main_arg19 : FVec F S128x128 .f32) (main_arg20 : FVec F S3x3x256x128 .f32) (main_arg21 : FVec F S128 .f32) (main_arg22 : FVec F S3x3x128x128 .f32) (main_arg23 : FVec F S128 .f32) (main_arg24 : FVec F S256x128 .f32) (main_arg25 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S5x5x128 .f32 := Host.absf main_arg5
  let main_cst_8 : FVec F S_ .f32 := constant S_ .f32 0x7F800000#32
  let main_v25 : FVec F S5x5x128 .f32 := broadcastInDim S5x5x128 ![] bcast_S_S5x5x128 main_cst_8
  let main_v26 : IVec S5x5x128 1 := cmpf .olt main_v24 main_v25
  let main_c_9 : IVec S_ 1 := constantI S_ 1 1#1
  let main_v27 : IVec S_ 1 := (fun x v => Host.reduce IntOp.andi x v reducesTo_S5x5x128_S_d0_1_2 h_S_) main_v26 main_c_9
  let main_v28 : IVec S_ 1 := andi main_v23 main_v27
  let main_v29 : FVec F S5x5x128 .f32 := Host.absf main_arg6
  let main_cst_10 : FVec F S_ .f32 := constant S_ .f32 0x7F800000#32
  let main_v30 : FVec F S5x5x128 .f32 := broadcastInDim S5x5x128 ![] bcast_S_S5x5x128 main_cst_10
  let main_v31 : IVec S5x5x128 1 := cmpf .olt main_v29 main_v30
  let main_c_11 : IVec S_ 1 := constantI S_ 1 1#1
  let main_v32 : IVec S_ 1 := (fun x v => Host.reduce IntOp.andi x v reducesTo_S5x5x128_S_d0_1_2 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S64x1024x128 .f32) (main_arg1 : FVec F S128 .f32) (main_arg2 : FVec F S128 .f32) (main_arg3 : FVec F S128 .f32) (main_arg4 : FVec F S128 .f32) (main_arg5 : FVec F S5x5x128 .f32) (main_arg6 : FVec F S5x5x128 .f32) (main_arg7 : FVec F S128x128 .f32) (main_arg8 : FVec F S128x128 .f32) (main_arg9 : FVec F S128x128 .f32) (main_arg10 : FVec F S1x128 .f32) (main_arg11 : FVec F S1x128 .f32) (main_arg12 : FVec F S1x128 .f32) (main_arg13 : FVec F S3x3x128 .f32) (main_arg14 : FVec F S1x1x128 .f32) (main_arg15 : FVec F S128x128 .f32) (main_arg16 : FVec F S1x128 .f32) (main_arg17 : FVec F S128x512 .f32) (main_arg18 : FVec F S512x128 .f32) (main_arg19 : FVec F S128x128 .f32) (main_arg20 : FVec F S3x3x256x128 .f32) (main_arg21 : FVec F S128 .f32) (main_arg22 : FVec F S3x3x128x128 .f32) (main_arg23 : FVec F S128 .f32) (main_arg24 : FVec F S256x128 .f32) (main_arg25 : FVec F S128 .f32) : IVec S_ 1 :=
  let main_v0 : FVec F S64x1024x128 .f32 := Host.absf main_arg0
  let main_cst : FVec F S_ .f32 := constant S_ .f32 0x7F800000#32
  let main_v1 : FVec F S64x1024x128 .f32 := broadcastInDim S64x1024x128 ![] bcast_S_S64x1024x128 main_cst
  let main_v2 : IVec S64x1024x128 1 := cmpf .olt main_v0 main_v1
  let main_c : IVec S_ 1 := constantI S_ 1 1#1
  let main_v3 : IVec S_ 1 := (fun x v => Host.reduce IntOp.andi x v reducesTo_S64x1024x128_S_d0_1_2 h_S_) main_v2 main_c
  let main_v4 : FVec F S128 .f32 := Host.absf main_arg1
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S64x1024x128 : Shape := ⟨3, ![64, 1024, 128]⟩
abbrev S128 : Shape := ⟨1, ![128]⟩
abbrev S5x5x128 : Shape := ⟨3, ![5, 5, 128]⟩
abbrev S128x128 : Shape := ⟨2, ![128, 128]⟩
abbrev S1x128 : Shape := ⟨2, ![1, 128]⟩
abbrev S3x3x128 : Shape := ⟨3, ![3, 3, 128]⟩
abbrev S1x1x128 : Shape := ⟨3, ![1, 1, 128]⟩
abbrev S128x512 : Shape := ⟨2, ![128, 512]⟩
abbrev S512x128 : Shape := ⟨2, ![512, 128]⟩
abbrev S3x3x256x128 : Shape := ⟨4, ![3, 3, 256, 128]⟩
abbrev S3x3x128x128 : Shape := ⟨4, ![3, 3, 128, 128]⟩
abbrev S256x128 : Shape := ⟨2, ![256, 128]⟩
abbrev S64x32x32x128 : Shape := ⟨4, ![64, 32, 32, 128]⟩
abbrev S128x384 : Shape := ⟨2, ![128, 384]⟩
abbrev S1x384 : Shape := ⟨2, ![1, 384]⟩
abbrev S1x32x32x128 : Shape := ⟨4, ![1, 32, 32, 128]⟩
abbrev S36x36x128 : Shape := ⟨3, ![36, 36, 128]⟩
abbrev S34x34x128 : Shape := ⟨3, ![34, 34, 128]⟩
abbrev S16x10x10x128 : Shape := ⟨4, ![16, 10, 10, 128]⟩
abbrev S32x32x128 : Shape := ⟨3, ![32, 32, 128]⟩
abbrev S32x32 : Shape := ⟨2, ![32, 32]⟩
abbrev S32x32x1 : Shape := ⟨3, ![32, 32, 1]⟩
abbrev S8x8x128 : Shape := ⟨3, ![8, 8, 128]⟩
abbrev S1x64x128 : Shape := ⟨3, ![1, 64, 128]⟩
abbrev S16x64x128 : Shape := ⟨3, ![16, 64, 128]⟩
abbrev S1024x128 : Shape := ⟨2, ![1024, 128]⟩
abbrev S1024x384 : Shape := ⟨2, ![1024, 384]⟩
abbrev S16x8x8x128 : Shape := ⟨4, ![16, 8, 8, 128]⟩
abbrev S1x1x1x128 : Shape := ⟨4, ![1, 1, 1, 128]⟩
abbrev S16x64x64 : Shape := ⟨3, ![16, 64, 64]⟩
abbrev S16x64 : Shape := ⟨2, ![16, 64]⟩
abbrev S16x64x1 : Shape := ⟨3, ![16, 64, 1]⟩
abbrev S64x128 : Shape := ⟨2, ![64, 128]⟩
abbrev S1024x512 : Shape := ⟨2, ![1024, 512]⟩
abbrev S32x34x128 : Shape := ⟨3, ![32, 34, 128]⟩
abbrev S1x1x128x128 : Shape := ⟨4, ![1, 1, 128, 128]⟩

abbrev nBuf : Space → Nat
  | .hbm => 52
  | .vmem => 31
  | .smem => 0
  | _ => 0

abbrev bufTy : (tb : Table) → Fin (tcTables nBuf tb) → BufTy
  | .hbm, ⟨0, _⟩ => ⟨S64x1024x128, .f32⟩
  | .hbm, ⟨1, _⟩ => ⟨S128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S5x5x128, .f32⟩
  | .hbm, ⟨6, _⟩ => ⟨S5x5x128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S1x128, .f32⟩
  | .hbm, ⟨11, _⟩ => ⟨S1x128, .f32⟩
  | .hbm, ⟨12, _⟩ => ⟨S1x128, .f32⟩
  | .hbm, ⟨13, _⟩ => ⟨S3x3x128, .f32⟩
  | .hbm, ⟨14, _⟩ => ⟨S1x1x128, .f32⟩
  | .hbm, ⟨15, _⟩ => ⟨S128x128, .f32⟩
  | .hbm, ⟨16, _⟩ => ⟨S1x128, .f32⟩
  | .hbm, ⟨17, _⟩ => ⟨S128x512, .f32⟩
  | .hbm, ⟨18, _⟩ => ⟨S512x128, .f32⟩
  | .hbm, ⟨19, _⟩ => ⟨S128x128, .f32⟩
  | .hbm, ⟨20, _⟩ => ⟨S3x3x256x128, .f32⟩
  | .hbm, ⟨21, _⟩ => ⟨S128, .f32⟩
  | .hbm, ⟨22, _⟩ => ⟨S3x3x128x128, .f32⟩
  | .hbm, ⟨23, _⟩ => ⟨S128, .f32⟩
  | .hbm, ⟨24, _⟩ => ⟨S256x128, .f32⟩
  | .hbm, ⟨25, _⟩ => ⟨S128, .f32⟩
  | .hbm, ⟨26, _⟩ => ⟨S64x32x32x128, .f32⟩
  | .hbm, ⟨27, _⟩ => ⟨S128x384, .f32⟩
  | .hbm, ⟨28, _⟩ => ⟨S128x384, .bf16⟩
  | .hbm, ⟨29, _⟩ => ⟨S1x384, .f32⟩
  | .hbm, ⟨30, _⟩ => ⟨S3x3x128x128, .f32⟩
  | .hbm, ⟨31, _⟩ => ⟨S3x3x128x128, .bf16⟩
  | .hbm, ⟨32, _⟩ => ⟨S3x3x128x128, .f32⟩
  | .hbm, ⟨33, _⟩ => ⟨S3x3x128x128, .bf16⟩
  | .hbm, ⟨34, _⟩ => ⟨S128x128, .f32⟩
  | .hbm, ⟨35, _⟩ => ⟨S128x128, .bf16⟩
  | .hbm, ⟨36, _⟩ => ⟨S128x128, .f32⟩
  | .hbm, ⟨37, _⟩ => ⟨S128x128, .bf16⟩
  | .hbm, ⟨38, _⟩ => ⟨S1x1x128, .f32⟩
  | .hbm, ⟨39, _⟩ => ⟨S128x128, .bf16⟩
  | .hbm, ⟨40, _⟩ => ⟨S1x1x128, .f32⟩
  | .hbm, ⟨41, _⟩ => ⟨S1x1x128, .f32⟩
  | .hbm, ⟨42, _⟩ => ⟨S128x512, .bf16⟩
  | .hbm, ⟨43, _⟩ => ⟨S512x128, .bf16⟩
  | .hbm, ⟨44, _⟩ => ⟨S128x128, .bf16⟩
  | .hbm, ⟨45, _⟩ => ⟨S1x1x128, .f32⟩
  | .hbm, ⟨46, _⟩ => ⟨S1x128, .f32⟩
  | .hbm, ⟨47, _⟩ => ⟨S3x3x128x128, .bf16⟩
  | .hbm, ⟨48, _⟩ => ⟨S1x128, .f32⟩
  | .hbm, ⟨49, _⟩ => ⟨S1x128, .f32⟩
  | .hbm, ⟨50, _⟩ => ⟨S64x32x32x128, .f32⟩
  | .hbm, ⟨51, _⟩ => ⟨S64x1024x128, .f32⟩
  | .local _ .vmem, ⟨0, _⟩ => ⟨S1x32x32x128, .f32⟩
  | .local _ .vmem, ⟨1, _⟩ => ⟨S1x32x32x128, .f32⟩
  | .local _ .vmem, ⟨2, _⟩ => ⟨S1x1x128, .f32⟩
  | .local _ .vmem, ⟨3, _⟩ => ⟨S5x5x128, .f32⟩
  | .local _ .vmem, ⟨4, _⟩ => ⟨S128x384, .bf16⟩
  | .local _ .vmem, ⟨5, _⟩ => ⟨S1x384, .f32⟩
  | .local _ .vmem, ⟨6, _⟩ => ⟨S3x3x128, .f32⟩
  | .local _ .vmem, ⟨7, _⟩ => ⟨S1x1x128, .f32⟩
  | .local _ .vmem, ⟨8, _⟩ => ⟨S128x128, .bf16⟩
  | .local _ .vmem, ⟨9, _⟩ => ⟨S1x128, .f32⟩
  | .local _ .vmem, ⟨10, _⟩ => ⟨S1x1x128, .f32⟩
  | .local _ .vmem, ⟨11, _⟩ => ⟨S1x1x128, .f32⟩
  | .local _ .vmem, ⟨12, _⟩ => ⟨S5x5x128, .f32⟩
  | .local _ .vmem, ⟨13, _⟩ => ⟨S128x512, .bf16⟩
  | .local _ .vmem, ⟨14, _⟩ => ⟨S512x128, .bf16⟩
  | .local _ .vmem, ⟨15, _⟩ => ⟨S128x128, .bf16⟩
  | .local _ .vmem, ⟨16, _⟩ => ⟨S1x1x128, .f32⟩
  | .local _ .vmem, ⟨17, _⟩ => ⟨S3x3x128x128, .bf16⟩
  | .local _ .vmem, ⟨18, _⟩ => ⟨S3x3x128x128, .bf16⟩
  | .local _ .vmem, ⟨19, _⟩ => ⟨S1x128, .f32⟩
  | .local _ .vmem, ⟨20, _⟩ => ⟨S3x3x128x128, .bf16⟩
  | .local _ .vmem, ⟨21, _⟩ => ⟨S1x128, .f32⟩
  | .local _ .vmem, ⟨22, _⟩ => ⟨S128x128, .bf16⟩
  | .local _ .vmem, ⟨23, _⟩ => ⟨S128x128, .bf16⟩
  | .local _ .vmem, ⟨24, _⟩ => ⟨S1x128, .f32⟩
  | .local _ .vmem, ⟨25, _⟩ => ⟨S1x32x32x128, .f32⟩
  | .local _ .vmem, ⟨26, _⟩ => ⟨S1x32x32x128, .f32⟩
  | .local _ .vmem, ⟨27, _⟩ => ⟨S36x36x128, .f32⟩
  | .local _ .vmem, ⟨28, _⟩ => ⟨S34x34x128, .bf16⟩
  | .local _ .vmem, ⟨29, _⟩ => ⟨S16x10x10x128, .f32⟩
  | .local _ .vmem, ⟨30, _⟩ => ⟨S32x32x128, .f32⟩
  | _, _ => ⟨S64x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg24_0 : Ref sig .tc := ⟨.vmem, 25, rfl⟩
abbrev cc0_stg24_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem24_0 : DmaSem sig := 25
abbrev cc0_sem24_1 : DmaSem sig := 26

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_17 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x32x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5x5x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x3x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S5x5x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S3x3x128x128 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S3x3x128x128 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S3x3x128x128 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S128x128 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S128x128 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 2 → Memref sig .tc .vmem S1x32x32x128 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

class Facts₀ : Prop where
  shapeCasts_S64x1024x128_S64x32x32x128 : S64x1024x128.ShapeCasts S64x32x32x128
  concatenates_S128x128_S128x128_S128x128_S128x384_d1 : Shape.Concatenates [S128x128, S128x128, S128x128] S128x384 1
  bitsLt_bf16_f32 : FTy.bits .bf16 < FTy.bits .f32
  concatenates_S1x128_S1x128_S1x128_S1x384_d1 : Shape.Concatenates [S1x128, S1x128, S1x128] S1x384 1
  slices_S3x3x256x128_S3x3x128x128_0_0_0_0 : S3x3x256x128.Slices ![0, 0, 0, 0] S3x3x128x128
  slices_S3x3x256x128_S3x3x128x128_0_0_128_0 : S3x3x256x128.Slices ![0, 0, 128, 0] S3x3x128x128
  slices_S256x128_S128x128_0_0 : S256x128.Slices ![0, 0] S128x128
  slices_S256x128_S128x128_128_0 : S256x128.Slices ![128, 0] S128x128
  shapeCasts_S128_S1x1x128 : S128.ShapeCasts S1x1x128
  shapeCasts_S128_S1x128 : S128.ShapeCasts S1x128
  inb_S1x32x32x128_S1x32x32x128_0_0_0_0 : ∀ a, (![0, 0, 0, 0] : Fin 4 → Nat) a + S1x32x32x128.size a ≤ S1x32x32x128.size a
  h_S1x32x32x128 : 0 < S1x32x32x128.numel
  shapeCasts_S1x32x32x128_S32x32x128 : S1x32x32x128.ShapeCasts S32x32x128
  inb_S1x1x128_S1x1x128_0_0_0 : ∀ a, (![0, 0, 0] : Fin 3 → Nat) a + S1x1x128.size a ≤ S1x1x128.size a
  h_S1x1x128 : 0 < S1x1x128.numel
  shapeCasts_S1x1x128_S1x1x128 : S1x1x128.ShapeCasts S1x1x128
  reduces_S32x32x128_S32x32 : S32x32x128.Reduces [2] S32x32
  shapeCasts_S32x32_S32x32x1 : S32x32.ShapeCasts S32x32x1
  broadcasts_S32x32x1_S32x32x128 : S32x32x1.Broadcasts S32x32x128
  broadcasts_S1x1x128_S32x32x128 : S1x1x128.Broadcasts S32x32x128
  inb_S5x5x128_S5x5x128_0_0_0 : ∀ a, (![0, 0, 0] : Fin 3 → Nat) a + S5x5x128.size a ≤ S5x5x128.size a
  h_S5x5x128 : 0 < S5x5x128.numel
  inb_S36x36x128_S36x36x128_0_0_0 : ∀ a, (![0, 0, 0] : Fin 3 → Nat) a + S36x36x128.size a ≤ S36x36x128.size a
  h_S36x36x128 : 0 < S36x36x128.numel
  shapeCasts_S36x36x128_S36x36x128 : S36x36x128.ShapeCasts S36x36x128
  inb_S36x36x128_S32x32x128_2_2_0 : ∀ a, (![2, 2, 0] : Fin 3 → Nat) a + S32x32x128.size a ≤ S36x36x128.size a
  h_S32x32x128 : 0 < S32x32x128.numel
  shapeCasts_S32x32x128_S32x32x128 : S32x32x128.ShapeCasts S32x32x128
  inb_S36x36x128_S32x32x128_0_0_0 : ∀ a, (![0, 0, 0] : Fin 3 → Nat) a + S32x32x128.size a ≤ S36x36x128.size a
  slices_S5x5x128_o0_0_0_S1x1x128 : S5x5x128.Slices ![0, 0, 0] S1x1x128
  shapeCasts_S1x1x128_S128 : S1x1x128.ShapeCasts S128
  inb_S36x36x128_S32x32x128_0_1_0 : ∀ a, (![0, 1, 0] : Fin 3 → Nat) a + S32x32x128.size a ≤ S36x36x128.size a
  slices_S5x5x128_o0_1_0_S1x1x128 : S5x5x128.Slices ![0, 1, 0] S1x1x128
  inb_S36x36x128_S32x32x128_0_2_0 : ∀ a, (![0, 2, 0] : Fin 3 → Nat) a + S32x32x128.size a ≤ S36x36x128.size a
  slices_S5x5x128_o0_2_0_S1x1x128 : S5x5x128.Slices ![0, 2, 0] S1x1x128
  inb_S36x36x128_S32x32x128_0_3_0 : ∀ a, (![0, 3, 0] : Fin 3 → Nat) a + S32x32x128.size a ≤ S36x36x128.size a
  slices_S5x5x128_o0_3_0_S1x1x128 : S5x5x128.Slices ![0, 3, 0] S1x1x128
  inb_S36x36x128_S32x32x128_0_4_0 : ∀ a, (![0, 4, 0] : Fin 3 → Nat) a + S32x32x128.size a ≤ S36x36x128.size a
  slices_S5x5x128_o0_4_0_S1x1x128 : S5x5x128.Slices ![0, 4, 0] S1x1x128
  inb_S36x36x128_S32x32x128_1_0_0 : ∀ a, (![1, 0, 0] : Fin 3 → Nat) a + S32x32x128.size a ≤ S36x36x128.size a
  slices_S5x5x128_o1_0_0_S1x1x128 : S5x5x128.Slices ![1, 0, 0] S1x1x128
  inb_S36x36x128_S32x32x128_1_1_0 : ∀ a, (![1, 1, 0] : Fin 3 → Nat) a + S32x32x128.size a ≤ S36x36x128.size a
  slices_S5x5x128_o1_1_0_S1x1x128 : S5x5x128.Slices ![1, 1, 0] S1x1x128
  inb_S36x36x128_S32x32x128_1_2_0 : ∀ a, (![1, 2, 0] : Fin 3 → Nat) a + S32x32x128.size a ≤ S36x36x128.size a
  slices_S5x5x128_o1_2_0_S1x1x128 : S5x5x128.Slices ![1, 2, 0] S1x1x128
  inb_S36x36x128_S32x32x128_1_3_0 : ∀ a, (![1, 3, 0] : Fin 3 → Nat) a + S32x32x128.size a ≤ S36x36x128.size a
  slices_S5x5x128_o1_3_0_S1x1x128 : S5x5x128.Slices ![1, 3, 0] S1x1x128
  inb_S36x36x128_S32x32x128_1_4_0 : ∀ a, (![1, 4, 0] : Fin 3 → Nat) a + S32x32x128.size a ≤ S36x36x128.size a
  slices_S5x5x128_o1_4_0_S1x1x128 : S5x5x128.Slices ![1, 4, 0] S1x1x128
  inb_S36x36x128_S32x32x128_2_0_0 : ∀ a, (![2, 0, 0] : Fin 3 → Nat) a + S32x32x128.size a ≤ S36x36x128.size a
  slices_S5x5x128_o2_0_0_S1x1x128 : S5x5x128.Slices ![2, 0, 0] S1x1x128
  inb_S36x36x128_S32x32x128_2_1_0 : ∀ a, (![2, 1, 0] : Fin 3 → Nat) a + S32x32x128.size a ≤ S36x36x128.size a
  slices_S5x5x128_o2_1_0_S1x1x128 : S5x5x128.Slices ![2, 1, 0] S1x1x128
  slices_S5x5x128_o2_2_0_S1x1x128 : S5x5x128.Slices ![2, 2, 0] S1x1x128
  inb_S36x36x128_S32x32x128_2_3_0 : ∀ a, (![2, 3, 0] : Fin 3 → Nat) a + S32x32x128.size a ≤ S36x36x128.size a
  slices_S5x5x128_o2_3_0_S1x1x128 : S5x5x128.Slices ![2, 3, 0] S1x1x128
  inb_S36x36x128_S32x32x128_2_4_0 : ∀ a, (![2, 4, 0] : Fin 3 → Nat) a + S32x32x128.size a ≤ S36x36x128.size a
  slices_S5x5x128_o2_4_0_S1x1x128 : S5x5x128.Slices ![2, 4, 0] S1x1x128
  inb_S36x36x128_S32x32x128_3_0_0 : ∀ a, (![3, 0, 0] : Fin 3 → Nat) a + S32x32x128.size a ≤ S36x36x128.size a
  slices_S5x5x128_o3_0_0_S1x1x128 : S5x5x128.Slices ![3, 0, 0] S1x1x128
  inb_S36x36x128_S32x32x128_3_1_0 : ∀ a, (![3, 1, 0] : Fin 3 → Nat) a + S32x32x128.size a ≤ S36x36x128.size a
  slices_S5x5x128_o3_1_0_S1x1x128 : S5x5x128.Slices ![3, 1, 0] S1x1x128
  inb_S36x36x128_S32x32x128_3_2_0 : ∀ a, (![3, 2, 0] : Fin 3 → Nat) a + S32x32x128.size a ≤ S36x36x128.size a
  slices_S5x5x128_o3_2_0_S1x1x128 : S5x5x128.Slices ![3, 2, 0] S1x1x128
  inb_S36x36x128_S32x32x128_3_3_0 : ∀ a, (![3, 3, 0] : Fin 3 → Nat) a + S32x32x128.size a ≤ S36x36x128.size a
  slices_S5x5x128_o3_3_0_S1x1x128 : S5x5x128.Slices ![3, 3, 0] S1x1x128
  inb_S36x36x128_S32x32x128_3_4_0 : ∀ a, (![3, 4, 0] : Fin 3 → Nat) a + S32x32x128.size a ≤ S36x36x128.size a
  slices_S5x5x128_o3_4_0_S1x1x128 : S5x5x128.Slices ![3, 4, 0] S1x1x128
  inb_S36x36x128_S32x32x128_4_0_0 : ∀ a, (![4, 0, 0] : Fin 3 → Nat) a + S32x32x128.size a ≤ S36x36x128.size a
  slices_S5x5x128_o4_0_0_S1x1x128 : S5x5x128.Slices ![4, 0, 0] S1x1x128
  inb_S36x36x128_S32x32x128_4_1_0 : ∀ a, (![4, 1, 0] : Fin 3 → Nat) a + S32x32x128.size a ≤ S36x36x128.size a
  slices_S5x5x128_o4_1_0_S1x1x128 : S5x5x128.Slices ![4, 1, 0] S1x1x128
  inb_S36x36x128_S32x32x128_4_2_0 : ∀ a, (![4, 2, 0] : Fin 3 → Nat) a + S32x32x128.size a ≤ S36x36x128.size a
  slices_S5x5x128_o4_2_0_S1x1x128 : S5x5x128.Slices ![4, 2, 0] S1x1x128
  inb_S36x36x128_S32x32x128_4_3_0 : ∀ a, (![4, 3, 0] : Fin 3 → Nat) a + S32x32x128.size a ≤ S36x36x128.size a
  slices_S5x5x128_o4_3_0_S1x1x128 : S5x5x128.Slices ![4, 3, 0] S1x1x128
  inb_S36x36x128_S32x32x128_4_4_0 : ∀ a, (![4, 4, 0] : Fin 3 → Nat) a + S32x32x128.size a ≤ S36x36x128.size a
  slices_S5x5x128_o4_4_0_S1x1x128 : S5x5x128.Slices ![4, 4, 0] S1x1x128
  slices_S32x32x128_o0_0_0_S8x8x128 : S32x32x128.Slices ![0, 0, 0] S8x8x128
  shapeCasts_S8x8x128_S1x64x128 : S8x8x128.ShapeCasts S1x64x128
  slices_S32x32x128_o0_8_0_S8x8x128 : S32x32x128.Slices ![0, 8, 0] S8x8x128
  slices_S32x32x128_o0_16_0_S8x8x128 : S32x32x128.Slices ![0, 16, 0] S8x8x128
  slices_S32x32x128_o0_24_0_S8x8x128 : S32x32x128.Slices ![0, 24, 0] S8x8x128
  slices_S32x32x128_o8_0_0_S8x8x128 : S32x32x128.Slices ![8, 0, 0] S8x8x128
  slices_S32x32x128_o8_8_0_S8x8x128 : S32x32x128.Slices ![8, 8, 0] S8x8x128
  slices_S32x32x128_o8_16_0_S8x8x128 : S32x32x128.Slices ![8, 16, 0] S8x8x128
  slices_S32x32x128_o8_24_0_S8x8x128 : S32x32x128.Slices ![8, 24, 0] S8x8x128
  slices_S32x32x128_o16_0_0_S8x8x128 : S32x32x128.Slices ![16, 0, 0] S8x8x128
  slices_S32x32x128_o16_8_0_S8x8x128 : S32x32x128.Slices ![16, 8, 0] S8x8x128
  slices_S32x32x128_o16_16_0_S8x8x128 : S32x32x128.Slices ![16, 16, 0] S8x8x128
  slices_S32x32x128_o16_24_0_S8x8x128 : S32x32x128.Slices ![16, 24, 0] S8x8x128
  slices_S32x32x128_o24_0_0_S8x8x128 : S32x32x128.Slices ![24, 0, 0] S8x8x128
  slices_S32x32x128_o24_8_0_S8x8x128 : S32x32x128.Slices ![24, 8, 0] S8x8x128
  slices_S32x32x128_o24_16_0_S8x8x128 : S32x32x128.Slices ![24, 16, 0] S8x8x128
  slices_S32x32x128_o24_24_0_S8x8x128 : S32x32x128.Slices ![24, 24, 0] S8x8x128
  concatenates_S1x64x128_S1x64x128_S1x64x128_S1x64x128_S1x64x128_S1x64x128_S1x64x128_S1x64x128_S1x64x128_S1x64x128_S1x64x128_S1x64x128_S1x64x128_S1x64x128_S1x64x128_S1x64x128_S16x64x128_d0 : Shape.Concatenates [S1x64x128, S1x64x128, S1x64x128, S1x64x128, S1x64x128, S1x64x128, S1x64x128, S1x64x128, S1x64x128, S1x64x128, S1x64x128, S1x64x128, S1x64x128, S1x64x128, S1x64x128, S1x64x128] S16x64x128 0
  shapeCasts_S16x64x128_S1024x128 : S16x64x128.ShapeCasts S1024x128
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S1024x384 : S1x384.Broadcasts S1024x384
  slices_S1024x384_o0_0_S1024x128 : S1024x384.Slices ![0, 0] S1024x128
  slices_S1024x384_o0_128_S1024x128 : S1024x384.Slices ![0, 128] S1024x128
  slices_S1024x384_o0_256_S1024x128 : S1024x384.Slices ![0, 256] S1024x128
  inb_S16x10x10x128_S16x10x10x128_0_0_0_0 : ∀ a, (![0, 0, 0, 0] : Fin 4 → Nat) a + S16x10x10x128.size a ≤ S16x10x10x128.size a
  h_S16x10x10x128 : 0 < S16x10x10x128.numel
  shapeCasts_S16x10x10x128_S16x10x10x128 : S16x10x10x128.ShapeCasts S16x10x10x128
  shapeCasts_S1024x128_S16x8x8x128 : S1024x128.ShapeCasts S16x8x8x128
  inb_S16x10x10x128_S16x8x8x128_0_1_1_0 : ∀ a, (![0, 1, 1, 0] : Fin 4 → Nat) a + S16x8x8x128.size a ≤ S16x10x10x128.size a
  h_S16x8x8x128 : 0 < S16x8x8x128.numel
  shapeCasts_S16x8x8x128_S16x8x8x128 : S16x8x8x128.ShapeCasts S16x8x8x128
  inb_S3x3x128_S3x3x128_0_0_0 : ∀ a, (![0, 0, 0] : Fin 3 → Nat) a + S3x3x128.size a ≤ S3x3x128.size a
  h_S3x3x128 : 0 < S3x3x128.numel
  inb_S16x10x10x128_S16x8x8x128_0_0_0_0 : ∀ a, (![0, 0, 0, 0] : Fin 4 → Nat) a + S16x8x8x128.size a ≤ S16x10x10x128.size a
  slices_S3x3x128_o0_0_0_S1x1x128 : S3x3x128.Slices ![0, 0, 0] S1x1x128
  shapeCasts_S128_S1x1x1x128 : S128.ShapeCasts S1x1x1x128
  broadcasts_S1x1x1x128_S16x8x8x128 : S1x1x1x128.Broadcasts S16x8x8x128
  inb_S16x10x10x128_S16x8x8x128_0_0_1_0 : ∀ a, (![0, 0, 1, 0] : Fin 4 → Nat) a + S16x8x8x128.size a ≤ S16x10x10x128.size a
  slices_S3x3x128_o0_1_0_S1x1x128 : S3x3x128.Slices ![0, 1, 0] S1x1x128
  inb_S16x10x10x128_S16x8x8x128_0_0_2_0 : ∀ a, (![0, 0, 2, 0] : Fin 4 → Nat) a + S16x8x8x128.size a ≤ S16x10x10x128.size a
  slices_S3x3x128_o0_2_0_S1x1x128 : S3x3x128.Slices ![0, 2, 0] S1x1x128
  inb_S16x10x10x128_S16x8x8x128_0_1_0_0 : ∀ a, (![0, 1, 0, 0] : Fin 4 → Nat) a + S16x8x8x128.size a ≤ S16x10x10x128.size a
  slices_S3x3x128_o1_0_0_S1x1x128 : S3x3x128.Slices ![1, 0, 0] S1x1x128
  slices_S3x3x128_o1_1_0_S1x1x128 : S3x3x128.Slices ![1, 1, 0] S1x1x128
  inb_S16x10x10x128_S16x8x8x128_0_1_2_0 : ∀ a, (![0, 1, 2, 0] : Fin 4 → Nat) a + S16x8x8x128.size a ≤ S16x10x10x128.size a
  slices_S3x3x128_o1_2_0_S1x1x128 : S3x3x128.Slices ![1, 2, 0] S1x1x128
  inb_S16x10x10x128_S16x8x8x128_0_2_0_0 : ∀ a, (![0, 2, 0, 0] : Fin 4 → Nat) a + S16x8x8x128.size a ≤ S16x10x10x128.size a
  slices_S3x3x128_o2_0_0_S1x1x128 : S3x3x128.Slices ![2, 0, 0] S1x1x128
  inb_S16x10x10x128_S16x8x8x128_0_2_1_0 : ∀ a, (![0, 2, 1, 0] : Fin 4 → Nat) a + S16x8x8x128.size a ≤ S16x10x10x128.size a
  slices_S3x3x128_o2_1_0_S1x1x128 : S3x3x128.Slices ![2, 1, 0] S1x1x128
  inb_S16x10x10x128_S16x8x8x128_0_2_2_0 : ∀ a, (![0, 2, 2, 0] : Fin 4 → Nat) a + S16x8x8x128.size a ≤ S16x10x10x128.size a
  slices_S3x3x128_o2_2_0_S1x1x128 : S3x3x128.Slices ![2, 2, 0] S1x1x128
  shapeCasts_S16x8x8x128_S16x64x128 : S16x8x8x128.ShapeCasts S16x64x128
  broadcasts_S1x1x128_S16x64x128 : S1x1x128.Broadcasts S16x64x128
  shapeCasts_S1024x128_S16x64x128 : S1024x128.ShapeCasts S16x64x128
  reduces_S16x64x64_S16x64 : S16x64x64.Reduces [2] S16x64
  shapeCasts_S16x64_S16x64x1 : S16x64.ShapeCasts S16x64x1
  broadcasts_S16x64x1_S16x64x64 : S16x64x1.Broadcasts S16x64x64
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  broadcasts_S1x128_S1024x128 : S1x128.Broadcasts S1024x128
  slices_S16x64x128_o0_0_0_S1x64x128 : S16x64x128.Slices ![0, 0, 0] S1x64x128
  shapeCasts_S1x64x128_S64x128 : S1x64x128.ShapeCasts S64x128
  shapeCasts_S64x128_S8x8x128 : S64x128.ShapeCasts S8x8x128
  inb_S32x32x128_S8x8x128_0_0_0 : ∀ a, (![0, 0, 0] : Fin 3 → Nat) a + S8x8x128.size a ≤ S32x32x128.size a
  h_S8x8x128 : 0 < S8x8x128.numel
  shapeCasts_S8x8x128_S8x8x128 : S8x8x128.ShapeCasts S8x8x128
  slices_S16x64x128_o1_0_0_S1x64x128 : S16x64x128.Slices ![1, 0, 0] S1x64x128
  inb_S32x32x128_S8x8x128_0_8_0 : ∀ a, (![0, 8, 0] : Fin 3 → Nat) a + S8x8x128.size a ≤ S32x32x128.size a
  slices_S16x64x128_o2_0_0_S1x64x128 : S16x64x128.Slices ![2, 0, 0] S1x64x128
  inb_S32x32x128_S8x8x128_0_16_0 : ∀ a, (![0, 16, 0] : Fin 3 → Nat) a + S8x8x128.size a ≤ S32x32x128.size a
  slices_S16x64x128_o3_0_0_S1x64x128 : S16x64x128.Slices ![3, 0, 0] S1x64x128
  inb_S32x32x128_S8x8x128_0_24_0 : ∀ a, (![0, 24, 0] : Fin 3 → Nat) a + S8x8x128.size a ≤ S32x32x128.size a
  slices_S16x64x128_o4_0_0_S1x64x128 : S16x64x128.Slices ![4, 0, 0] S1x64x128
  inb_S32x32x128_S8x8x128_8_0_0 : ∀ a, (![8, 0, 0] : Fin 3 → Nat) a + S8x8x128.size a ≤ S32x32x128.size a
  slices_S16x64x128_o5_0_0_S1x64x128 : S16x64x128.Slices ![5, 0, 0] S1x64x128
  inb_S32x32x128_S8x8x128_8_8_0 : ∀ a, (![8, 8, 0] : Fin 3 → Nat) a + S8x8x128.size a ≤ S32x32x128.size a
  slices_S16x64x128_o6_0_0_S1x64x128 : S16x64x128.Slices ![6, 0, 0] S1x64x128
  inb_S32x32x128_S8x8x128_8_16_0 : ∀ a, (![8, 16, 0] : Fin 3 → Nat) a + S8x8x128.size a ≤ S32x32x128.size a
  slices_S16x64x128_o7_0_0_S1x64x128 : S16x64x128.Slices ![7, 0, 0] S1x64x128
  inb_S32x32x128_S8x8x128_8_24_0 : ∀ a, (![8, 24, 0] : Fin 3 → Nat) a + S8x8x128.size a ≤ S32x32x128.size a
  slices_S16x64x128_o8_0_0_S1x64x128 : S16x64x128.Slices ![8, 0, 0] S1x64x128
  inb_S32x32x128_S8x8x128_16_0_0 : ∀ a, (![16, 0, 0] : Fin 3 → Nat) a + S8x8x128.size a ≤ S32x32x128.size a
  slices_S16x64x128_o9_0_0_S1x64x128 : S16x64x128.Slices ![9, 0, 0] S1x64x128
  inb_S32x32x128_S8x8x128_16_8_0 : ∀ a, (![16, 8, 0] : Fin 3 → Nat) a + S8x8x128.size a ≤ S32x32x128.size a
  slices_S16x64x128_o10_0_0_S1x64x128 : S16x64x128.Slices ![10, 0, 0] S1x64x128
  inb_S32x32x128_S8x8x128_16_16_0 : ∀ a, (![16, 16, 0] : Fin 3 → Nat) a + S8x8x128.size a ≤ S32x32x128.size a
  slices_S16x64x128_o11_0_0_S1x64x128 : S16x64x128.Slices ![11, 0, 0] S1x64x128
  inb_S32x32x128_S8x8x128_16_24_0 : ∀ a, (![16, 24, 0] : Fin 3 → Nat) a + S8x8x128.size a ≤ S32x32x128.size a
  slices_S16x64x128_o12_0_0_S1x64x128 : S16x64x128.Slices ![12, 0, 0] S1x64x128
  inb_S32x32x128_S8x8x128_24_0_0 : ∀ a, (![24, 0, 0] : Fin 3 → Nat) a + S8x8x128.size a ≤ S32x32x128.size a
  slices_S16x64x128_o13_0_0_S1x64x128 : S16x64x128.Slices ![13, 0, 0] S1x64x128
  inb_S32x32x128_S8x8x128_24_8_0 : ∀ a, (![24, 8, 0] : Fin 3 → Nat) a + S8x8x128.size a ≤ S32x32x128.size a
  slices_S16x64x128_o14_0_0_S1x64x128 : S16x64x128.Slices ![14, 0, 0] S1x64x128
  inb_S32x32x128_S8x8x128_24_16_0 : ∀ a, (![24, 16, 0] : Fin 3 → Nat) a + S8x8x128.size a ≤ S32x32x128.size a
  slices_S16x64x128_o15_0_0_S1x64x128 : S16x64x128.Slices ![15, 0, 0] S1x64x128
  inb_S32x32x128_S8x8x128_24_24_0 : ∀ a, (![24, 24, 0] : Fin 3 → Nat) a + S8x8x128.size a ≤ S32x32x128.size a
  inb_S32x32x128_S32x32x128_0_0_0 : ∀ a, (![0, 0, 0] : Fin 3 → Nat) a + S32x32x128.size a ≤ S32x32x128.size a
  shapeCasts_S32x32x128_S1024x128 : S32x32x128.ShapeCasts S1024x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  shapeCasts_S1024x128_S32x32x128 : S1024x128.ShapeCasts S32x32x128
  inb_S34x34x128_S34x34x128_0_0_0 : ∀ a, (![0, 0, 0] : Fin 3 → Nat) a + S34x34x128.size a ≤ S34x34x128.size a
  h_S34x34x128 : 0 < S34x34x128.numel
  shapeCasts_S34x34x128_S34x34x128 : S34x34x128.ShapeCasts S34x34x128
  packedbf16_S34x34x128_S34x34x128_0_0_0 : (Rect.unit (s := S34x34x128) ![0, 0, 0] S34x34x128.size inb_S34x34x128_S34x34x128_0_0_0).PackedRows (EltTy.packing .bf16)
  inb_S34x34x128_S32x32x128_1_1_0 : ∀ a, (![1, 1, 0] : Fin 3 → Nat) a + S32x32x128.size a ≤ S34x34x128.size a
  inb_S34x34x128_S32x34x128_1_0_0 : ∀ a, (![1, 0, 0] : Fin 3 → Nat) a + S32x34x128.size a ≤ S34x34x128.size a
  h_S32x34x128 : 0 < S32x34x128.numel
  slices_S32x34x128_S32x32x128_0_1_0 : S32x34x128.Slices ![0, 1, 0] S32x32x128
  packedbf16_S34x34x128_S32x34x128_1_0_0 : (Rect.unit (s := S34x34x128) ![1, 0, 0] S32x34x128.size inb_S34x34x128_S32x34x128_1_0_0).PackedRows (EltTy.packing .bf16)
  inb_S34x34x128_S32x32x128_0_0_0 : ∀ a, (![0, 0, 0] : Fin 3 → Nat) a + S32x32x128.size a ≤ S34x34x128.size a
  inb_S3x3x128x128_S1x1x128x128_0_0_0_0 : ∀ a, (![0, 0, 0, 0] : Fin 4 → Nat) a + S1x1x128x128.size a ≤ S3x3x128x128.size a
  h_S1x1x128x128 : 0 < S1x1x128x128.numel
  shapeCasts_S1x1x128x128_S128x128 : S1x1x128x128.ShapeCasts S128x128
  inb_S34x34x128_S32x32x128_0_1_0 : ∀ a, (![0, 1, 0] : Fin 3 → Nat) a + S32x32x128.size a ≤ S34x34x128.size a
  inb_S3x3x128x128_S1x1x128x128_0_1_0_0 : ∀ a, (![0, 1, 0, 0] : Fin 4 → Nat) a + S1x1x128x128.size a ≤ S3x3x128x128.size a
  inb_S34x34x128_S32x32x128_0_2_0 : ∀ a, (![0, 2, 0] : Fin 3 → Nat) a + S32x32x128.size a ≤ S34x34x128.size a
  inb_S3x3x128x128_S1x1x128x128_0_2_0_0 : ∀ a, (![0, 2, 0, 0] : Fin 4 → Nat) a + S1x1x128x128.size a ≤ S3x3x128x128.size a
  inb_S34x34x128_S32x32x128_1_0_0 : ∀ a, (![1, 0, 0] : Fin 3 → Nat) a + S32x32x128.size a ≤ S34x34x128.size a
  inb_S3x3x128x128_S1x1x128x128_1_0_0_0 : ∀ a, (![1, 0, 0, 0] : Fin 4 → Nat) a + S1x1x128x128.size a ≤ S3x3x128x128.size a
  inb_S3x3x128x128_S1x1x128x128_1_1_0_0 : ∀ a, (![1, 1, 0, 0] : Fin 4 → Nat) a + S1x1x128x128.size a ≤ S3x3x128x128.size a
  inb_S34x34x128_S32x32x128_1_2_0 : ∀ a, (![1, 2, 0] : Fin 3 → Nat) a + S32x32x128.size a ≤ S34x34x128.size a
  inb_S3x3x128x128_S1x1x128x128_1_2_0_0 : ∀ a, (![1, 2, 0, 0] : Fin 4 → Nat) a + S1x1x128x128.size a ≤ S3x3x128x128.size a
  inb_S34x34x128_S32x32x128_2_0_0 : ∀ a, (![2, 0, 0] : Fin 3 → Nat) a + S32x32x128.size a ≤ S34x34x128.size a
  inb_S3x3x128x128_S1x1x128x128_2_0_0_0 : ∀ a, (![2, 0, 0, 0] : Fin 4 → Nat) a + S1x1x128x128.size a ≤ S3x3x128x128.size a
  inb_S34x34x128_S32x32x128_2_1_0 : ∀ a, (![2, 1, 0] : Fin 3 → Nat) a + S32x32x128.size a ≤ S34x34x128.size a
  inb_S3x3x128x128_S1x1x128x128_2_1_0_0 : ∀ a, (![2, 1, 0, 0] : Fin 4 → Nat) a + S1x1x128x128.size a ≤ S3x3x128x128.size a
  inb_S34x34x128_S32x32x128_2_2_0 : ∀ a, (![2, 2, 0] : Fin 3 → Nat) a + S32x32x128.size a ≤ S34x34x128.size a
  inb_S3x3x128x128_S1x1x128x128_2_2_0_0 : ∀ a, (![2, 2, 0, 0] : Fin 4 → Nat) a + S1x1x128x128.size a ≤ S3x3x128x128.size a
  shapeCasts_S1x128_S1x128 : S1x128.ShapeCasts S1x128
  shapeCasts_S32x32x128_S1x32x32x128 : S32x32x128.ShapeCasts S1x32x32x128
  shapeCasts_S64x32x32x128_S64x1024x128 : S64x32x32x128.ShapeCasts S64x1024x128
  dot_S1024x128_S128x384_S1024x384_1_0_0_1_n_n_wf : DotDims.WF S1024x128 S128x384 S1024x384 [1] [0] [0] [1] [] []
  dot_S16x64x128_S16x64x128_S16x64x64_2_2_1_1_0_0_wf : DotDims.WF S16x64x128 S16x64x128 S16x64x64 [2] [2] [1] [1] [0] [0]
  dot_S16x64x64_S16x64x128_S16x64x128_2_1_1_2_0_0_wf : DotDims.WF S16x64x64 S16x64x128 S16x64x128 [2] [1] [1] [2] [0] [0]
  dot_S1024x128_S128x128_S1024x128_1_0_0_1_n_n_wf : DotDims.WF S1024x128 S128x128 S1024x128 [1] [0] [0] [1] [] []
  dot_S1024x128_S128x512_S1024x512_1_0_0_1_n_n_wf : DotDims.WF S1024x128 S128x512 S1024x512 [1] [0] [0] [1] [] []
  dot_S1024x512_S512x128_S1024x128_1_0_0_1_n_n_wf : DotDims.WF S1024x512 S512x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x32x128.size a ≤ S64x32x32x128.size a
  hwx0_0 : ∀ i : grid0.Coords, EltTy.bits .f32 = 32 ∨ (Rect.block (s := S64x32x32x128) S1x32x32x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1x128.size a ≤ S1x1x128.size a
  hwx0_1 : ∀ i : grid0.Coords, EltTy.bits .f32 = 32 ∨ (Rect.block (s := S1x1x128) S1x1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S5x5x128.size a ≤ S5x5x128.size a
  hwx0_2 : ∀ i : grid0.Coords, EltTy.bits .f32 = 32 ∨ (Rect.block (s := S5x5x128) S5x5x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x384.size a ≤ S128x384.size a
  hwx0_3 : ∀ i : grid0.Coords, EltTy.bits .bf16 = 32 ∨ (Rect.block (s := S128x384) S128x384.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x384.size a ≤ S1x384.size a
  hwx0_4 : ∀ i : grid0.Coords, EltTy.bits .f32 = 32 ∨ (Rect.block (s := S1x384) S1x384.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x3x128.size a ≤ S3x3x128.size a
  hwx0_5 : ∀ i : grid0.Coords, EltTy.bits .f32 = 32 ∨ (Rect.block (s := S3x3x128) S3x3x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1x128.size a ≤ S1x1x128.size a
  hwx0_6 : ∀ i : grid0.Coords, EltTy.bits .f32 = 32 ∨ (Rect.block (s := S1x1x128) S1x1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1x128.size a ≤ S1x1x128.size a
  hwx0_9 : ∀ i : grid0.Coords, EltTy.bits .f32 = 32 ∨ (Rect.block (s := S1x1x128) S1x1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1x128.size a ≤ S1x1x128.size a
  hwx0_10 : ∀ i : grid0.Coords, EltTy.bits .f32 = 32 ∨ (Rect.block (s := S1x1x128) S1x1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S5x5x128.size a ≤ S5x5x128.size a
  hwx0_11 : ∀ i : grid0.Coords, EltTy.bits .f32 = 32 ∨ (Rect.block (s := S5x5x128) S5x5x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x512.size a ≤ S128x512.size a
  hwx0_12 : ∀ i : grid0.Coords, EltTy.bits .bf16 = 32 ∨ (Rect.block (s := S128x512) S128x512.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S512x128.size a ≤ S512x128.size a
  hwx0_13 : ∀ i : grid0.Coords, EltTy.bits .bf16 = 32 ∨ (Rect.block (s := S512x128) S512x128.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128x128.size a ≤ S128x128.size a
  hwx0_14 : ∀ i : grid0.Coords, EltTy.bits .bf16 = 32 ∨ (Rect.block (s := S128x128) S128x128.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x1x128.size a ≤ S1x1x128.size a
  hwx0_15 : ∀ i : grid0.Coords, EltTy.bits .f32 = 32 ∨ (Rect.block (s := S1x1x128) S1x1x128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S3x3x128x128.size a ≤ S3x3x128x128.size a
  hwx0_16 : ∀ i : grid0.Coords, EltTy.bits .bf16 = 32 ∨ (Rect.block (s := S3x3x128x128) S3x3x128x128.size (cc0_transform_16 i) (hinb0_16 i)).WholeWords (EltTy.packing .bf16)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S3x3x128x128.size a ≤ S3x3x128x128.size a
  hwx0_17 : ∀ i : grid0.Coords, EltTy.bits .bf16 = 32 ∨ (Rect.block (s := S3x3x128x128) S3x3x128x128.size (cc0_transform_17 i) (hinb0_17 i)).WholeWords (EltTy.packing .bf16)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x128.size a ≤ S1x128.size a
  hwx0_18 : ∀ i : grid0.Coords, EltTy.bits .f32 = 32 ∨ (Rect.block (s := S1x128) S1x128.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S3x3x128x128.size a ≤ S3x3x128x128.size a
  hwx0_19 : ∀ i : grid0.Coords, EltTy.bits .bf16 = 32 ∨ (Rect.block (s := S3x3x128x128) S3x3x128x128.size (cc0_transform_19 i) (hinb0_19 i)).WholeWords (EltTy.packing .bf16)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1x128.size a ≤ S1x128.size a
  hwx0_20 : ∀ i : grid0.Coords, EltTy.bits .f32 = 32 ∨ (Rect.block (s := S1x128) S1x128.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S128x128.size a ≤ S128x128.size a
  hwx0_21 : ∀ i : grid0.Coords, EltTy.bits .bf16 = 32 ∨ (Rect.block (s := S128x128) S128x128.size (cc0_transform_21 i) (hinb0_21 i)).WholeWords (EltTy.packing .bf16)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S128x128.size a ≤ S128x128.size a
  hwx0_22 : ∀ i : grid0.Coords, EltTy.bits .bf16 = 32 ∨ (Rect.block (s := S128x128) S128x128.size (cc0_transform_22 i) (hinb0_22 i)).WholeWords (EltTy.packing .bf16)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S1x128.size a ≤ S1x128.size a
  hwx0_23 : ∀ i : grid0.Coords, EltTy.bits .f32 = 32 ∨ (Rect.block (s := S1x128) S1x128.size (cc0_transform_23 i) (hinb0_23 i)).WholeWords (EltTy.packing .f32)
  hstage0_24 : ∀ j, (stage0_24 j).IsWhole
  nbuf0_24 : grid0.bufCount reads0_24 false = 2
  hreads0_24 : ∀ i i' : grid0.Coords, (∀ a, reads0_24 a = true → i a = i' a) → cc0_transform_24 i = cc0_transform_24 i'
  hinb0_24 : ∀ (i : grid0.Coords) a, (cc0_transform_24 i a + 1) * S1x32x32x128.size a ≤ S64x32x32x128.size a
  hwx0_24 : ∀ i : grid0.Coords, EltTy.bits .f32 = 32 ∨ (Rect.block (s := S64x32x32x128) S1x32x32x128.size (cc0_transform_24 i) (hinb0_24 i)).WholeWords (EltTy.packing .f32)

variable [Facts₀]

def dot_S1024x128_S128x384_S1024x384_1_0_0_1_n_n : DotDims S1024x128 S128x384 S1024x384 where
  lhsContracting := [1]
  rhsContracting := [0]
  lhsNonContracting := [0]
  rhsNonContracting := [1]
  lhsBatch := []
  rhsBatch := []
  wf := dot_S1024x128_S128x384_S1024x384_1_0_0_1_n_n_wf
def dot_S16x64x128_S16x64x128_S16x64x64_2_2_1_1_0_0 : DotDims S16x64x128 S16x64x128 S16x64x64 where
  lhsContracting := [2]
  rhsContracting := [2]
  lhsNonContracting := [1]
  rhsNonContracting := [1]
  lhsBatch := [0]
  rhsBatch := [0]
  wf := dot_S16x64x128_S16x64x128_S16x64x64_2_2_1_1_0_0_wf
def dot_S16x64x64_S16x64x128_S16x64x128_2_1_1_2_0_0 : DotDims S16x64x64 S16x64x128 S16x64x128 where
  lhsContracting := [2]
  rhsContracting := [1]
  lhsNonContracting := [1]
  rhsNonContracting := [2]
  lhsBatch := [0]
  rhsBatch := [0]
  wf := dot_S16x64x64_S16x64x128_S16x64x128_2_1_1_2_0_0_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf

abbrev win0_0 : Pipeline.Window sig grid0 :=
  Pipeline.Window.ofSpec (Memref.whole main_v0) S1x32x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1x1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S5x5x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S128x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg13) S3x3x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg14) S1x1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg16) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v14) S1x1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v15) S1x1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg6) S5x5x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v16) S128x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v17) S512x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v18) S128x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v19) S1x1x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v5) S3x3x128x128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v7) S3x3x128x128.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v20) S1x128.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v21) S3x3x128x128.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v22) S1x128.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v9) S128x128.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v11) S128x128.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v23) S1x128.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v24) S1x32x32x128.size cc0_transform_24 reads0_24 true false 2 stage0_24 sem0_24
    hrank0 hreads0_24 hinb0_24 nbuf0_24 (Memref.isWhole_whole _) hwx0_24 hstage0_24

abbrev win0 : Fin 25 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | ⟨_ + 25, h⟩ => absurd h (Nat.not_lt.2 (Nat.le_add_left _ _))
abbrev spec0 : Fin 25 → Pipeline.WinSpec sig grid0.rank := fun w => (win0 w).toWinSpec

class Facts : Prop extends Facts₀ where

variable [Facts]
-- ==== ReferenceIdeal.lean ====
abbrev S64x1024x128 : Shape := ⟨3, ![64, 1024, 128]⟩
abbrev S128 : Shape := ⟨1, ![128]⟩
abbrev S5x5x128 : Shape := ⟨3, ![5, 5, 128]⟩
abbrev S128x128 : Shape := ⟨2, ![128, 128]⟩
abbrev S1x128 : Shape := ⟨2, ![1, 128]⟩
abbrev S3x3x128 : Shape := ⟨3, ![3, 3, 128]⟩
abbrev S1x1x128 : Shape := ⟨3, ![1, 1, 128]⟩
abbrev S128x512 : Shape := ⟨2, ![128, 512]⟩
abbrev S512x128 : Shape := ⟨2, ![512, 128]⟩
abbrev S3x3x256x128 : Shape := ⟨4, ![3, 3, 256, 128]⟩
abbrev S3x3x128x128 : Shape := ⟨4, ![3, 3, 128, 128]⟩
abbrev S256x128 : Shape := ⟨2, ![256, 128]⟩
abbrev S64x32x32x128 : Shape := ⟨4, ![64, 32, 32, 128]⟩
abbrev S1x32x32x128 : Shape := ⟨4, ![1, 32, 32, 128]⟩
abbrev S36x36x128 : Shape := ⟨3, ![36, 36, 128]⟩
abbrev S16x10x10x128 : Shape := ⟨4, ![16, 10, 10, 128]⟩
abbrev S32x32x128 : Shape := ⟨3, ![32, 32, 128]⟩
abbrev S32x32 : Shape := ⟨2, ![32, 32]⟩
abbrev S32x32x1 : Shape := ⟨3, ![32, 32, 1]⟩
abbrev S8x8x128 : Shape := ⟨3, ![8, 8, 128]⟩
abbrev S1x64x128 : Shape := ⟨3, ![1, 64, 128]⟩
abbrev S16x64x128 : Shape := ⟨3, ![16, 64, 128]⟩
abbrev S1024x128 : Shape := ⟨2, ![1024, 128]⟩
abbrev S16x8x8x128 : Shape := ⟨4, ![16, 8, 8, 128]⟩
abbrev S1x1x1x128 : Shape := ⟨4, ![1, 1, 1, 128]⟩
abbrev S16x64x64 : Shape := ⟨3, ![16, 64, 64]⟩
abbrev S16x64 : Shape := ⟨2, ![16, 64]⟩
abbrev S16x64x1 : Shape := ⟨3, ![16, 64, 1]⟩
abbrev S64x128 : Shape := ⟨2, ![64, 128]⟩
abbrev S1024x512 : Shape := ⟨2, ![1024, 512]⟩
abbrev S34x34x128 : Shape := ⟨3, ![34, 34, 128]⟩
abbrev S1x1x128x128 : Shape := ⟨4, ![1, 1, 128, 128]⟩

abbrev nBuf : Space → Nat
  | .hbm => 41
  | .vmem => 41
  | .smem => 0
  | _ => 0

abbrev bufTy : (tb : Table) → Fin (tcTables nBuf tb) → BufTy
  | .hbm, ⟨0, _⟩ => ⟨S64x1024x128, .f32⟩
  | .hbm, ⟨1, _⟩ => ⟨S128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S5x5x128, .f32⟩
  | .hbm, ⟨6, _⟩ => ⟨S5x5x128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S1x128, .f32⟩
  | .hbm, ⟨11, _⟩ => ⟨S1x128, .f32⟩
  | .hbm, ⟨12, _⟩ => ⟨S1x128, .f32⟩
  | .hbm, ⟨13, _⟩ => ⟨S3x3x128, .f32⟩
  | .hbm, ⟨14, _⟩ => ⟨S1x1x128, .f32⟩
  | .hbm, ⟨15, _⟩ => ⟨S128x128, .f32⟩
  | .hbm, ⟨16, _⟩ => ⟨S1x128, .f32⟩
  | .hbm, ⟨17, _⟩ => ⟨S128x512, .f32⟩
  | .hbm, ⟨18, _⟩ => ⟨S512x128, .f32⟩
  | .hbm, ⟨19, _⟩ => ⟨S128x128, .f32⟩
  | .hbm, ⟨20, _⟩ => ⟨S3x3x256x128, .f32⟩
  | .hbm, ⟨21, _⟩ => ⟨S128, .f32⟩
  | .hbm, ⟨22, _⟩ => ⟨S3x3x128x128, .f32⟩
  | .hbm, ⟨23, _⟩ => ⟨S128, .f32⟩
  | .hbm, ⟨24, _⟩ => ⟨S256x128, .f32⟩
  | .hbm, ⟨25, _⟩ => ⟨S128, .f32⟩
  | .hbm, ⟨26, _⟩ => ⟨S64x32x32x128, .f32⟩
  | .hbm, ⟨27, _⟩ => ⟨S1x1x128, .f32⟩
  | .hbm, ⟨28, _⟩ => ⟨S1x1x128, .f32⟩
  | .hbm, ⟨29, _⟩ => ⟨S1x1x128, .f32⟩
  | .hbm, ⟨30, _⟩ => ⟨S1x1x128, .f32⟩
  | .hbm, ⟨31, _⟩ => ⟨S64x32x32x128, .f32⟩
  | .hbm, ⟨32, _⟩ => ⟨S3x3x128x128, .f32⟩
  | .hbm, ⟨33, _⟩ => ⟨S3x3x128x128, .f32⟩
  | .hbm, ⟨34, _⟩ => ⟨S128x128, .f32⟩
  | .hbm, ⟨35, _⟩ => ⟨S128x128, .f32⟩
  | .hbm, ⟨36, _⟩ => ⟨S1x128, .f32⟩
  | .hbm, ⟨37, _⟩ => ⟨S1x128, .f32⟩
  | .hbm, ⟨38, _⟩ => ⟨S1x128, .f32⟩
  | .hbm, ⟨39, _⟩ => ⟨S64x32x32x128, .f32⟩
  | .hbm, ⟨40, _⟩ => ⟨S64x1024x128, .f32⟩
  | .local _ .vmem, ⟨0, _⟩ => ⟨S1x32x32x128, .f32⟩
  | .local _ .vmem, ⟨1, _⟩ => ⟨S1x32x32x128, .f32⟩
  | .local _ .vmem, ⟨2, _⟩ => ⟨S1x1x128, .f32⟩
  | .local _ .vmem, ⟨3, _⟩ => ⟨S5x5x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S3x3x128, .f32⟩
  | .local _ .vmem, ⟨11, _⟩ => ⟨S1x1x128, .f32⟩
  | .local _ .vmem, ⟨12, _⟩ => ⟨S128x128, .f32⟩
  | .local _ .vmem, ⟨13, _⟩ => ⟨S1x128, .f32⟩
  | .local _ .vmem, ⟨14, _⟩ => ⟨S1x1x128, .f32⟩
  | .local _ .vmem, ⟨15, _⟩ => ⟨S1x1x128, .f32⟩
  | .local _ .vmem, ⟨16, _⟩ => ⟨S5x5x128, .f32⟩
  | .local _ .vmem, ⟨17, _⟩ => ⟨S128x512, .f32⟩
  | .local _ .vmem, ⟨18, _⟩ => ⟨S512x128, .f32⟩
  | .local _ .vmem, ⟨19, _⟩ => ⟨S128x128, .f32⟩
  | .local _ .vmem, ⟨20, _⟩ => ⟨S1x1x128, .f32⟩
  | .local _ .vmem, ⟨21, _⟩ => ⟨S1x32x32x128, .f32⟩
  | .local _ .vmem, ⟨22, _⟩ => ⟨S1x32x32x128, .f32⟩
  | .local _ .vmem, ⟨23, _⟩ => ⟨S36x36x128, .f32⟩
  | .local _ .vmem, ⟨24, _⟩ => ⟨S16x10x10x128, .f32⟩
  | .local _ .vmem, ⟨25, _⟩ => ⟨S32x32x128, .f32⟩
  | .local _ .vmem, ⟨26, _⟩ => ⟨S1x32x32x128, .f32⟩
  | .local _ .vmem, ⟨27, _⟩ => ⟨S1x32x32x128, .f32⟩
  | .local _ .vmem, ⟨28, _⟩ => ⟨S1x32x32x128, .f32⟩
  | .local _ .vmem, ⟨29, _⟩ => ⟨S1x32x32x128, .f32⟩
  | .local _ .vmem, ⟨30, _⟩ => ⟨S3x3x128x128, .f32⟩
  | .local _ .vmem, ⟨31, _⟩ => ⟨S3x3x128x128, .f32⟩
  | .local _ .vmem, ⟨32, _⟩ => ⟨S1x128, .f32⟩
  | .local _ .vmem, ⟨33, _⟩ => ⟨S3x3x128x128, .f32⟩
  | .local _ .vmem, ⟨34, _⟩ => ⟨S1x128, .f32⟩
  | .local _ .vmem, ⟨35, _⟩ => ⟨S128x128, .f32⟩
  | .local _ .vmem, ⟨36, _⟩ => ⟨S128x128, .f32⟩
  | .local _ .vmem, ⟨37, _⟩ => ⟨S1x128, .f32⟩
  | .local _ .vmem, ⟨38, _⟩ => ⟨S1x32x32x128, .f32⟩
  | .local _ .vmem, ⟨39, _⟩ => ⟨S1x32x32x128, .f32⟩
  | .local _ .vmem, ⟨40, _⟩ => ⟨S34x34x128, .f32⟩
  | _, _ => ⟨S64x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg20_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc1_stg0_0 : Ref sig .tc := ⟨.vmem, 26, rfl⟩
abbrev cc1_stg0_1 : Ref sig .tc := ⟨.vmem, 27, rfl⟩
abbrev cc1_stg1_0 : Ref sig .tc := ⟨.vmem, 28, rfl⟩
abbrev cc1_stg1_1 : Ref sig .tc := ⟨.vmem, 29, rfl⟩
abbrev cc1_stg2_0 : Ref sig .tc := ⟨.vmem, 30, rfl⟩
abbrev cc1_stg3_0 : Ref sig .tc := ⟨.vmem, 31, rfl⟩
abbrev cc1_stg4_0 : Ref sig .tc := ⟨.vmem, 32, rfl⟩
abbrev cc1_stg5_0 : Ref sig .tc := ⟨.vmem, 33, rfl⟩
abbrev cc1_stg6_0 : Ref sig .tc := ⟨.vmem, 34, rfl⟩
abbrev cc1_stg7_0 : Ref sig .tc := ⟨.vmem, 35, rfl⟩
abbrev cc1_stg8_0 : Ref sig .tc := ⟨.vmem, 36, rfl⟩
abbrev cc1_stg9_0 : Ref sig .tc := ⟨.vmem, 37, rfl⟩
abbrev cc1_stg10_0 : Ref sig .tc := ⟨.vmem, 38, rfl⟩
abbrev cc1_stg10_1 : Ref sig .tc := ⟨.vmem, 39, rfl⟩
abbrev cc1_scratch0 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem20_1 : DmaSem sig := 22
abbrev cc1_sem0_0 : DmaSem sig := 23
abbrev cc1_sem0_1 : DmaSem sig := 24
abbrev cc1_sem1_0 : DmaSem sig := 25
abbrev cc1_sem1_1 : DmaSem sig := 26
abbrev cc1_sem2_0 : DmaSem sig := 27
abbrev cc1_sem3_0 : DmaSem sig := 28
abbrev cc1_sem4_0 : DmaSem sig := 29
abbrev cc1_sem5_0 : DmaSem sig := 30
abbrev cc1_sem6_0 : DmaSem sig := 31
abbrev cc1_sem7_0 : DmaSem sig := 32
abbrev cc1_sem8_0 : DmaSem sig := 33
abbrev cc1_sem9_0 : DmaSem sig := 34
abbrev cc1_sem10_0 : DmaSem sig := 35
abbrev cc1_sem10_1 : DmaSem sig := 36

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_20 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x32x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5x5x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x3x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S5x5x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S1x32x32x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev grid1 : Pipeline.Grid := ⟨1, ![64], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x32x32x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x32x32x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S3x3x128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S3x3x128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S3x3x128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S1x32x32x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  shapeCasts_S64x1024x128_S64x32x32x128 : S64x1024x128.ShapeCasts S64x32x32x128
  shapeCasts_S128_S1x1x128 : S128.ShapeCasts S1x1x128
  inb_S1x32x32x128_S1x32x32x128_0_0_0_0 : ∀ a, (![0, 0, 0, 0] : Fin 4 → Nat) a + S1x32x32x128.size a ≤ S1x32x32x128.size a
  h_S1x32x32x128 : 0 < S1x32x32x128.numel
  shapeCasts_S1x32x32x128_S32x32x128 : S1x32x32x128.ShapeCasts S32x32x128
  inb_S1x1x128_S1x1x128_0_0_0 : ∀ a, (![0, 0, 0] : Fin 3 → Nat) a + S1x1x128.size a ≤ S1x1x128.size a
  h_S1x1x128 : 0 < S1x1x128.numel
  shapeCasts_S1x1x128_S1x1x128 : S1x1x128.ShapeCasts S1x1x128
  reduces_S32x32x128_S32x32 : S32x32x128.Reduces [2] S32x32
  shapeCasts_S32x32_S32x32x1 : S32x32.ShapeCasts S32x32x1
  broadcasts_S32x32x1_S32x32x128 : S32x32x1.Broadcasts S32x32x128
  broadcasts_S1x1x128_S32x32x128 : S1x1x128.Broadcasts S32x32x128
  inb_S5x5x128_S5x5x128_0_0_0 : ∀ a, (![0, 0, 0] : Fin 3 → Nat) a + S5x5x128.size a ≤ S5x5x128.size a
  h_S5x5x128 : 0 < S5x5x128.numel
  inb_S36x36x128_S36x36x128_0_0_0 : ∀ a, (![0, 0, 0] : Fin 3 → Nat) a + S36x36x128.size a ≤ S36x36x128.size a
  h_S36x36x128 : 0 < S36x36x128.numel
  shapeCasts_S36x36x128_S36x36x128 : S36x36x128.ShapeCasts S36x36x128
  inb_S36x36x128_S32x32x128_2_2_0 : ∀ a, (![2, 2, 0] : Fin 3 → Nat) a + S32x32x128.size a ≤ S36x36x128.size a
  h_S32x32x128 : 0 < S32x32x128.numel
  shapeCasts_S32x32x128_S32x32x128 : S32x32x128.ShapeCasts S32x32x128
  inb_S36x36x128_S32x32x128_0_0_0 : ∀ a, (![0, 0, 0] : Fin 3 → Nat) a + S32x32x128.size a ≤ S36x36x128.size a
  slices_S5x5x128_o0_0_0_S1x1x128 : S5x5x128.Slices ![0, 0, 0] S1x1x128
  shapeCasts_S1x1x128_S128 : S1x1x128.ShapeCasts S128
  inb_S36x36x128_S32x32x128_0_1_0 : ∀ a, (![0, 1, 0] : Fin 3 → Nat) a + S32x32x128.size a ≤ S36x36x128.size a
  slices_S5x5x128_o0_1_0_S1x1x128 : S5x5x128.Slices ![0, 1, 0] S1x1x128
  inb_S36x36x128_S32x32x128_0_2_0 : ∀ a, (![0, 2, 0] : Fin 3 → Nat) a + S32x32x128.size a ≤ S36x36x128.size a
  slices_S5x5x128_o0_2_0_S1x1x128 : S5x5x128.Slices ![0, 2, 0] S1x1x128
  inb_S36x36x128_S32x32x128_0_3_0 : ∀ a, (![0, 3, 0] : Fin 3 → Nat) a + S32x32x128.size a ≤ S36x36x128.size a
  slices_S5x5x128_o0_3_0_S1x1x128 : S5x5x128.Slices ![0, 3, 0] S1x1x128
  inb_S36x36x128_S32x32x128_0_4_0 : ∀ a, (![0, 4, 0] : Fin 3 → Nat) a + S32x32x128.size a ≤ S36x36x128.size a
  slices_S5x5x128_o0_4_0_S1x1x128 : S5x5x128.Slices ![0, 4, 0] S1x1x128
  inb_S36x36x128_S32x32x128_1_0_0 : ∀ a, (![1, 0, 0] : Fin 3 → Nat) a + S32x32x128.size a ≤ S36x36x128.size a
  slices_S5x5x128_o1_0_0_S1x1x128 : S5x5x128.Slices ![1, 0, 0] S1x1x128
  inb_S36x36x128_S32x32x128_1_1_0 : ∀ a, (![1, 1, 0] : Fin 3 → Nat) a + S32x32x128.size a ≤ S36x36x128.size a
  slices_S5x5x128_o1_1_0_S1x1x128 : S5x5x128.Slices ![1, 1, 0] S1x1x128
  inb_S36x36x128_S32x32x128_1_2_0 : ∀ a, (![1, 2, 0] : Fin 3 → Nat) a + S32x32x128.size a ≤ S36x36x128.size a
  slices_S5x5x128_o1_2_0_S1x1x128 : S5x5x128.Slices ![1, 2, 0] S1x1x128
  inb_S36x36x128_S32x32x128_1_3_0 : ∀ a, (![1, 3, 0] : Fin 3 → Nat) a + S32x32x128.size a ≤ S36x36x128.size a
  slices_S5x5x128_o1_3_0_S1x1x128 : S5x5x128.Slices ![1, 3, 0] S1x1x128
  inb_S36x36x128_S32x32x128_1_4_0 : ∀ a, (![1, 4, 0] : Fin 3 → Nat) a + S32x32x128.size a ≤ S36x36x128.size a
  slices_S5x5x128_o1_4_0_S1x1x128 : S5x5x128.Slices ![1, 4, 0] S1x1x128
  inb_S36x36x128_S32x32x128_2_0_0 : ∀ a, (![2, 0, 0] : Fin 3 → Nat) a + S32x32x128.size a ≤ S36x36x128.size a
  slices_S5x5x128_o2_0_0_S1x1x128 : S5x5x128.Slices ![2, 0, 0] S1x1x128
  inb_S36x36x128_S32x32x128_2_1_0 : ∀ a, (![2, 1, 0] : Fin 3 → Nat) a + S32x32x128.size a ≤ S36x36x128.size a
  slices_S5x5x128_o2_1_0_S1x1x128 : S5x5x128.Slices ![2, 1, 0] S1x1x128
  slices_S5x5x128_o2_2_0_S1x1x128 : S5x5x128.Slices ![2, 2, 0] S1x1x128
  inb_S36x36x128_S32x32x128_2_3_0 : ∀ a, (![2, 3, 0] : Fin 3 → Nat) a + S32x32x128.size a ≤ S36x36x128.size a
  slices_S5x5x128_o2_3_0_S1x1x128 : S5x5x128.Slices ![2, 3, 0] S1x1x128
  inb_S36x36x128_S32x32x128_2_4_0 : ∀ a, (![2, 4, 0] : Fin 3 → Nat) a + S32x32x128.size a ≤ S36x36x128.size a
  slices_S5x5x128_o2_4_0_S1x1x128 : S5x5x128.Slices ![2, 4, 0] S1x1x128
  inb_S36x36x128_S32x32x128_3_0_0 : ∀ a, (![3, 0, 0] : Fin 3 → Nat) a + S32x32x128.size a ≤ S36x36x128.size a
  slices_S5x5x128_o3_0_0_S1x1x128 : S5x5x128.Slices ![3, 0, 0] S1x1x128
  inb_S36x36x128_S32x32x128_3_1_0 : ∀ a, (![3, 1, 0] : Fin 3 → Nat) a + S32x32x128.size a ≤ S36x36x128.size a
  slices_S5x5x128_o3_1_0_S1x1x128 : S5x5x128.Slices ![3, 1, 0] S1x1x128
  inb_S36x36x128_S32x32x128_3_2_0 : ∀ a, (![3, 2, 0] : Fin 3 → Nat) a + S32x32x128.size a ≤ S36x36x128.size a
  slices_S5x5x128_o3_2_0_S1x1x128 : S5x5x128.Slices ![3, 2, 0] S1x1x128
  inb_S36x36x128_S32x32x128_3_3_0 : ∀ a, (![3, 3, 0] : Fin 3 → Nat) a + S32x32x128.size a ≤ S36x36x128.size a
  slices_S5x5x128_o3_3_0_S1x1x128 : S5x5x128.Slices ![3, 3, 0] S1x1x128
  inb_S36x36x128_S32x32x128_3_4_0 : ∀ a, (![3, 4, 0] : Fin 3 → Nat) a + S32x32x128.size a ≤ S36x36x128.size a
  slices_S5x5x128_o3_4_0_S1x1x128 : S5x5x128.Slices ![3, 4, 0] S1x1x128
  inb_S36x36x128_S32x32x128_4_0_0 : ∀ a, (![4, 0, 0] : Fin 3 → Nat) a + S32x32x128.size a ≤ S36x36x128.size a
  slices_S5x5x128_o4_0_0_S1x1x128 : S5x5x128.Slices ![4, 0, 0] S1x1x128
  inb_S36x36x128_S32x32x128_4_1_0 : ∀ a, (![4, 1, 0] : Fin 3 → Nat) a + S32x32x128.size a ≤ S36x36x128.size a
  slices_S5x5x128_o4_1_0_S1x1x128 : S5x5x128.Slices ![4, 1, 0] S1x1x128
  inb_S36x36x128_S32x32x128_4_2_0 : ∀ a, (![4, 2, 0] : Fin 3 → Nat) a + S32x32x128.size a ≤ S36x36x128.size a
  slices_S5x5x128_o4_2_0_S1x1x128 : S5x5x128.Slices ![4, 2, 0] S1x1x128
  inb_S36x36x128_S32x32x128_4_3_0 : ∀ a, (![4, 3, 0] : Fin 3 → Nat) a + S32x32x128.size a ≤ S36x36x128.size a
  slices_S5x5x128_o4_3_0_S1x1x128 : S5x5x128.Slices ![4, 3, 0] S1x1x128
  inb_S36x36x128_S32x32x128_4_4_0 : ∀ a, (![4, 4, 0] : Fin 3 → Nat) a + S32x32x128.size a ≤ S36x36x128.size a
  slices_S5x5x128_o4_4_0_S1x1x128 : S5x5x128.Slices ![4, 4, 0] S1x1x128
  slices_S32x32x128_o0_0_0_S8x8x128 : S32x32x128.Slices ![0, 0, 0] S8x8x128
  shapeCasts_S8x8x128_S1x64x128 : S8x8x128.ShapeCasts S1x64x128
  slices_S32x32x128_o0_8_0_S8x8x128 : S32x32x128.Slices ![0, 8, 0] S8x8x128
  slices_S32x32x128_o0_16_0_S8x8x128 : S32x32x128.Slices ![0, 16, 0] S8x8x128
  slices_S32x32x128_o0_24_0_S8x8x128 : S32x32x128.Slices ![0, 24, 0] S8x8x128
  slices_S32x32x128_o8_0_0_S8x8x128 : S32x32x128.Slices ![8, 0, 0] S8x8x128
  slices_S32x32x128_o8_8_0_S8x8x128 : S32x32x128.Slices ![8, 8, 0] S8x8x128
  slices_S32x32x128_o8_16_0_S8x8x128 : S32x32x128.Slices ![8, 16, 0] S8x8x128
  slices_S32x32x128_o8_24_0_S8x8x128 : S32x32x128.Slices ![8, 24, 0] S8x8x128
  slices_S32x32x128_o16_0_0_S8x8x128 : S32x32x128.Slices ![16, 0, 0] S8x8x128
  slices_S32x32x128_o16_8_0_S8x8x128 : S32x32x128.Slices ![16, 8, 0] S8x8x128
  slices_S32x32x128_o16_16_0_S8x8x128 : S32x32x128.Slices ![16, 16, 0] S8x8x128
  slices_S32x32x128_o16_24_0_S8x8x128 : S32x32x128.Slices ![16, 24, 0] S8x8x128
  slices_S32x32x128_o24_0_0_S8x8x128 : S32x32x128.Slices ![24, 0, 0] S8x8x128
  slices_S32x32x128_o24_8_0_S8x8x128 : S32x32x128.Slices ![24, 8, 0] S8x8x128
  slices_S32x32x128_o24_16_0_S8x8x128 : S32x32x128.Slices ![24, 16, 0] S8x8x128
  slices_S32x32x128_o24_24_0_S8x8x128 : S32x32x128.Slices ![24, 24, 0] S8x8x128
  concatenates_S1x64x128_S1x64x128_S1x64x128_S1x64x128_S1x64x128_S1x64x128_S1x64x128_S1x64x128_S1x64x128_S1x64x128_S1x64x128_S1x64x128_S1x64x128_S1x64x128_S1x64x128_S1x64x128_S16x64x128_d0 : Shape.Concatenates [S1x64x128, S1x64x128, S1x64x128, S1x64x128, S1x64x128, S1x64x128, S1x64x128, S1x64x128, S1x64x128, S1x64x128, S1x64x128, S1x64x128, S1x64x128, S1x64x128, S1x64x128, S1x64x128] S16x64x128 0
  shapeCasts_S16x64x128_S1024x128 : S16x64x128.ShapeCasts S1024x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  broadcasts_S1x128_S1024x128 : S1x128.Broadcasts S1024x128
  inb_S16x10x10x128_S16x10x10x128_0_0_0_0 : ∀ a, (![0, 0, 0, 0] : Fin 4 → Nat) a + S16x10x10x128.size a ≤ S16x10x10x128.size a
  h_S16x10x10x128 : 0 < S16x10x10x128.numel
  shapeCasts_S16x10x10x128_S16x10x10x128 : S16x10x10x128.ShapeCasts S16x10x10x128
  shapeCasts_S1024x128_S16x8x8x128 : S1024x128.ShapeCasts S16x8x8x128
  inb_S16x10x10x128_S16x8x8x128_0_1_1_0 : ∀ a, (![0, 1, 1, 0] : Fin 4 → Nat) a + S16x8x8x128.size a ≤ S16x10x10x128.size a
  h_S16x8x8x128 : 0 < S16x8x8x128.numel
  shapeCasts_S16x8x8x128_S16x8x8x128 : S16x8x8x128.ShapeCasts S16x8x8x128
  inb_S3x3x128_S3x3x128_0_0_0 : ∀ a, (![0, 0, 0] : Fin 3 → Nat) a + S3x3x128.size a ≤ S3x3x128.size a
  h_S3x3x128 : 0 < S3x3x128.numel
  inb_S16x10x10x128_S16x8x8x128_0_0_0_0 : ∀ a, (![0, 0, 0, 0] : Fin 4 → Nat) a + S16x8x8x128.size a ≤ S16x10x10x128.size a
  slices_S3x3x128_o0_0_0_S1x1x128 : S3x3x128.Slices ![0, 0, 0] S1x1x128
  shapeCasts_S128_S1x1x1x128 : S128.ShapeCasts S1x1x1x128
  broadcasts_S1x1x1x128_S16x8x8x128 : S1x1x1x128.Broadcasts S16x8x8x128
  inb_S16x10x10x128_S16x8x8x128_0_0_1_0 : ∀ a, (![0, 0, 1, 0] : Fin 4 → Nat) a + S16x8x8x128.size a ≤ S16x10x10x128.size a
  slices_S3x3x128_o0_1_0_S1x1x128 : S3x3x128.Slices ![0, 1, 0] S1x1x128
  inb_S16x10x10x128_S16x8x8x128_0_0_2_0 : ∀ a, (![0, 0, 2, 0] : Fin 4 → Nat) a + S16x8x8x128.size a ≤ S16x10x10x128.size a
  slices_S3x3x128_o0_2_0_S1x1x128 : S3x3x128.Slices ![0, 2, 0] S1x1x128
  inb_S16x10x10x128_S16x8x8x128_0_1_0_0 : ∀ a, (![0, 1, 0, 0] : Fin 4 → Nat) a + S16x8x8x128.size a ≤ S16x10x10x128.size a
  slices_S3x3x128_o1_0_0_S1x1x128 : S3x3x128.Slices ![1, 0, 0] S1x1x128
  slices_S3x3x128_o1_1_0_S1x1x128 : S3x3x128.Slices ![1, 1, 0] S1x1x128
  inb_S16x10x10x128_S16x8x8x128_0_1_2_0 : ∀ a, (![0, 1, 2, 0] : Fin 4 → Nat) a + S16x8x8x128.size a ≤ S16x10x10x128.size a
  slices_S3x3x128_o1_2_0_S1x1x128 : S3x3x128.Slices ![1, 2, 0] S1x1x128
  inb_S16x10x10x128_S16x8x8x128_0_2_0_0 : ∀ a, (![0, 2, 0, 0] : Fin 4 → Nat) a + S16x8x8x128.size a ≤ S16x10x10x128.size a
  slices_S3x3x128_o2_0_0_S1x1x128 : S3x3x128.Slices ![2, 0, 0] S1x1x128
  inb_S16x10x10x128_S16x8x8x128_0_2_1_0 : ∀ a, (![0, 2, 1, 0] : Fin 4 → Nat) a + S16x8x8x128.size a ≤ S16x10x10x128.size a
  slices_S3x3x128_o2_1_0_S1x1x128 : S3x3x128.Slices ![2, 1, 0] S1x1x128
  inb_S16x10x10x128_S16x8x8x128_0_2_2_0 : ∀ a, (![0, 2, 2, 0] : Fin 4 → Nat) a + S16x8x8x128.size a ≤ S16x10x10x128.size a
  slices_S3x3x128_o2_2_0_S1x1x128 : S3x3x128.Slices ![2, 2, 0] S1x1x128
  shapeCasts_S16x8x8x128_S16x64x128 : S16x8x8x128.ShapeCasts S16x64x128
  broadcasts_S1x1x128_S16x64x128 : S1x1x128.Broadcasts S16x64x128
  shapeCasts_S1024x128_S16x64x128 : S1024x128.ShapeCasts S16x64x128
  reduces_S16x64x64_S16x64 : S16x64x64.Reduces [2] S16x64
  shapeCasts_S16x64_S16x64x1 : S16x64.ShapeCasts S16x64x1
  broadcasts_S16x64x1_S16x64x64 : S16x64x1.Broadcasts S16x64x64
  slices_S16x64x128_o0_0_0_S1x64x128 : S16x64x128.Slices ![0, 0, 0] S1x64x128
  shapeCasts_S1x64x128_S64x128 : S1x64x128.ShapeCasts S64x128
  shapeCasts_S64x128_S8x8x128 : S64x128.ShapeCasts S8x8x128
  inb_S32x32x128_S8x8x128_0_0_0 : ∀ a, (![0, 0, 0] : Fin 3 → Nat) a + S8x8x128.size a ≤ S32x32x128.size a
  h_S8x8x128 : 0 < S8x8x128.numel
  shapeCasts_S8x8x128_S8x8x128 : S8x8x128.ShapeCasts S8x8x128
  slices_S16x64x128_o1_0_0_S1x64x128 : S16x64x128.Slices ![1, 0, 0] S1x64x128
  inb_S32x32x128_S8x8x128_0_8_0 : ∀ a, (![0, 8, 0] : Fin 3 → Nat) a + S8x8x128.size a ≤ S32x32x128.size a
  slices_S16x64x128_o2_0_0_S1x64x128 : S16x64x128.Slices ![2, 0, 0] S1x64x128
  inb_S32x32x128_S8x8x128_0_16_0 : ∀ a, (![0, 16, 0] : Fin 3 → Nat) a + S8x8x128.size a ≤ S32x32x128.size a
  slices_S16x64x128_o3_0_0_S1x64x128 : S16x64x128.Slices ![3, 0, 0] S1x64x128
  inb_S32x32x128_S8x8x128_0_24_0 : ∀ a, (![0, 24, 0] : Fin 3 → Nat) a + S8x8x128.size a ≤ S32x32x128.size a
  slices_S16x64x128_o4_0_0_S1x64x128 : S16x64x128.Slices ![4, 0, 0] S1x64x128
  inb_S32x32x128_S8x8x128_8_0_0 : ∀ a, (![8, 0, 0] : Fin 3 → Nat) a + S8x8x128.size a ≤ S32x32x128.size a
  slices_S16x64x128_o5_0_0_S1x64x128 : S16x64x128.Slices ![5, 0, 0] S1x64x128
  inb_S32x32x128_S8x8x128_8_8_0 : ∀ a, (![8, 8, 0] : Fin 3 → Nat) a + S8x8x128.size a ≤ S32x32x128.size a
  slices_S16x64x128_o6_0_0_S1x64x128 : S16x64x128.Slices ![6, 0, 0] S1x64x128
  inb_S32x32x128_S8x8x128_8_16_0 : ∀ a, (![8, 16, 0] : Fin 3 → Nat) a + S8x8x128.size a ≤ S32x32x128.size a
  slices_S16x64x128_o7_0_0_S1x64x128 : S16x64x128.Slices ![7, 0, 0] S1x64x128
  inb_S32x32x128_S8x8x128_8_24_0 : ∀ a, (![8, 24, 0] : Fin 3 → Nat) a + S8x8x128.size a ≤ S32x32x128.size a
  slices_S16x64x128_o8_0_0_S1x64x128 : S16x64x128.Slices ![8, 0, 0] S1x64x128
  inb_S32x32x128_S8x8x128_16_0_0 : ∀ a, (![16, 0, 0] : Fin 3 → Nat) a + S8x8x128.size a ≤ S32x32x128.size a
  slices_S16x64x128_o9_0_0_S1x64x128 : S16x64x128.Slices ![9, 0, 0] S1x64x128
  inb_S32x32x128_S8x8x128_16_8_0 : ∀ a, (![16, 8, 0] : Fin 3 → Nat) a + S8x8x128.size a ≤ S32x32x128.size a
  slices_S16x64x128_o10_0_0_S1x64x128 : S16x64x128.Slices ![10, 0, 0] S1x64x128
  inb_S32x32x128_S8x8x128_16_16_0 : ∀ a, (![16, 16, 0] : Fin 3 → Nat) a + S8x8x128.size a ≤ S32x32x128.size a
  slices_S16x64x128_o11_0_0_S1x64x128 : S16x64x128.Slices ![11, 0, 0] S1x64x128
  inb_S32x32x128_S8x8x128_16_24_0 : ∀ a, (![16, 24, 0] : Fin 3 → Nat) a + S8x8x128.size a ≤ S32x32x128.size a
  slices_S16x64x128_o12_0_0_S1x64x128 : S16x64x128.Slices ![12, 0, 0] S1x64x128
  inb_S32x32x128_S8x8x128_24_0_0 : ∀ a, (![24, 0, 0] : Fin 3 → Nat) a + S8x8x128.size a ≤ S32x32x128.size a
  slices_S16x64x128_o13_0_0_S1x64x128 : S16x64x128.Slices ![13, 0, 0] S1x64x128
  inb_S32x32x128_S8x8x128_24_8_0 : ∀ a, (![24, 8, 0] : Fin 3 → Nat) a + S8x8x128.size a ≤ S32x32x128.size a
  slices_S16x64x128_o14_0_0_S1x64x128 : S16x64x128.Slices ![14, 0, 0] S1x64x128
  inb_S32x32x128_S8x8x128_24_16_0 : ∀ a, (![24, 16, 0] : Fin 3 → Nat) a + S8x8x128.size a ≤ S32x32x128.size a
  slices_S16x64x128_o15_0_0_S1x64x128 : S16x64x128.Slices ![15, 0, 0] S1x64x128
  inb_S32x32x128_S8x8x128_24_24_0 : ∀ a, (![24, 24, 0] : Fin 3 → Nat) a + S8x8x128.size a ≤ S32x32x128.size a
  inb_S32x32x128_S32x32x128_0_0_0 : ∀ a, (![0, 0, 0] : Fin 3 → Nat) a + S32x32x128.size a ≤ S32x32x128.size a
  shapeCasts_S32x32x128_S1024x128 : S32x32x128.ShapeCasts S1024x128
  inb_S128x512_S128x512_0_0 : ∀ a, (![0, 0] : Fin 2 → Nat) a + S128x512.size a ≤ S128x512.size a
  h_S128x512 : 0 < S128x512.numel
  inb_S512x128_S512x128_0_0 : ∀ a, (![0, 0] : Fin 2 → Nat) a + S512x128.size a ≤ S512x128.size a
  h_S512x128 : 0 < S512x128.numel
  shapeCasts_S1024x128_S32x32x128 : S1024x128.ShapeCasts S32x32x128
  shapeCasts_S32x32x128_S1x32x32x128 : S32x32x128.ShapeCasts S1x32x32x128
  slices_S3x3x256x128_S3x3x128x128_0_0_0_0 : S3x3x256x128.Slices ![0, 0, 0, 0] S3x3x128x128
  slices_S3x3x256x128_S3x3x128x128_0_0_128_0 : S3x3x256x128.Slices ![0, 0, 128, 0] S3x3x128x128
  slices_S256x128_S128x128_0_0 : S256x128.Slices ![0, 0] S128x128
  slices_S256x128_S128x128_128_0 : S256x128.Slices ![128, 0] S128x128
  shapeCasts_S128_S1x128 : S128.ShapeCasts S1x128
  inb_S3x3x128x128_S3x3x128x128_0_0_0_0 : ∀ a, (![0, 0, 0, 0] : Fin 4 → Nat) a + S3x3x128x128.size a ≤ S3x3x128x128.size a
  h_S3x3x128x128 : 0 < S3x3x128x128.numel
  shapeCasts_S3x3x128x128_S3x3x128x128 : S3x3x128x128.ShapeCasts S3x3x128x128
  inb_S34x34x128_S34x34x128_0_0_0 : ∀ a, (![0, 0, 0] : Fin 3 → Nat) a + S34x34x128.size a ≤ S34x34x128.size a
  h_S34x34x128 : 0 < S34x34x128.numel
  shapeCasts_S34x34x128_S34x34x128 : S34x34x128.ShapeCasts S34x34x128
  inb_S34x34x128_S32x32x128_1_1_0 : ∀ a, (![1, 1, 0] : Fin 3 → Nat) a + S32x32x128.size a ≤ S34x34x128.size a
  inb_S34x34x128_S32x32x128_0_0_0 : ∀ a, (![0, 0, 0] : Fin 3 → Nat) a + S32x32x128.size a ≤ S34x34x128.size a
  slices_S3x3x128x128_o0_0_0_0_S1x1x128x128 : S3x3x128x128.Slices ![0, 0, 0, 0] S1x1x128x128
  shapeCasts_S1x1x128x128_S128x128 : S1x1x128x128.ShapeCasts S128x128
  inb_S34x34x128_S32x32x128_0_1_0 : ∀ a, (![0, 1, 0] : Fin 3 → Nat) a + S32x32x128.size a ≤ S34x34x128.size a
  slices_S3x3x128x128_o0_1_0_0_S1x1x128x128 : S3x3x128x128.Slices ![0, 1, 0, 0] S1x1x128x128
  inb_S34x34x128_S32x32x128_0_2_0 : ∀ a, (![0, 2, 0] : Fin 3 → Nat) a + S32x32x128.size a ≤ S34x34x128.size a
  slices_S3x3x128x128_o0_2_0_0_S1x1x128x128 : S3x3x128x128.Slices ![0, 2, 0, 0] S1x1x128x128
  inb_S34x34x128_S32x32x128_1_0_0 : ∀ a, (![1, 0, 0] : Fin 3 → Nat) a + S32x32x128.size a ≤ S34x34x128.size a
  slices_S3x3x128x128_o1_0_0_0_S1x1x128x128 : S3x3x128x128.Slices ![1, 0, 0, 0] S1x1x128x128
  slices_S3x3x128x128_o1_1_0_0_S1x1x128x128 : S3x3x128x128.Slices ![1, 1, 0, 0] S1x1x128x128
  inb_S34x34x128_S32x32x128_1_2_0 : ∀ a, (![1, 2, 0] : Fin 3 → Nat) a + S32x32x128.size a ≤ S34x34x128.size a
  slices_S3x3x128x128_o1_2_0_0_S1x1x128x128 : S3x3x128x128.Slices ![1, 2, 0, 0] S1x1x128x128
  inb_S34x34x128_S32x32x128_2_0_0 : ∀ a, (![2, 0, 0] : Fin 3 → Nat) a + S32x32x128.size a ≤ S34x34x128.size a
  slices_S3x3x128x128_o2_0_0_0_S1x1x128x128 : S3x3x128x128.Slices ![2, 0, 0, 0] S1x1x128x128
  inb_S34x34x128_S32x32x128_2_1_0 : ∀ a, (![2, 1, 0] : Fin 3 → Nat) a + S32x32x128.size a ≤ S34x34x128.size a
  slices_S3x3x128x128_o2_1_0_0_S1x1x128x128 : S3x3x128x128.Slices ![2, 1, 0, 0] S1x1x128x128
  inb_S34x34x128_S32x32x128_2_2_0 : ∀ a, (![2, 2, 0] : Fin 3 → Nat) a + S32x32x128.size a ≤ S34x34x128.size a
  slices_S3x3x128x128_o2_2_0_0_S1x1x128x128 : S3x3x128x128.Slices ![2, 2, 0, 0] S1x1x128x128
  shapeCasts_S1x128_S1x128 : S1x128.ShapeCasts S1x128
  shapeCasts_S128x128_S128x128 : S128x128.ShapeCasts S128x128
  shapeCasts_S64x32x32x128_S64x1024x128 : S64x32x32x128.ShapeCasts S64x1024x128
  dot_S1024x128_S128x128_S1024x128_1_0_0_1_n_n_wf : DotDims.WF S1024x128 S128x128 S1024x128 [1] [0] [0] [1] [] []
  dot_S16x64x128_S16x64x128_S16x64x64_2_2_1_1_0_0_wf : DotDims.WF S16x64x128 S16x64x128 S16x64x64 [2] [2] [1] [1] [0] [0]
  dot_S16x64x64_S16x64x128_S16x64x128_2_1_1_2_0_0_wf : DotDims.WF S16x64x64 S16x64x128 S16x64x128 [2] [1] [1] [2] [0] [0]
  dot_S1024x128_S128x512_S1024x512_1_0_0_1_n_n_wf : DotDims.WF S1024x128 S128x512 S1024x512 [1] [0] [0] [1] [] []
  dot_S1024x512_S512x128_S1024x128_1_0_0_1_n_n_wf : DotDims.WF S1024x512 S512x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x32x128.size a ≤ S64x32x32x128.size a
  hwx0_0 : ∀ i : grid0.Coords, EltTy.bits .f32 = 32 ∨ (Rect.block (s := S64x32x32x128) S1x32x32x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1x128.size a ≤ S1x1x128.size a
  hwx0_1 : ∀ i : grid0.Coords, EltTy.bits .f32 = 32 ∨ (Rect.block (s := S1x1x128) S1x1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S5x5x128.size a ≤ S5x5x128.size a
  hwx0_2 : ∀ i : grid0.Coords, EltTy.bits .f32 = 32 ∨ (Rect.block (s := S5x5x128) S5x5x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S3x3x128.size a ≤ S3x3x128.size a
  hwx0_9 : ∀ i : grid0.Coords, EltTy.bits .f32 = 32 ∨ (Rect.block (s := S3x3x128) S3x3x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1x128.size a ≤ S1x1x128.size a
  hwx0_10 : ∀ i : grid0.Coords, EltTy.bits .f32 = 32 ∨ (Rect.block (s := S1x1x128) S1x1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .f32 = 32 ∨ (Rect.block (s := S128x128) S128x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1x128.size a ≤ S1x1x128.size a
  hwx0_13 : ∀ i : grid0.Coords, EltTy.bits .f32 = 32 ∨ (Rect.block (s := S1x1x128) S1x1x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x1x128.size a ≤ S1x1x128.size a
  hwx0_14 : ∀ i : grid0.Coords, EltTy.bits .f32 = 32 ∨ (Rect.block (s := S1x1x128) S1x1x128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S5x5x128.size a ≤ S5x5x128.size a
  hwx0_15 : ∀ i : grid0.Coords, EltTy.bits .f32 = 32 ∨ (Rect.block (s := S5x5x128) S5x5x128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S128x512.size a ≤ S128x512.size a
  hwx0_16 : ∀ i : grid0.Coords, EltTy.bits .f32 = 32 ∨ (Rect.block (s := S128x512) S128x512.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S512x128.size a ≤ S512x128.size a
  hwx0_17 : ∀ i : grid0.Coords, EltTy.bits .f32 = 32 ∨ (Rect.block (s := S512x128) S512x128.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S128x128.size a ≤ S128x128.size a
  hwx0_18 : ∀ i : grid0.Coords, EltTy.bits .f32 = 32 ∨ (Rect.block (s := S128x128) S128x128.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1x1x128.size a ≤ S1x1x128.size a
  hwx0_19 : ∀ i : grid0.Coords, EltTy.bits .f32 = 32 ∨ (Rect.block (s := S1x1x128) S1x1x128.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S1x32x32x128.size a ≤ S64x32x32x128.size a
  hwx0_20 : ∀ i : grid0.Coords, EltTy.bits .f32 = 32 ∨ (Rect.block (s := S64x32x32x128) S1x32x32x128.size (cc0_transform_20 i) (hinb0_20 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x32x32x128.size a ≤ S64x32x32x128.size a
  hwx1_0 : ∀ i : grid1.Coords, EltTy.bits .f32 = 32 ∨ (Rect.block (s := S64x32x32x128) S1x32x32x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x32x32x128.size a ≤ S64x32x32x128.size a
  hwx1_1 : ∀ i : grid1.Coords, EltTy.bits .f32 = 32 ∨ (Rect.block (s := S64x32x32x128) S1x32x32x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S3x3x128x128.size a ≤ S3x3x128x128.size a
  hwx1_2 : ∀ i : grid1.Coords, EltTy.bits .f32 = 32 ∨ (Rect.block (s := S3x3x128x128) S3x3x128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3x3x128x128.size a ≤ S3x3x128x128.size a
  hwx1_3 : ∀ i : grid1.Coords, EltTy.bits .f32 = 32 ∨ (Rect.block (s := S3x3x128x128) S3x3x128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S3x3x128x128.size a ≤ S3x3x128x128.size a
  hwx1_5 : ∀ i : grid1.Coords, EltTy.bits .f32 = 32 ∨ (Rect.block (s := S3x3x128x128) S3x3x128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .f32 = 32 ∨ (Rect.block (s := S128x128) S128x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S1x32x32x128.size a ≤ S64x32x32x128.size a
  hwx1_10 : ∀ i : grid1.Coords, EltTy.bits .f32 = 32 ∨ (Rect.block (s := S64x32x32x128) S1x32x32x128.size (cc1_transform_10 i) (hinb1_10 i)).WholeWords (EltTy.packing .f32)

variable [Facts₀]

def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S16x64x128_S16x64x128_S16x64x64_2_2_1_1_0_0 : DotDims S16x64x128 S16x64x128 S16x64x64 where
  lhsContracting := [2]
  rhsContracting := [2]
  lhsNonContracting := [1]
  rhsNonContracting := [1]
  lhsBatch := [0]
  rhsBatch := [0]
  wf := dot_S16x64x128_S16x64x128_S16x64x64_2_2_1_1_0_0_wf
def dot_S16x64x64_S16x64x128_S16x64x128_2_1_1_2_0_0 : DotDims S16x64x64 S16x64x128 S16x64x128 where
  lhsContracting := [2]
  rhsContracting := [1]
  lhsNonContracting := [1]
  rhsNonContracting := [2]
  lhsBatch := [0]
  rhsBatch := [0]
  wf := dot_S16x64x64_S16x64x128_S16x64x128_2_1_1_2_0_0_wf
def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf

abbrev win0_0 : Pipeline.Window sig grid0 :=
  Pipeline.Window.ofSpec (Memref.whole main_v0) S1x32x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S5x5x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg10) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg11) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg12) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg13) S3x3x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg14) S1x1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg15) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg16) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v2) S1x1x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v3) S1x1x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg6) S5x5x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg17) S128x512.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg18) S512x128.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg19) S128x128.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v4) S1x1x128.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v5) S1x32x32x128.size cc0_transform_20 reads0_20 true false 2 stage0_20 sem0_20
    hrank0 hreads0_20 hinb0_20 nbuf0_20 (Memref.isWhole_whole _) hwx0_20 hstage0_20

abbrev win0 : Fin 21 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | ⟨_ + 21, h⟩ => absurd h (Nat.not_lt.2 (Nat.le_add_left _ _))
abbrev spec0 : Fin 21 → Pipeline.WinSpec sig grid0.rank := fun w => (win0 w).toWinSpec

abbrev win1_0 : Pipeline.Window sig grid1 :=
  Pipeline.Window.ofSpec (Memref.whole main_v0) S1x32x32x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x32x32x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S3x3x128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S3x3x128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg22) S3x3x128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v11) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v8) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v9) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v12) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v13) S1x32x32x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== Proof.KernelBody.lean ====
/-
  The fused kernel's body as printed (at any float instance), run once at a symbolic grid point and symbolic buffer contents:
  it zero-fills its halo scratch buffers, stores the interiors, reads the shifted windows back, and writes the whole output
  block; every load lies in a buffer the body holds, every store inside its buffer.
-/
import proofs.«120724_g2000406006432562_pallasbulk_1270_2_alg».proof.Proof.Gen.Kernel
import proofs.«120724_g2000406006432562_pallasbulk_1270_2_alg».proof.Proof.Gen.Kernel.Skeleton
import Idealize.ShloMosaic.Lib.Tactic

noncomputable section

namespace Cert.Kernel.Body

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the rounds library's, for the pipeline's staging cells (the kernel has no cell of its own). -/
abbrev UR (nD : Nat) (τ : Topo) : Type := URounds (GSem nD τ sig) Unit

local notation "𝕄" => MT nD τ sig Unit (Elt F) ℕ (UR nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

set_option maxHeartbeats 8000000 in
/-- What the body leaves in the output block, as a term over the input blocks' contents alone, WITH the proof that from
    every buffer held whole — the inputs at `f`, the output block and the scratch buffers at anything — the kernel runs to its
    return without a fault, handing back the inputs as they were, the output block at the witness, the scratch at something. -/
noncomputable def kernelRun (c : Dev nD) (i : grid0.Coords)
    (M0 : Memref sig .tc .vmem S1x32x32x128 .f32) (h0 : M0.IsWhole)
    (M1 : Memref sig .tc .vmem S1x1x128 .f32) (h1 : M1.IsWhole)
    (M2 : Memref sig .tc .vmem S5x5x128 .f32) (h2 : M2.IsWhole)
    (M3 : Memref sig .tc .vmem S128x384 .bf16) (h3 : M3.IsWhole)
    (M4 : Memref sig .tc .vmem S1x384 .f32) (h4 : M4.IsWhole)
    (M5 : Memref sig .tc .vmem S3x3x128 .f32) (h5 : M5.IsWhole)
    (M6 : Memref sig .tc .vmem S1x1x128 .f32) (h6 : M6.IsWhole)
    (M7 : Memref sig .tc .vmem S128x128 .bf16) (h7 : M7.IsWhole)
    (M8 : Memref sig .tc .vmem S1x128 .f32) (h8 : M8.IsWhole)
    (M9 : Memref sig .tc .vmem S1x1x128 .f32) (h9 : M9.IsWhole)
    (M10 : Memref sig .tc .vmem S1x1x128 .f32) (h10 : M10.IsWhole)
    (M11 : Memref sig .tc .vmem S5x5x128 .f32) (h11 : M11.IsWhole)
    (M12 : Memref sig .tc .vmem S128x512 .bf16) (h12 : M12.IsWhole)
    (M13 : Memref sig .tc .vmem S512x128 .bf16) (h13 : M13.IsWhole)
    (M14 : Memref sig .tc .vmem S128x128 .bf16) (h14 : M14.IsWhole)
    (M15 : Memref sig .tc .vmem S1x1x128 .f32) (h15 : M15.IsWhole)
    (M16 : Memref sig .tc .vmem S3x3x128x128 .bf16) (h16 : M16.IsWhole)
    (M17 : Memref sig .tc .vmem S3x3x128x128 .bf16) (h17 : M17.IsWhole)
    (M18 : Memref sig .tc .vmem S1x128 .f32) (h18 : M18.IsWhole)
    (M19 : Memref sig .tc .vmem S3x3x128x128 .bf16) (h19 : M19.IsWhole)
    (M20 : Memref sig .tc .vmem S1x128 .f32) (h20 : M20.IsWhole)
    (M21 : Memref sig .tc .vmem S128x128 .bf16) (h21 : M21.IsWhole)
    (M22 : Memref sig .tc .vmem S128x128 .bf16) (h22 : M22.IsWhole)
    (M23 : Memref sig .tc .vmem S1x128 .f32) (h23 : M23.IsWhole)
    (M24 : Memref sig .tc .vmem S1x32x32x128 .f32) (h24 : M24.IsWhole)
    (M25 : Memref sig .tc .vmem S36x36x128 .f32) (h25 : M25.IsWhole)
    (M26 : Memref sig .tc .vmem S34x34x128 .bf16) (h26 : M26.IsWhole)
    (M27 : Memref sig .tc .vmem S16x10x10x128 .f32) (h27 : M27.IsWhole)
    (M28 : Memref sig .tc .vmem S32x32x128 .f32) (h28 : M28.IsWhole)
    (f0 : Bf (F := F) c M0) (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16) (f17 : Bf (F := F) c M17) (f18 : Bf (F := F) c M18) (f19 : Bf (F := F) c M19) (f20 : Bf (F := F) c M20) (f21 : Bf (F := F) c M21) (f22 : Bf (F := F) c M22) (f23 : Bf (F := F) c M23) :
    { W : Bf (F := F) c M24 //
      ∀ (f24 : Bf (F := F) c M24) (f25 : Bf (F := F) c M25) (f26 : Bf (F := F) c M26) (f27 : Bf (F := F) c M27) (f28 : Bf (F := F) c M28) (E : Set ℕ) (Q : PUnit → sProp 𝕄),
        iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17 ∗ pt c M18 f18 ∗ pt c M19 f19 ∗ pt c M20 f20 ∗ pt c M21 f21 ∗ pt c M22 f22 ∗ pt c M23 f23 ∗ pt c M24 f24 ∗ pt c M25 f25 ∗ pt c M26 f26 ∗ pt c M27 f27 ∗ pt c M28 f28
          ∗ (iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17 ∗ pt c M18 f18 ∗ pt c M19 f19 ∗ pt c M20 f20 ∗ pt c M21 f21 ∗ pt c M22 f22 ∗ pt c M23 f23 ∗ pt c M24 W ∗ (∃ f, pt c M25 f) ∗ (∃ f, pt c M26 f) ∗ (∃ f, pt c M27 f) ∗ (∃ f, pt c M28 f)) -∗ Q ⟨⟩))
        ⊢ wp frame (wpE (defs₀ (F := F)) Variants.none c none) E
            (cc0__fused_kernel i M0 h0 M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28) Q } := by
  refine ⟨?_, fun f24 f25 f26 f27 f28 E Q => ?run⟩
  case run =>
    iintro ⟨H0, H1, H2, H3, H4, H5, H6, H7, H8, H9, H10, H11, H12, H13, H14, H15, H16, H17, H18, H19, H20, H21, H22, H23, H24, H25, H26, H27, H28, Hk⟩
    sl_exec_parts!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexists _; iexact H25
    isplitl [H26]; · iexists _; iexact H26
    isplitl [H27]; · iexists _; iexact H27
    iexists _; iexact H28

end Cert.Kernel.Body

end
-- ==== Proof.KernelRun.lean ====
/-
  The fused kernel's launch as a value-carrying run. The program is one pipelined region between two stretches of
  host operations: reshapes, concatenations, truncations and slices prepare the twenty-four operands, the region runs the
  body over a grid of sixty-four points, and one reshape returns the result. The run is followed buffer by buffer: the
  contents of every unscoped buffer at each boundary are a fold from the launch memory, and the region's output array
  holds, block by block, what the body's run leaves (its witness at the blocks the region finds in the operands).
-/
import proofs.«120724_g2000406006432562_pallasbulk_1270_2_alg».proof.Proof.KernelBody
import proofs.«120724_g2000406006432562_pallasbulk_1270_2_alg».proof.Proof.Gen.Kernel.Launch
import proofs.«120724_g2000406006432562_pallasbulk_1270_2_alg».proof.Proof.Gen.Kernel.Skeleton
import proofs.«120724_g2000406006432562_pallasbulk_1270_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## A whole memref: owning it at what it reads is its buffer's points-to at the raw contents -/

section Whole

variable {sp : Space} {S : Shape} {e : EltTy}

/-- A whole memref owned at contents `X` is its buffer held at the raw contents that read `X`. -/
theorem owns_eq_pt (c : Dev nD) (M : Memref sig .tc sp S e) (h : M.IsWhole) (X : S.Idx → Elt F e) :
    (owns (c : Thread nD τ) M fullShare X : sProp 𝕄) = (M.view.loc (c : Thread nD τ) ↦{fullShare} h.unread X) := by
  have hX : M.view.read (Elt F) (h.unread X) = X := h.read_unread X
  generalize h.unread X = f at hX ⊢
  subst hX
  obtain ⟨b, rfl, rfl, rfl, hm⟩ := h
  cases hm
  simp only [Memref.view_whole, View.read_whole]
  exact owns_whole (c : Thread nD τ) b fullShare f

/-- Its buffer held at raw contents `f` is the memref owned at what it reads of `f`. -/
theorem pt_eq_owns (c : Dev nD) (M : Memref sig .tc sp S e) (h : M.IsWhole) (f : Buf (Elt F) (M.view.loc (c : Thread nD τ))) :
    (M.view.loc (c : Thread nD τ) ↦{fullShare} f : sProp 𝕄) = owns (c : Thread nD τ) M fullShare (M.view.read (Elt F) f) := by
  rw [owns_eq_pt c M h, h.unread_read]

end Whole

section Region
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The body's run at point `t`: on the current staging memrefs, each input's buffer at the raw contents that read its
    block there. -/
abbrev runAt0 (c : Dev nD) (t : Fin cfg0.N) :=
  Body.kernelRun (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (Memref.whole cc0_scratch0) (Memref.isWhole_whole _) (Memref.whole cc0_scratch1) (Memref.isWhole_whole _) (Memref.whole cc0_scratch2) (Memref.isWhole_whole _) (Memref.whole cc0_scratch3) (Memref.isWhole_whole _)
    ((hstage0_0 ((cfg0.slots t 0).cast nbuf0_0)).unread (iblk0 V c 0 t)) ((hstage0_1 ((cfg0.slots t 1).cast nbuf0_1)).unread (iblk0 V c 1 t)) ((hstage0_2 ((cfg0.slots t 2).cast nbuf0_2)).unread (iblk0 V c 2 t)) ((hstage0_3 ((cfg0.slots t 3).cast nbuf0_3)).unread (iblk0 V c 3 t)) ((hstage0_4 ((cfg0.slots t 4).cast nbuf0_4)).unread (iblk0 V c 4 t)) ((hstage0_5 ((cfg0.slots t 5).cast nbuf0_5)).unread (iblk0 V c 5 t)) ((hstage0_6 ((cfg0.slots t 6).cast nbuf0_6)).unread (iblk0 V c 6 t)) ((hstage0_7 ((cfg0.slots t 7).cast nbuf0_7)).unread (iblk0 V c 7 t)) ((hstage0_8 ((cfg0.slots t 8).cast nbuf0_8)).unread (iblk0 V c 8 t)) ((hstage0_9 ((cfg0.slots t 9).cast nbuf0_9)).unread (iblk0 V c 9 t)) ((hstage0_10 ((cfg0.slots t 10).cast nbuf0_10)).unread (iblk0 V c 10 t)) ((hstage0_11 ((cfg0.slots t 11).cast nbuf0_11)).unread (iblk0 V c 11 t)) ((hstage0_12 ((cfg0.slots t 12).cast nbuf0_12)).unread (iblk0 V c 12 t)) ((hstage0_13 ((cfg0.slots t 13).cast nbuf0_13)).unread (iblk0 V c 13 t)) ((hstage0_14 ((cfg0.slots t 14).cast nbuf0_14)).unread (iblk0 V c 14 t)) ((hstage0_15 ((cfg0.slots t 15).cast nbuf0_15)).unread (iblk0 V c 15 t)) ((hstage0_16 ((cfg0.slots t 16).cast nbuf0_16)).unread (iblk0 V c 16 t)) ((hstage0_17 ((cfg0.slots t 17).cast nbuf0_17)).unread (iblk0 V c 17 t)) ((hstage0_18 ((cfg0.slots t 18).cast nbuf0_18)).unread (iblk0 V c 18 t)) ((hstage0_19 ((cfg0.slots t 19).cast nbuf0_19)).unread (iblk0 V c 19 t)) ((hstage0_20 ((cfg0.slots t 20).cast nbuf0_20)).unread (iblk0 V c 20 t)) ((hstage0_21 ((cfg0.slots t 21).cast nbuf0_21)).unread (iblk0 V c 21 t)) ((hstage0_22 ((cfg0.slots t 22).cast nbuf0_22)).unread (iblk0 V c 22 t)) ((hstage0_23 ((cfg0.slots t 23).cast nbuf0_23)).unread (iblk0 V c 23 t))

/-- What the body leaves in the output window's block at point `t`: its run's witness, read through the staging memref. -/
def outBlk0 (c : Dev nD) (t : Fin cfg0.N) : (cfg0.win 24).block.Idx → Elt F (cfg0.win 24).elt :=
  (win0_24.stage (cfg0.slots t 24)).view.read (Elt F) (runAt0 V c t).1

/-! ## The pipeline's proof data -/

/-- The proof data of the pipeline on core `c`: the arrays as the region finds them (`V`); after the body at point `t`
    each input's buffer at its block and the output's at what the body's run leaves; the invariant the scoped rest (the
    scratch buffers at something) and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => iblk0 V c 15 t
    | ⟨16, _⟩ => iblk0 V c 16 t
    | ⟨17, _⟩ => iblk0 V c 17 t
    | ⟨18, _⟩ => iblk0 V c 18 t
    | ⟨19, _⟩ => iblk0 V c 19 t
    | ⟨20, _⟩ => iblk0 V c 20 t
    | ⟨21, _⟩ => iblk0 V c 21 t
    | ⟨22, _⟩ => iblk0 V c 22 t
    | ⟨23, _⟩ => iblk0 V c 23 t
    | ⟨24, _⟩ => outBlk0 V c t
    | ⟨_ + 25, h⟩ => absurd h (Nat.not_lt.2 (Nat.le_add_left _ _))
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = iblk0 V c 14 t := by dsimp only [dat0]
theorem after0_15 (c : Dev nD) (t : Fin cfg0.N) : (dat0 V c).after 15 t = iblk0 V c 15 t := by dsimp only [dat0]
theorem after0_16 (c : Dev nD) (t : Fin cfg0.N) : (dat0 V c).after 16 t = iblk0 V c 16 t := by dsimp only [dat0]
theorem after0_17 (c : Dev nD) (t : Fin cfg0.N) : (dat0 V c).after 17 t = iblk0 V c 17 t := by dsimp only [dat0]
theorem after0_18 (c : Dev nD) (t : Fin cfg0.N) : (dat0 V c).after 18 t = iblk0 V c 18 t := by dsimp only [dat0]
theorem after0_19 (c : Dev nD) (t : Fin cfg0.N) : (dat0 V c).after 19 t = iblk0 V c 19 t := by dsimp only [dat0]
theorem after0_20 (c : Dev nD) (t : Fin cfg0.N) : (dat0 V c).after 20 t = iblk0 V c 20 t := by dsimp only [dat0]
theorem after0_21 (c : Dev nD) (t : Fin cfg0.N) : (dat0 V c).after 21 t = iblk0 V c 21 t := by dsimp only [dat0]
theorem after0_22 (c : Dev nD) (t : Fin cfg0.N) : (dat0 V c).after 22 t = iblk0 V c 22 t := by dsimp only [dat0]
theorem after0_23 (c : Dev nD) (t : Fin cfg0.N) : (dat0 V c).after 23 t = iblk0 V c 23 t := by dsimp only [dat0]
theorem after0_24 (c : Dev nD) (t : Fin cfg0.N) : (dat0 V c).after 24 t = outBlk0 V c t := by dsimp only [dat0]

/-- Each input's current staging buffer holds its block at every point, fetched there or not: unfetched, the block index
    has not moved, and the body left the block in place. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl) (fun t => by rw [after0_6]; unfold Dat.blockOf iblk0; rw [A_eq0]; try rfl) t d).trans
    (by unfold Dat.fetched Dat.blockOf iblk0; rw [A_eq0]; try rfl)
theorem before0_7 (c : Dev nD) (t : Fin cfg0.N) (d) : (dat0 V c).before 7 t d = iblk0 V c 7 t :=
  ((dat0 V c).before_in_eq_fetched 7 rfl (fun _ => rfl) (fun _ _ _ => rfl) (fun t => by rw [after0_7]; unfold Dat.blockOf iblk0; rw [A_eq0]; try rfl) t d).trans
    (by unfold Dat.fetched Dat.blockOf iblk0; rw [A_eq0]; try rfl)
theorem before0_8 (c : Dev nD) (t : Fin cfg0.N) (d) : (dat0 V c).before 8 t d = iblk0 V c 8 t :=
  ((dat0 V c).before_in_eq_fetched 8 rfl (fun _ => rfl) (fun _ _ _ => rfl) (fun t => by rw [after0_8]; unfold Dat.blockOf iblk0; rw [A_eq0]; try rfl) t d).trans
    (by unfold Dat.fetched Dat.blockOf iblk0; rw [A_eq0]; try rfl)
theorem before0_9 (c : Dev nD) (t : Fin cfg0.N) (d) : (dat0 V c).before 9 t d = iblk0 V c 9 t :=
  ((dat0 V c).before_in_eq_fetched 9 rfl (fun _ => rfl) (fun _ _ _ => rfl) (fun t => by rw [after0_9]; unfold Dat.blockOf iblk0; rw [A_eq0]; try rfl) t d).trans
    (by unfold Dat.fetched Dat.blockOf iblk0; rw [A_eq0]; try rfl)
theorem before0_10 (c : Dev nD) (t : Fin cfg0.N) (d) : (dat0 V c).before 10 t d = iblk0 V c 10 t :=
  ((dat0 V c).before_in_eq_fetched 10 rfl (fun _ => rfl) (fun _ _ _ => rfl) (fun t => by rw [after0_10]; unfold Dat.blockOf iblk0; rw [A_eq0]; try rfl) t d).trans
    (by unfold Dat.fetched Dat.blockOf iblk0; rw [A_eq0]; try rfl)
theorem before0_11 (c : Dev nD) (t : Fin cfg0.N) (d) : (dat0 V c).before 11 t d = iblk0 V c 11 t :=
  ((dat0 V c).before_in_eq_fetched 11 rfl (fun _ => rfl) (fun _ _ _ => rfl) (fun t => by rw [after0_11]; unfold Dat.blockOf iblk0; rw [A_eq0]; try rfl) t d).trans
    (by unfold Dat.fetched Dat.blockOf iblk0; rw [A_eq0]; try rfl)
theorem before0_12 (c : Dev nD) (t : Fin cfg0.N) (d) : (dat0 V c).before 12 t d = iblk0 V c 12 t :=
  ((dat0 V c).before_in_eq_fetched 12 rfl (fun _ => rfl) (fun _ _ _ => rfl) (fun t => by rw [after0_12]; unfold Dat.blockOf iblk0; rw [A_eq0]; try rfl) t d).trans
    (by unfold Dat.fetched Dat.blockOf iblk0; rw [A_eq0]; try rfl)
theorem before0_13 (c : Dev nD) (t : Fin cfg0.N) (d) : (dat0 V c).before 13 t d = iblk0 V c 13 t :=
  ((dat0 V c).before_in_eq_fetched 13 rfl (fun _ => rfl) (fun _ _ _ => rfl) (fun t => by rw [after0_13]; unfold Dat.blockOf iblk0; rw [A_eq0]; try rfl) t d).trans
    (by unfold Dat.fetched Dat.blockOf iblk0; rw [A_eq0]; try rfl)
theorem before0_14 (c : Dev nD) (t : Fin cfg0.N) (d) : (dat0 V c).before 14 t d = iblk0 V c 14 t :=
  ((dat0 V c).before_in_eq_fetched 14 rfl (fun _ => rfl) (fun _ _ _ => rfl) (fun t => by rw [after0_14]; unfold Dat.blockOf iblk0; rw [A_eq0]; try rfl) t d).trans
    (by unfold Dat.fetched Dat.blockOf iblk0; rw [A_eq0]; try rfl)
theorem before0_15 (c : Dev nD) (t : Fin cfg0.N) (d) : (dat0 V c).before 15 t d = iblk0 V c 15 t :=
  ((dat0 V c).before_in_eq_fetched 15 rfl (fun _ => rfl) (fun _ _ _ => rfl) (fun t => by rw [after0_15]; unfold Dat.blockOf iblk0; rw [A_eq0]; try rfl) t d).trans
    (by unfold Dat.fetched Dat.blockOf iblk0; rw [A_eq0]; try rfl)
theorem before0_16 (c : Dev nD) (t : Fin cfg0.N) (d) : (dat0 V c).before 16 t d = iblk0 V c 16 t :=
  ((dat0 V c).before_in_eq_fetched 16 rfl (fun _ => rfl) (fun _ _ _ => rfl) (fun t => by rw [after0_16]; unfold Dat.blockOf iblk0; rw [A_eq0]; try rfl) t d).trans
    (by unfold Dat.fetched Dat.blockOf iblk0; rw [A_eq0]; try rfl)
theorem before0_17 (c : Dev nD) (t : Fin cfg0.N) (d) : (dat0 V c).before 17 t d = iblk0 V c 17 t :=
  ((dat0 V c).before_in_eq_fetched 17 rfl (fun _ => rfl) (fun _ _ _ => rfl) (fun t => by rw [after0_17]; unfold Dat.blockOf iblk0; rw [A_eq0]; try rfl) t d).trans
    (by unfold Dat.fetched Dat.blockOf iblk0; rw [A_eq0]; try rfl)
theorem before0_18 (c : Dev nD) (t : Fin cfg0.N) (d) : (dat0 V c).before 18 t d = iblk0 V c 18 t :=
  ((dat0 V c).before_in_eq_fetched 18 rfl (fun _ => rfl) (fun _ _ _ => rfl) (fun t => by rw [after0_18]; unfold Dat.blockOf iblk0; rw [A_eq0]; try rfl) t d).trans
    (by unfold Dat.fetched Dat.blockOf iblk0; rw [A_eq0]; try rfl)
theorem before0_19 (c : Dev nD) (t : Fin cfg0.N) (d) : (dat0 V c).before 19 t d = iblk0 V c 19 t :=
  ((dat0 V c).before_in_eq_fetched 19 rfl (fun _ => rfl) (fun _ _ _ => rfl) (fun t => by rw [after0_19]; unfold Dat.blockOf iblk0; rw [A_eq0]; try rfl) t d).trans
    (by unfold Dat.fetched Dat.blockOf iblk0; rw [A_eq0]; try rfl)
theorem before0_20 (c : Dev nD) (t : Fin cfg0.N) (d) : (dat0 V c).before 20 t d = iblk0 V c 20 t :=
  ((dat0 V c).before_in_eq_fetched 20 rfl (fun _ => rfl) (fun _ _ _ => rfl) (fun t => by rw [after0_20]; unfold Dat.blockOf iblk0; rw [A_eq0]; try rfl) t d).trans
    (by unfold Dat.fetched Dat.blockOf iblk0; rw [A_eq0]; try rfl)
theorem before0_21 (c : Dev nD) (t : Fin cfg0.N) (d) : (dat0 V c).before 21 t d = iblk0 V c 21 t :=
  ((dat0 V c).before_in_eq_fetched 21 rfl (fun _ => rfl) (fun _ _ _ => rfl) (fun t => by rw [after0_21]; unfold Dat.blockOf iblk0; rw [A_eq0]; try rfl) t d).trans
    (by unfold Dat.fetched Dat.blockOf iblk0; rw [A_eq0]; try rfl)
theorem before0_22 (c : Dev nD) (t : Fin cfg0.N) (d) : (dat0 V c).before 22 t d = iblk0 V c 22 t :=
  ((dat0 V c).before_in_eq_fetched 22 rfl (fun _ => rfl) (fun _ _ _ => rfl) (fun t => by rw [after0_22]; unfold Dat.blockOf iblk0; rw [A_eq0]; try rfl) t d).trans
    (by unfold Dat.fetched Dat.blockOf iblk0; rw [A_eq0]; try rfl)
theorem before0_23 (c : Dev nD) (t : Fin cfg0.N) (d) : (dat0 V c).before 23 t d = iblk0 V c 23 t :=
  ((dat0 V c).before_in_eq_fetched 23 rfl (fun _ => rfl) (fun _ _ _ => rfl) (fun t => by rw [after0_23]; unfold Dat.blockOf iblk0; rw [A_eq0]; try rfl) t d).trans
    (by unfold Dat.fetched Dat.blockOf iblk0; rw [A_eq0]; try rfl)

/-! ## The body obligation, at a generic point -/

/-- The current staging memrefs are whole buffers. -/
theorem hst0_0 (t : Fin cfg0.N) : (win0_0.stage (cfg0.slots t 0)).IsWhole := hstage0_0 ((cfg0.slots t 0).cast nbuf0_0)
theorem hst0_1 (t : Fin cfg0.N) : (win0_1.stage (cfg0.slots t 1)).IsWhole := hstage0_1 ((cfg0.slots t 1).cast nbuf0_1)
theorem hst0_2 (t : Fin cfg0.N) : (win0_2.stage (cfg0.slots t 2)).IsWhole := hstage0_2 ((cfg0.slots t 2).cast nbuf0_2)
theorem hst0_3 (t : Fin cfg0.N) : (win0_3.stage (cfg0.slots t 3)).IsWhole := hstage0_3 ((cfg0.slots t 3).cast nbuf0_3)
theorem hst0_4 (t : Fin cfg0.N) : (win0_4.stage (cfg0.slots t 4)).IsWhole := hstage0_4 ((cfg0.slots t 4).cast nbuf0_4)
theorem hst0_5 (t : Fin cfg0.N) : (win0_5.stage (cfg0.slots t 5)).IsWhole := hstage0_5 ((cfg0.slots t 5).cast nbuf0_5)
theorem hst0_6 (t : Fin cfg0.N) : (win0_6.stage (cfg0.slots t 6)).IsWhole := hstage0_6 ((cfg0.slots t 6).cast nbuf0_6)
theorem hst0_7 (t : Fin cfg0.N) : (win0_7.stage (cfg0.slots t 7)).IsWhole := hstage0_7 ((cfg0.slots t 7).cast nbuf0_7)
theorem hst0_8 (t : Fin cfg0.N) : (win0_8.stage (cfg0.slots t 8)).IsWhole := hstage0_8 ((cfg0.slots t 8).cast nbuf0_8)
theorem hst0_9 (t : Fin cfg0.N) : (win0_9.stage (cfg0.slots t 9)).IsWhole := hstage0_9 ((cfg0.slots t 9).cast nbuf0_9)
theorem hst0_10 (t : Fin cfg0.N) : (win0_10.stage (cfg0.slots t 10)).IsWhole := hstage0_10 ((cfg0.slots t 10).cast nbuf0_10)
theorem hst0_11 (t : Fin cfg0.N) : (win0_11.stage (cfg0.slots t 11)).IsWhole := hstage0_11 ((cfg0.slots t 11).cast nbuf0_11)
theorem hst0_12 (t : Fin cfg0.N) : (win0_12.stage (cfg0.slots t 12)).IsWhole := hstage0_12 ((cfg0.slots t 12).cast nbuf0_12)
theorem hst0_13 (t : Fin cfg0.N) : (win0_13.stage (cfg0.slots t 13)).IsWhole := hstage0_13 ((cfg0.slots t 13).cast nbuf0_13)
theorem hst0_14 (t : Fin cfg0.N) : (win0_14.stage (cfg0.slots t 14)).IsWhole := hstage0_14 ((cfg0.slots t 14).cast nbuf0_14)
theorem hst0_15 (t : Fin cfg0.N) : (win0_15.stage (cfg0.slots t 15)).IsWhole := hstage0_15 ((cfg0.slots t 15).cast nbuf0_15)
theorem hst0_16 (t : Fin cfg0.N) : (win0_16.stage (cfg0.slots t 16)).IsWhole := hstage0_16 ((cfg0.slots t 16).cast nbuf0_16)
theorem hst0_17 (t : Fin cfg0.N) : (win0_17.stage (cfg0.slots t 17)).IsWhole := hstage0_17 ((cfg0.slots t 17).cast nbuf0_17)
theorem hst0_18 (t : Fin cfg0.N) : (win0_18.stage (cfg0.slots t 18)).IsWhole := hstage0_18 ((cfg0.slots t 18).cast nbuf0_18)
theorem hst0_19 (t : Fin cfg0.N) : (win0_19.stage (cfg0.slots t 19)).IsWhole := hstage0_19 ((cfg0.slots t 19).cast nbuf0_19)
theorem hst0_20 (t : Fin cfg0.N) : (win0_20.stage (cfg0.slots t 20)).IsWhole := hstage0_20 ((cfg0.slots t 20).cast nbuf0_20)
theorem hst0_21 (t : Fin cfg0.N) : (win0_21.stage (cfg0.slots t 21)).IsWhole := hstage0_21 ((cfg0.slots t 21).cast nbuf0_21)
theorem hst0_22 (t : Fin cfg0.N) : (win0_22.stage (cfg0.slots t 22)).IsWhole := hstage0_22 ((cfg0.slots t 22).cast nbuf0_22)
theorem hst0_23 (t : Fin cfg0.N) : (win0_23.stage (cfg0.slots t 23)).IsWhole := hstage0_23 ((cfg0.slots t 23).cast nbuf0_23)
theorem hst0_24 (t : Fin cfg0.N) : (win0_24.stage (cfg0.slots t 24)).IsWhole := hstage0_24 ((cfg0.slots t 24).cast nbuf0_24)

section Whole
variable {sp : Space} {S : Shape} {e : EltTy}
theorem owns_pt (c : Dev nD) (M : Memref sig .tc sp S e) (h : M.IsWhole) (X : S.Idx → Elt F e) :
    (owns (c : Thread nD τ) M fullShare X : sProp 𝕄) ⊢ (M.view.loc (c : Thread nD τ) ↦{fullShare} h.unread X) :=
  Entails.of_eq (owns_eq_pt c M h X)
theorem pt_owns (c : Dev nD) (M : Memref sig .tc sp S e) (h : M.IsWhole) (X : S.Idx → Elt F e) :
    (M.view.loc (c : Thread nD τ) ↦{fullShare} h.unread X : sProp 𝕄) ⊢ owns (c : Thread nD τ) M fullShare X :=
  Entails.of_eq (owns_eq_pt c M h X).symm
theorem pt_owns_read (c : Dev nD) (M : Memref sig .tc sp S e) (h : M.IsWhole) (f : Buf (Elt F) (M.view.loc (c : Thread nD τ))) :
    (M.view.loc (c : Thread nD τ) ↦{fullShare} f : sProp 𝕄) ⊢ owns (c : Thread nD τ) M fullShare (M.view.read (Elt F) f) :=
  Entails.of_eq (pt_eq_owns c M h f)
end Whole

/-- What the body is called with at point `t`: the invariant, the core's `owes`, and the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d))
    ∗ (∃ d, owns (c : Thread nD τ) (st0_16 t) fullShare ((dat0 V c).before 16 t d))
    ∗ (∃ d, owns (c : Thread nD τ) (st0_17 t) fullShare ((dat0 V c).before 17 t d))
    ∗ (∃ d, owns (c : Thread nD τ) (st0_18 t) fullShare ((dat0 V c).before 18 t d))
    ∗ (∃ d, owns (c : Thread nD τ) (st0_19 t) fullShare ((dat0 V c).before 19 t d))
    ∗ (∃ d, owns (c : Thread nD τ) (st0_20 t) fullShare ((dat0 V c).before 20 t d))
    ∗ (∃ d, owns (c : Thread nD τ) (st0_21 t) fullShare ((dat0 V c).before 21 t d))
    ∗ (∃ d, owns (c : Thread nD τ) (st0_22 t) fullShare ((dat0 V c).before 22 t d))
    ∗ (∃ d, owns (c : Thread nD τ) (st0_23 t) fullShare ((dat0 V c).before 23 t d))
    ∗ (∃ d, owns (c : Thread nD τ) (st0_24 t) fullShare ((dat0 V c).before 24 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t)
    ∗ owns (c : Thread nD τ) (st0_16 t) fullShare ((dat0 V c).after 16 t)
    ∗ owns (c : Thread nD τ) (st0_17 t) fullShare ((dat0 V c).after 17 t)
    ∗ owns (c : Thread nD τ) (st0_18 t) fullShare ((dat0 V c).after 18 t)
    ∗ owns (c : Thread nD τ) (st0_19 t) fullShare ((dat0 V c).after 19 t)
    ∗ owns (c : Thread nD τ) (st0_20 t) fullShare ((dat0 V c).after 20 t)
    ∗ owns (c : Thread nD τ) (st0_21 t) fullShare ((dat0 V c).after 21 t)
    ∗ owns (c : Thread nD τ) (st0_22 t) fullShare ((dat0 V c).after 22 t)
    ∗ owns (c : Thread nD τ) (st0_23 t) fullShare ((dat0 V c).after 23 t)
    ∗ owns (c : Thread nD τ) (st0_24 t) fullShare ((dat0 V c).after 24 t))

set_option maxHeartbeats 4000000 in
/-- The body at any point: each input's memref holds its block (`before0_W`), so its buffer holds the raw contents that
    read the block; the scratch buffers come out of the invariant at something; the body's run applies, and its post
    is put back: the inputs as they were, the output's buffer at the run's witness, the scratch buffers into the
    invariant again. The generator register and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23]
  rw [show (dat0 V c).Φ t.succ = Pipeline.ΦA spec0 c from rfl, show (dat0 V c).Φ t.castSucc = Pipeline.ΦA spec0 c from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24]
  unfold Pipeline.ΦA outBlk0; rw [scopedRest0_eq]
  iintro ⟨⟨⟨⟨%g0, G0⟩, ⟨%g1, G1⟩, ⟨%g2, G2⟩, ⟨%g3, G3⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  ihave H0 := (owns_pt c (win0_0.stage (cfg0.slots t 0)) (hst0_0 t) _) $$ H0
  ihave H1 := (owns_pt c (win0_1.stage (cfg0.slots t 1)) (hst0_1 t) _) $$ H1
  ihave H2 := (owns_pt c (win0_2.stage (cfg0.slots t 2)) (hst0_2 t) _) $$ H2
  ihave H3 := (owns_pt c (win0_3.stage (cfg0.slots t 3)) (hst0_3 t) _) $$ H3
  ihave H4 := (owns_pt c (win0_4.stage (cfg0.slots t 4)) (hst0_4 t) _) $$ H4
  ihave H5 := (owns_pt c (win0_5.stage (cfg0.slots t 5)) (hst0_5 t) _) $$ H5
  ihave H6 := (owns_pt c (win0_6.stage (cfg0.slots t 6)) (hst0_6 t) _) $$ H6
  ihave H7 := (owns_pt c (win0_7.stage (cfg0.slots t 7)) (hst0_7 t) _) $$ H7
  ihave H8 := (owns_pt c (win0_8.stage (cfg0.slots t 8)) (hst0_8 t) _) $$ H8
  ihave H9 := (owns_pt c (win0_9.stage (cfg0.slots t 9)) (hst0_9 t) _) $$ H9
  ihave H10 := (owns_pt c (win0_10.stage (cfg0.slots t 10)) (hst0_10 t) _) $$ H10
  ihave H11 := (owns_pt c (win0_11.stage (cfg0.slots t 11)) (hst0_11 t) _) $$ H11
  ihave H12 := (owns_pt c (win0_12.stage (cfg0.slots t 12)) (hst0_12 t) _) $$ H12
  ihave H13 := (owns_pt c (win0_13.stage (cfg0.slots t 13)) (hst0_13 t) _) $$ H13
  ihave H14 := (owns_pt c (win0_14.stage (cfg0.slots t 14)) (hst0_14 t) _) $$ H14
  ihave H15 := (owns_pt c (win0_15.stage (cfg0.slots t 15)) (hst0_15 t) _) $$ H15
  ihave H16 := (owns_pt c (win0_16.stage (cfg0.slots t 16)) (hst0_16 t) _) $$ H16
  ihave H17 := (owns_pt c (win0_17.stage (cfg0.slots t 17)) (hst0_17 t) _) $$ H17
  ihave H18 := (owns_pt c (win0_18.stage (cfg0.slots t 18)) (hst0_18 t) _) $$ H18
  ihave H19 := (owns_pt c (win0_19.stage (cfg0.slots t 19)) (hst0_19 t) _) $$ H19
  ihave H20 := (owns_pt c (win0_20.stage (cfg0.slots t 20)) (hst0_20 t) _) $$ H20
  ihave H21 := (owns_pt c (win0_21.stage (cfg0.slots t 21)) (hst0_21 t) _) $$ H21
  ihave H22 := (owns_pt c (win0_22.stage (cfg0.slots t 22)) (hst0_22 t) _) $$ H22
  ihave H23 := (owns_pt c (win0_23.stage (cfg0.slots t 23)) (hst0_23 t) _) $$ H23
  ihave H24 := (owns_pt c (win0_24.stage (cfg0.slots t 24)) (hst0_24 t) _) $$ H24
  iapply ((runAt0 V c t).2 _ g0 g1 g2 g3 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [G0]; · iexact G0
  isplitl [G1]; · iexact G1
  isplitl [G2]; · iexact G2
  isplitl [G3]; · iexact G3
  iintro ⟨H0, H1, H2, H3, H4, H5, H6, H7, H8, H9, H10, H11, H12, H13, H14, H15, H16, H17, H18, H19, H20, H21, H22, H23, H24, G0, G1, G2, G3⟩
  isplitl [G0 G1 G2 G3 Hr]
  · isplitr [Hr]
    · isplitl [G0]; · iexact G0
      isplitl [G1]; · iexact G1
      isplitl [G2]; · iexact G2
      iexact G3
    · iexact Hr
  isplitl [Ho]; · iexact Ho
  isplitl [H0]; · iapply (pt_owns c (win0_0.stage (cfg0.slots t 0)) (hst0_0 t) _); iexact H0
  isplitl [H1]; · iapply (pt_owns c (win0_1.stage (cfg0.slots t 1)) (hst0_1 t) _); iexact H1
  isplitl [H2]; · iapply (pt_owns c (win0_2.stage (cfg0.slots t 2)) (hst0_2 t) _); iexact H2
  isplitl [H3]; · iapply (pt_owns c (win0_3.stage (cfg0.slots t 3)) (hst0_3 t) _); iexact H3
  isplitl [H4]; · iapply (pt_owns c (win0_4.stage (cfg0.slots t 4)) (hst0_4 t) _); iexact H4
  isplitl [H5]; · iapply (pt_owns c (win0_5.stage (cfg0.slots t 5)) (hst0_5 t) _); iexact H5
  isplitl [H6]; · iapply (pt_owns c (win0_6.stage (cfg0.slots t 6)) (hst0_6 t) _); iexact H6
  isplitl [H7]; · iapply (pt_owns c (win0_7.stage (cfg0.slots t 7)) (hst0_7 t) _); iexact H7
  isplitl [H8]; · iapply (pt_owns c (win0_8.stage (cfg0.slots t 8)) (hst0_8 t) _); iexact H8
  isplitl [H9]; · iapply (pt_owns c (win0_9.stage (cfg0.slots t 9)) (hst0_9 t) _); iexact H9
  isplitl [H10]; · iapply (pt_owns c (win0_10.stage (cfg0.slots t 10)) (hst0_10 t) _); iexact H10
  isplitl [H11]; · iapply (pt_owns c (win0_11.stage (cfg0.slots t 11)) (hst0_11 t) _); iexact H11
  isplitl [H12]; · iapply (pt_owns c (win0_12.stage (cfg0.slots t 12)) (hst0_12 t) _); iexact H12
  isplitl [H13]; · iapply (pt_owns c (win0_13.stage (cfg0.slots t 13)) (hst0_13 t) _); iexact H13
  isplitl [H14]; · iapply (pt_owns c (win0_14.stage (cfg0.slots t 14)) (hst0_14 t) _); iexact H14
  isplitl [H15]; · iapply (pt_owns c (win0_15.stage (cfg0.slots t 15)) (hst0_15 t) _); iexact H15
  isplitl [H16]; · iapply (pt_owns c (win0_16.stage (cfg0.slots t 16)) (hst0_16 t) _); iexact H16
  isplitl [H17]; · iapply (pt_owns c (win0_17.stage (cfg0.slots t 17)) (hst0_17 t) _); iexact H17
  isplitl [H18]; · iapply (pt_owns c (win0_18.stage (cfg0.slots t 18)) (hst0_18 t) _); iexact H18
  isplitl [H19]; · iapply (pt_owns c (win0_19.stage (cfg0.slots t 19)) (hst0_19 t) _); iexact H19
  isplitl [H20]; · iapply (pt_owns c (win0_20.stage (cfg0.slots t 20)) (hst0_20 t) _); iexact H20
  isplitl [H21]; · iapply (pt_owns c (win0_21.stage (cfg0.slots t 21)) (hst0_21 t) _); iexact H21
  isplitl [H22]; · iapply (pt_owns c (win0_22.stage (cfg0.slots t 22)) (hst0_22 t) _); iexact H22
  isplitl [H23]; · iapply (pt_owns c (win0_23.stage (cfg0.slots t 23)) (hst0_23 t) _); iexact H23
  iapply (pt_owns_read c (win0_24.stage (cfg0.slots t 24)) (hst0_24 t) _); iexact H24

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

/-! # The run: @main's segments from the launch to the return

## The buffer contents at each segment boundary: a fold through @main -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first stretch of host operations (the region's entry). -/
abbrev W1 : Dev nD → Valuation τ sig (Elt F) := fun c => StableHlo.after hostOps0 (W0 m ρ c)
/-- The same read at the TensorCore's references (what the region's proof data take). -/
abbrev V1 : (c : Dev nD) → (b : Ref sig .tc) → Buf (Elt F) ((c : Thread nD τ).loc b) := fun c b => W1 m ρ c b
/-- At the region's exit: its arrays at what the pipeline leaves (the inputs as entered, the output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (the region's exit contents). -/
abbrev V2 : (c : Dev nD) → (b : Ref sig .tc) → Buf (Elt F) ((c : Thread nD τ).loc b) := fun c b => W2 m ρ c b
/-- At the region's exit each of its arrays holds what the pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the last stretch of host operations (the return). -/
abbrev W3 : Dev nD → Valuation τ sig (Elt F) := fun c => StableHlo.after hostOps1 (W2 m ρ c)

/-! ## What the host stretches write -/

/-- No operation of the first stretch allocates a buffer. -/
theorem hostOps0_fresh : (hostOps0 : List (HloOp τ sig (Elt F))).Forall fun op => op.fresh = ∅ := by
  simp only [List.Forall]; repeat' constructor
/-- No operation of the last stretch allocates a buffer. -/
theorem hostOps1_fresh : (hostOps1 : List (HloOp τ sig (Elt F))).Forall fun op => op.fresh = ∅ := by
  simp only [List.Forall]; repeat' constructor
/-- The references the first stretch's operations write, -/
abbrev hostOps0_W : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_v22, main_v23]
theorem hostOps0_writes : (hostOps0 : List (HloOp τ sig (Elt F))).Forall fun op => op.writes ⊆ (hostOps0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- and the last stretch's. -/
abbrev hostOps1_W : List (Ref sig .tc) := [main_v25]
theorem hostOps1_writes : (hostOps1 : List (HloOp τ sig (Elt F))).Forall fun op => op.writes ⊆ (hostOps1_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-! ## What each item leaves unchanged -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
/-- Every window but the last is an input. -/
theorem isOut0 : ∀ w : Fin cfg0.W, w ≠ 24 → (cfg0.win w).isOut = false := by decide
/-- An input window's array leaves the region as it entered: an input array is never written. -/
theorem W2_of_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))
/-- Every buffer but the output window's array leaves the region as it entered. -/
theorem W2_keep (c : Dev nD) (b : Ref sig .tc) (hb : Pipeline.arrRef spec0 24 ≠ b) :
    W2 m ρ c (Proc.devRef .tc b) = W1 m ρ c (Proc.devRef .tc b) := by
  by_cases h : ∃ w, Pipeline.arrRef spec0 w = b
  · obtain ⟨w, rfl⟩ := h
    exact W2_of_in m ρ c w (isOut0 w fun e => hb (e ▸ rfl))
  · exact W2_of_ne m ρ c b fun w e => h ⟨w, e⟩
/-- A reference no host operation writes and that is not the output window's array reaches the end as launched. -/
theorem W3_keep (c : Dev nD) (b : Ref sig .tc) (h0 : b ∉ hostOps0_W) (h1 : b ∉ hostOps1_W) (h2 : Pipeline.arrRef spec0 24 ≠ b) :
    W3 m ρ c (Proc.devRef .tc b) = m ((c : Thread nD τ).loc b) :=
  (W3_of m ρ c b h1).trans <| (W2_keep m ρ c b h2).trans <| (W1_of m ρ c b h0).trans rfl

/-! ### The arguments end as launched -/

theorem W3_main_arg0 (c : Dev nD) : W3 m ρ c (Proc.devRef .tc main_arg0) = m ((c : Thread nD τ).loc main_arg0) :=
  W3_keep m ρ c main_arg0 (by decide) (by decide) (by decide)
theorem W3_main_arg1 (c : Dev nD) : W3 m ρ c (Proc.devRef .tc main_arg1) = m ((c : Thread nD τ).loc main_arg1) :=
  W3_keep m ρ c main_arg1 (by decide) (by decide) (by decide)
theorem W3_main_arg2 (c : Dev nD) : W3 m ρ c (Proc.devRef .tc main_arg2) = m ((c : Thread nD τ).loc main_arg2) :=
  W3_keep m ρ c main_arg2 (by decide) (by decide) (by decide)
theorem W3_main_arg3 (c : Dev nD) : W3 m ρ c (Proc.devRef .tc main_arg3) = m ((c : Thread nD τ).loc main_arg3) :=
  W3_keep m ρ c main_arg3 (by decide) (by decide) (by decide)
theorem W3_main_arg4 (c : Dev nD) : W3 m ρ c (Proc.devRef .tc main_arg4) = m ((c : Thread nD τ).loc main_arg4) :=
  W3_keep m ρ c main_arg4 (by decide) (by decide) (by decide)
theorem W3_main_arg5 (c : Dev nD) : W3 m ρ c (Proc.devRef .tc main_arg5) = m ((c : Thread nD τ).loc main_arg5) :=
  W3_keep m ρ c main_arg5 (by decide) (by decide) (by decide)
theorem W3_main_arg6 (c : Dev nD) : W3 m ρ c (Proc.devRef .tc main_arg6) = m ((c : Thread nD τ).loc main_arg6) :=
  W3_keep m ρ c main_arg6 (by decide) (by decide) (by decide)
theorem W3_main_arg7 (c : Dev nD) : W3 m ρ c (Proc.devRef .tc main_arg7) = m ((c : Thread nD τ).loc main_arg7) :=
  W3_keep m ρ c main_arg7 (by decide) (by decide) (by decide)
theorem W3_main_arg8 (c : Dev nD) : W3 m ρ c (Proc.devRef .tc main_arg8) = m ((c : Thread nD τ).loc main_arg8) :=
  W3_keep m ρ c main_arg8 (by decide) (by decide) (by decide)
theorem W3_main_arg9 (c : Dev nD) : W3 m ρ c (Proc.devRef .tc main_arg9) = m ((c : Thread nD τ).loc main_arg9) :=
  W3_keep m ρ c main_arg9 (by decide) (by decide) (by decide)
theorem W3_main_arg10 (c : Dev nD) : W3 m ρ c (Proc.devRef .tc main_arg10) = m ((c : Thread nD τ).loc main_arg10) :=
  W3_keep m ρ c main_arg10 (by decide) (by decide) (by decide)
theorem W3_main_arg11 (c : Dev nD) : W3 m ρ c (Proc.devRef .tc main_arg11) = m ((c : Thread nD τ).loc main_arg11) :=
  W3_keep m ρ c main_arg11 (by decide) (by decide) (by decide)
theorem W3_main_arg12 (c : Dev nD) : W3 m ρ c (Proc.devRef .tc main_arg12) = m ((c : Thread nD τ).loc main_arg12) :=
  W3_keep m ρ c main_arg12 (by decide) (by decide) (by decide)
theorem W3_main_arg13 (c : Dev nD) : W3 m ρ c (Proc.devRef .tc main_arg13) = m ((c : Thread nD τ).loc main_arg13) :=
  W3_keep m ρ c main_arg13 (by decide) (by decide) (by decide)
theorem W3_main_arg14 (c : Dev nD) : W3 m ρ c (Proc.devRef .tc main_arg14) = m ((c : Thread nD τ).loc main_arg14) :=
  W3_keep m ρ c main_arg14 (by decide) (by decide) (by decide)
theorem W3_main_arg15 (c : Dev nD) : W3 m ρ c (Proc.devRef .tc main_arg15) = m ((c : Thread nD τ).loc main_arg15) :=
  W3_keep m ρ c main_arg15 (by decide) (by decide) (by decide)
theorem W3_main_arg16 (c : Dev nD) : W3 m ρ c (Proc.devRef .tc main_arg16) = m ((c : Thread nD τ).loc main_arg16) :=
  W3_keep m ρ c main_arg16 (by decide) (by decide) (by decide)
theorem W3_main_arg17 (c : Dev nD) : W3 m ρ c (Proc.devRef .tc main_arg17) = m ((c : Thread nD τ).loc main_arg17) :=
  W3_keep m ρ c main_arg17 (by decide) (by decide) (by decide)
theorem W3_main_arg18 (c : Dev nD) : W3 m ρ c (Proc.devRef .tc main_arg18) = m ((c : Thread nD τ).loc main_arg18) :=
  W3_keep m ρ c main_arg18 (by decide) (by decide) (by decide)
theorem W3_main_arg19 (c : Dev nD) : W3 m ρ c (Proc.devRef .tc main_arg19) = m ((c : Thread nD τ).loc main_arg19) :=
  W3_keep m ρ c main_arg19 (by decide) (by decide) (by decide)
theorem W3_main_arg20 (c : Dev nD) : W3 m ρ c (Proc.devRef .tc main_arg20) = m ((c : Thread nD τ).loc main_arg20) :=
  W3_keep m ρ c main_arg20 (by decide) (by decide) (by decide)
theorem W3_main_arg21 (c : Dev nD) : W3 m ρ c (Proc.devRef .tc main_arg21) = m ((c : Thread nD τ).loc main_arg21) :=
  W3_keep m ρ c main_arg21 (by decide) (by decide) (by decide)
theorem W3_main_arg22 (c : Dev nD) : W3 m ρ c (Proc.devRef .tc main_arg22) = m ((c : Thread nD τ).loc main_arg22) :=
  W3_keep m ρ c main_arg22 (by decide) (by decide) (by decide)
theorem W3_main_arg23 (c : Dev nD) : W3 m ρ c (Proc.devRef .tc main_arg23) = m ((c : Thread nD τ).loc main_arg23) :=
  W3_keep m ρ c main_arg23 (by decide) (by decide) (by decide)
theorem W3_main_arg24 (c : Dev nD) : W3 m ρ c (Proc.devRef .tc main_arg24) = m ((c : Thread nD τ).loc main_arg24) :=
  W3_keep m ρ c main_arg24 (by decide) (by decide) (by decide)
theorem W3_main_arg25 (c : Dev nD) : W3 m ρ c (Proc.devRef .tc main_arg25) = m ((c : Thread nD τ).loc main_arg25) :=
  W3_keep m ρ c main_arg25 (by decide) (by decide) (by decide)

/-! ## The proof data family and the thread state -/

/-- The prefetched tables' admissible contents: the pipeline has no table. -/
abbrev adm : (p : Fin 1) → (pcfgs (F := F) p).Adm := fun p => (cfgs p).toPCfg_adm
/-- The pipeline's proof data at its region's entry contents. -/
def pdats : (p : Fin 1) → (c : Dev nD) → Dat τ (Elt F) Unit ℕ (UR sig nD τ) ℕ (Pipeline.pin (pcfgs (F := F)) adm p) c
  | ⟨0, _⟩ => fun c => dat0 (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W3 m ρ c) ∗ ∃ r, prngReg c r)

/-! ## The region as a segment -/

set_option backward.isDefEq.respectTransparency.types false in
/-- The region over the thread state: entered from every unscoped buffer at `W1`, left at `W2`. Its arrays split out
    of the unscoped buffers and are put back at the exit contents; the generator register goes into the invariant and
    comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's three segments in order: the first host stretch from the launch contents, the region, the last host stretch. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]
/-- @main is the run of the segments. -/
theorem main_run (c : Dev nD) : main (F := F) c = Pipeline.Seg.run (segs m ρ) := (main_chain c).trans (by chain_rfl)

set_option backward.isDefEq.respectTransparency.types false in
/-- At the compiled mesh, from any memory with zero counters, every weakly fair execution of @main on the TensorCores
    terminates, nothing faulting, and every final state has every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c =>
      show iprop(StableHlo.held (c : Thread nD τ) (Pipeline.ucRefs τ sig) (W3 m ρ c) ∗ (∃ r, prngReg c r) ∗ ∃ W, owes (c : Thread nD τ) (0 : CellTallies nD τ sig Unit) W)
        ⊢ iprop(Tₙ m ρ c ∗ ∃ W, owes (c : Thread nD τ) (0 : CellTallies nD τ sig Unit) W) from by
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- Every weakly fair execution of @main terminates, nothing faulting, and every final state has the argument arrays as
    launched: each is an unscoped buffer the last thread state holds, at contents the fold walks back to the launch
    memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun r h c => ⟨(h c _ (mem_uc main_arg0 (by decide))).trans (W3_main_arg0 m ρ c),
    (h c _ (mem_uc main_arg1 (by decide))).trans (W3_main_arg1 m ρ c),
    (h c _ (mem_uc main_arg2 (by decide))).trans (W3_main_arg2 m ρ c),
    (h c _ (mem_uc main_arg3 (by decide))).trans (W3_main_arg3 m ρ c),
    (h c _ (mem_uc main_arg4 (by decide))).trans (W3_main_arg4 m ρ c),
    (h c _ (mem_uc main_arg5 (by decide))).trans (W3_main_arg5 m ρ c),
    (h c _ (mem_uc main_arg6 (by decide))).trans (W3_main_arg6 m ρ c),
    (h c _ (mem_uc main_arg7 (by decide))).trans (W3_main_arg7 m ρ c),
    (h c _ (mem_uc main_arg8 (by decide))).trans (W3_main_arg8 m ρ c),
    (h c _ (mem_uc main_arg9 (by decide))).trans (W3_main_arg9 m ρ c),
    (h c _ (mem_uc main_arg10 (by decide))).trans (W3_main_arg10 m ρ c),
    (h c _ (mem_uc main_arg11 (by decide))).trans (W3_main_arg11 m ρ c),
    (h c _ (mem_uc main_arg12 (by decide))).trans (W3_main_arg12 m ρ c),
    (h c _ (mem_uc main_arg13 (by decide))).trans (W3_main_arg13 m ρ c),
    (h c _ (mem_uc main_arg14 (by decide))).trans (W3_main_arg14 m ρ c),
    (h c _ (mem_uc main_arg15 (by decide))).trans (W3_main_arg15 m ρ c),
    (h c _ (mem_uc main_arg16 (by decide))).trans (W3_main_arg16 m ρ c),
    (h c _ (mem_uc main_arg17 (by decide))).trans (W3_main_arg17 m ρ c),
    (h c _ (mem_uc main_arg18 (by decide))).trans (W3_main_arg18 m ρ c),
    (h c _ (mem_uc main_arg19 (by decide))).trans (W3_main_arg19 m ρ c),
    (h c _ (mem_uc main_arg20 (by decide))).trans (W3_main_arg20 m ρ c),
    (h c _ (mem_uc main_arg21 (by decide))).trans (W3_main_arg21 m ρ c),
    (h c _ (mem_uc main_arg22 (by decide))).trans (W3_main_arg22 m ρ c),
    (h c _ (mem_uc main_arg23 (by decide))).trans (W3_main_arg23 m ρ c),
    (h c _ (mem_uc main_arg24 (by decide))).trans (W3_main_arg24 m ρ c),
    (h c _ (mem_uc main_arg25 (by decide))).trans (W3_main_arg25 m ρ c)⟩) (run_main m ρ)

end Cert.Kernel.Run

end
-- ==== Proof.KernelIdealBody.lean ====
/-
  The fused kernel's body, run once at a symbolic grid point and symbolic buffer contents: it zero-fills its halo scratch
  buffers, stores the interiors, reads the shifted windows back, and writes the whole output block; every load lies in a
  buffer the body holds, every store inside its buffer. What the output block holds afterwards is a term over the twenty-four
  input blocks alone.
-/
import proofs.«120724_g2000406006432562_pallasbulk_1270_2_alg».proof.Proof.Gen.KernelIdeal
import proofs.«120724_g2000406006432562_pallasbulk_1270_2_alg».proof.Proof.Gen.KernelIdeal.Skeleton
import Idealize.ShloMosaic.Lib.Tactic

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the rounds library's, for the pipeline's staging cells (the kernel has no cell of its own). -/
abbrev UR (nD : Nat) (τ : Topo) : Type := URounds (GSem nD τ sig) Unit

local notation "𝕄" => MT nD τ sig Unit (Elt F) ℕ (UR nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

set_option maxHeartbeats 8000000 in
/-- What the body leaves in the output block, as a term over the input blocks' contents alone, WITH the proof that from
    every buffer held whole — the inputs at `f`, the output block and the scratch buffers at anything — the kernel runs to its
    return without a fault, handing back the inputs as they were, the output block at the witness, the scratch at something. -/
noncomputable def kernelRun (c : Dev nD) (i : grid0.Coords)
    (M0 : Memref sig .tc .vmem S1x32x32x128 .f32) (h0 : M0.IsWhole)
    (M1 : Memref sig .tc .vmem S1x1x128 .f32) (h1 : M1.IsWhole)
    (M2 : Memref sig .tc .vmem S5x5x128 .f32) (h2 : M2.IsWhole)
    (M3 : Memref sig .tc .vmem S128x384 .bf16) (h3 : M3.IsWhole)
    (M4 : Memref sig .tc .vmem S1x384 .f32) (h4 : M4.IsWhole)
    (M5 : Memref sig .tc .vmem S3x3x128 .f32) (h5 : M5.IsWhole)
    (M6 : Memref sig .tc .vmem S1x1x128 .f32) (h6 : M6.IsWhole)
    (M7 : Memref sig .tc .vmem S128x128 .bf16) (h7 : M7.IsWhole)
    (M8 : Memref sig .tc .vmem S1x128 .f32) (h8 : M8.IsWhole)
    (M9 : Memref sig .tc .vmem S1x1x128 .f32) (h9 : M9.IsWhole)
    (M10 : Memref sig .tc .vmem S1x1x128 .f32) (h10 : M10.IsWhole)
    (M11 : Memref sig .tc .vmem S5x5x128 .f32) (h11 : M11.IsWhole)
    (M12 : Memref sig .tc .vmem S128x512 .bf16) (h12 : M12.IsWhole)
    (M13 : Memref sig .tc .vmem S512x128 .bf16) (h13 : M13.IsWhole)
    (M14 : Memref sig .tc .vmem S128x128 .bf16) (h14 : M14.IsWhole)
    (M15 : Memref sig .tc .vmem S1x1x128 .f32) (h15 : M15.IsWhole)
    (M16 : Memref sig .tc .vmem S3x3x128x128 .bf16) (h16 : M16.IsWhole)
    (M17 : Memref sig .tc .vmem S3x3x128x128 .bf16) (h17 : M17.IsWhole)
    (M18 : Memref sig .tc .vmem S1x128 .f32) (h18 : M18.IsWhole)
    (M19 : Memref sig .tc .vmem S3x3x128x128 .bf16) (h19 : M19.IsWhole)
    (M20 : Memref sig .tc .vmem S1x128 .f32) (h20 : M20.IsWhole)
    (M21 : Memref sig .tc .vmem S128x128 .bf16) (h21 : M21.IsWhole)
    (M22 : Memref sig .tc .vmem S128x128 .bf16) (h22 : M22.IsWhole)
    (M23 : Memref sig .tc .vmem S1x128 .f32) (h23 : M23.IsWhole)
    (M24 : Memref sig .tc .vmem S1x32x32x128 .f32) (h24 : M24.IsWhole)
    (M25 : Memref sig .tc .vmem S36x36x128 .f32) (h25 : M25.IsWhole)
    (M26 : Memref sig .tc .vmem S34x34x128 .bf16) (h26 : M26.IsWhole)
    (M27 : Memref sig .tc .vmem S16x10x10x128 .f32) (h27 : M27.IsWhole)
    (M28 : Memref sig .tc .vmem S32x32x128 .f32) (h28 : M28.IsWhole)
    (f0 : Bf (F := F) c M0) (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16) (f17 : Bf (F := F) c M17) (f18 : Bf (F := F) c M18) (f19 : Bf (F := F) c M19) (f20 : Bf (F := F) c M20) (f21 : Bf (F := F) c M21) (f22 : Bf (F := F) c M22) (f23 : Bf (F := F) c M23) :
    { W : Bf (F := F) c M24 //
      ∀ (f24 : Bf (F := F) c M24) (f25 : Bf (F := F) c M25) (f26 : Bf (F := F) c M26) (f27 : Bf (F := F) c M27) (f28 : Bf (F := F) c M28) (E : Set ℕ) (Q : PUnit → sProp 𝕄),
        iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17 ∗ pt c M18 f18 ∗ pt c M19 f19 ∗ pt c M20 f20 ∗ pt c M21 f21 ∗ pt c M22 f22 ∗ pt c M23 f23 ∗ pt c M24 f24 ∗ pt c M25 f25 ∗ pt c M26 f26 ∗ pt c M27 f27 ∗ pt c M28 f28
          ∗ (iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17 ∗ pt c M18 f18 ∗ pt c M19 f19 ∗ pt c M20 f20 ∗ pt c M21 f21 ∗ pt c M22 f22 ∗ pt c M23 f23 ∗ pt c M24 W ∗ (∃ f, pt c M25 f) ∗ (∃ f, pt c M26 f) ∗ (∃ f, pt c M27 f) ∗ (∃ f, pt c M28 f)) -∗ Q ⟨⟩))
        ⊢ wp frame (wpE (defs₀ (F := F)) Variants.none c none) E
            (cc0__fused_kernel i M0 h0 M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28) Q } := by
  refine ⟨?_, fun f24 f25 f26 f27 f28 E Q => ?run⟩
  case run =>
    iintro ⟨H0, H1, H2, H3, H4, H5, H6, H7, H8, H9, H10, H11, H12, H13, H14, H15, H16, H17, H18, H19, H20, H21, H22, H23, H24, H25, H26, H27, H28, Hk⟩
    sl_exec_parts!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexists _; iexact H25
    isplitl [H26]; · iexists _; iexact H26
    isplitl [H27]; · iexists _; iexact H27
    iexists _; iexact H28

end Cert.KernelIdeal.Body

end
-- ==== Proof.KernelIdealRun.lean ====
/-
  The fused kernel's launch as a value-carrying run. The program is one pipelined region between two stretches of
  host operations: reshapes, concatenations, truncations and slices prepare the twenty-four operands, the region runs the
  body over a grid of sixty-four points, and one reshape returns the result. The run is followed buffer by buffer: the
  contents of every unscoped buffer at each boundary are a fold from the launch memory, and the region's output array
  holds, block by block, what the body's run leaves (its witness at the blocks the region finds in the operands).
-/
import proofs.«120724_g2000406006432562_pallasbulk_1270_2_alg».proof.Proof.KernelIdealBody
import proofs.«120724_g2000406006432562_pallasbulk_1270_2_alg».proof.Proof.Gen.KernelIdeal.Launch
import proofs.«120724_g2000406006432562_pallasbulk_1270_2_alg».proof.Proof.Gen.KernelIdeal.Skeleton
import proofs.«120724_g2000406006432562_pallasbulk_1270_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## A whole memref: owning it at what it reads is its buffer's points-to at the raw contents -/

section Whole

variable {sp : Space} {S : Shape} {e : EltTy}

/-- A whole memref owned at contents `X` is its buffer held at the raw contents that read `X`. -/
theorem owns_eq_pt (c : Dev nD) (M : Memref sig .tc sp S e) (h : M.IsWhole) (X : S.Idx → Elt F e) :
    (owns (c : Thread nD τ) M fullShare X : sProp 𝕄) = (M.view.loc (c : Thread nD τ) ↦{fullShare} h.unread X) := by
  have hX : M.view.read (Elt F) (h.unread X) = X := h.read_unread X
  generalize h.unread X = f at hX ⊢
  subst hX
  obtain ⟨b, rfl, rfl, rfl, hm⟩ := h
  cases hm
  simp only [Memref.view_whole, View.read_whole]
  exact owns_whole (c : Thread nD τ) b fullShare f

/-- Its buffer held at raw contents `f` is the memref owned at what it reads of `f`. -/
theorem pt_eq_owns (c : Dev nD) (M : Memref sig .tc sp S e) (h : M.IsWhole) (f : Buf (Elt F) (M.view.loc (c : Thread nD τ))) :
    (M.view.loc (c : Thread nD τ) ↦{fullShare} f : sProp 𝕄) = owns (c : Thread nD τ) M fullShare (M.view.read (Elt F) f) := by
  rw [owns_eq_pt c M h, h.unread_read]

end Whole

section Region
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The body's run at point `t`: on the current staging memrefs, each input's buffer at the raw contents that read its
    block there. -/
abbrev runAt0 (c : Dev nD) (t : Fin cfg0.N) :=
  Body.kernelRun (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (Memref.whole cc0_scratch0) (Memref.isWhole_whole _) (Memref.whole cc0_scratch1) (Memref.isWhole_whole _) (Memref.whole cc0_scratch2) (Memref.isWhole_whole _) (Memref.whole cc0_scratch3) (Memref.isWhole_whole _)
    ((hstage0_0 ((cfg0.slots t 0).cast nbuf0_0)).unread (iblk0 V c 0 t)) ((hstage0_1 ((cfg0.slots t 1).cast nbuf0_1)).unread (iblk0 V c 1 t)) ((hstage0_2 ((cfg0.slots t 2).cast nbuf0_2)).unread (iblk0 V c 2 t)) ((hstage0_3 ((cfg0.slots t 3).cast nbuf0_3)).unread (iblk0 V c 3 t)) ((hstage0_4 ((cfg0.slots t 4).cast nbuf0_4)).unread (iblk0 V c 4 t)) ((hstage0_5 ((cfg0.slots t 5).cast nbuf0_5)).unread (iblk0 V c 5 t)) ((hstage0_6 ((cfg0.slots t 6).cast nbuf0_6)).unread (iblk0 V c 6 t)) ((hstage0_7 ((cfg0.slots t 7).cast nbuf0_7)).unread (iblk0 V c 7 t)) ((hstage0_8 ((cfg0.slots t 8).cast nbuf0_8)).unread (iblk0 V c 8 t)) ((hstage0_9 ((cfg0.slots t 9).cast nbuf0_9)).unread (iblk0 V c 9 t)) ((hstage0_10 ((cfg0.slots t 10).cast nbuf0_10)).unread (iblk0 V c 10 t)) ((hstage0_11 ((cfg0.slots t 11).cast nbuf0_11)).unread (iblk0 V c 11 t)) ((hstage0_12 ((cfg0.slots t 12).cast nbuf0_12)).unread (iblk0 V c 12 t)) ((hstage0_13 ((cfg0.slots t 13).cast nbuf0_13)).unread (iblk0 V c 13 t)) ((hstage0_14 ((cfg0.slots t 14).cast nbuf0_14)).unread (iblk0 V c 14 t)) ((hstage0_15 ((cfg0.slots t 15).cast nbuf0_15)).unread (iblk0 V c 15 t)) ((hstage0_16 ((cfg0.slots t 16).cast nbuf0_16)).unread (iblk0 V c 16 t)) ((hstage0_17 ((cfg0.slots t 17).cast nbuf0_17)).unread (iblk0 V c 17 t)) ((hstage0_18 ((cfg0.slots t 18).cast nbuf0_18)).unread (iblk0 V c 18 t)) ((hstage0_19 ((cfg0.slots t 19).cast nbuf0_19)).unread (iblk0 V c 19 t)) ((hstage0_20 ((cfg0.slots t 20).cast nbuf0_20)).unread (iblk0 V c 20 t)) ((hstage0_21 ((cfg0.slots t 21).cast nbuf0_21)).unread (iblk0 V c 21 t)) ((hstage0_22 ((cfg0.slots t 22).cast nbuf0_22)).unread (iblk0 V c 22 t)) ((hstage0_23 ((cfg0.slots t 23).cast nbuf0_23)).unread (iblk0 V c 23 t))

/-- What the body leaves in the output window's block at point `t`: its run's witness, read through the staging memref. -/
def outBlk0 (c : Dev nD) (t : Fin cfg0.N) : (cfg0.win 24).block.Idx → Elt F (cfg0.win 24).elt :=
  (win0_24.stage (cfg0.slots t 24)).view.read (Elt F) (runAt0 V c t).1

/-! ## The pipeline's proof data -/

/-- The proof data of the pipeline on core `c`: the arrays as the region finds them (`V`); after the body at point `t`
    each input's buffer at its block and the output's at what the body's run leaves; the invariant the scoped rest (the
    scratch buffers at something) and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => iblk0 V c 15 t
    | ⟨16, _⟩ => iblk0 V c 16 t
    | ⟨17, _⟩ => iblk0 V c 17 t
    | ⟨18, _⟩ => iblk0 V c 18 t
    | ⟨19, _⟩ => iblk0 V c 19 t
    | ⟨20, _⟩ => iblk0 V c 20 t
    | ⟨21, _⟩ => iblk0 V c 21 t
    | ⟨22, _⟩ => iblk0 V c 22 t
    | ⟨23, _⟩ => iblk0 V c 23 t
    | ⟨24, _⟩ => outBlk0 V c t
    | ⟨_ + 25, h⟩ => absurd h (Nat.not_lt.2 (Nat.le_add_left _ _))
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = iblk0 V c 14 t := by dsimp only [dat0]
theorem after0_15 (c : Dev nD) (t : Fin cfg0.N) : (dat0 V c).after 15 t = iblk0 V c 15 t := by dsimp only [dat0]
theorem after0_16 (c : Dev nD) (t : Fin cfg0.N) : (dat0 V c).after 16 t = iblk0 V c 16 t := by dsimp only [dat0]
theorem after0_17 (c : Dev nD) (t : Fin cfg0.N) : (dat0 V c).after 17 t = iblk0 V c 17 t := by dsimp only [dat0]
theorem after0_18 (c : Dev nD) (t : Fin cfg0.N) : (dat0 V c).after 18 t = iblk0 V c 18 t := by dsimp only [dat0]
theorem after0_19 (c : Dev nD) (t : Fin cfg0.N) : (dat0 V c).after 19 t = iblk0 V c 19 t := by dsimp only [dat0]
theorem after0_20 (c : Dev nD) (t : Fin cfg0.N) : (dat0 V c).after 20 t = iblk0 V c 20 t := by dsimp only [dat0]
theorem after0_21 (c : Dev nD) (t : Fin cfg0.N) : (dat0 V c).after 21 t = iblk0 V c 21 t := by dsimp only [dat0]
theorem after0_22 (c : Dev nD) (t : Fin cfg0.N) : (dat0 V c).after 22 t = iblk0 V c 22 t := by dsimp only [dat0]
theorem after0_23 (c : Dev nD) (t : Fin cfg0.N) : (dat0 V c).after 23 t = iblk0 V c 23 t := by dsimp only [dat0]
theorem after0_24 (c : Dev nD) (t : Fin cfg0.N) : (dat0 V c).after 24 t = outBlk0 V c t := by dsimp only [dat0]

/-- Each input's current staging buffer holds its block at every point, fetched there or not: unfetched, the block index
    has not moved, and the body left the block in place. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl) (fun t => by rw [after0_6]; unfold Dat.blockOf iblk0; rw [A_eq0]; try rfl) t d).trans
    (by unfold Dat.fetched Dat.blockOf iblk0; rw [A_eq0]; try rfl)
theorem before0_7 (c : Dev nD) (t : Fin cfg0.N) (d) : (dat0 V c).before 7 t d = iblk0 V c 7 t :=
  ((dat0 V c).before_in_eq_fetched 7 rfl (fun _ => rfl) (fun _ _ _ => rfl) (fun t => by rw [after0_7]; unfold Dat.blockOf iblk0; rw [A_eq0]; try rfl) t d).trans
    (by unfold Dat.fetched Dat.blockOf iblk0; rw [A_eq0]; try rfl)
theorem before0_8 (c : Dev nD) (t : Fin cfg0.N) (d) : (dat0 V c).before 8 t d = iblk0 V c 8 t :=
  ((dat0 V c).before_in_eq_fetched 8 rfl (fun _ => rfl) (fun _ _ _ => rfl) (fun t => by rw [after0_8]; unfold Dat.blockOf iblk0; rw [A_eq0]; try rfl) t d).trans
    (by unfold Dat.fetched Dat.blockOf iblk0; rw [A_eq0]; try rfl)
theorem before0_9 (c : Dev nD) (t : Fin cfg0.N) (d) : (dat0 V c).before 9 t d = iblk0 V c 9 t :=
  ((dat0 V c).before_in_eq_fetched 9 rfl (fun _ => rfl) (fun _ _ _ => rfl) (fun t => by rw [after0_9]; unfold Dat.blockOf iblk0; rw [A_eq0]; try rfl) t d).trans
    (by unfold Dat.fetched Dat.blockOf iblk0; rw [A_eq0]; try rfl)
theorem before0_10 (c : Dev nD) (t : Fin cfg0.N) (d) : (dat0 V c).before 10 t d = iblk0 V c 10 t :=
  ((dat0 V c).before_in_eq_fetched 10 rfl (fun _ => rfl) (fun _ _ _ => rfl) (fun t => by rw [after0_10]; unfold Dat.blockOf iblk0; rw [A_eq0]; try rfl) t d).trans
    (by unfold Dat.fetched Dat.blockOf iblk0; rw [A_eq0]; try rfl)
theorem before0_11 (c : Dev nD) (t : Fin cfg0.N) (d) : (dat0 V c).before 11 t d = iblk0 V c 11 t :=
  ((dat0 V c).before_in_eq_fetched 11 rfl (fun _ => rfl) (fun _ _ _ => rfl) (fun t => by rw [after0_11]; unfold Dat.blockOf iblk0; rw [A_eq0]; try rfl) t d).trans
    (by unfold Dat.fetched Dat.blockOf iblk0; rw [A_eq0]; try rfl)
theorem before0_12 (c : Dev nD) (t : Fin cfg0.N) (d) : (dat0 V c).before 12 t d = iblk0 V c 12 t :=
  ((dat0 V c).before_in_eq_fetched 12 rfl (fun _ => rfl) (fun _ _ _ => rfl) (fun t => by rw [after0_12]; unfold Dat.blockOf iblk0; rw [A_eq0]; try rfl) t d).trans
    (by unfold Dat.fetched Dat.blockOf iblk0; rw [A_eq0]; try rfl)
theorem before0_13 (c : Dev nD) (t : Fin cfg0.N) (d) : (dat0 V c).before 13 t d = iblk0 V c 13 t :=
  ((dat0 V c).before_in_eq_fetched 13 rfl (fun _ => rfl) (fun _ _ _ => rfl) (fun t => by rw [after0_13]; unfold Dat.blockOf iblk0; rw [A_eq0]; try rfl) t d).trans
    (by unfold Dat.fetched Dat.blockOf iblk0; rw [A_eq0]; try rfl)
theorem before0_14 (c : Dev nD) (t : Fin cfg0.N) (d) : (dat0 V c).before 14 t d = iblk0 V c 14 t :=
  ((dat0 V c).before_in_eq_fetched 14 rfl (fun _ => rfl) (fun _ _ _ => rfl) (fun t => by rw [after0_14]; unfold Dat.blockOf iblk0; rw [A_eq0]; try rfl) t d).trans
    (by unfold Dat.fetched Dat.blockOf iblk0; rw [A_eq0]; try rfl)
theorem before0_15 (c : Dev nD) (t : Fin cfg0.N) (d) : (dat0 V c).before 15 t d = iblk0 V c 15 t :=
  ((dat0 V c).before_in_eq_fetched 15 rfl (fun _ => rfl) (fun _ _ _ => rfl) (fun t => by rw [after0_15]; unfold Dat.blockOf iblk0; rw [A_eq0]; try rfl) t d).trans
    (by unfold Dat.fetched Dat.blockOf iblk0; rw [A_eq0]; try rfl)
theorem before0_16 (c : Dev nD) (t : Fin cfg0.N) (d) : (dat0 V c).before 16 t d = iblk0 V c 16 t :=
  ((dat0 V c).before_in_eq_fetched 16 rfl (fun _ => rfl) (fun _ _ _ => rfl) (fun t => by rw [after0_16]; unfold Dat.blockOf iblk0; rw [A_eq0]; try rfl) t d).trans
    (by unfold Dat.fetched Dat.blockOf iblk0; rw [A_eq0]; try rfl)
theorem before0_17 (c : Dev nD) (t : Fin cfg0.N) (d) : (dat0 V c).before 17 t d = iblk0 V c 17 t :=
  ((dat0 V c).before_in_eq_fetched 17 rfl (fun _ => rfl) (fun _ _ _ => rfl) (fun t => by rw [after0_17]; unfold Dat.blockOf iblk0; rw [A_eq0]; try rfl) t d).trans
    (by unfold Dat.fetched Dat.blockOf iblk0; rw [A_eq0]; try rfl)
theorem before0_18 (c : Dev nD) (t : Fin cfg0.N) (d) : (dat0 V c).before 18 t d = iblk0 V c 18 t :=
  ((dat0 V c).before_in_eq_fetched 18 rfl (fun _ => rfl) (fun _ _ _ => rfl) (fun t => by rw [after0_18]; unfold Dat.blockOf iblk0; rw [A_eq0]; try rfl) t d).trans
    (by unfold Dat.fetched Dat.blockOf iblk0; rw [A_eq0]; try rfl)
theorem before0_19 (c : Dev nD) (t : Fin cfg0.N) (d) : (dat0 V c).before 19 t d = iblk0 V c 19 t :=
  ((dat0 V c).before_in_eq_fetched 19 rfl (fun _ => rfl) (fun _ _ _ => rfl) (fun t => by rw [after0_19]; unfold Dat.blockOf iblk0; rw [A_eq0]; try rfl) t d).trans
    (by unfold Dat.fetched Dat.blockOf iblk0; rw [A_eq0]; try rfl)
theorem before0_20 (c : Dev nD) (t : Fin cfg0.N) (d) : (dat0 V c).before 20 t d = iblk0 V c 20 t :=
  ((dat0 V c).before_in_eq_fetched 20 rfl (fun _ => rfl) (fun _ _ _ => rfl) (fun t => by rw [after0_20]; unfold Dat.blockOf iblk0; rw [A_eq0]; try rfl) t d).trans
    (by unfold Dat.fetched Dat.blockOf iblk0; rw [A_eq0]; try rfl)
theorem before0_21 (c : Dev nD) (t : Fin cfg0.N) (d) : (dat0 V c).before 21 t d = iblk0 V c 21 t :=
  ((dat0 V c).before_in_eq_fetched 21 rfl (fun _ => rfl) (fun _ _ _ => rfl) (fun t => by rw [after0_21]; unfold Dat.blockOf iblk0; rw [A_eq0]; try rfl) t d).trans
    (by unfold Dat.fetched Dat.blockOf iblk0; rw [A_eq0]; try rfl)
theorem before0_22 (c : Dev nD) (t : Fin cfg0.N) (d) : (dat0 V c).before 22 t d = iblk0 V c 22 t :=
  ((dat0 V c).before_in_eq_fetched 22 rfl (fun _ => rfl) (fun _ _ _ => rfl) (fun t => by rw [after0_22]; unfold Dat.blockOf iblk0; rw [A_eq0]; try rfl) t d).trans
    (by unfold Dat.fetched Dat.blockOf iblk0; rw [A_eq0]; try rfl)
theorem before0_23 (c : Dev nD) (t : Fin cfg0.N) (d) : (dat0 V c).before 23 t d = iblk0 V c 23 t :=
  ((dat0 V c).before_in_eq_fetched 23 rfl (fun _ => rfl) (fun _ _ _ => rfl) (fun t => by rw [after0_23]; unfold Dat.blockOf iblk0; rw [A_eq0]; try rfl) t d).trans
    (by unfold Dat.fetched Dat.blockOf iblk0; rw [A_eq0]; try rfl)

/-! ## The body obligation, at a generic point -/

/-- The current staging memrefs are whole buffers. -/
theorem hst0_0 (t : Fin cfg0.N) : (win0_0.stage (cfg0.slots t 0)).IsWhole := hstage0_0 ((cfg0.slots t 0).cast nbuf0_0)
theorem hst0_1 (t : Fin cfg0.N) : (win0_1.stage (cfg0.slots t 1)).IsWhole := hstage0_1 ((cfg0.slots t 1).cast nbuf0_1)
theorem hst0_2 (t : Fin cfg0.N) : (win0_2.stage (cfg0.slots t 2)).IsWhole := hstage0_2 ((cfg0.slots t 2).cast nbuf0_2)
theorem hst0_3 (t : Fin cfg0.N) : (win0_3.stage (cfg0.slots t 3)).IsWhole := hstage0_3 ((cfg0.slots t 3).cast nbuf0_3)
theorem hst0_4 (t : Fin cfg0.N) : (win0_4.stage (cfg0.slots t 4)).IsWhole := hstage0_4 ((cfg0.slots t 4).cast nbuf0_4)
theorem hst0_5 (t : Fin cfg0.N) : (win0_5.stage (cfg0.slots t 5)).IsWhole := hstage0_5 ((cfg0.slots t 5).cast nbuf0_5)
theorem hst0_6 (t : Fin cfg0.N) : (win0_6.stage (cfg0.slots t 6)).IsWhole := hstage0_6 ((cfg0.slots t 6).cast nbuf0_6)
theorem hst0_7 (t : Fin cfg0.N) : (win0_7.stage (cfg0.slots t 7)).IsWhole := hstage0_7 ((cfg0.slots t 7).cast nbuf0_7)
theorem hst0_8 (t : Fin cfg0.N) : (win0_8.stage (cfg0.slots t 8)).IsWhole := hstage0_8 ((cfg0.slots t 8).cast nbuf0_8)
theorem hst0_9 (t : Fin cfg0.N) : (win0_9.stage (cfg0.slots t 9)).IsWhole := hstage0_9 ((cfg0.slots t 9).cast nbuf0_9)
theorem hst0_10 (t : Fin cfg0.N) : (win0_10.stage (cfg0.slots t 10)).IsWhole := hstage0_10 ((cfg0.slots t 10).cast nbuf0_10)
theorem hst0_11 (t : Fin cfg0.N) : (win0_11.stage (cfg0.slots t 11)).IsWhole := hstage0_11 ((cfg0.slots t 11).cast nbuf0_11)
theorem hst0_12 (t : Fin cfg0.N) : (win0_12.stage (cfg0.slots t 12)).IsWhole := hstage0_12 ((cfg0.slots t 12).cast nbuf0_12)
theorem hst0_13 (t : Fin cfg0.N) : (win0_13.stage (cfg0.slots t 13)).IsWhole := hstage0_13 ((cfg0.slots t 13).cast nbuf0_13)
theorem hst0_14 (t : Fin cfg0.N) : (win0_14.stage (cfg0.slots t 14)).IsWhole := hstage0_14 ((cfg0.slots t 14).cast nbuf0_14)
theorem hst0_15 (t : Fin cfg0.N) : (win0_15.stage (cfg0.slots t 15)).IsWhole := hstage0_15 ((cfg0.slots t 15).cast nbuf0_15)
theorem hst0_16 (t : Fin cfg0.N) : (win0_16.stage (cfg0.slots t 16)).IsWhole := hstage0_16 ((cfg0.slots t 16).cast nbuf0_16)
theorem hst0_17 (t : Fin cfg0.N) : (win0_17.stage (cfg0.slots t 17)).IsWhole := hstage0_17 ((cfg0.slots t 17).cast nbuf0_17)
theorem hst0_18 (t : Fin cfg0.N) : (win0_18.stage (cfg0.slots t 18)).IsWhole := hstage0_18 ((cfg0.slots t 18).cast nbuf0_18)
theorem hst0_19 (t : Fin cfg0.N) : (win0_19.stage (cfg0.slots t 19)).IsWhole := hstage0_19 ((cfg0.slots t 19).cast nbuf0_19)
theorem hst0_20 (t : Fin cfg0.N) : (win0_20.stage (cfg0.slots t 20)).IsWhole := hstage0_20 ((cfg0.slots t 20).cast nbuf0_20)
theorem hst0_21 (t : Fin cfg0.N) : (win0_21.stage (cfg0.slots t 21)).IsWhole := hstage0_21 ((cfg0.slots t 21).cast nbuf0_21)
theorem hst0_22 (t : Fin cfg0.N) : (win0_22.stage (cfg0.slots t 22)).IsWhole := hstage0_22 ((cfg0.slots t 22).cast nbuf0_22)
theorem hst0_23 (t : Fin cfg0.N) : (win0_23.stage (cfg0.slots t 23)).IsWhole := hstage0_23 ((cfg0.slots t 23).cast nbuf0_23)
theorem hst0_24 (t : Fin cfg0.N) : (win0_24.stage (cfg0.slots t 24)).IsWhole := hstage0_24 ((cfg0.slots t 24).cast nbuf0_24)

section Whole
variable {sp : Space} {S : Shape} {e : EltTy}
theorem owns_pt (c : Dev nD) (M : Memref sig .tc sp S e) (h : M.IsWhole) (X : S.Idx → Elt F e) :
    (owns (c : Thread nD τ) M fullShare X : sProp 𝕄) ⊢ (M.view.loc (c : Thread nD τ) ↦{fullShare} h.unread X) :=
  Entails.of_eq (owns_eq_pt c M h X)
theorem pt_owns (c : Dev nD) (M : Memref sig .tc sp S e) (h : M.IsWhole) (X : S.Idx → Elt F e) :
    (M.view.loc (c : Thread nD τ) ↦{fullShare} h.unread X : sProp 𝕄) ⊢ owns (c : Thread nD τ) M fullShare X :=
  Entails.of_eq (owns_eq_pt c M h X).symm
theorem pt_owns_read (c : Dev nD) (M : Memref sig .tc sp S e) (h : M.IsWhole) (f : Buf (Elt F) (M.view.loc (c : Thread nD τ))) :
    (M.view.loc (c : Thread nD τ) ↦{fullShare} f : sProp 𝕄) ⊢ owns (c : Thread nD τ) M fullShare (M.view.read (Elt F) f) :=
  Entails.of_eq (pt_eq_owns c M h f)
end Whole

/-- What the body is called with at point `t`: the invariant, the core's `owes`, and the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d))
    ∗ (∃ d, owns (c : Thread nD τ) (st0_16 t) fullShare ((dat0 V c).before 16 t d))
    ∗ (∃ d, owns (c : Thread nD τ) (st0_17 t) fullShare ((dat0 V c).before 17 t d))
    ∗ (∃ d, owns (c : Thread nD τ) (st0_18 t) fullShare ((dat0 V c).before 18 t d))
    ∗ (∃ d, owns (c : Thread nD τ) (st0_19 t) fullShare ((dat0 V c).before 19 t d))
    ∗ (∃ d, owns (c : Thread nD τ) (st0_20 t) fullShare ((dat0 V c).before 20 t d))
    ∗ (∃ d, owns (c : Thread nD τ) (st0_21 t) fullShare ((dat0 V c).before 21 t d))
    ∗ (∃ d, owns (c : Thread nD τ) (st0_22 t) fullShare ((dat0 V c).before 22 t d))
    ∗ (∃ d, owns (c : Thread nD τ) (st0_23 t) fullShare ((dat0 V c).before 23 t d))
    ∗ (∃ d, owns (c : Thread nD τ) (st0_24 t) fullShare ((dat0 V c).before 24 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t)
    ∗ owns (c : Thread nD τ) (st0_16 t) fullShare ((dat0 V c).after 16 t)
    ∗ owns (c : Thread nD τ) (st0_17 t) fullShare ((dat0 V c).after 17 t)
    ∗ owns (c : Thread nD τ) (st0_18 t) fullShare ((dat0 V c).after 18 t)
    ∗ owns (c : Thread nD τ) (st0_19 t) fullShare ((dat0 V c).after 19 t)
    ∗ owns (c : Thread nD τ) (st0_20 t) fullShare ((dat0 V c).after 20 t)
    ∗ owns (c : Thread nD τ) (st0_21 t) fullShare ((dat0 V c).after 21 t)
    ∗ owns (c : Thread nD τ) (st0_22 t) fullShare ((dat0 V c).after 22 t)
    ∗ owns (c : Thread nD τ) (st0_23 t) fullShare ((dat0 V c).after 23 t)
    ∗ owns (c : Thread nD τ) (st0_24 t) fullShare ((dat0 V c).after 24 t))

set_option maxHeartbeats 4000000 in
/-- The body at any point: each input's memref holds its block (`before0_W`), so its buffer holds the raw contents that
    read the block; the scratch buffers come out of the invariant at something; the body's run applies, and its post
    is put back: the inputs as they were, the output's buffer at the run's witness, the scratch buffers into the
    invariant again. The generator register and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23]
  rw [show (dat0 V c).Φ t.succ = Pipeline.ΦA spec0 c from rfl, show (dat0 V c).Φ t.castSucc = Pipeline.ΦA spec0 c from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24]
  unfold Pipeline.ΦA outBlk0; rw [scopedRest0_eq]
  iintro ⟨⟨⟨⟨%g0, G0⟩, ⟨%g1, G1⟩, ⟨%g2, G2⟩, ⟨%g3, G3⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  ihave H0 := (owns_pt c (win0_0.stage (cfg0.slots t 0)) (hst0_0 t) _) $$ H0
  ihave H1 := (owns_pt c (win0_1.stage (cfg0.slots t 1)) (hst0_1 t) _) $$ H1
  ihave H2 := (owns_pt c (win0_2.stage (cfg0.slots t 2)) (hst0_2 t) _) $$ H2
  ihave H3 := (owns_pt c (win0_3.stage (cfg0.slots t 3)) (hst0_3 t) _) $$ H3
  ihave H4 := (owns_pt c (win0_4.stage (cfg0.slots t 4)) (hst0_4 t) _) $$ H4
  ihave H5 := (owns_pt c (win0_5.stage (cfg0.slots t 5)) (hst0_5 t) _) $$ H5
  ihave H6 := (owns_pt c (win0_6.stage (cfg0.slots t 6)) (hst0_6 t) _) $$ H6
  ihave H7 := (owns_pt c (win0_7.stage (cfg0.slots t 7)) (hst0_7 t) _) $$ H7
  ihave H8 := (owns_pt c (win0_8.stage (cfg0.slots t 8)) (hst0_8 t) _) $$ H8
  ihave H9 := (owns_pt c (win0_9.stage (cfg0.slots t 9)) (hst0_9 t) _) $$ H9
  ihave H10 := (owns_pt c (win0_10.stage (cfg0.slots t 10)) (hst0_10 t) _) $$ H10
  ihave H11 := (owns_pt c (win0_11.stage (cfg0.slots t 11)) (hst0_11 t) _) $$ H11
  ihave H12 := (owns_pt c (win0_12.stage (cfg0.slots t 12)) (hst0_12 t) _) $$ H12
  ihave H13 := (owns_pt c (win0_13.stage (cfg0.slots t 13)) (hst0_13 t) _) $$ H13
  ihave H14 := (owns_pt c (win0_14.stage (cfg0.slots t 14)) (hst0_14 t) _) $$ H14
  ihave H15 := (owns_pt c (win0_15.stage (cfg0.slots t 15)) (hst0_15 t) _) $$ H15
  ihave H16 := (owns_pt c (win0_16.stage (cfg0.slots t 16)) (hst0_16 t) _) $$ H16
  ihave H17 := (owns_pt c (win0_17.stage (cfg0.slots t 17)) (hst0_17 t) _) $$ H17
  ihave H18 := (owns_pt c (win0_18.stage (cfg0.slots t 18)) (hst0_18 t) _) $$ H18
  ihave H19 := (owns_pt c (win0_19.stage (cfg0.slots t 19)) (hst0_19 t) _) $$ H19
  ihave H20 := (owns_pt c (win0_20.stage (cfg0.slots t 20)) (hst0_20 t) _) $$ H20
  ihave H21 := (owns_pt c (win0_21.stage (cfg0.slots t 21)) (hst0_21 t) _) $$ H21
  ihave H22 := (owns_pt c (win0_22.stage (cfg0.slots t 22)) (hst0_22 t) _) $$ H22
  ihave H23 := (owns_pt c (win0_23.stage (cfg0.slots t 23)) (hst0_23 t) _) $$ H23
  ihave H24 := (owns_pt c (win0_24.stage (cfg0.slots t 24)) (hst0_24 t) _) $$ H24
  iapply ((runAt0 V c t).2 _ g0 g1 g2 g3 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [G0]; · iexact G0
  isplitl [G1]; · iexact G1
  isplitl [G2]; · iexact G2
  isplitl [G3]; · iexact G3
  iintro ⟨H0, H1, H2, H3, H4, H5, H6, H7, H8, H9, H10, H11, H12, H13, H14, H15, H16, H17, H18, H19, H20, H21, H22, H23, H24, G0, G1, G2, G3⟩
  isplitl [G0 G1 G2 G3 Hr]
  · isplitr [Hr]
    · isplitl [G0]; · iexact G0
      isplitl [G1]; · iexact G1
      isplitl [G2]; · iexact G2
      iexact G3
    · iexact Hr
  isplitl [Ho]; · iexact Ho
  isplitl [H0]; · iapply (pt_owns c (win0_0.stage (cfg0.slots t 0)) (hst0_0 t) _); iexact H0
  isplitl [H1]; · iapply (pt_owns c (win0_1.stage (cfg0.slots t 1)) (hst0_1 t) _); iexact H1
  isplitl [H2]; · iapply (pt_owns c (win0_2.stage (cfg0.slots t 2)) (hst0_2 t) _); iexact H2
  isplitl [H3]; · iapply (pt_owns c (win0_3.stage (cfg0.slots t 3)) (hst0_3 t) _); iexact H3
  isplitl [H4]; · iapply (pt_owns c (win0_4.stage (cfg0.slots t 4)) (hst0_4 t) _); iexact H4
  isplitl [H5]; · iapply (pt_owns c (win0_5.stage (cfg0.slots t 5)) (hst0_5 t) _); iexact H5
  isplitl [H6]; · iapply (pt_owns c (win0_6.stage (cfg0.slots t 6)) (hst0_6 t) _); iexact H6
  isplitl [H7]; · iapply (pt_owns c (win0_7.stage (cfg0.slots t 7)) (hst0_7 t) _); iexact H7
  isplitl [H8]; · iapply (pt_owns c (win0_8.stage (cfg0.slots t 8)) (hst0_8 t) _); iexact H8
  isplitl [H9]; · iapply (pt_owns c (win0_9.stage (cfg0.slots t 9)) (hst0_9 t) _); iexact H9
  isplitl [H10]; · iapply (pt_owns c (win0_10.stage (cfg0.slots t 10)) (hst0_10 t) _); iexact H10
  isplitl [H11]; · iapply (pt_owns c (win0_11.stage (cfg0.slots t 11)) (hst0_11 t) _); iexact H11
  isplitl [H12]; · iapply (pt_owns c (win0_12.stage (cfg0.slots t 12)) (hst0_12 t) _); iexact H12
  isplitl [H13]; · iapply (pt_owns c (win0_13.stage (cfg0.slots t 13)) (hst0_13 t) _); iexact H13
  isplitl [H14]; · iapply (pt_owns c (win0_14.stage (cfg0.slots t 14)) (hst0_14 t) _); iexact H14
  isplitl [H15]; · iapply (pt_owns c (win0_15.stage (cfg0.slots t 15)) (hst0_15 t) _); iexact H15
  isplitl [H16]; · iapply (pt_owns c (win0_16.stage (cfg0.slots t 16)) (hst0_16 t) _); iexact H16
  isplitl [H17]; · iapply (pt_owns c (win0_17.stage (cfg0.slots t 17)) (hst0_17 t) _); iexact H17
  isplitl [H18]; · iapply (pt_owns c (win0_18.stage (cfg0.slots t 18)) (hst0_18 t) _); iexact H18
  isplitl [H19]; · iapply (pt_owns c (win0_19.stage (cfg0.slots t 19)) (hst0_19 t) _); iexact H19
  isplitl [H20]; · iapply (pt_owns c (win0_20.stage (cfg0.slots t 20)) (hst0_20 t) _); iexact H20
  isplitl [H21]; · iapply (pt_owns c (win0_21.stage (cfg0.slots t 21)) (hst0_21 t) _); iexact H21
  isplitl [H22]; · iapply (pt_owns c (win0_22.stage (cfg0.slots t 22)) (hst0_22 t) _); iexact H22
  isplitl [H23]; · iapply (pt_owns c (win0_23.stage (cfg0.slots t 23)) (hst0_23 t) _); iexact H23
  iapply (pt_owns_read c (win0_24.stage (cfg0.slots t 24)) (hst0_24 t) _); iexact H24

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

/-! # The run: @main's segments from the launch to the return

## The buffer contents at each segment boundary: a fold through @main -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first stretch of host operations (the region's entry). -/
abbrev W1 : Dev nD → Valuation τ sig (Elt F) := fun c => StableHlo.after hostOps0 (W0 m ρ c)
/-- The same read at the TensorCore's references (what the region's proof data take). -/
abbrev V1 : (c : Dev nD) → (b : Ref sig .tc) → Buf (Elt F) ((c : Thread nD τ).loc b) := fun c b => W1 m ρ c b
/-- At the region's exit: its arrays at what the pipeline leaves (the inputs as entered, the output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (the region's exit contents). -/
abbrev V2 : (c : Dev nD) → (b : Ref sig .tc) → Buf (Elt F) ((c : Thread nD τ).loc b) := fun c b => W2 m ρ c b
/-- At the region's exit each of its arrays holds what the pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the last stretch of host operations (the return). -/
abbrev W3 : Dev nD → Valuation τ sig (Elt F) := fun c => StableHlo.after hostOps1 (W2 m ρ c)

/-! ## What the host stretches write -/

/-- No operation of the first stretch allocates a buffer. -/
theorem hostOps0_fresh : (hostOps0 : List (HloOp τ sig (Elt F))).Forall fun op => op.fresh = ∅ := by
  simp only [List.Forall]; repeat' constructor
/-- No operation of the last stretch allocates a buffer. -/
theorem hostOps1_fresh : (hostOps1 : List (HloOp τ sig (Elt F))).Forall fun op => op.fresh = ∅ := by
  simp only [List.Forall]; repeat' constructor
/-- The references the first stretch's operations write, -/
abbrev hostOps0_W : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_v22, main_v23]
theorem hostOps0_writes : (hostOps0 : List (HloOp τ sig (Elt F))).Forall fun op => op.writes ⊆ (hostOps0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- and the last stretch's. -/
abbrev hostOps1_W : List (Ref sig .tc) := [main_v25]
theorem hostOps1_writes : (hostOps1 : List (HloOp τ sig (Elt F))).Forall fun op => op.writes ⊆ (hostOps1_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-! ## What each item leaves unchanged -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
/-- Every window but the last is an input. -/
theorem isOut0 : ∀ w : Fin cfg0.W, w ≠ 24 → (cfg0.win w).isOut = false := by decide
/-- An input window's array leaves the region as it entered: an input array is never written. -/
theorem W2_of_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))
/-- Every buffer but the output window's array leaves the region as it entered. -/
theorem W2_keep (c : Dev nD) (b : Ref sig .tc) (hb : Pipeline.arrRef spec0 24 ≠ b) :
    W2 m ρ c (Proc.devRef .tc b) = W1 m ρ c (Proc.devRef .tc b) := by
  by_cases h : ∃ w, Pipeline.arrRef spec0 w = b
  · obtain ⟨w, rfl⟩ := h
    exact W2_of_in m ρ c w (isOut0 w fun e => hb (e ▸ rfl))
  · exact W2_of_ne m ρ c b fun w e => h ⟨w, e⟩
/-- A reference no host operation writes and that is not the output window's array reaches the end as launched. -/
theorem W3_keep (c : Dev nD) (b : Ref sig .tc) (h0 : b ∉ hostOps0_W) (h1 : b ∉ hostOps1_W) (h2 : Pipeline.arrRef spec0 24 ≠ b) :
    W3 m ρ c (Proc.devRef .tc b) = m ((c : Thread nD τ).loc b) :=
  (W3_of m ρ c b h1).trans <| (W2_keep m ρ c b h2).trans <| (W1_of m ρ c b h0).trans rfl

/-! ### The arguments end as launched -/

theorem W3_main_arg0 (c : Dev nD) : W3 m ρ c (Proc.devRef .tc main_arg0) = m ((c : Thread nD τ).loc main_arg0) :=
  W3_keep m ρ c main_arg0 (by decide) (by decide) (by decide)
theorem W3_main_arg1 (c : Dev nD) : W3 m ρ c (Proc.devRef .tc main_arg1) = m ((c : Thread nD τ).loc main_arg1) :=
  W3_keep m ρ c main_arg1 (by decide) (by decide) (by decide)
theorem W3_main_arg2 (c : Dev nD) : W3 m ρ c (Proc.devRef .tc main_arg2) = m ((c : Thread nD τ).loc main_arg2) :=
  W3_keep m ρ c main_arg2 (by decide) (by decide) (by decide)
theorem W3_main_arg3 (c : Dev nD) : W3 m ρ c (Proc.devRef .tc main_arg3) = m ((c : Thread nD τ).loc main_arg3) :=
  W3_keep m ρ c main_arg3 (by decide) (by decide) (by decide)
theorem W3_main_arg4 (c : Dev nD) : W3 m ρ c (Proc.devRef .tc main_arg4) = m ((c : Thread nD τ).loc main_arg4) :=
  W3_keep m ρ c main_arg4 (by decide) (by decide) (by decide)
theorem W3_main_arg5 (c : Dev nD) : W3 m ρ c (Proc.devRef .tc main_arg5) = m ((c : Thread nD τ).loc main_arg5) :=
  W3_keep m ρ c main_arg5 (by decide) (by decide) (by decide)
theorem W3_main_arg6 (c : Dev nD) : W3 m ρ c (Proc.devRef .tc main_arg6) = m ((c : Thread nD τ).loc main_arg6) :=
  W3_keep m ρ c main_arg6 (by decide) (by decide) (by decide)
theorem W3_main_arg7 (c : Dev nD) : W3 m ρ c (Proc.devRef .tc main_arg7) = m ((c : Thread nD τ).loc main_arg7) :=
  W3_keep m ρ c main_arg7 (by decide) (by decide) (by decide)
theorem W3_main_arg8 (c : Dev nD) : W3 m ρ c (Proc.devRef .tc main_arg8) = m ((c : Thread nD τ).loc main_arg8) :=
  W3_keep m ρ c main_arg8 (by decide) (by decide) (by decide)
theorem W3_main_arg9 (c : Dev nD) : W3 m ρ c (Proc.devRef .tc main_arg9) = m ((c : Thread nD τ).loc main_arg9) :=
  W3_keep m ρ c main_arg9 (by decide) (by decide) (by decide)
theorem W3_main_arg10 (c : Dev nD) : W3 m ρ c (Proc.devRef .tc main_arg10) = m ((c : Thread nD τ).loc main_arg10) :=
  W3_keep m ρ c main_arg10 (by decide) (by decide) (by decide)
theorem W3_main_arg11 (c : Dev nD) : W3 m ρ c (Proc.devRef .tc main_arg11) = m ((c : Thread nD τ).loc main_arg11) :=
  W3_keep m ρ c main_arg11 (by decide) (by decide) (by decide)
theorem W3_main_arg12 (c : Dev nD) : W3 m ρ c (Proc.devRef .tc main_arg12) = m ((c : Thread nD τ).loc main_arg12) :=
  W3_keep m ρ c main_arg12 (by decide) (by decide) (by decide)
theorem W3_main_arg13 (c : Dev nD) : W3 m ρ c (Proc.devRef .tc main_arg13) = m ((c : Thread nD τ).loc main_arg13) :=
  W3_keep m ρ c main_arg13 (by decide) (by decide) (by decide)
theorem W3_main_arg14 (c : Dev nD) : W3 m ρ c (Proc.devRef .tc main_arg14) = m ((c : Thread nD τ).loc main_arg14) :=
  W3_keep m ρ c main_arg14 (by decide) (by decide) (by decide)
theorem W3_main_arg15 (c : Dev nD) : W3 m ρ c (Proc.devRef .tc main_arg15) = m ((c : Thread nD τ).loc main_arg15) :=
  W3_keep m ρ c main_arg15 (by decide) (by decide) (by decide)
theorem W3_main_arg16 (c : Dev nD) : W3 m ρ c (Proc.devRef .tc main_arg16) = m ((c : Thread nD τ).loc main_arg16) :=
  W3_keep m ρ c main_arg16 (by decide) (by decide) (by decide)
theorem W3_main_arg17 (c : Dev nD) : W3 m ρ c (Proc.devRef .tc main_arg17) = m ((c : Thread nD τ).loc main_arg17) :=
  W3_keep m ρ c main_arg17 (by decide) (by decide) (by decide)
theorem W3_main_arg18 (c : Dev nD) : W3 m ρ c (Proc.devRef .tc main_arg18) = m ((c : Thread nD τ).loc main_arg18) :=
  W3_keep m ρ c main_arg18 (by decide) (by decide) (by decide)
theorem W3_main_arg19 (c : Dev nD) : W3 m ρ c (Proc.devRef .tc main_arg19) = m ((c : Thread nD τ).loc main_arg19) :=
  W3_keep m ρ c main_arg19 (by decide) (by decide) (by decide)
theorem W3_main_arg20 (c : Dev nD) : W3 m ρ c (Proc.devRef .tc main_arg20) = m ((c : Thread nD τ).loc main_arg20) :=
  W3_keep m ρ c main_arg20 (by decide) (by decide) (by decide)
theorem W3_main_arg21 (c : Dev nD) : W3 m ρ c (Proc.devRef .tc main_arg21) = m ((c : Thread nD τ).loc main_arg21) :=
  W3_keep m ρ c main_arg21 (by decide) (by decide) (by decide)
theorem W3_main_arg22 (c : Dev nD) : W3 m ρ c (Proc.devRef .tc main_arg22) = m ((c : Thread nD τ).loc main_arg22) :=
  W3_keep m ρ c main_arg22 (by decide) (by decide) (by decide)
theorem W3_main_arg23 (c : Dev nD) : W3 m ρ c (Proc.devRef .tc main_arg23) = m ((c : Thread nD τ).loc main_arg23) :=
  W3_keep m ρ c main_arg23 (by decide) (by decide) (by decide)
theorem W3_main_arg24 (c : Dev nD) : W3 m ρ c (Proc.devRef .tc main_arg24) = m ((c : Thread nD τ).loc main_arg24) :=
  W3_keep m ρ c main_arg24 (by decide) (by decide) (by decide)
theorem W3_main_arg25 (c : Dev nD) : W3 m ρ c (Proc.devRef .tc main_arg25) = m ((c : Thread nD τ).loc main_arg25) :=
  W3_keep m ρ c main_arg25 (by decide) (by decide) (by decide)

/-! ## The proof data family and the thread state -/

/-- The prefetched tables' admissible contents: the pipeline has no table. -/
abbrev adm : (p : Fin 1) → (pcfgs (F := F) p).Adm := fun p => (cfgs p).toPCfg_adm
/-- The pipeline's proof data at its region's entry contents. -/
def pdats : (p : Fin 1) → (c : Dev nD) → Dat τ (Elt F) Unit ℕ (UR sig nD τ) ℕ (Pipeline.pin (pcfgs (F := F)) adm p) c
  | ⟨0, _⟩ => fun c => dat0 (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W3 m ρ c) ∗ ∃ r, prngReg c r)

/-! ## The region as a segment -/

set_option backward.isDefEq.respectTransparency.types false in
/-- The region over the thread state: entered from every unscoped buffer at `W1`, left at `W2`. Its arrays split out
    of the unscoped buffers and are put back at the exit contents; the generator register goes into the invariant and
    comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's three segments in order: the first host stretch from the launch contents, the region, the last host stretch. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]
/-- @main is the run of the segments. -/
theorem main_run (c : Dev nD) : main (F := F) c = Pipeline.Seg.run (segs m ρ) := (main_chain c).trans (by chain_rfl)

set_option backward.isDefEq.respectTransparency.types false in
/-- At the compiled mesh, from any memory with zero counters, every weakly fair execution of @main on the TensorCores
    terminates, nothing faulting, and every final state has every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c =>
      show iprop(StableHlo.held (c : Thread nD τ) (Pipeline.ucRefs τ sig) (W3 m ρ c) ∗ (∃ r, prngReg c r) ∗ ∃ W, owes (c : Thread nD τ) (0 : CellTallies nD τ sig Unit) W)
        ⊢ iprop(Tₙ m ρ c ∗ ∃ W, owes (c : Thread nD τ) (0 : CellTallies nD τ sig Unit) W) from by
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- Every weakly fair execution of @main terminates, nothing faulting, and every final state has the argument arrays as
    launched: each is an unscoped buffer the last thread state holds, at contents the fold walks back to the launch
    memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun r h c => ⟨(h c _ (mem_uc main_arg0 (by decide))).trans (W3_main_arg0 m ρ c),
    (h c _ (mem_uc main_arg1 (by decide))).trans (W3_main_arg1 m ρ c),
    (h c _ (mem_uc main_arg2 (by decide))).trans (W3_main_arg2 m ρ c),
    (h c _ (mem_uc main_arg3 (by decide))).trans (W3_main_arg3 m ρ c),
    (h c _ (mem_uc main_arg4 (by decide))).trans (W3_main_arg4 m ρ c),
    (h c _ (mem_uc main_arg5 (by decide))).trans (W3_main_arg5 m ρ c),
    (h c _ (mem_uc main_arg6 (by decide))).trans (W3_main_arg6 m ρ c),
    (h c _ (mem_uc main_arg7 (by decide))).trans (W3_main_arg7 m ρ c),
    (h c _ (mem_uc main_arg8 (by decide))).trans (W3_main_arg8 m ρ c),
    (h c _ (mem_uc main_arg9 (by decide))).trans (W3_main_arg9 m ρ c),
    (h c _ (mem_uc main_arg10 (by decide))).trans (W3_main_arg10 m ρ c),
    (h c _ (mem_uc main_arg11 (by decide))).trans (W3_main_arg11 m ρ c),
    (h c _ (mem_uc main_arg12 (by decide))).trans (W3_main_arg12 m ρ c),
    (h c _ (mem_uc main_arg13 (by decide))).trans (W3_main_arg13 m ρ c),
    (h c _ (mem_uc main_arg14 (by decide))).trans (W3_main_arg14 m ρ c),
    (h c _ (mem_uc main_arg15 (by decide))).trans (W3_main_arg15 m ρ c),
    (h c _ (mem_uc main_arg16 (by decide))).trans (W3_main_arg16 m ρ c),
    (h c _ (mem_uc main_arg17 (by decide))).trans (W3_main_arg17 m ρ c),
    (h c _ (mem_uc main_arg18 (by decide))).trans (W3_main_arg18 m ρ c),
    (h c _ (mem_uc main_arg19 (by decide))).trans (W3_main_arg19 m ρ c),
    (h c _ (mem_uc main_arg20 (by decide))).trans (W3_main_arg20 m ρ c),
    (h c _ (mem_uc main_arg21 (by decide))).trans (W3_main_arg21 m ρ c),
    (h c _ (mem_uc main_arg22 (by decide))).trans (W3_main_arg22 m ρ c),
    (h c _ (mem_uc main_arg23 (by decide))).trans (W3_main_arg23 m ρ c),
    (h c _ (mem_uc main_arg24 (by decide))).trans (W3_main_arg24 m ρ c),
    (h c _ (mem_uc main_arg25 (by decide))).trans (W3_main_arg25 m ρ c)⟩) (run_main m ρ)

end Cert.KernelIdeal.Run

end
-- ==== Proof.KernelIdealBlocks.lean ====
/-
  The geometry of the fused kernel's output window: grid point t writes back the t-th image of the (64, 32, 32, 128) result array, so
  distinct points write disjoint blocks, the blocks cover the array, and the array after the region is, block by block, what the
  points wrote.
-/
import proofs.«120724_g2000406006432562_pallasbulk_1270_2_alg».proof.Proof.Gen.KernelIdeal.Launch
import proofs.«120724_g2000406006432562_pallasbulk_1270_2_alg».proof.Proof.Gen.KernelIdeal.Points
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.Rounds
open Idealize.ShloMosaic.Pipeline (Dat)

variable {F : FTy → Type} [FloatOps F]

/-! ## Output window 24 of cfg0: blocks of one image each, laid along the leading axis -/

/-- The printed index map of the window, decided over the grid: point `t` addresses block `(t, 0, 0, 0)`. -/
theorem idx24_cfg0 : ∀ t : Fin cfg0.N, win0_24.index t (0 : Fin 4) = t.val ∧ win0_24.index t (1 : Fin 4) = 0
    ∧ win0_24.index t (2 : Fin 4) = 0 ∧ win0_24.index t (3 : Fin 4) = 0 :=
  (by decide +kernel : ∀ t : Fin grid0.N, _)

/-- Distinct grid points address distinct blocks. -/
theorem idx_inj24_cfg0 : ∀ t t' : Fin cfg0.N, win0_24.index t = win0_24.index t' → t = t' := fun t t' h => by
  have e := congrFun h (0 : Fin 4)
  rw [(idx24_cfg0 t).1, (idx24_cfg0 t').1] at e
  exact Fin.ext e

/-- So two points' blocks share no index of the array. -/
theorem disjoint24_cfg0 : ∀ t t' : Fin cfg0.N, (cfg0.win 24).flush t = true → (cfg0.win 24).flush t' = true → t ≠ t' →
    Disjoint ((cfg0.win 24).blk t).view.set ((cfg0.win 24).blk t').view.set :=
  fun t t' _ _ hne => (cfg0.win 24).disjoint_blk fun h => hne (idx_inj24_cfg0 t t' h)

/-- Block `t` of the array after the region, read back, is what point `t` wrote back. -/
theorem blocks24_cfg0 {c : Dev nD} (dat : Dat τ (Elt F) Unit ℕ (URounds (GSem nD τ sig) Unit) ℕ cfg0 c) (t : Fin cfg0.N) :
    ((cfg0.win 24).blk t).view.read (Elt F) (dat.arrAt 24 cfg0.N) = dat.flushed 24 t :=
  dat.read_blk_arrAt_eq_flushed 24 disjoint24_cfg0 cfg0.N t t.isLt (flush0_24 t)

/-- An index of the array lies in point `t`'s block iff each coordinate lies in the block's range on its axis. -/
theorem mem_blk24_cfg0 (t : Fin cfg0.N) (i : S64x32x32x128.Idx) :
    i ∈ ((cfg0.win 24).blk t).view.set ↔ ∀ a : Fin 4, win0_24.index t a * S1x32x32x128.size a ≤ (i a).val
      ∧ (i a).val < win0_24.index t a * S1x32x32x128.size a + S1x32x32x128.size a := by
  show i ∈ ((View.whole main_v24).slice (win0_24.rect t)).set ↔ _
  rw [View.set_slice_whole, Rect.mem_set_unit]
  exact Iff.rfl

/-- Every index of the array lies in the block of the point its leading coordinate names. -/
theorem cover24_cfg0 (i : S64x32x32x128.Idx) :
    ∃ t : Fin cfg0.N, (cfg0.win 24).flush t = true ∧ i ∈ ((cfg0.win 24).blk t).view.set := by
  have h0 : (i 0).val < 64 := (i 0).isLt
  have h1 : (i 1).val < 32 := (i 1).isLt
  have h2 : (i 2).val < 32 := (i 2).isLt
  have h3 : (i 3).val < 128 := (i 3).isLt
  have hN : cfg0.N = 64 := N_0
  refine ⟨⟨(i 0).val, by omega⟩, flush0_24 _, ?_⟩
  rw [mem_blk24_cfg0]
  obtain ⟨e0, e1, e2, e3⟩ := idx24_cfg0 ⟨(i 0).val, by omega⟩
  intro a
  match a with
  | ⟨0, _⟩ => show win0_24.index _ (0 : Fin 4) * 1 ≤ (i 0).val ∧ (i 0).val < win0_24.index _ (0 : Fin 4) * 1 + 1; rw [e0]; show (i 0).val * 1 ≤ (i 0).val ∧ (i 0).val < (i 0).val * 1 + 1; omega
  | ⟨1, _⟩ => show win0_24.index _ (1 : Fin 4) * 32 ≤ (i 1).val ∧ (i 1).val < win0_24.index _ (1 : Fin 4) * 32 + 32; rw [e1]; omega
  | ⟨2, _⟩ => show win0_24.index _ (2 : Fin 4) * 32 ≤ (i 2).val ∧ (i 2).val < win0_24.index _ (2 : Fin 4) * 32 + 32; rw [e2]; omega
  | ⟨3, _⟩ => show win0_24.index _ (3 : Fin 4) * 128 ≤ (i 3).val ∧ (i 3).val < win0_24.index _ (3 : Fin 4) * 128 + 128; rw [e3]; omega

/-- Hence an array that agrees, block by block, with what every point wrote back IS the array after the region. -/
theorem arrAt24_cfg0_eq {c : Dev nD} (dat : Dat τ (Elt F) Unit ℕ (URounds (GSem nD τ sig) Unit) ℕ cfg0 c)
    (G : Buf (Elt F) ((cfg0.win 24).arr.view.loc (c.tc : Thread nD τ)))
    (hG : ∀ t, dat.flushed 24 t = ((cfg0.win 24).blk t).view.read (Elt F) G) : dat.arrAt 24 cfg0.N = G :=
  dat.arrAt_eq_of_cover 24 G (fun t _ => hG t) cover24_cfg0

end Cert.KernelIdeal.Blocks

end
-- ==== Proof.KernelIdealLit.lean ====
/-
  The fused kernel's output block as one function of its input blocks, free of the staging buffers the run was stated over.
-/
import proofs.«120724_g2000406006432562_pallasbulk_1270_2_alg».proof.Proof.KernelIdealBody
import Idealize.ShloMosaic.Lib.Pipeline.FrameBody

noncomputable section

namespace Cert.KernelIdeal.Lit

open Cert.KernelIdeal Cert.KernelIdeal.Gen
open Idealize.ShloMosaic Idealize.ShloMosaic.TcCoe Idealize.SL.Sem

variable {F : FTy → Type} [FloatOps F]

/-- The fused kernel's output block as a function of its twenty-four input blocks: the canonical contents of the body's stores into the block, the staging buffers taken at their first slots, where a buffer's raw contents are the block itself. -/
def out (c : Dev nD) (x0 : S1x32x32x128.Idx → Elt F .f32) (x1 : S1x1x128.Idx → Elt F .f32) (x2 : S5x5x128.Idx → Elt F .f32) (x3 : S128x384.Idx → Elt F .bf16) (x4 : S1x384.Idx → Elt F .f32) (x5 : S3x3x128.Idx → Elt F .f32) (x6 : S1x1x128.Idx → Elt F .f32) (x7 : S128x128.Idx → Elt F .bf16) (x8 : S1x128.Idx → Elt F .f32) (x9 : S1x1x128.Idx → Elt F .f32) (x10 : S1x1x128.Idx → Elt F .f32) (x11 : S5x5x128.Idx → Elt F .f32) (x12 : S128x512.Idx → Elt F .bf16) (x13 : S512x128.Idx → Elt F .bf16) (x14 : S128x128.Idx → Elt F .bf16) (x15 : S1x1x128.Idx → Elt F .f32) (x16 : S3x3x128x128.Idx → Elt F .bf16) (x17 : S3x3x128x128.Idx → Elt F .bf16) (x18 : S1x128.Idx → Elt F .f32) (x19 : S3x3x128x128.Idx → Elt F .bf16) (x20 : S1x128.Idx → Elt F .f32) (x21 : S128x128.Idx → Elt F .bf16) (x22 : S128x128.Idx → Elt F .bf16) (x23 : S1x128.Idx → Elt F .f32) : S1x32x32x128.Idx → Elt F .f32 :=
  View.canon (Body.kernelRun.sl.H24_1 (F := F) c (stage0_0 0) (stage0_1 0) (stage0_2 0) (stage0_3 0) (stage0_4 0) (stage0_5 0) (stage0_6 0) (stage0_7 0) (stage0_8 0) (stage0_9 0) (stage0_10 0) (stage0_11 0) (stage0_12 0) (stage0_13 0) (stage0_14 0) (stage0_15 0) (stage0_16 0) (stage0_17 0) (stage0_18 0) (stage0_19 0) (stage0_20 0) (stage0_21 0) (stage0_22 0) (stage0_23 0) (Memref.whole cc0_scratch0) (Memref.whole cc0_scratch1) (Memref.whole cc0_scratch2) (Memref.whole cc0_scratch3) x0 x1 x2 x3 x4 x5 x6 x7 x8 x9 x10 x11 x12 x13 x14 x15 x16 x17 x18 x19 x20 x21 x22 x23)

end Cert.KernelIdeal.Lit

end
-- ==== Proof.BridgeImg.lean ====
/-
  Where an element of one image sits in the batch: the blocked windows of all three calls cut the (64, 32, 32, 128) arrays into
  their sixty-four images, and grid point n moves image n, so the element y of that block is the array's element (n, y₁, y₂, y₃).
-/
import Idealize.ShloMosaic.Lib.Pipeline.Value

namespace Cert.Bridge

open Idealize.ShloMosaic

/-- The shape of one image block. -/
abbrev SImg : Shape := ⟨4, ![1, 32, 32, 128]⟩
/-- The shape of the batch of images. -/
abbrev SBatch : Shape := ⟨4, ![64, 32, 32, 128]⟩

/-- Element `y` of image `n`, as an index of the batch. -/
def img (n : Nat) (hn : n < 64) (y : SImg.Idx) : SBatch.Idx
  | ⟨0, _⟩ => ⟨n, hn⟩
  | ⟨1, _⟩ => y 1
  | ⟨2, _⟩ => y 2
  | ⟨3, _⟩ => y 3

theorem img_val0 (n : Nat) (hn : n < 64) (y : SImg.Idx) : (img n hn y 0).val = n := rfl
theorem img_val1 (n : Nat) (hn : n < 64) (y : SImg.Idx) : (img n hn y 1).val = (y 1).val := rfl
theorem img_val2 (n : Nat) (hn : n < 64) (y : SImg.Idx) : (img n hn y 2).val = (y 2).val := rfl
theorem img_val3 (n : Nat) (hn : n < 64) (y : SImg.Idx) : (img n hn y 3).val = (y 3).val := rfl

end Cert.Bridge
-- ==== Proof.BridgeK.lean ====
/-
  The fused kernel's side of the assembly. Every operand window but the image's is one block holding its whole array (its index
  map is constantly zero), so its block at any grid point is the array itself, and that array is what the host operations before
  the region made of the argument arrays. The image window's block at point t, and the output window's, are image t of their
  arrays. The result is the last reshape of the output array, and the output array's block t is what point t wrote back.
-/
import proofs.«120724_g2000406006432562_pallasbulk_1270_2_alg».proof.Proof.KernelIdealRun
import proofs.«120724_g2000406006432562_pallasbulk_1270_2_alg».proof.Proof.KernelIdealBlocks
import proofs.«120724_g2000406006432562_pallasbulk_1270_2_alg».proof.Proof.KernelIdealLit
import proofs.«120724_g2000406006432562_pallasbulk_1270_2_alg».proof.Proof.BridgeImg
import Idealize.ShloMosaic.PureOps.Ideal

set_option maxRecDepth 16384

noncomputable section

namespace Cert.Bridge.K

open Cert.KernelIdeal Cert.KernelIdeal.Gen Cert.Bridge
open Idealize.ShloMosaic Idealize.ShloMosaic.TcCoe Idealize.SL.Sem
open Idealize.ShloMosaic.StableHlo
open Idealize.ShloMosaic.Rounds
open Idealize.ShloMosaic.Pipeline (Dat)

variable {F : FTy → Type} [FloatOps F]

/-! ## The index maps, decided over the grid -/

theorem idx1 : ∀ t : Fin cfg0.N, ∀ a : Fin 3, win0_1.index t a = 0 := (by decide +kernel : ∀ t : Fin grid0.N, _)
theorem idx2 : ∀ t : Fin cfg0.N, ∀ a : Fin 3, win0_2.index t a = 0 := (by decide +kernel : ∀ t : Fin grid0.N, _)
theorem idx3 : ∀ t : Fin cfg0.N, ∀ a : Fin 2, win0_3.index t a = 0 := (by decide +kernel : ∀ t : Fin grid0.N, _)
theorem idx4 : ∀ t : Fin cfg0.N, ∀ a : Fin 2, win0_4.index t a = 0 := (by decide +kernel : ∀ t : Fin grid0.N, _)
theorem idx5 : ∀ t : Fin cfg0.N, ∀ a : Fin 3, win0_5.index t a = 0 := (by decide +kernel : ∀ t : Fin grid0.N, _)
theorem idx6 : ∀ t : Fin cfg0.N, ∀ a : Fin 3, win0_6.index t a = 0 := (by decide +kernel : ∀ t : Fin grid0.N, _)
theorem idx7 : ∀ t : Fin cfg0.N, ∀ a : Fin 2, win0_7.index t a = 0 := (by decide +kernel : ∀ t : Fin grid0.N, _)
theorem idx8 : ∀ t : Fin cfg0.N, ∀ a : Fin 2, win0_8.index t a = 0 := (by decide +kernel : ∀ t : Fin grid0.N, _)
theorem idx9 : ∀ t : Fin cfg0.N, ∀ a : Fin 3, win0_9.index t a = 0 := (by decide +kernel : ∀ t : Fin grid0.N, _)
theorem idx10 : ∀ t : Fin cfg0.N, ∀ a : Fin 3, win0_10.index t a = 0 := (by decide +kernel : ∀ t : Fin grid0.N, _)
theorem idx11 : ∀ t : Fin cfg0.N, ∀ a : Fin 3, win0_11.index t a = 0 := (by decide +kernel : ∀ t : Fin grid0.N, _)
theorem idx12 : ∀ t : Fin cfg0.N, ∀ a : Fin 2, win0_12.index t a = 0 := (by decide +kernel : ∀ t : Fin grid0.N, _)
theorem idx13 : ∀ t : Fin cfg0.N, ∀ a : Fin 2, win0_13.index t a = 0 := (by decide +kernel : ∀ t : Fin grid0.N, _)
theorem idx14 : ∀ t : Fin cfg0.N, ∀ a : Fin 2, win0_14.index t a = 0 := (by decide +kernel : ∀ t : Fin grid0.N, _)
theorem idx15 : ∀ t : Fin cfg0.N, ∀ a : Fin 3, win0_15.index t a = 0 := (by decide +kernel : ∀ t : Fin grid0.N, _)
theorem idx16 : ∀ t : Fin cfg0.N, ∀ a : Fin 4, win0_16.index t a = 0 := (by decide +kernel : ∀ t : Fin grid0.N, _)
theorem idx17 : ∀ t : Fin cfg0.N, ∀ a : Fin 4, win0_17.index t a = 0 := (by decide +kernel : ∀ t : Fin grid0.N, _)
theorem idx18 : ∀ t : Fin cfg0.N, ∀ a : Fin 2, win0_18.index t a = 0 := (by decide +kernel : ∀ t : Fin grid0.N, _)
theorem idx19 : ∀ t : Fin cfg0.N, ∀ a : Fin 4, win0_19.index t a = 0 := (by decide +kernel : ∀ t : Fin grid0.N, _)
theorem idx20 : ∀ t : Fin cfg0.N, ∀ a : Fin 2, win0_20.index t a = 0 := (by decide +kernel : ∀ t : Fin grid0.N, _)
theorem idx21 : ∀ t : Fin cfg0.N, ∀ a : Fin 2, win0_21.index t a = 0 := (by decide +kernel : ∀ t : Fin grid0.N, _)
theorem idx22 : ∀ t : Fin cfg0.N, ∀ a : Fin 2, win0_22.index t a = 0 := (by decide +kernel : ∀ t : Fin grid0.N, _)
theorem idx23 : ∀ t : Fin cfg0.N, ∀ a : Fin 2, win0_23.index t a = 0 := (by decide +kernel : ∀ t : Fin grid0.N, _)
/-- The image window addresses image `t` at point `t`. -/
theorem idx0 : ∀ t : Fin cfg0.N, win0_0.index t (0 : Fin 4) = t.val ∧ win0_0.index t (1 : Fin 4) = 0
    ∧ win0_0.index t (2 : Fin 4) = 0 ∧ win0_0.index t (3 : Fin 4) = 0 :=
  (by decide +kernel : ∀ t : Fin grid0.N, _)

theorem lt64 (t : Fin cfg0.N) : t.val < 64 := by have h : cfg0.N = 64 := N_0; have := t.isLt; omega

/-! ## The blocks the region finds -/

section Blocks
variable (V : (c : Dev nD) → (b : Ref sig .tc) → Buf (Elt F) ((c : Thread nD τ).loc b))

theorem blk1 (c : Dev nD) (t : Fin cfg0.N) : Run.iblk0 V c 1 t = (V c main_v12 : S1x1x128.Idx → Elt F .f32) := by
  funext y
  show V c main_v12 (((cfg0.win 1).blk t).view.emb y) = V c main_v12 y
  refine congrArg _ (funext fun a => Fin.ext ?_)
  show win0_1.index t a * S1x1x128.size a + 1 * (y a).val = (y a).val
  rw [idx1 t a]; omega
theorem blk2 (c : Dev nD) (t : Fin cfg0.N) : Run.iblk0 V c 2 t = (V c main_arg5 : S5x5x128.Idx → Elt F .f32) := by
  funext y
  show V c main_arg5 (((cfg0.win 2).blk t).view.emb y) = V c main_arg5 y
  refine congrArg _ (funext fun a => Fin.ext ?_)
  show win0_2.index t a * S5x5x128.size a + 1 * (y a).val = (y a).val
  rw [idx2 t a]; omega
theorem blk3 (c : Dev nD) (t : Fin cfg0.N) : Run.iblk0 V c 3 t = (V c main_v2 : S128x384.Idx → Elt F .bf16) := by
  funext y
  show V c main_v2 (((cfg0.win 3).blk t).view.emb y) = V c main_v2 y
  refine congrArg _ (funext fun a => Fin.ext ?_)
  show win0_3.index t a * S128x384.size a + 1 * (y a).val = (y a).val
  rw [idx3 t a]; omega
theorem blk4 (c : Dev nD) (t : Fin cfg0.N) : Run.iblk0 V c 4 t = (V c main_v3 : S1x384.Idx → Elt F .f32) := by
  funext y
  show V c main_v3 (((cfg0.win 4).blk t).view.emb y) = V c main_v3 y
  refine congrArg _ (funext fun a => Fin.ext ?_)
  show win0_4.index t a * S1x384.size a + 1 * (y a).val = (y a).val
  rw [idx4 t a]; omega
theorem blk5 (c : Dev nD) (t : Fin cfg0.N) : Run.iblk0 V c 5 t = (V c main_arg13 : S3x3x128.Idx → Elt F .f32) := by
  funext y
  show V c main_arg13 (((cfg0.win 5).blk t).view.emb y) = V c main_arg13 y
  refine congrArg _ (funext fun a => Fin.ext ?_)
  show win0_5.index t a * S3x3x128.size a + 1 * (y a).val = (y a).val
  rw [idx5 t a]; omega
theorem blk6 (c : Dev nD) (t : Fin cfg0.N) : Run.iblk0 V c 6 t = (V c main_arg14 : S1x1x128.Idx → Elt F .f32) := by
  funext y
  show V c main_arg14 (((cfg0.win 6).blk t).view.emb y) = V c main_arg14 y
  refine congrArg _ (funext fun a => Fin.ext ?_)
  show win0_6.index t a * S1x1x128.size a + 1 * (y a).val = (y a).val
  rw [idx6 t a]; omega
theorem blk7 (c : Dev nD) (t : Fin cfg0.N) : Run.iblk0 V c 7 t = (V c main_v13 : S128x128.Idx → Elt F .bf16) := by
  funext y
  show V c main_v13 (((cfg0.win 7).blk t).view.emb y) = V c main_v13 y
  refine congrArg _ (funext fun a => Fin.ext ?_)
  show win0_7.index t a * S128x128.size a + 1 * (y a).val = (y a).val
  rw [idx7 t a]; omega
theorem blk8 (c : Dev nD) (t : Fin cfg0.N) : Run.iblk0 V c 8 t = (V c main_arg16 : S1x128.Idx → Elt F .f32) := by
  funext y
  show V c main_arg16 (((cfg0.win 8).blk t).view.emb y) = V c main_arg16 y
  refine congrArg _ (funext fun a => Fin.ext ?_)
  show win0_8.index t a * S1x128.size a + 1 * (y a).val = (y a).val
  rw [idx8 t a]; omega
theorem blk9 (c : Dev nD) (t : Fin cfg0.N) : Run.iblk0 V c 9 t = (V c main_v14 : S1x1x128.Idx → Elt F .f32) := by
  funext y
  show V c main_v14 (((cfg0.win 9).blk t).view.emb y) = V c main_v14 y
  refine congrArg _ (funext fun a => Fin.ext ?_)
  show win0_9.index t a * S1x1x128.size a + 1 * (y a).val = (y a).val
  rw [idx9 t a]; omega
theorem blk10 (c : Dev nD) (t : Fin cfg0.N) : Run.iblk0 V c 10 t = (V c main_v15 : S1x1x128.Idx → Elt F .f32) := by
  funext y
  show V c main_v15 (((cfg0.win 10).blk t).view.emb y) = V c main_v15 y
  refine congrArg _ (funext fun a => Fin.ext ?_)
  show win0_10.index t a * S1x1x128.size a + 1 * (y a).val = (y a).val
  rw [idx10 t a]; omega
theorem blk11 (c : Dev nD) (t : Fin cfg0.N) : Run.iblk0 V c 11 t = (V c main_arg6 : S5x5x128.Idx → Elt F .f32) := by
  funext y
  show V c main_arg6 (((cfg0.win 11).blk t).view.emb y) = V c main_arg6 y
  refine congrArg _ (funext fun a => Fin.ext ?_)
  show win0_11.index t a * S5x5x128.size a + 1 * (y a).val = (y a).val
  rw [idx11 t a]; omega
theorem blk12 (c : Dev nD) (t : Fin cfg0.N) : Run.iblk0 V c 12 t = (V c main_v16 : S128x512.Idx → Elt F .bf16) := by
  funext y
  show V c main_v16 (((cfg0.win 12).blk t).view.emb y) = V c main_v16 y
  refine congrArg _ (funext fun a => Fin.ext ?_)
  show win0_12.index t a * S128x512.size a + 1 * (y a).val = (y a).val
  rw [idx12 t a]; omega
theorem blk13 (c : Dev nD) (t : Fin cfg0.N) : Run.iblk0 V c 13 t = (V c main_v17 : S512x128.Idx → Elt F .bf16) := by
  funext y
  show V c main_v17 (((cfg0.win 13).blk t).view.emb y) = V c main_v17 y
  refine congrArg _ (funext fun a => Fin.ext ?_)
  show win0_13.index t a * S512x128.size a + 1 * (y a).val = (y a).val
  rw [idx13 t a]; omega
theorem blk14 (c : Dev nD) (t : Fin cfg0.N) : Run.iblk0 V c 14 t = (V c main_v18 : S128x128.Idx → Elt F .bf16) := by
  funext y
  show V c main_v18 (((cfg0.win 14).blk t).view.emb y) = V c main_v18 y
  refine congrArg _ (funext fun a => Fin.ext ?_)
  show win0_14.index t a * S128x128.size a + 1 * (y a).val = (y a).val
  rw [idx14 t a]; omega
theorem blk15 (c : Dev nD) (t : Fin cfg0.N) : Run.iblk0 V c 15 t = (V c main_v19 : S1x1x128.Idx → Elt F .f32) := by
  funext y
  show V c main_v19 (((cfg0.win 15).blk t).view.emb y) = V c main_v19 y
  refine congrArg _ (funext fun a => Fin.ext ?_)
  show win0_15.index t a * S1x1x128.size a + 1 * (y a).val = (y a).val
  rw [idx15 t a]; omega
theorem blk16 (c : Dev nD) (t : Fin cfg0.N) : Run.iblk0 V c 16 t = (V c main_v5 : S3x3x128x128.Idx → Elt F .bf16) := by
  funext y
  show V c main_v5 (((cfg0.win 16).blk t).view.emb y) = V c main_v5 y
  refine congrArg _ (funext fun a => Fin.ext ?_)
  show win0_16.index t a * S3x3x128x128.size a + 1 * (y a).val = (y a).val
  rw [idx16 t a]; omega
theorem blk17 (c : Dev nD) (t : Fin cfg0.N) : Run.iblk0 V c 17 t = (V c main_v7 : S3x3x128x128.Idx → Elt F .bf16) := by
  funext y
  show V c main_v7 (((cfg0.win 17).blk t).view.emb y) = V c main_v7 y
  refine congrArg _ (funext fun a => Fin.ext ?_)
  show win0_17.index t a * S3x3x128x128.size a + 1 * (y a).val = (y a).val
  rw [idx17 t a]; omega
theorem blk18 (c : Dev nD) (t : Fin cfg0.N) : Run.iblk0 V c 18 t = (V c main_v20 : S1x128.Idx → Elt F .f32) := by
  funext y
  show V c main_v20 (((cfg0.win 18).blk t).view.emb y) = V c main_v20 y
  refine congrArg _ (funext fun a => Fin.ext ?_)
  show win0_18.index t a * S1x128.size a + 1 * (y a).val = (y a).val
  rw [idx18 t a]; omega
theorem blk19 (c : Dev nD) (t : Fin cfg0.N) : Run.iblk0 V c 19 t = (V c main_v21 : S3x3x128x128.Idx → Elt F .bf16) := by
  funext y
  show V c main_v21 (((cfg0.win 19).blk t).view.emb y) = V c main_v21 y
  refine congrArg _ (funext fun a => Fin.ext ?_)
  show win0_19.index t a * S3x3x128x128.size a + 1 * (y a).val = (y a).val
  rw [idx19 t a]; omega
theorem blk20 (c : Dev nD) (t : Fin cfg0.N) : Run.iblk0 V c 20 t = (V c main_v22 : S1x128.Idx → Elt F .f32) := by
  funext y
  show V c main_v22 (((cfg0.win 20).blk t).view.emb y) = V c main_v22 y
  refine congrArg _ (funext fun a => Fin.ext ?_)
  show win0_20.index t a * S1x128.size a + 1 * (y a).val = (y a).val
  rw [idx20 t a]; omega
theorem blk21 (c : Dev nD) (t : Fin cfg0.N) : Run.iblk0 V c 21 t = (V c main_v9 : S128x128.Idx → Elt F .bf16) := by
  funext y
  show V c main_v9 (((cfg0.win 21).blk t).view.emb y) = V c main_v9 y
  refine congrArg _ (funext fun a => Fin.ext ?_)
  show win0_21.index t a * S128x128.size a + 1 * (y a).val = (y a).val
  rw [idx21 t a]; omega
theorem blk22 (c : Dev nD) (t : Fin cfg0.N) : Run.iblk0 V c 22 t = (V c main_v11 : S128x128.Idx → Elt F .bf16) := by
  funext y
  show V c main_v11 (((cfg0.win 22).blk t).view.emb y) = V c main_v11 y
  refine congrArg _ (funext fun a => Fin.ext ?_)
  show win0_22.index t a * S128x128.size a + 1 * (y a).val = (y a).val
  rw [idx22 t a]; omega
theorem blk23 (c : Dev nD) (t : Fin cfg0.N) : Run.iblk0 V c 23 t = (V c main_v23 : S1x128.Idx → Elt F .f32) := by
  funext y
  show V c main_v23 (((cfg0.win 23).blk t).view.emb y) = V c main_v23 y
  refine congrArg _ (funext fun a => Fin.ext ?_)
  show win0_23.index t a * S1x128.size a + 1 * (y a).val = (y a).val
  rw [idx23 t a]; omega
/-- The image window's block at point `t` is image `t` of its array. -/
theorem blk0 (c : Dev nD) (t : Fin cfg0.N) :
    Run.iblk0 V c 0 t = fun y : S1x32x32x128.Idx => (V c main_v0 : S64x32x32x128.Idx → Elt F .f32) (img t.val (lt64 t) y) := by
  funext y
  show V c main_v0 (((cfg0.win 0).blk t).view.emb y) = V c main_v0 (img t.val (lt64 t) y)
  refine congrArg _ (funext fun a => Fin.ext ?_)
  obtain ⟨e0, e1, e2, e3⟩ := idx0 t
  match a with
  | ⟨0, _⟩ => show win0_0.index t (0 : Fin 4) * 1 + 1 * (y 0).val = t.val; rw [e0]; have h0 : (y 0).val < 1 := (y 0).isLt; omega
  | ⟨1, _⟩ => show win0_0.index t (1 : Fin 4) * 32 + 1 * (y 1).val = (y 1).val; rw [e1]; omega
  | ⟨2, _⟩ => show win0_0.index t (2 : Fin 4) * 32 + 1 * (y 2).val = (y 2).val; rw [e2]; omega
  | ⟨3, _⟩ => show win0_0.index t (3 : Fin 4) * 128 + 1 * (y 3).val = (y 3).val; rw [e3]; omega

/-- Block `t` of any contents of the output array is its image `t`. -/
theorem read24 (c : Dev nD) (G : Buf (Elt F) ((cfg0.win 24).arr.view.loc (c.tc : Thread nD τ))) (t : Fin cfg0.N) :
    ((cfg0.win 24).blk t).view.read (Elt F) G = fun y : S1x32x32x128.Idx => (G : S64x32x32x128.Idx → Elt F .f32) (img t.val (lt64 t) y) := by
  funext y
  show G (((cfg0.win 24).blk t).view.emb y) = G (img t.val (lt64 t) y)
  refine congrArg _ (funext fun a => Fin.ext ?_)
  obtain ⟨e0, e1, e2, e3⟩ := Blocks.idx24_cfg0 t
  match a with
  | ⟨0, _⟩ => show win0_24.index t (0 : Fin 4) * 1 + 1 * (y 0).val = t.val; rw [e0]; have h0 : (y 0).val < 1 := (y 0).isLt; omega
  | ⟨1, _⟩ => show win0_24.index t (1 : Fin 4) * 32 + 1 * (y 1).val = (y 1).val; rw [e1]; omega
  | ⟨2, _⟩ => show win0_24.index t (2 : Fin 4) * 32 + 1 * (y 2).val = (y 2).val; rw [e2]; omega
  | ⟨3, _⟩ => show win0_24.index t (3 : Fin 4) * 128 + 1 * (y 3).val = (y 3).val; rw [e3]; omega

/-- What point `t` writes back is the whole output block the body left: the window is not cut at the array's end. -/
theorem flushed24 (c : Dev nD) (t : Fin cfg0.N) : (Run.dat0 V c).flushed 24 t = Run.outBlk0 V c t := by
  show (cfg0.win 24).cut (grid0.coords t) ((Run.dat0 V c).after 24 t) = _
  rw [Run.after0_24]

end Blocks

/-! ## The arrays the host operations prepare, at the ideal instance -/

variable (m : (ℓ : Loc nD τ sig) → Buf (Elt Ideal) ℓ) (ρ : Dev nD → PrngReg)

theorem host1 (c : Dev nD) : Run.V1 (F := Ideal) m ρ c main_v12 = ((shapeCast Cert.KernelIdeal.S1x1x128 (m ((c : Thread Cert.KernelIdeal.nD Cert.KernelIdeal.τ).loc Cert.KernelIdeal.main_arg1) : Cert.KernelIdeal.S128.Idx → Elt Ideal .f32) Cert.KernelIdeal.Facts₀.shapeCasts_S128_S1x1x128) : S1x1x128.Idx → Elt Ideal .f32) := by
  show StableHlo.after hostOps0 _ _ = _
  after_results
  all_goals rfl
theorem host2 (c : Dev nD) : Run.V1 (F := Ideal) m ρ c main_arg5 = ((m ((c : Thread Cert.KernelIdeal.nD Cert.KernelIdeal.τ).loc Cert.KernelIdeal.main_arg5) : Cert.KernelIdeal.S5x5x128.Idx → Elt Ideal .f32) : S5x5x128.Idx → Elt Ideal .f32) := by
  show StableHlo.after hostOps0 _ _ = _
  after_results
  all_goals rfl
theorem host3 (c : Dev nD) : Run.V1 (F := Ideal) m ρ c main_v2 = ((truncf (F := Ideal) .bf16 (concatenate Cert.KernelIdeal.S128x384 1 [⟨Cert.KernelIdeal.S128x128, (m ((c : Thread Cert.KernelIdeal.nD Cert.KernelIdeal.τ).loc Cert.KernelIdeal.main_arg7) : Cert.KernelIdeal.S128x128.Idx → Elt Ideal .f32)⟩, ⟨Cert.KernelIdeal.S128x128, (m ((c : Thread Cert.KernelIdeal.nD Cert.KernelIdeal.τ).loc Cert.KernelIdeal.main_arg8) : Cert.KernelIdeal.S128x128.Idx → Elt Ideal .f32)⟩, ⟨Cert.KernelIdeal.S128x128, (m ((c : Thread Cert.KernelIdeal.nD Cert.KernelIdeal.τ).loc Cert.KernelIdeal.main_arg9) : Cert.KernelIdeal.S128x128.Idx → Elt Ideal .f32)⟩] Cert.KernelIdeal.Facts₀.concatenates_S128x128_S128x128_S128x128_S128x384_d1) Cert.KernelIdeal.Facts₀.bitsLt_bf16_f32) : S128x384.Idx → Elt Ideal .bf16) := by
  show StableHlo.after hostOps0 _ _ = _
  after_results
  all_goals rfl
theorem host4 (c : Dev nD) : Run.V1 (F := Ideal) m ρ c main_v3 = ((concatenate Cert.KernelIdeal.S1x384 1 [⟨Cert.KernelIdeal.S1x128, (m ((c : Thread Cert.KernelIdeal.nD Cert.KernelIdeal.τ).loc Cert.KernelIdeal.main_arg10) : Cert.KernelIdeal.S1x128.Idx → Elt Ideal .f32)⟩, ⟨Cert.KernelIdeal.S1x128, (m ((c : Thread Cert.KernelIdeal.nD Cert.KernelIdeal.τ).loc Cert.KernelIdeal.main_arg11) : Cert.KernelIdeal.S1x128.Idx → Elt Ideal .f32)⟩, ⟨Cert.KernelIdeal.S1x128, (m ((c : Thread Cert.KernelIdeal.nD Cert.KernelIdeal.τ).loc Cert.KernelIdeal.main_arg12) : Cert.KernelIdeal.S1x128.Idx → Elt Ideal .f32)⟩] Cert.KernelIdeal.Facts₀.concatenates_S1x128_S1x128_S1x128_S1x384_d1) : S1x384.Idx → Elt Ideal .f32) := by
  show StableHlo.after hostOps0 _ _ = _
  after_results
  all_goals rfl
theorem host5 (c : Dev nD) : Run.V1 (F := Ideal) m ρ c main_arg13 = ((m ((c : Thread Cert.KernelIdeal.nD Cert.KernelIdeal.τ).loc Cert.KernelIdeal.main_arg13) : Cert.KernelIdeal.S3x3x128.Idx → Elt Ideal .f32) : S3x3x128.Idx → Elt Ideal .f32) := by
  show StableHlo.after hostOps0 _ _ = _
  after_results
  all_goals rfl
theorem host6 (c : Dev nD) : Run.V1 (F := Ideal) m ρ c main_arg14 = ((m ((c : Thread Cert.KernelIdeal.nD Cert.KernelIdeal.τ).loc Cert.KernelIdeal.main_arg14) : Cert.KernelIdeal.S1x1x128.Idx → Elt Ideal .f32) : S1x1x128.Idx → Elt Ideal .f32) := by
  show StableHlo.after hostOps0 _ _ = _
  after_results
  all_goals rfl
theorem host7 (c : Dev nD) : Run.V1 (F := Ideal) m ρ c main_v13 = ((truncf (F := Ideal) .bf16 (m ((c : Thread Cert.KernelIdeal.nD Cert.KernelIdeal.τ).loc Cert.KernelIdeal.main_arg15) : Cert.KernelIdeal.S128x128.Idx → Elt Ideal .f32) Cert.KernelIdeal.Facts₀.bitsLt_bf16_f32) : S128x128.Idx → Elt Ideal .bf16) := by
  show StableHlo.after hostOps0 _ _ = _
  after_results
  all_goals rfl
theorem host8 (c : Dev nD) : Run.V1 (F := Ideal) m ρ c main_arg16 = ((m ((c : Thread Cert.KernelIdeal.nD Cert.KernelIdeal.τ).loc Cert.KernelIdeal.main_arg16) : Cert.KernelIdeal.S1x128.Idx → Elt Ideal .f32) : S1x128.Idx → Elt Ideal .f32) := by
  show StableHlo.after hostOps0 _ _ = _
  after_results
  all_goals rfl
theorem host9 (c : Dev nD) : Run.V1 (F := Ideal) m ρ c main_v14 = ((shapeCast Cert.KernelIdeal.S1x1x128 (m ((c : Thread Cert.KernelIdeal.nD Cert.KernelIdeal.τ).loc Cert.KernelIdeal.main_arg3) : Cert.KernelIdeal.S128.Idx → Elt Ideal .f32) Cert.KernelIdeal.Facts₀.shapeCasts_S128_S1x1x128) : S1x1x128.Idx → Elt Ideal .f32) := by
  show StableHlo.after hostOps0 _ _ = _
  after_results
  all_goals rfl
theorem host10 (c : Dev nD) : Run.V1 (F := Ideal) m ρ c main_v15 = ((shapeCast Cert.KernelIdeal.S1x1x128 (m ((c : Thread Cert.KernelIdeal.nD Cert.KernelIdeal.τ).loc Cert.KernelIdeal.main_arg2) : Cert.KernelIdeal.S128.Idx → Elt Ideal .f32) Cert.KernelIdeal.Facts₀.shapeCasts_S128_S1x1x128) : S1x1x128.Idx → Elt Ideal .f32) := by
  show StableHlo.after hostOps0 _ _ = _
  after_results
  all_goals rfl
theorem host11 (c : Dev nD) : Run.V1 (F := Ideal) m ρ c main_arg6 = ((m ((c : Thread Cert.KernelIdeal.nD Cert.KernelIdeal.τ).loc Cert.KernelIdeal.main_arg6) : Cert.KernelIdeal.S5x5x128.Idx → Elt Ideal .f32) : S5x5x128.Idx → Elt Ideal .f32) := by
  show StableHlo.after hostOps0 _ _ = _
  after_results
  all_goals rfl
theorem host12 (c : Dev nD) : Run.V1 (F := Ideal) m ρ c main_v16 = ((truncf (F := Ideal) .bf16 (m ((c : Thread Cert.KernelIdeal.nD Cert.KernelIdeal.τ).loc Cert.KernelIdeal.main_arg17) : Cert.KernelIdeal.S128x512.Idx → Elt Ideal .f32) Cert.KernelIdeal.Facts₀.bitsLt_bf16_f32) : S128x512.Idx → Elt Ideal .bf16) := by
  show StableHlo.after hostOps0 _ _ = _
  after_results
  all_goals rfl
theorem host13 (c : Dev nD) : Run.V1 (F := Ideal) m ρ c main_v17 = ((truncf (F := Ideal) .bf16 (m ((c : Thread Cert.KernelIdeal.nD Cert.KernelIdeal.τ).loc Cert.KernelIdeal.main_arg18) : Cert.KernelIdeal.S512x128.Idx → Elt Ideal .f32) Cert.KernelIdeal.Facts₀.bitsLt_bf16_f32) : S512x128.Idx → Elt Ideal .bf16) := by
  show StableHlo.after hostOps0 _ _ = _
  after_results
  all_goals rfl
theorem host14 (c : Dev nD) : Run.V1 (F := Ideal) m ρ c main_v18 = ((truncf (F := Ideal) .bf16 (m ((c : Thread Cert.KernelIdeal.nD Cert.KernelIdeal.τ).loc Cert.KernelIdeal.main_arg19) : Cert.KernelIdeal.S128x128.Idx → Elt Ideal .f32) Cert.KernelIdeal.Facts₀.bitsLt_bf16_f32) : S128x128.Idx → Elt Ideal .bf16) := by
  show StableHlo.after hostOps0 _ _ = _
  after_results
  all_goals rfl
theorem host15 (c : Dev nD) : Run.V1 (F := Ideal) m ρ c main_v19 = ((shapeCast Cert.KernelIdeal.S1x1x128 (m ((c : Thread Cert.KernelIdeal.nD Cert.KernelIdeal.τ).loc Cert.KernelIdeal.main_arg4) : Cert.KernelIdeal.S128.Idx → Elt Ideal .f32) Cert.KernelIdeal.Facts₀.shapeCasts_S128_S1x1x128) : S1x1x128.Idx → Elt Ideal .f32) := by
  show StableHlo.after hostOps0 _ _ = _
  after_results
  all_goals rfl
theorem host16 (c : Dev nD) : Run.V1 (F := Ideal) m ρ c main_v5 = ((truncf (F := Ideal) .bf16 (extractStridedSlice Cert.KernelIdeal.S3x3x128x128 ![0, 0, 0, 0] (m ((c : Thread Cert.KernelIdeal.nD Cert.KernelIdeal.τ).loc Cert.KernelIdeal.main_arg20) : Cert.KernelIdeal.S3x3x256x128.Idx → Elt Ideal .f32) Cert.KernelIdeal.Facts₀.slices_S3x3x256x128_S3x3x128x128_0_0_0_0) Cert.KernelIdeal.Facts₀.bitsLt_bf16_f32) : S3x3x128x128.Idx → Elt Ideal .bf16) := by
  show StableHlo.after hostOps0 _ _ = _
  after_results
  all_goals rfl
theorem host17 (c : Dev nD) : Run.V1 (F := Ideal) m ρ c main_v7 = ((truncf (F := Ideal) .bf16 (extractStridedSlice Cert.KernelIdeal.S3x3x128x128 ![0, 0, 128, 0] (m ((c : Thread Cert.KernelIdeal.nD Cert.KernelIdeal.τ).loc Cert.KernelIdeal.main_arg20) : Cert.KernelIdeal.S3x3x256x128.Idx → Elt Ideal .f32) Cert.KernelIdeal.Facts₀.slices_S3x3x256x128_S3x3x128x128_0_0_128_0) Cert.KernelIdeal.Facts₀.bitsLt_bf16_f32) : S3x3x128x128.Idx → Elt Ideal .bf16) := by
  show StableHlo.after hostOps0 _ _ = _
  after_results
  all_goals rfl
theorem host18 (c : Dev nD) : Run.V1 (F := Ideal) m ρ c main_v20 = ((shapeCast Cert.KernelIdeal.S1x128 (m ((c : Thread Cert.KernelIdeal.nD Cert.KernelIdeal.τ).loc Cert.KernelIdeal.main_arg21) : Cert.KernelIdeal.S128.Idx → Elt Ideal .f32) Cert.KernelIdeal.Facts₀.shapeCasts_S128_S1x128) : S1x128.Idx → Elt Ideal .f32) := by
  show StableHlo.after hostOps0 _ _ = _
  after_results
  all_goals rfl
theorem host19 (c : Dev nD) : Run.V1 (F := Ideal) m ρ c main_v21 = ((truncf (F := Ideal) .bf16 (m ((c : Thread Cert.KernelIdeal.nD Cert.KernelIdeal.τ).loc Cert.KernelIdeal.main_arg22) : Cert.KernelIdeal.S3x3x128x128.Idx → Elt Ideal .f32) Cert.KernelIdeal.Facts₀.bitsLt_bf16_f32) : S3x3x128x128.Idx → Elt Ideal .bf16) := by
  show StableHlo.after hostOps0 _ _ = _
  after_results
  all_goals rfl
theorem host20 (c : Dev nD) : Run.V1 (F := Ideal) m ρ c main_v22 = ((shapeCast Cert.KernelIdeal.S1x128 (m ((c : Thread Cert.KernelIdeal.nD Cert.KernelIdeal.τ).loc Cert.KernelIdeal.main_arg23) : Cert.KernelIdeal.S128.Idx → Elt Ideal .f32) Cert.KernelIdeal.Facts₀.shapeCasts_S128_S1x128) : S1x128.Idx → Elt Ideal .f32) := by
  show StableHlo.after hostOps0 _ _ = _
  after_results
  all_goals rfl
theorem host21 (c : Dev nD) : Run.V1 (F := Ideal) m ρ c main_v9 = ((truncf (F := Ideal) .bf16 (extractStridedSlice Cert.KernelIdeal.S128x128 ![0, 0] (m ((c : Thread Cert.KernelIdeal.nD Cert.KernelIdeal.τ).loc Cert.KernelIdeal.main_arg24) : Cert.KernelIdeal.S256x128.Idx → Elt Ideal .f32) Cert.KernelIdeal.Facts₀.slices_S256x128_S128x128_0_0) Cert.KernelIdeal.Facts₀.bitsLt_bf16_f32) : S128x128.Idx → Elt Ideal .bf16) := by
  show StableHlo.after hostOps0 _ _ = _
  after_results
  all_goals rfl
theorem host22 (c : Dev nD) : Run.V1 (F := Ideal) m ρ c main_v11 = ((truncf (F := Ideal) .bf16 (extractStridedSlice Cert.KernelIdeal.S128x128 ![128, 0] (m ((c : Thread Cert.KernelIdeal.nD Cert.KernelIdeal.τ).loc Cert.KernelIdeal.main_arg24) : Cert.KernelIdeal.S256x128.Idx → Elt Ideal .f32) Cert.KernelIdeal.Facts₀.slices_S256x128_S128x128_128_0) Cert.KernelIdeal.Facts₀.bitsLt_bf16_f32) : S128x128.Idx → Elt Ideal .bf16) := by
  show StableHlo.after hostOps0 _ _ = _
  after_results
  all_goals rfl
theorem host23 (c : Dev nD) : Run.V1 (F := Ideal) m ρ c main_v23 = ((shapeCast Cert.KernelIdeal.S1x128 (m ((c : Thread Cert.KernelIdeal.nD Cert.KernelIdeal.τ).loc Cert.KernelIdeal.main_arg25) : Cert.KernelIdeal.S128.Idx → Elt Ideal .f32) Cert.KernelIdeal.Facts₀.shapeCasts_S128_S1x128) : S1x128.Idx → Elt Ideal .f32) := by
  show StableHlo.after hostOps0 _ _ = _
  after_results
  all_goals rfl
theorem host0 (c : Dev nD) : Run.V1 (F := Ideal) m ρ c main_v0 = (shapeCast S64x32x32x128 (m ((c : Thread Cert.KernelIdeal.nD Cert.KernelIdeal.τ).loc Cert.KernelIdeal.main_arg0) : Cert.KernelIdeal.S64x1024x128.Idx → Elt Ideal .f32) Facts₀.shapeCasts_S64x1024x128_S64x32x32x128 : S64x32x32x128.Idx → Elt Ideal .f32) := by
  show StableHlo.after hostOps0 _ _ = _
  after_results
  all_goals rfl

/-- The result is the last reshape of the output array. -/
theorem result (c : Dev nD) : Run.W3 (F := Ideal) m ρ c (Proc.devRef .tc main_v25)
    = (shapeCast S64x1024x128 ((Run.dat0 (Run.V1 m ρ) c).arrAt 24 cfg0.N : S64x32x32x128.Idx → Elt Ideal .f32) Facts₀.shapeCasts_S64x32x32x128_S64x1024x128 : S64x1024x128.Idx → Elt Ideal .f32) := by
  rw [← Run.W2_arr m ρ c 24]
  show StableHlo.after hostOps1 _ _ = _
  after_results
  all_goals rfl

/-! ## Each operand block as a host term of the argument arrays, and what a point writes back -/

theorem bh1 (c : Dev nD) (t : Fin cfg0.N) : Run.iblk0 (Run.V1 (F := Ideal) m ρ) c 1 t = ((shapeCast Cert.KernelIdeal.S1x1x128 (m ((c : Thread Cert.KernelIdeal.nD Cert.KernelIdeal.τ).loc Cert.KernelIdeal.main_arg1) : Cert.KernelIdeal.S128.Idx → Elt Ideal .f32) Cert.KernelIdeal.Facts₀.shapeCasts_S128_S1x1x128) : S1x1x128.Idx → Elt Ideal .f32) :=
  (blk1 _ c t).trans (host1 m ρ c)
theorem bh2 (c : Dev nD) (t : Fin cfg0.N) : Run.iblk0 (Run.V1 (F := Ideal) m ρ) c 2 t = ((m ((c : Thread Cert.KernelIdeal.nD Cert.KernelIdeal.τ).loc Cert.KernelIdeal.main_arg5) : Cert.KernelIdeal.S5x5x128.Idx → Elt Ideal .f32) : S5x5x128.Idx → Elt Ideal .f32) :=
  (blk2 _ c t).trans (host2 m ρ c)
theorem bh3 (c : Dev nD) (t : Fin cfg0.N) : Run.iblk0 (Run.V1 (F := Ideal) m ρ) c 3 t = ((truncf (F := Ideal) .bf16 (concatenate Cert.KernelIdeal.S128x384 1 [⟨Cert.KernelIdeal.S128x128, (m ((c : Thread Cert.KernelIdeal.nD Cert.KernelIdeal.τ).loc Cert.KernelIdeal.main_arg7) : Cert.KernelIdeal.S128x128.Idx → Elt Ideal .f32)⟩, ⟨Cert.KernelIdeal.S128x128, (m ((c : Thread Cert.KernelIdeal.nD Cert.KernelIdeal.τ).loc Cert.KernelIdeal.main_arg8) : Cert.KernelIdeal.S128x128.Idx → Elt Ideal .f32)⟩, ⟨Cert.KernelIdeal.S128x128, (m ((c : Thread Cert.KernelIdeal.nD Cert.KernelIdeal.τ).loc Cert.KernelIdeal.main_arg9) : Cert.KernelIdeal.S128x128.Idx → Elt Ideal .f32)⟩] Cert.KernelIdeal.Facts₀.concatenates_S128x128_S128x128_S128x128_S128x384_d1) Cert.KernelIdeal.Facts₀.bitsLt_bf16_f32) : S128x384.Idx → Elt Ideal .bf16) :=
  (blk3 _ c t).trans (host3 m ρ c)
theorem bh4 (c : Dev nD) (t : Fin cfg0.N) : Run.iblk0 (Run.V1 (F := Ideal) m ρ) c 4 t = ((concatenate Cert.KernelIdeal.S1x384 1 [⟨Cert.KernelIdeal.S1x128, (m ((c : Thread Cert.KernelIdeal.nD Cert.KernelIdeal.τ).loc Cert.KernelIdeal.main_arg10) : Cert.KernelIdeal.S1x128.Idx → Elt Ideal .f32)⟩, ⟨Cert.KernelIdeal.S1x128, (m ((c : Thread Cert.KernelIdeal.nD Cert.KernelIdeal.τ).loc Cert.KernelIdeal.main_arg11) : Cert.KernelIdeal.S1x128.Idx → Elt Ideal .f32)⟩, ⟨Cert.KernelIdeal.S1x128, (m ((c : Thread Cert.KernelIdeal.nD Cert.KernelIdeal.τ).loc Cert.KernelIdeal.main_arg12) : Cert.KernelIdeal.S1x128.Idx → Elt Ideal .f32)⟩] Cert.KernelIdeal.Facts₀.concatenates_S1x128_S1x128_S1x128_S1x384_d1) : S1x384.Idx → Elt Ideal .f32) :=
  (blk4 _ c t).trans (host4 m ρ c)
theorem bh5 (c : Dev nD) (t : Fin cfg0.N) : Run.iblk0 (Run.V1 (F := Ideal) m ρ) c 5 t = ((m ((c : Thread Cert.KernelIdeal.nD Cert.KernelIdeal.τ).loc Cert.KernelIdeal.main_arg13) : Cert.KernelIdeal.S3x3x128.Idx → Elt Ideal .f32) : S3x3x128.Idx → Elt Ideal .f32) :=
  (blk5 _ c t).trans (host5 m ρ c)
theorem bh6 (c : Dev nD) (t : Fin cfg0.N) : Run.iblk0 (Run.V1 (F := Ideal) m ρ) c 6 t = ((m ((c : Thread Cert.KernelIdeal.nD Cert.KernelIdeal.τ).loc Cert.KernelIdeal.main_arg14) : Cert.KernelIdeal.S1x1x128.Idx → Elt Ideal .f32) : S1x1x128.Idx → Elt Ideal .f32) :=
  (blk6 _ c t).trans (host6 m ρ c)
theorem bh7 (c : Dev nD) (t : Fin cfg0.N) : Run.iblk0 (Run.V1 (F := Ideal) m ρ) c 7 t = ((truncf (F := Ideal) .bf16 (m ((c : Thread Cert.KernelIdeal.nD Cert.KernelIdeal.τ).loc Cert.KernelIdeal.main_arg15) : Cert.KernelIdeal.S128x128.Idx → Elt Ideal .f32) Cert.KernelIdeal.Facts₀.bitsLt_bf16_f32) : S128x128.Idx → Elt Ideal .bf16) :=
  (blk7 _ c t).trans (host7 m ρ c)
theorem bh8 (c : Dev nD) (t : Fin cfg0.N) : Run.iblk0 (Run.V1 (F := Ideal) m ρ) c 8 t = ((m ((c : Thread Cert.KernelIdeal.nD Cert.KernelIdeal.τ).loc Cert.KernelIdeal.main_arg16) : Cert.KernelIdeal.S1x128.Idx → Elt Ideal .f32) : S1x128.Idx → Elt Ideal .f32) :=
  (blk8 _ c t).trans (host8 m ρ c)
theorem bh9 (c : Dev nD) (t : Fin cfg0.N) : Run.iblk0 (Run.V1 (F := Ideal) m ρ) c 9 t = ((shapeCast Cert.KernelIdeal.S1x1x128 (m ((c : Thread Cert.KernelIdeal.nD Cert.KernelIdeal.τ).loc Cert.KernelIdeal.main_arg3) : Cert.KernelIdeal.S128.Idx → Elt Ideal .f32) Cert.KernelIdeal.Facts₀.shapeCasts_S128_S1x1x128) : S1x1x128.Idx → Elt Ideal .f32) :=
  (blk9 _ c t).trans (host9 m ρ c)
theorem bh10 (c : Dev nD) (t : Fin cfg0.N) : Run.iblk0 (Run.V1 (F := Ideal) m ρ) c 10 t = ((shapeCast Cert.KernelIdeal.S1x1x128 (m ((c : Thread Cert.KernelIdeal.nD Cert.KernelIdeal.τ).loc Cert.KernelIdeal.main_arg2) : Cert.KernelIdeal.S128.Idx → Elt Ideal .f32) Cert.KernelIdeal.Facts₀.shapeCasts_S128_S1x1x128) : S1x1x128.Idx → Elt Ideal .f32) :=
  (blk10 _ c t).trans (host10 m ρ c)
theorem bh11 (c : Dev nD) (t : Fin cfg0.N) : Run.iblk0 (Run.V1 (F := Ideal) m ρ) c 11 t = ((m ((c : Thread Cert.KernelIdeal.nD Cert.KernelIdeal.τ).loc Cert.KernelIdeal.main_arg6) : Cert.KernelIdeal.S5x5x128.Idx → Elt Ideal .f32) : S5x5x128.Idx → Elt Ideal .f32) :=
  (blk11 _ c t).trans (host11 m ρ c)
theorem bh12 (c : Dev nD) (t : Fin cfg0.N) : Run.iblk0 (Run.V1 (F := Ideal) m ρ) c 12 t = ((truncf (F := Ideal) .bf16 (m ((c : Thread Cert.KernelIdeal.nD Cert.KernelIdeal.τ).loc Cert.KernelIdeal.main_arg17) : Cert.KernelIdeal.S128x512.Idx → Elt Ideal .f32) Cert.KernelIdeal.Facts₀.bitsLt_bf16_f32) : S128x512.Idx → Elt Ideal .bf16) :=
  (blk12 _ c t).trans (host12 m ρ c)
theorem bh13 (c : Dev nD) (t : Fin cfg0.N) : Run.iblk0 (Run.V1 (F := Ideal) m ρ) c 13 t = ((truncf (F := Ideal) .bf16 (m ((c : Thread Cert.KernelIdeal.nD Cert.KernelIdeal.τ).loc Cert.KernelIdeal.main_arg18) : Cert.KernelIdeal.S512x128.Idx → Elt Ideal .f32) Cert.KernelIdeal.Facts₀.bitsLt_bf16_f32) : S512x128.Idx → Elt Ideal .bf16) :=
  (blk13 _ c t).trans (host13 m ρ c)
theorem bh14 (c : Dev nD) (t : Fin cfg0.N) : Run.iblk0 (Run.V1 (F := Ideal) m ρ) c 14 t = ((truncf (F := Ideal) .bf16 (m ((c : Thread Cert.KernelIdeal.nD Cert.KernelIdeal.τ).loc Cert.KernelIdeal.main_arg19) : Cert.KernelIdeal.S128x128.Idx → Elt Ideal .f32) Cert.KernelIdeal.Facts₀.bitsLt_bf16_f32) : S128x128.Idx → Elt Ideal .bf16) :=
  (blk14 _ c t).trans (host14 m ρ c)
theorem bh15 (c : Dev nD) (t : Fin cfg0.N) : Run.iblk0 (Run.V1 (F := Ideal) m ρ) c 15 t = ((shapeCast Cert.KernelIdeal.S1x1x128 (m ((c : Thread Cert.KernelIdeal.nD Cert.KernelIdeal.τ).loc Cert.KernelIdeal.main_arg4) : Cert.KernelIdeal.S128.Idx → Elt Ideal .f32) Cert.KernelIdeal.Facts₀.shapeCasts_S128_S1x1x128) : S1x1x128.Idx → Elt Ideal .f32) :=
  (blk15 _ c t).trans (host15 m ρ c)
theorem bh16 (c : Dev nD) (t : Fin cfg0.N) : Run.iblk0 (Run.V1 (F := Ideal) m ρ) c 16 t = ((truncf (F := Ideal) .bf16 (extractStridedSlice Cert.KernelIdeal.S3x3x128x128 ![0, 0, 0, 0] (m ((c : Thread Cert.KernelIdeal.nD Cert.KernelIdeal.τ).loc Cert.KernelIdeal.main_arg20) : Cert.KernelIdeal.S3x3x256x128.Idx → Elt Ideal .f32) Cert.KernelIdeal.Facts₀.slices_S3x3x256x128_S3x3x128x128_0_0_0_0) Cert.KernelIdeal.Facts₀.bitsLt_bf16_f32) : S3x3x128x128.Idx → Elt Ideal .bf16) :=
  (blk16 _ c t).trans (host16 m ρ c)
theorem bh17 (c : Dev nD) (t : Fin cfg0.N) : Run.iblk0 (Run.V1 (F := Ideal) m ρ) c 17 t = ((truncf (F := Ideal) .bf16 (extractStridedSlice Cert.KernelIdeal.S3x3x128x128 ![0, 0, 128, 0] (m ((c : Thread Cert.KernelIdeal.nD Cert.KernelIdeal.τ).loc Cert.KernelIdeal.main_arg20) : Cert.KernelIdeal.S3x3x256x128.Idx → Elt Ideal .f32) Cert.KernelIdeal.Facts₀.slices_S3x3x256x128_S3x3x128x128_0_0_128_0) Cert.KernelIdeal.Facts₀.bitsLt_bf16_f32) : S3x3x128x128.Idx → Elt Ideal .bf16) :=
  (blk17 _ c t).trans (host17 m ρ c)
theorem bh18 (c : Dev nD) (t : Fin cfg0.N) : Run.iblk0 (Run.V1 (F := Ideal) m ρ) c 18 t = ((shapeCast Cert.KernelIdeal.S1x128 (m ((c : Thread Cert.KernelIdeal.nD Cert.KernelIdeal.τ).loc Cert.KernelIdeal.main_arg21) : Cert.KernelIdeal.S128.Idx → Elt Ideal .f32) Cert.KernelIdeal.Facts₀.shapeCasts_S128_S1x128) : S1x128.Idx → Elt Ideal .f32) :=
  (blk18 _ c t).trans (host18 m ρ c)
theorem bh19 (c : Dev nD) (t : Fin cfg0.N) : Run.iblk0 (Run.V1 (F := Ideal) m ρ) c 19 t = ((truncf (F := Ideal) .bf16 (m ((c : Thread Cert.KernelIdeal.nD Cert.KernelIdeal.τ).loc Cert.KernelIdeal.main_arg22) : Cert.KernelIdeal.S3x3x128x128.Idx → Elt Ideal .f32) Cert.KernelIdeal.Facts₀.bitsLt_bf16_f32) : S3x3x128x128.Idx → Elt Ideal .bf16) :=
  (blk19 _ c t).trans (host19 m ρ c)
theorem bh20 (c : Dev nD) (t : Fin cfg0.N) : Run.iblk0 (Run.V1 (F := Ideal) m ρ) c 20 t = ((shapeCast Cert.KernelIdeal.S1x128 (m ((c : Thread Cert.KernelIdeal.nD Cert.KernelIdeal.τ).loc Cert.KernelIdeal.main_arg23) : Cert.KernelIdeal.S128.Idx → Elt Ideal .f32) Cert.KernelIdeal.Facts₀.shapeCasts_S128_S1x128) : S1x128.Idx → Elt Ideal .f32) :=
  (blk20 _ c t).trans (host20 m ρ c)
theorem bh21 (c : Dev nD) (t : Fin cfg0.N) : Run.iblk0 (Run.V1 (F := Ideal) m ρ) c 21 t = ((truncf (F := Ideal) .bf16 (extractStridedSlice Cert.KernelIdeal.S128x128 ![0, 0] (m ((c : Thread Cert.KernelIdeal.nD Cert.KernelIdeal.τ).loc Cert.KernelIdeal.main_arg24) : Cert.KernelIdeal.S256x128.Idx → Elt Ideal .f32) Cert.KernelIdeal.Facts₀.slices_S256x128_S128x128_0_0) Cert.KernelIdeal.Facts₀.bitsLt_bf16_f32) : S128x128.Idx → Elt Ideal .bf16) :=
  (blk21 _ c t).trans (host21 m ρ c)
theorem bh22 (c : Dev nD) (t : Fin cfg0.N) : Run.iblk0 (Run.V1 (F := Ideal) m ρ) c 22 t = ((truncf (F := Ideal) .bf16 (extractStridedSlice Cert.KernelIdeal.S128x128 ![128, 0] (m ((c : Thread Cert.KernelIdeal.nD Cert.KernelIdeal.τ).loc Cert.KernelIdeal.main_arg24) : Cert.KernelIdeal.S256x128.Idx → Elt Ideal .f32) Cert.KernelIdeal.Facts₀.slices_S256x128_S128x128_128_0) Cert.KernelIdeal.Facts₀.bitsLt_bf16_f32) : S128x128.Idx → Elt Ideal .bf16) :=
  (blk22 _ c t).trans (host22 m ρ c)
theorem bh23 (c : Dev nD) (t : Fin cfg0.N) : Run.iblk0 (Run.V1 (F := Ideal) m ρ) c 23 t = ((shapeCast Cert.KernelIdeal.S1x128 (m ((c : Thread Cert.KernelIdeal.nD Cert.KernelIdeal.τ).loc Cert.KernelIdeal.main_arg25) : Cert.KernelIdeal.S128.Idx → Elt Ideal .f32) Cert.KernelIdeal.Facts₀.shapeCasts_S128_S1x128) : S1x128.Idx → Elt Ideal .f32) :=
  (blk23 _ c t).trans (host23 m ρ c)
theorem bh0 (c : Dev nD) (t : Fin cfg0.N) : Run.iblk0 (Run.V1 (F := Ideal) m ρ) c 0 t = (fun y : S1x32x32x128.Idx => (shapeCast S64x32x32x128 (m ((c : Thread Cert.KernelIdeal.nD Cert.KernelIdeal.τ).loc Cert.KernelIdeal.main_arg0) : Cert.KernelIdeal.S64x1024x128.Idx → Elt Ideal .f32) Facts₀.shapeCasts_S64x1024x128_S64x32x32x128 : S64x32x32x128.Idx → Elt Ideal .f32) (img t.val (lt64 t) y)) := by
  rw [blk0, host0]

/-- The body's output block is the block function of the input blocks (the hypothesis the assembly takes about the body). -/
def HK : Prop :=
  ∀ (V : (c : Dev nD) → (b : Ref sig .tc) → Buf (Elt Ideal) ((c : Thread nD τ).loc b)) (c : Dev nD) (t : Fin cfg0.N),
    Run.outBlk0 V c t = Lit.out (F := Ideal) c (Run.iblk0 V c 0 t) (Run.iblk0 V c 1 t) (Run.iblk0 V c 2 t) (Run.iblk0 V c 3 t) (Run.iblk0 V c 4 t) (Run.iblk0 V c 5 t) (Run.iblk0 V c 6 t) (Run.iblk0 V c 7 t) (Run.iblk0 V c 8 t) (Run.iblk0 V c 9 t) (Run.iblk0 V c 10 t) (Run.iblk0 V c 11 t) (Run.iblk0 V c 12 t) (Run.iblk0 V c 13 t) (Run.iblk0 V c 14 t) (Run.iblk0 V c 15 t) (Run.iblk0 V c 16 t) (Run.iblk0 V c 17 t) (Run.iblk0 V c 18 t) (Run.iblk0 V c 19 t) (Run.iblk0 V c 20 t) (Run.iblk0 V c 21 t) (Run.iblk0 V c 22 t) (Run.iblk0 V c 23 t)

/-- What point `t` writes back, as the block function of image `t` of the reshaped input and of the host-prepared operands. -/
theorem flushed_eq (hK : HK) (c : Dev nD) (t : Fin cfg0.N) :
    (Run.dat0 (Run.V1 (F := Ideal) m ρ) c).flushed 24 t = Lit.out (F := Ideal) c (fun y : S1x32x32x128.Idx => (shapeCast S64x32x32x128 (m ((c : Thread Cert.KernelIdeal.nD Cert.KernelIdeal.τ).loc Cert.KernelIdeal.main_arg0) : Cert.KernelIdeal.S64x1024x128.Idx → Elt Ideal .f32) Facts₀.shapeCasts_S64x1024x128_S64x32x32x128 : S64x32x32x128.Idx → Elt Ideal .f32) (img t.val (lt64 t) y))
      (shapeCast Cert.KernelIdeal.S1x1x128 (m ((c : Thread Cert.KernelIdeal.nD Cert.KernelIdeal.τ).loc Cert.KernelIdeal.main_arg1) : Cert.KernelIdeal.S128.Idx → Elt Ideal .f32) Cert.KernelIdeal.Facts₀.shapeCasts_S128_S1x1x128)
      (m ((c : Thread Cert.KernelIdeal.nD Cert.KernelIdeal.τ).loc Cert.KernelIdeal.main_arg5) : Cert.KernelIdeal.S5x5x128.Idx → Elt Ideal .f32)
      (truncf (F := Ideal) .bf16 (concatenate Cert.KernelIdeal.S128x384 1 [⟨Cert.KernelIdeal.S128x128, (m ((c : Thread Cert.KernelIdeal.nD Cert.KernelIdeal.τ).loc Cert.KernelIdeal.main_arg7) : Cert.KernelIdeal.S128x128.Idx → Elt Ideal .f32)⟩, ⟨Cert.KernelIdeal.S128x128, (m ((c : Thread Cert.KernelIdeal.nD Cert.KernelIdeal.τ).loc Cert.KernelIdeal.main_arg8) : Cert.KernelIdeal.S128x128.Idx → Elt Ideal .f32)⟩, ⟨Cert.KernelIdeal.S128x128, (m ((c : Thread Cert.KernelIdeal.nD Cert.KernelIdeal.τ).loc Cert.KernelIdeal.main_arg9) : Cert.KernelIdeal.S128x128.Idx → Elt Ideal .f32)⟩] Cert.KernelIdeal.Facts₀.concatenates_S128x128_S128x128_S128x128_S128x384_d1) Cert.KernelIdeal.Facts₀.bitsLt_bf16_f32)
      (concatenate Cert.KernelIdeal.S1x384 1 [⟨Cert.KernelIdeal.S1x128, (m ((c : Thread Cert.KernelIdeal.nD Cert.KernelIdeal.τ).loc Cert.KernelIdeal.main_arg10) : Cert.KernelIdeal.S1x128.Idx → Elt Ideal .f32)⟩, ⟨Cert.KernelIdeal.S1x128, (m ((c : Thread Cert.KernelIdeal.nD Cert.KernelIdeal.τ).loc Cert.KernelIdeal.main_arg11) : Cert.KernelIdeal.S1x128.Idx → Elt Ideal .f32)⟩, ⟨Cert.KernelIdeal.S1x128, (m ((c : Thread Cert.KernelIdeal.nD Cert.KernelIdeal.τ).loc Cert.KernelIdeal.main_arg12) : Cert.KernelIdeal.S1x128.Idx → Elt Ideal .f32)⟩] Cert.KernelIdeal.Facts₀.concatenates_S1x128_S1x128_S1x128_S1x384_d1)
      (m ((c : Thread Cert.KernelIdeal.nD Cert.KernelIdeal.τ).loc Cert.KernelIdeal.main_arg13) : Cert.KernelIdeal.S3x3x128.Idx → Elt Ideal .f32)
      (m ((c : Thread Cert.KernelIdeal.nD Cert.KernelIdeal.τ).loc Cert.KernelIdeal.main_arg14) : Cert.KernelIdeal.S1x1x128.Idx → Elt Ideal .f32)
      (truncf (F := Ideal) .bf16 (m ((c : Thread Cert.KernelIdeal.nD Cert.KernelIdeal.τ).loc Cert.KernelIdeal.main_arg15) : Cert.KernelIdeal.S128x128.Idx → Elt Ideal .f32) Cert.KernelIdeal.Facts₀.bitsLt_bf16_f32)
      (m ((c : Thread Cert.KernelIdeal.nD Cert.KernelIdeal.τ).loc Cert.KernelIdeal.main_arg16) : Cert.KernelIdeal.S1x128.Idx → Elt Ideal .f32)
      (shapeCast Cert.KernelIdeal.S1x1x128 (m ((c : Thread Cert.KernelIdeal.nD Cert.KernelIdeal.τ).loc Cert.KernelIdeal.main_arg3) : Cert.KernelIdeal.S128.Idx → Elt Ideal .f32) Cert.KernelIdeal.Facts₀.shapeCasts_S128_S1x1x128)
      (shapeCast Cert.KernelIdeal.S1x1x128 (m ((c : Thread Cert.KernelIdeal.nD Cert.KernelIdeal.τ).loc Cert.KernelIdeal.main_arg2) : Cert.KernelIdeal.S128.Idx → Elt Ideal .f32) Cert.KernelIdeal.Facts₀.shapeCasts_S128_S1x1x128)
      (m ((c : Thread Cert.KernelIdeal.nD Cert.KernelIdeal.τ).loc Cert.KernelIdeal.main_arg6) : Cert.KernelIdeal.S5x5x128.Idx → Elt Ideal .f32)
      (truncf (F := Ideal) .bf16 (m ((c : Thread Cert.KernelIdeal.nD Cert.KernelIdeal.τ).loc Cert.KernelIdeal.main_arg17) : Cert.KernelIdeal.S128x512.Idx → Elt Ideal .f32) Cert.KernelIdeal.Facts₀.bitsLt_bf16_f32)
      (truncf (F := Ideal) .bf16 (m ((c : Thread Cert.KernelIdeal.nD Cert.KernelIdeal.τ).loc Cert.KernelIdeal.main_arg18) : Cert.KernelIdeal.S512x128.Idx → Elt Ideal .f32) Cert.KernelIdeal.Facts₀.bitsLt_bf16_f32)
      (truncf (F := Ideal) .bf16 (m ((c : Thread Cert.KernelIdeal.nD Cert.KernelIdeal.τ).loc Cert.KernelIdeal.main_arg19) : Cert.KernelIdeal.S128x128.Idx → Elt Ideal .f32) Cert.KernelIdeal.Facts₀.bitsLt_bf16_f32)
      (shapeCast Cert.KernelIdeal.S1x1x128 (m ((c : Thread Cert.KernelIdeal.nD Cert.KernelIdeal.τ).loc Cert.KernelIdeal.main_arg4) : Cert.KernelIdeal.S128.Idx → Elt Ideal .f32) Cert.KernelIdeal.Facts₀.shapeCasts_S128_S1x1x128)
      (truncf (F := Ideal) .bf16 (extractStridedSlice Cert.KernelIdeal.S3x3x128x128 ![0, 0, 0, 0] (m ((c : Thread Cert.KernelIdeal.nD Cert.KernelIdeal.τ).loc Cert.KernelIdeal.main_arg20) : Cert.KernelIdeal.S3x3x256x128.Idx → Elt Ideal .f32) Cert.KernelIdeal.Facts₀.slices_S3x3x256x128_S3x3x128x128_0_0_0_0) Cert.KernelIdeal.Facts₀.bitsLt_bf16_f32)
      (truncf (F := Ideal) .bf16 (extractStridedSlice Cert.KernelIdeal.S3x3x128x128 ![0, 0, 128, 0] (m ((c : Thread Cert.KernelIdeal.nD Cert.KernelIdeal.τ).loc Cert.KernelIdeal.main_arg20) : Cert.KernelIdeal.S3x3x256x128.Idx → Elt Ideal .f32) Cert.KernelIdeal.Facts₀.slices_S3x3x256x128_S3x3x128x128_0_0_128_0) Cert.KernelIdeal.Facts₀.bitsLt_bf16_f32)
      (shapeCast Cert.KernelIdeal.S1x128 (m ((c : Thread Cert.KernelIdeal.nD Cert.KernelIdeal.τ).loc Cert.KernelIdeal.main_arg21) : Cert.KernelIdeal.S128.Idx → Elt Ideal .f32) Cert.KernelIdeal.Facts₀.shapeCasts_S128_S1x128)
      (truncf (F := Ideal) .bf16 (m ((c : Thread Cert.KernelIdeal.nD Cert.KernelIdeal.τ).loc Cert.KernelIdeal.main_arg22) : Cert.KernelIdeal.S3x3x128x128.Idx → Elt Ideal .f32) Cert.KernelIdeal.Facts₀.bitsLt_bf16_f32)
      (shapeCast Cert.KernelIdeal.S1x128 (m ((c : Thread Cert.KernelIdeal.nD Cert.KernelIdeal.τ).loc Cert.KernelIdeal.main_arg23) : Cert.KernelIdeal.S128.Idx → Elt Ideal .f32) Cert.KernelIdeal.Facts₀.shapeCasts_S128_S1x128)
      (truncf (F := Ideal) .bf16 (extractStridedSlice Cert.KernelIdeal.S128x128 ![0, 0] (m ((c : Thread Cert.KernelIdeal.nD Cert.KernelIdeal.τ).loc Cert.KernelIdeal.main_arg24) : Cert.KernelIdeal.S256x128.Idx → Elt Ideal .f32) Cert.KernelIdeal.Facts₀.slices_S256x128_S128x128_0_0) Cert.KernelIdeal.Facts₀.bitsLt_bf16_f32)
      (truncf (F := Ideal) .bf16 (extractStridedSlice Cert.KernelIdeal.S128x128 ![128, 0] (m ((c : Thread Cert.KernelIdeal.nD Cert.KernelIdeal.τ).loc Cert.KernelIdeal.main_arg24) : Cert.KernelIdeal.S256x128.Idx → Elt Ideal .f32) Cert.KernelIdeal.Facts₀.slices_S256x128_S128x128_128_0) Cert.KernelIdeal.Facts₀.bitsLt_bf16_f32)
      (shapeCast Cert.KernelIdeal.S1x128 (m ((c : Thread Cert.KernelIdeal.nD Cert.KernelIdeal.τ).loc Cert.KernelIdeal.main_arg25) : Cert.KernelIdeal.S128.Idx → Elt Ideal .f32) Cert.KernelIdeal.Facts₀.shapeCasts_S128_S1x128) := by
  rw [flushed24, hK, bh0, bh1, bh2, bh3, bh4, bh5, bh6, bh7, bh8, bh9, bh10, bh11, bh12, bh13, bh14, bh15, bh16, bh17, bh18, bh19, bh20, bh21, bh22, bh23]

end Cert.Bridge.K

end
-- ==== Proof.RefBody0.lean ====
/-
  The reference's first kernel (normalisation, depthwise 5×5 mixing, windowed attention, channel mixing, two residuals), run once at a
  symbolic grid point and symbolic buffer contents: every load lies in a buffer the body holds, every store inside its buffer, and
  what the output block holds afterwards is a term over the twenty input blocks alone.
-/
import proofs.«120724_g2000406006432562_pallasbulk_1270_2_alg».proof.Proof.Gen.ReferenceIdeal
import proofs.«120724_g2000406006432562_pallasbulk_1270_2_alg».proof.Proof.Gen.ReferenceIdeal.Skeleton
import Idealize.ShloMosaic.Lib.Tactic

noncomputable section

namespace Cert.ReferenceIdeal.Body0

open Cert.ReferenceIdeal Cert.ReferenceIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the rounds library's, for the pipeline's staging cells (the kernel has no cell of its own). -/
abbrev UR (nD : Nat) (τ : Topo) : Type := URounds (GSem nD τ sig) Unit

local notation "𝕄" => MT nD τ sig Unit (Elt F) ℕ (UR nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

set_option maxHeartbeats 8000000 in
/-- What the body leaves in the output block, as a term over the input blocks' contents alone, WITH the proof that from
    every buffer held whole — the inputs at `f`, the output block and the scratch buffers at anything — the kernel runs to its
    return without a fault, handing back the inputs as they were, the output block at the witness, the scratch at something. -/
noncomputable def kernelRun (c : Dev nD) (i : grid0.Coords)
    (M0 : Memref sig .tc .vmem S1x32x32x128 .f32) (h0 : M0.IsWhole)
    (M1 : Memref sig .tc .vmem S1x1x128 .f32) (h1 : M1.IsWhole)
    (M2 : Memref sig .tc .vmem S5x5x128 .f32) (h2 : M2.IsWhole)
    (M3 : Memref sig .tc .vmem S128x128 .f32) (h3 : M3.IsWhole)
    (M4 : Memref sig .tc .vmem S128x128 .f32) (h4 : M4.IsWhole)
    (M5 : Memref sig .tc .vmem S128x128 .f32) (h5 : M5.IsWhole)
    (M6 : Memref sig .tc .vmem S1x128 .f32) (h6 : M6.IsWhole)
    (M7 : Memref sig .tc .vmem S1x128 .f32) (h7 : M7.IsWhole)
    (M8 : Memref sig .tc .vmem S1x128 .f32) (h8 : M8.IsWhole)
    (M9 : Memref sig .tc .vmem S3x3x128 .f32) (h9 : M9.IsWhole)
    (M10 : Memref sig .tc .vmem S1x1x128 .f32) (h10 : M10.IsWhole)
    (M11 : Memref sig .tc .vmem S128x128 .f32) (h11 : M11.IsWhole)
    (M12 : Memref sig .tc .vmem S1x128 .f32) (h12 : M12.IsWhole)
    (M13 : Memref sig .tc .vmem S1x1x128 .f32) (h13 : M13.IsWhole)
    (M14 : Memref sig .tc .vmem S1x1x128 .f32) (h14 : M14.IsWhole)
    (M15 : Memref sig .tc .vmem S5x5x128 .f32) (h15 : M15.IsWhole)
    (M16 : Memref sig .tc .vmem S128x512 .f32) (h16 : M16.IsWhole)
    (M17 : Memref sig .tc .vmem S512x128 .f32) (h17 : M17.IsWhole)
    (M18 : Memref sig .tc .vmem S128x128 .f32) (h18 : M18.IsWhole)
    (M19 : Memref sig .tc .vmem S1x1x128 .f32) (h19 : M19.IsWhole)
    (M20 : Memref sig .tc .vmem S1x32x32x128 .f32) (h20 : M20.IsWhole)
    (M21 : Memref sig .tc .vmem S36x36x128 .f32) (h21 : M21.IsWhole)
    (M22 : Memref sig .tc .vmem S16x10x10x128 .f32) (h22 : M22.IsWhole)
    (M23 : Memref sig .tc .vmem S32x32x128 .f32) (h23 : M23.IsWhole)
    (f0 : Bf (F := F) c M0) (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16) (f17 : Bf (F := F) c M17) (f18 : Bf (F := F) c M18) (f19 : Bf (F := F) c M19) :
    { W : Bf (F := F) c M20 //
      ∀ (f20 : Bf (F := F) c M20) (f21 : Bf (F := F) c M21) (f22 : Bf (F := F) c M22) (f23 : Bf (F := F) c M23) (E : Set ℕ) (Q : PUnit → sProp 𝕄),
        iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17 ∗ pt c M18 f18 ∗ pt c M19 f19 ∗ pt c M20 f20 ∗ pt c M21 f21 ∗ pt c M22 f22 ∗ pt c M23 f23
          ∗ (iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17 ∗ pt c M18 f18 ∗ pt c M19 f19 ∗ pt c M20 W ∗ (∃ f, pt c M21 f) ∗ (∃ f, pt c M22 f) ∗ (∃ f, pt c M23 f)) -∗ Q ⟨⟩))
        ⊢ wp frame (wpE (defs₀ (F := F)) Variants.none c none) E
            (cc0__tblock_kernel i M0 h0 M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23) Q } := by
  refine ⟨?_, fun f20 f21 f22 f23 E Q => ?run⟩
  case run =>
    iintro ⟨H0, H1, H2, H3, H4, H5, H6, H7, H8, H9, H10, H11, H12, H13, H14, H15, H16, H17, H18, H19, H20, H21, H22, H23, Hk⟩
    sl_exec_parts!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexists _; iexact H21
    isplitl [H22]; · iexists _; iexact H22
    iexists _; iexact H23

end Cert.ReferenceIdeal.Body0

end
-- ==== Proof.RefRunBase.lean ====
/-
  A whole memref owned at contents `X` is its buffer's points-to at the one raw contents that read `X`: reading through a
  whole memref is a bijection between the buffer's raw contents and the contents at the memref's shape.
-/
import proofs.«120724_g2000406006432562_pallasbulk_1270_2_alg».proof.Proof.Gen.ReferenceIdeal
import Idealize.ShloMosaic.Lib.Pipeline.Frame
import Idealize.ShloMosaic.Lib.Memref

-- a window's block indices at production extents: the elaborator's structural look recurses once per coordinate
set_option maxRecDepth 16384

noncomputable section

namespace Cert.ReferenceIdeal.Run

open Cert.ReferenceIdeal Cert.ReferenceIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Owning a whole memref at `X`, at any share, is the points-to of its buffer at `h.unread X`. -/
theorem owns_isWhole {c : Thread nD τ} {sp : Space} {sh : Shape} {e : EltTy} {M : Memref sig c.2.kind sp sh e}
    (h : M.IsWhole) (q : PosShare TreeShare) (X : sh.Idx → Elt F e) :
    (owns c M q X : sProp 𝕄) = ((M.view.loc c) ↦{q} h.unread X) := by
  have hu : M.view.read (Elt F) (h.unread X) = X := h.read_unread X
  generalize h.unread X = f at hu ⊢
  obtain ⟨b, rfl, rfl, rfl, hm⟩ := h
  cases hm
  simp only [Memref.view_whole, View.read_whole] at hu
  subst hu
  exact owns_whole c b q f

/-- The same on a TensorCore, the core given: the form a body obligation's windows take. -/
theorem owns_isWhole_tc (c : Dev nD) {sp : Space} {sh : Shape} {e : EltTy} {M : Memref sig .tc sp sh e}
    (h : M.IsWhole) (q : PosShare TreeShare) (X : sh.Idx → Elt F e) :
    (owns (c : Thread nD τ) M q X : sProp 𝕄) = ((M.view.loc (c : Thread nD τ)) ↦{q} h.unread X) :=
  owns_isWhole (c := (c : Thread nD τ)) h q X

end Cert.ReferenceIdeal.Run

end
-- ==== Proof.RefRun0.lean ====
/-
  Region 0 of the idealized reference (its first kernel's pipeline: 21 windows, window 20 the output) at a parameter `V`, the
  TensorCore's buffer contents when the region is entered: each window's block at a point, the output block after the body as
  the body's run leaves it, the pipeline's proof data, and the body obligation at every point.
-/
import proofs.«120724_g2000406006432562_pallasbulk_1270_2_alg».proof.Proof.RefBody0
import proofs.«120724_g2000406006432562_pallasbulk_1270_2_alg».proof.Proof.RefRunBase
import proofs.«120724_g2000406006432562_pallasbulk_1270_2_alg».proof.Proof.Gen.ReferenceIdeal.Launch
import proofs.«120724_g2000406006432562_pallasbulk_1270_2_alg».proof.Proof.Gen.ReferenceIdeal.Skeleton
import proofs.«120724_g2000406006432562_pallasbulk_1270_2_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- a window's block indices at production extents: the elaborator's structural look recurses once per coordinate
set_option maxRecDepth 16384

noncomputable section

namespace Cert.ReferenceIdeal.Run

open Cert.ReferenceIdeal Cert.ReferenceIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data whose
    array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof data whose
    array is `V`'s and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof data whose
    array is `V`'s and whose body leaves the block in place: unfetched, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof data whose
    array is `V`'s and whose body leaves the block in place: unfetched, the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof data whose
    array is `V`'s and whose body leaves the block in place: unfetched, the block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof data whose
    array is `V`'s and whose body leaves the block in place: unfetched, the block index has not moved. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not, for any proof data whose
    array is `V`'s and whose body leaves the block in place: unfetched, the block index has not moved. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or not, for any proof data whose
    array is `V`'s and whose body leaves the block in place: unfetched, the block index has not moved. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's current staging buffer holds its block at every point, fetched there or not, for any proof data whose
    array is `V`'s and whose body leaves the block in place: unfetched, the block index has not moved. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- Input window 9's current staging buffer holds its block at every point, fetched there or not, for any proof data whose
    array is `V`'s and whose body leaves the block in place: unfetched, the block index has not moved. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-- Input window 10's current staging buffer holds its block at every point, fetched there or not, for any proof data whose
    array is `V`'s and whose body leaves the block in place: unfetched, the block index has not moved. -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

/-- Input window 11's current staging buffer holds its block at every point, fetched there or not, for any proof data whose
    array is `V`'s and whose body leaves the block in place: unfetched, the block index has not moved. -/
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)

/-- Input window 12's current staging buffer holds its block at every point, fetched there or not, for any proof data whose
    array is `V`'s and whose body leaves the block in place: unfetched, the block index has not moved. -/
theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)

/-- Input window 13's current staging buffer holds its block at every point, fetched there or not, for any proof data whose
    array is `V`'s and whose body leaves the block in place: unfetched, the block index has not moved. -/
theorem before0_13_of {c : Dev nD} (dat : Dat τ (Elt F) Unit ℕ (UR sig nD τ) ℕ cfg0 c) (hA : dat.A 13 = V c (Pipeline.arrRef spec0 13))
    (hafter : ∀ t, dat.after 13 t = iblk0 V c 13 t) (t : Fin cfg0.N) (d) : dat.before 13 t d = iblk0 V c 13 t :=
  (dat.before_in_eq_fetched 13 rfl (fun _ => rfl) (fun _ _ _ => rfl) (fun t => by rw [hafter]; unfold Dat.blockOf iblk0; rw [hA]; try rfl) t d).trans
    (by unfold Dat.fetched Dat.blockOf iblk0; rw [hA]; try rfl)

/-- Input window 14's current staging buffer holds its block at every point, fetched there or not, for any proof data whose
    array is `V`'s and whose body leaves the block in place: unfetched, the block index has not moved. -/
theorem before0_14_of {c : Dev nD} (dat : Dat τ (Elt F) Unit ℕ (UR sig nD τ) ℕ cfg0 c) (hA : dat.A 14 = V c (Pipeline.arrRef spec0 14))
    (hafter : ∀ t, dat.after 14 t = iblk0 V c 14 t) (t : Fin cfg0.N) (d) : dat.before 14 t d = iblk0 V c 14 t :=
  (dat.before_in_eq_fetched 14 rfl (fun _ => rfl) (fun _ _ _ => rfl) (fun t => by rw [hafter]; unfold Dat.blockOf iblk0; rw [hA]; try rfl) t d).trans
    (by unfold Dat.fetched Dat.blockOf iblk0; rw [hA]; try rfl)

/-- Input window 15's current staging buffer holds its block at every point, fetched there or not, for any proof data whose
    array is `V`'s and whose body leaves the block in place: unfetched, the block index has not moved. -/
theorem before0_15_of {c : Dev nD} (dat : Dat τ (Elt F) Unit ℕ (UR sig nD τ) ℕ cfg0 c) (hA : dat.A 15 = V c (Pipeline.arrRef spec0 15))
    (hafter : ∀ t, dat.after 15 t = iblk0 V c 15 t) (t : Fin cfg0.N) (d) : dat.before 15 t d = iblk0 V c 15 t :=
  (dat.before_in_eq_fetched 15 rfl (fun _ => rfl) (fun _ _ _ => rfl) (fun t => by rw [hafter]; unfold Dat.blockOf iblk0; rw [hA]; try rfl) t d).trans
    (by unfold Dat.fetched Dat.blockOf iblk0; rw [hA]; try rfl)

/-- Input window 16's current staging buffer holds its block at every point, fetched there or not, for any proof data whose
    array is `V`'s and whose body leaves the block in place: unfetched, the block index has not moved. -/
theorem before0_16_of {c : Dev nD} (dat : Dat τ (Elt F) Unit ℕ (UR sig nD τ) ℕ cfg0 c) (hA : dat.A 16 = V c (Pipeline.arrRef spec0 16))
    (hafter : ∀ t, dat.after 16 t = iblk0 V c 16 t) (t : Fin cfg0.N) (d) : dat.before 16 t d = iblk0 V c 16 t :=
  (dat.before_in_eq_fetched 16 rfl (fun _ => rfl) (fun _ _ _ => rfl) (fun t => by rw [hafter]; unfold Dat.blockOf iblk0; rw [hA]; try rfl) t d).trans
    (by unfold Dat.fetched Dat.blockOf iblk0; rw [hA]; try rfl)

/-- Input window 17's current staging buffer holds its block at every point, fetched there or not, for any proof data whose
    array is `V`'s and whose body leaves the block in place: unfetched, the block index has not moved. -/
theorem before0_17_of {c : Dev nD} (dat : Dat τ (Elt F) Unit ℕ (UR sig nD τ) ℕ cfg0 c) (hA : dat.A 17 = V c (Pipeline.arrRef spec0 17))
    (hafter : ∀ t, dat.after 17 t = iblk0 V c 17 t) (t : Fin cfg0.N) (d) : dat.before 17 t d = iblk0 V c 17 t :=
  (dat.before_in_eq_fetched 17 rfl (fun _ => rfl) (fun _ _ _ => rfl) (fun t => by rw [hafter]; unfold Dat.blockOf iblk0; rw [hA]; try rfl) t d).trans
    (by unfold Dat.fetched Dat.blockOf iblk0; rw [hA]; try rfl)

/-- Input window 18's current staging buffer holds its block at every point, fetched there or not, for any proof data whose
    array is `V`'s and whose body leaves the block in place: unfetched, the block index has not moved. -/
theorem before0_18_of {c : Dev nD} (dat : Dat τ (Elt F) Unit ℕ (UR sig nD τ) ℕ cfg0 c) (hA : dat.A 18 = V c (Pipeline.arrRef spec0 18))
    (hafter : ∀ t, dat.after 18 t = iblk0 V c 18 t) (t : Fin cfg0.N) (d) : dat.before 18 t d = iblk0 V c 18 t :=
  (dat.before_in_eq_fetched 18 rfl (fun _ => rfl) (fun _ _ _ => rfl) (fun t => by rw [hafter]; unfold Dat.blockOf iblk0; rw [hA]; try rfl) t d).trans
    (by unfold Dat.fetched Dat.blockOf iblk0; rw [hA]; try rfl)

/-- Input window 19's current staging buffer holds its block at every point, fetched there or not, for any proof data whose
    array is `V`'s and whose body leaves the block in place: unfetched, the block index has not moved. -/
theorem before0_19_of {c : Dev nD} (dat : Dat τ (Elt F) Unit ℕ (UR sig nD τ) ℕ cfg0 c) (hA : dat.A 19 = V c (Pipeline.arrRef spec0 19))
    (hafter : ∀ t, dat.after 19 t = iblk0 V c 19 t) (t : Fin cfg0.N) (d) : dat.before 19 t d = iblk0 V c 19 t :=
  (dat.before_in_eq_fetched 19 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output window's buffer -/

/-- Window 20's staging buffer after the body at point `t`: what the body's run leaves in the output block, from the input
    windows' blocks — each input buffer's raw contents the one that reads its block — read back through the staging memref. -/
def outBlk0 (c : Dev nD) (t : Fin cfg0.N) : (cfg0.win 20).block.Idx → Elt F (cfg0.win 20).elt :=
  (win0_20.stage (cfg0.slots t 20)).view.read (Elt F)
    (Body0.kernelRun (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (Memref.whole cc0_scratch0) (Memref.isWhole_whole _) (Memref.whole cc0_scratch1) (Memref.isWhole_whole _) (Memref.whole cc0_scratch2) (Memref.isWhole_whole _) ((hstage0_0 ((cfg0.slots t 0).cast nbuf0_0)).unread (iblk0 V c 0 t)) ((hstage0_1 ((cfg0.slots t 1).cast nbuf0_1)).unread (iblk0 V c 1 t)) ((hstage0_2 ((cfg0.slots t 2).cast nbuf0_2)).unread (iblk0 V c 2 t)) ((hstage0_3 ((cfg0.slots t 3).cast nbuf0_3)).unread (iblk0 V c 3 t)) ((hstage0_4 ((cfg0.slots t 4).cast nbuf0_4)).unread (iblk0 V c 4 t)) ((hstage0_5 ((cfg0.slots t 5).cast nbuf0_5)).unread (iblk0 V c 5 t)) ((hstage0_6 ((cfg0.slots t 6).cast nbuf0_6)).unread (iblk0 V c 6 t)) ((hstage0_7 ((cfg0.slots t 7).cast nbuf0_7)).unread (iblk0 V c 7 t)) ((hstage0_8 ((cfg0.slots t 8).cast nbuf0_8)).unread (iblk0 V c 8 t)) ((hstage0_9 ((cfg0.slots t 9).cast nbuf0_9)).unread (iblk0 V c 9 t)) ((hstage0_10 ((cfg0.slots t 10).cast nbuf0_10)).unread (iblk0 V c 10 t)) ((hstage0_11 ((cfg0.slots t 11).cast nbuf0_11)).unread (iblk0 V c 11 t)) ((hstage0_12 ((cfg0.slots t 12).cast nbuf0_12)).unread (iblk0 V c 12 t)) ((hstage0_13 ((cfg0.slots t 13).cast nbuf0_13)).unread (iblk0 V c 13 t)) ((hstage0_14 ((cfg0.slots t 14).cast nbuf0_14)).unread (iblk0 V c 14 t)) ((hstage0_15 ((cfg0.slots t 15).cast nbuf0_15)).unread (iblk0 V c 15 t)) ((hstage0_16 ((cfg0.slots t 16).cast nbuf0_16)).unread (iblk0 V c 16 t)) ((hstage0_17 ((cfg0.slots t 17).cast nbuf0_17)).unread (iblk0 V c 17 t)) ((hstage0_18 ((cfg0.slots t 18).cast nbuf0_18)).unread (iblk0 V c 18 t)) ((hstage0_19 ((cfg0.slots t 19).cast nbuf0_19)).unread (iblk0 V c 19 t))).1

/-! ## The pipeline's proof data -/

/-- The proof data of pipeline 0 on core `c`: the arrays as the region finds them (`V`); after the body at point `t` each
    input's buffer at its block and the output's at `outBlk0`; the invariant the scoped rest and the generator register,
    untouched between points; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => iblk0 V c 15 t
    | ⟨16, _⟩ => iblk0 V c 16 t
    | ⟨17, _⟩ => iblk0 V c 17 t
    | ⟨18, _⟩ => iblk0 V c 18 t
    | ⟨19, _⟩ => iblk0 V c 19 t
    | ⟨20, _⟩ => outBlk0 V c t
    | ⟨_ + 21, h⟩ => absurd h (Nat.not_lt.2 (Nat.le_add_left _ _))
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = iblk0 V c 14 t := by dsimp only [dat0]
theorem after0_15 (c : Dev nD) (t : Fin cfg0.N) : (dat0 V c).after 15 t = iblk0 V c 15 t := by dsimp only [dat0]
theorem after0_16 (c : Dev nD) (t : Fin cfg0.N) : (dat0 V c).after 16 t = iblk0 V c 16 t := by dsimp only [dat0]
theorem after0_17 (c : Dev nD) (t : Fin cfg0.N) : (dat0 V c).after 17 t = iblk0 V c 17 t := by dsimp only [dat0]
theorem after0_18 (c : Dev nD) (t : Fin cfg0.N) : (dat0 V c).after 18 t = iblk0 V c 18 t := by dsimp only [dat0]
theorem after0_19 (c : Dev nD) (t : Fin cfg0.N) : (dat0 V c).after 19 t = iblk0 V c 19 t := by dsimp only [dat0]
theorem after0_20 (c : Dev nD) (t : Fin cfg0.N) : (dat0 V c).after 20 t = outBlk0 V c t := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d
theorem before0_12 (c : Dev nD) (t : Fin cfg0.N) (d) : (dat0 V c).before 12 t d = iblk0 V c 12 t :=
  before0_12_of V (dat0 V c) (A_eq0 V c 12) (after0_12 V c) t d
theorem before0_13 (c : Dev nD) (t : Fin cfg0.N) (d) : (dat0 V c).before 13 t d = iblk0 V c 13 t :=
  before0_13_of V (dat0 V c) (A_eq0 V c 13) (after0_13 V c) t d
theorem before0_14 (c : Dev nD) (t : Fin cfg0.N) (d) : (dat0 V c).before 14 t d = iblk0 V c 14 t :=
  before0_14_of V (dat0 V c) (A_eq0 V c 14) (after0_14 V c) t d
theorem before0_15 (c : Dev nD) (t : Fin cfg0.N) (d) : (dat0 V c).before 15 t d = iblk0 V c 15 t :=
  before0_15_of V (dat0 V c) (A_eq0 V c 15) (after0_15 V c) t d
theorem before0_16 (c : Dev nD) (t : Fin cfg0.N) (d) : (dat0 V c).before 16 t d = iblk0 V c 16 t :=
  before0_16_of V (dat0 V c) (A_eq0 V c 16) (after0_16 V c) t d
theorem before0_17 (c : Dev nD) (t : Fin cfg0.N) (d) : (dat0 V c).before 17 t d = iblk0 V c 17 t :=
  before0_17_of V (dat0 V c) (A_eq0 V c 17) (after0_17 V c) t d
theorem before0_18 (c : Dev nD) (t : Fin cfg0.N) (d) : (dat0 V c).before 18 t d = iblk0 V c 18 t :=
  before0_18_of V (dat0 V c) (A_eq0 V c 18) (after0_18 V c) t d
theorem before0_19 (c : Dev nD) (t : Fin cfg0.N) (d) : (dat0 V c).before 19 t d = iblk0 V c 19 t :=
  before0_19_of V (dat0 V c) (A_eq0 V c 19) (after0_19 V c) t d

/-- Each window's current staging memref at a point is a whole buffer. -/
theorem whole0_0 (t : Fin cfg0.N) : (win0_0.stage (cfg0.slots t 0)).IsWhole := (hstage0_0 ((cfg0.slots t 0).cast nbuf0_0))
theorem whole0_1 (t : Fin cfg0.N) : (win0_1.stage (cfg0.slots t 1)).IsWhole := (hstage0_1 ((cfg0.slots t 1).cast nbuf0_1))
theorem whole0_2 (t : Fin cfg0.N) : (win0_2.stage (cfg0.slots t 2)).IsWhole := (hstage0_2 ((cfg0.slots t 2).cast nbuf0_2))
theorem whole0_3 (t : Fin cfg0.N) : (win0_3.stage (cfg0.slots t 3)).IsWhole := (hstage0_3 ((cfg0.slots t 3).cast nbuf0_3))
theorem whole0_4 (t : Fin cfg0.N) : (win0_4.stage (cfg0.slots t 4)).IsWhole := (hstage0_4 ((cfg0.slots t 4).cast nbuf0_4))
theorem whole0_5 (t : Fin cfg0.N) : (win0_5.stage (cfg0.slots t 5)).IsWhole := (hstage0_5 ((cfg0.slots t 5).cast nbuf0_5))
theorem whole0_6 (t : Fin cfg0.N) : (win0_6.stage (cfg0.slots t 6)).IsWhole := (hstage0_6 ((cfg0.slots t 6).cast nbuf0_6))
theorem whole0_7 (t : Fin cfg0.N) : (win0_7.stage (cfg0.slots t 7)).IsWhole := (hstage0_7 ((cfg0.slots t 7).cast nbuf0_7))
theorem whole0_8 (t : Fin cfg0.N) : (win0_8.stage (cfg0.slots t 8)).IsWhole := (hstage0_8 ((cfg0.slots t 8).cast nbuf0_8))
theorem whole0_9 (t : Fin cfg0.N) : (win0_9.stage (cfg0.slots t 9)).IsWhole := (hstage0_9 ((cfg0.slots t 9).cast nbuf0_9))
theorem whole0_10 (t : Fin cfg0.N) : (win0_10.stage (cfg0.slots t 10)).IsWhole := (hstage0_10 ((cfg0.slots t 10).cast nbuf0_10))
theorem whole0_11 (t : Fin cfg0.N) : (win0_11.stage (cfg0.slots t 11)).IsWhole := (hstage0_11 ((cfg0.slots t 11).cast nbuf0_11))
theorem whole0_12 (t : Fin cfg0.N) : (win0_12.stage (cfg0.slots t 12)).IsWhole := (hstage0_12 ((cfg0.slots t 12).cast nbuf0_12))
theorem whole0_13 (t : Fin cfg0.N) : (win0_13.stage (cfg0.slots t 13)).IsWhole := (hstage0_13 ((cfg0.slots t 13).cast nbuf0_13))
theorem whole0_14 (t : Fin cfg0.N) : (win0_14.stage (cfg0.slots t 14)).IsWhole := (hstage0_14 ((cfg0.slots t 14).cast nbuf0_14))
theorem whole0_15 (t : Fin cfg0.N) : (win0_15.stage (cfg0.slots t 15)).IsWhole := (hstage0_15 ((cfg0.slots t 15).cast nbuf0_15))
theorem whole0_16 (t : Fin cfg0.N) : (win0_16.stage (cfg0.slots t 16)).IsWhole := (hstage0_16 ((cfg0.slots t 16).cast nbuf0_16))
theorem whole0_17 (t : Fin cfg0.N) : (win0_17.stage (cfg0.slots t 17)).IsWhole := (hstage0_17 ((cfg0.slots t 17).cast nbuf0_17))
theorem whole0_18 (t : Fin cfg0.N) : (win0_18.stage (cfg0.slots t 18)).IsWhole := (hstage0_18 ((cfg0.slots t 18).cast nbuf0_18))
theorem whole0_19 (t : Fin cfg0.N) : (win0_19.stage (cfg0.slots t 19)).IsWhole := (hstage0_19 ((cfg0.slots t 19).cast nbuf0_19))
theorem whole0_20 (t : Fin cfg0.N) : (win0_20.stage (cfg0.slots t 20)).IsWhole := (hstage0_20 ((cfg0.slots t 20).cast nbuf0_20))

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (win0_0.stage (cfg0.slots t 0)) fullShare ((dat0 V c).before 0 t d))
    ∗ (∃ d, owns (c : Thread nD τ) (win0_1.stage (cfg0.slots t 1)) fullShare ((dat0 V c).before 1 t d))
    ∗ (∃ d, owns (c : Thread nD τ) (win0_2.stage (cfg0.slots t 2)) fullShare ((dat0 V c).before 2 t d))
    ∗ (∃ d, owns (c : Thread nD τ) (win0_3.stage (cfg0.slots t 3)) fullShare ((dat0 V c).before 3 t d))
    ∗ (∃ d, owns (c : Thread nD τ) (win0_4.stage (cfg0.slots t 4)) fullShare ((dat0 V c).before 4 t d))
    ∗ (∃ d, owns (c : Thread nD τ) (win0_5.stage (cfg0.slots t 5)) fullShare ((dat0 V c).before 5 t d))
    ∗ (∃ d, owns (c : Thread nD τ) (win0_6.stage (cfg0.slots t 6)) fullShare ((dat0 V c).before 6 t d))
    ∗ (∃ d, owns (c : Thread nD τ) (win0_7.stage (cfg0.slots t 7)) fullShare ((dat0 V c).before 7 t d))
    ∗ (∃ d, owns (c : Thread nD τ) (win0_8.stage (cfg0.slots t 8)) fullShare ((dat0 V c).before 8 t d))
    ∗ (∃ d, owns (c : Thread nD τ) (win0_9.stage (cfg0.slots t 9)) fullShare ((dat0 V c).before 9 t d))
    ∗ (∃ d, owns (c : Thread nD τ) (win0_10.stage (cfg0.slots t 10)) fullShare ((dat0 V c).before 10 t d))
    ∗ (∃ d, owns (c : Thread nD τ) (win0_11.stage (cfg0.slots t 11)) fullShare ((dat0 V c).before 11 t d))
    ∗ (∃ d, owns (c : Thread nD τ) (win0_12.stage (cfg0.slots t 12)) fullShare ((dat0 V c).before 12 t d))
    ∗ (∃ d, owns (c : Thread nD τ) (win0_13.stage (cfg0.slots t 13)) fullShare ((dat0 V c).before 13 t d))
    ∗ (∃ d, owns (c : Thread nD τ) (win0_14.stage (cfg0.slots t 14)) fullShare ((dat0 V c).before 14 t d))
    ∗ (∃ d, owns (c : Thread nD τ) (win0_15.stage (cfg0.slots t 15)) fullShare ((dat0 V c).before 15 t d))
    ∗ (∃ d, owns (c : Thread nD τ) (win0_16.stage (cfg0.slots t 16)) fullShare ((dat0 V c).before 16 t d))
    ∗ (∃ d, owns (c : Thread nD τ) (win0_17.stage (cfg0.slots t 17)) fullShare ((dat0 V c).before 17 t d))
    ∗ (∃ d, owns (c : Thread nD τ) (win0_18.stage (cfg0.slots t 18)) fullShare ((dat0 V c).before 18 t d))
    ∗ (∃ d, owns (c : Thread nD τ) (win0_19.stage (cfg0.slots t 19)) fullShare ((dat0 V c).before 19 t d))
    ∗ (∃ d, owns (c : Thread nD τ) (win0_20.stage (cfg0.slots t 20)) fullShare ((dat0 V c).before 20 t d)))

/-- and what it returns. -/
def bodyPost0 (c : Dev nD) (t : Fin cfg0.N) : sProp 𝕄 :=
  iprop((dat0 V c).Φ t.succ ∗ (dat0 V c).owesAt () t.succ
    ∗ owns (c : Thread nD τ) (win0_0.stage (cfg0.slots t 0)) fullShare ((dat0 V c).after 0 t)
    ∗ owns (c : Thread nD τ) (win0_1.stage (cfg0.slots t 1)) fullShare ((dat0 V c).after 1 t)
    ∗ owns (c : Thread nD τ) (win0_2.stage (cfg0.slots t 2)) fullShare ((dat0 V c).after 2 t)
    ∗ owns (c : Thread nD τ) (win0_3.stage (cfg0.slots t 3)) fullShare ((dat0 V c).after 3 t)
    ∗ owns (c : Thread nD τ) (win0_4.stage (cfg0.slots t 4)) fullShare ((dat0 V c).after 4 t)
    ∗ owns (c : Thread nD τ) (win0_5.stage (cfg0.slots t 5)) fullShare ((dat0 V c).after 5 t)
    ∗ owns (c : Thread nD τ) (win0_6.stage (cfg0.slots t 6)) fullShare ((dat0 V c).after 6 t)
    ∗ owns (c : Thread nD τ) (win0_7.stage (cfg0.slots t 7)) fullShare ((dat0 V c).after 7 t)
    ∗ owns (c : Thread nD τ) (win0_8.stage (cfg0.slots t 8)) fullShare ((dat0 V c).after 8 t)
    ∗ owns (c : Thread nD τ) (win0_9.stage (cfg0.slots t 9)) fullShare ((dat0 V c).after 9 t)
    ∗ owns (c : Thread nD τ) (win0_10.stage (cfg0.slots t 10)) fullShare ((dat0 V c).after 10 t)
    ∗ owns (c : Thread nD τ) (win0_11.stage (cfg0.slots t 11)) fullShare ((dat0 V c).after 11 t)
    ∗ owns (c : Thread nD τ) (win0_12.stage (cfg0.slots t 12)) fullShare ((dat0 V c).after 12 t)
    ∗ owns (c : Thread nD τ) (win0_13.stage (cfg0.slots t 13)) fullShare ((dat0 V c).after 13 t)
    ∗ owns (c : Thread nD τ) (win0_14.stage (cfg0.slots t 14)) fullShare ((dat0 V c).after 14 t)
    ∗ owns (c : Thread nD τ) (win0_15.stage (cfg0.slots t 15)) fullShare ((dat0 V c).after 15 t)
    ∗ owns (c : Thread nD τ) (win0_16.stage (cfg0.slots t 16)) fullShare ((dat0 V c).after 16 t)
    ∗ owns (c : Thread nD τ) (win0_17.stage (cfg0.slots t 17)) fullShare ((dat0 V c).after 17 t)
    ∗ owns (c : Thread nD τ) (win0_18.stage (cfg0.slots t 18)) fullShare ((dat0 V c).after 18 t)
    ∗ owns (c : Thread nD τ) (win0_19.stage (cfg0.slots t 19)) fullShare ((dat0 V c).after 19 t)
    ∗ owns (c : Thread nD τ) (win0_20.stage (cfg0.slots t 20)) fullShare ((dat0 V c).after 20 t))

set_option maxHeartbeats 4000000 in
/-- The body at any point: each input's memref holds its block (`before0_W`), every staging memref is a whole buffer, so
    its `owns` is the buffer's points-to at the raw contents reading the block, and the body's run applies; the scratch
    buffers come out of the invariant's scoped rest and go back at something; the generator register, the other
    scoped buffers and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13, before0_14, before0_15, before0_16, before0_17, before0_18, before0_19]
  rw [show (dat0 V c).Φ t.succ = Pipeline.ΦA spec0 c from rfl, show (dat0 V c).Φ t.castSucc = Pipeline.ΦA spec0 c from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15, after0_16, after0_17, after0_18, after0_19, after0_20]
  unfold Pipeline.ΦA; rw [scopedRest0_eq]
  simp only [owns_isWhole_tc c (whole0_0 t), owns_isWhole_tc c (whole0_1 t), owns_isWhole_tc c (whole0_2 t), owns_isWhole_tc c (whole0_3 t), owns_isWhole_tc c (whole0_4 t), owns_isWhole_tc c (whole0_5 t), owns_isWhole_tc c (whole0_6 t), owns_isWhole_tc c (whole0_7 t), owns_isWhole_tc c (whole0_8 t), owns_isWhole_tc c (whole0_9 t), owns_isWhole_tc c (whole0_10 t), owns_isWhole_tc c (whole0_11 t), owns_isWhole_tc c (whole0_12 t), owns_isWhole_tc c (whole0_13 t), owns_isWhole_tc c (whole0_14 t), owns_isWhole_tc c (whole0_15 t), owns_isWhole_tc c (whole0_16 t), owns_isWhole_tc c (whole0_17 t), owns_isWhole_tc c (whole0_18 t), owns_isWhole_tc c (whole0_19 t), owns_isWhole_tc c (whole0_20 t)]
  unfold outBlk0
  simp only [Memref.IsWhole.unread_read]
  generalize Body0.kernelRun (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (Memref.whole cc0_scratch0) (Memref.isWhole_whole _) (Memref.whole cc0_scratch1) (Memref.isWhole_whole _) (Memref.whole cc0_scratch2) (Memref.isWhole_whole _) ((hstage0_0 ((cfg0.slots t 0).cast nbuf0_0)).unread (iblk0 V c 0 t)) ((hstage0_1 ((cfg0.slots t 1).cast nbuf0_1)).unread (iblk0 V c 1 t)) ((hstage0_2 ((cfg0.slots t 2).cast nbuf0_2)).unread (iblk0 V c 2 t)) ((hstage0_3 ((cfg0.slots t 3).cast nbuf0_3)).unread (iblk0 V c 3 t)) ((hstage0_4 ((cfg0.slots t 4).cast nbuf0_4)).unread (iblk0 V c 4 t)) ((hstage0_5 ((cfg0.slots t 5).cast nbuf0_5)).unread (iblk0 V c 5 t)) ((hstage0_6 ((cfg0.slots t 6).cast nbuf0_6)).unread (iblk0 V c 6 t)) ((hstage0_7 ((cfg0.slots t 7).cast nbuf0_7)).unread (iblk0 V c 7 t)) ((hstage0_8 ((cfg0.slots t 8).cast nbuf0_8)).unread (iblk0 V c 8 t)) ((hstage0_9 ((cfg0.slots t 9).cast nbuf0_9)).unread (iblk0 V c 9 t)) ((hstage0_10 ((cfg0.slots t 10).cast nbuf0_10)).unread (iblk0 V c 10 t)) ((hstage0_11 ((cfg0.slots t 11).cast nbuf0_11)).unread (iblk0 V c 11 t)) ((hstage0_12 ((cfg0.slots t 12).cast nbuf0_12)).unread (iblk0 V c 12 t)) ((hstage0_13 ((cfg0.slots t 13).cast nbuf0_13)).unread (iblk0 V c 13 t)) ((hstage0_14 ((cfg0.slots t 14).cast nbuf0_14)).unread (iblk0 V c 14 t)) ((hstage0_15 ((cfg0.slots t 15).cast nbuf0_15)).unread (iblk0 V c 15 t)) ((hstage0_16 ((cfg0.slots t 16).cast nbuf0_16)).unread (iblk0 V c 16 t)) ((hstage0_17 ((cfg0.slots t 17).cast nbuf0_17)).unread (iblk0 V c 17 t)) ((hstage0_18 ((cfg0.slots t 18).cast nbuf0_18)).unread (iblk0 V c 18 t)) ((hstage0_19 ((cfg0.slots t 19).cast nbuf0_19)).unread (iblk0 V c 19 t)) = KR
  iintro ⟨⟨⟨⟨%s0, Hs0⟩, ⟨%s1, Hs1⟩, ⟨%s2, Hs2⟩, Hsr⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (KR.2 _ s0 s1 s2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [Hs0]; · iexact Hs0
  isplitl [Hs1]; · iexact Hs1
  isplitl [Hs2]; · iexact Hs2
  iintro ⟨H0, H1, H2, H3, H4, H5, H6, H7, H8, H9, H10, H11, H12, H13, H14, H15, H16, H17, H18, H19, H20, Hs0, Hs1, Hs2⟩
  isplitl [Hs0 Hs1 Hs2 Hsr Hp]
  · isplitr [Hp]
    · isplitl [Hs0]; · iexact Hs0
      isplitl [Hs1]; · iexact Hs1
      isplitl [Hs2]; · iexact Hs2
      iexact Hsr
    · iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.ReferenceIdeal.Run

end
-- ==== Proof.RefBody1.lean ====
/-
  The reference's second kernel (two 3×3 convolutions with Mish over the shortcut and the first kernel's result, plus a 1×1 shortcut),
  run once at a symbolic grid point and symbolic buffer contents: every load lies in a buffer the body holds, every store inside its
  buffer, and what the output block holds afterwards is a term over the ten input blocks alone.
-/
import proofs.«120724_g2000406006432562_pallasbulk_1270_2_alg».proof.Proof.Gen.ReferenceIdeal
import proofs.«120724_g2000406006432562_pallasbulk_1270_2_alg».proof.Proof.Gen.ReferenceIdeal.Skeleton
import Idealize.ShloMosaic.Lib.Tactic

noncomputable section

namespace Cert.ReferenceIdeal.Body1

open Cert.ReferenceIdeal Cert.ReferenceIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the rounds library's, for the pipeline's staging cells (the kernel has no cell of its own). -/
abbrev UR (nD : Nat) (τ : Topo) : Type := URounds (GSem nD τ sig) Unit

local notation "𝕄" => MT nD τ sig Unit (Elt F) ℕ (UR nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

set_option maxHeartbeats 8000000 in
/-- What the body leaves in the output block, as a term over the input blocks' contents alone, WITH the proof that from
    every buffer held whole — the inputs at `f`, the output block and the scratch buffers at anything — the kernel runs to its
    return without a fault, handing back the inputs as they were, the output block at the witness, the scratch at something. -/
noncomputable def kernelRun (c : Dev nD) (i : grid1.Coords)
    (M0 : Memref sig .tc .vmem S1x32x32x128 .f32) (h0 : M0.IsWhole)
    (M1 : Memref sig .tc .vmem S1x32x32x128 .f32) (h1 : M1.IsWhole)
    (M2 : Memref sig .tc .vmem S3x3x128x128 .f32) (h2 : M2.IsWhole)
    (M3 : Memref sig .tc .vmem S3x3x128x128 .f32) (h3 : M3.IsWhole)
    (M4 : Memref sig .tc .vmem S1x128 .f32) (h4 : M4.IsWhole)
    (M5 : Memref sig .tc .vmem S3x3x128x128 .f32) (h5 : M5.IsWhole)
    (M6 : Memref sig .tc .vmem S1x128 .f32) (h6 : M6.IsWhole)
    (M7 : Memref sig .tc .vmem S128x128 .f32) (h7 : M7.IsWhole)
    (M8 : Memref sig .tc .vmem S128x128 .f32) (h8 : M8.IsWhole)
    (M9 : Memref sig .tc .vmem S1x128 .f32) (h9 : M9.IsWhole)
    (M10 : Memref sig .tc .vmem S1x32x32x128 .f32) (h10 : M10.IsWhole)
    (M11 : Memref sig .tc .vmem S34x34x128 .f32) (h11 : M11.IsWhole)
    (f0 : Bf (F := F) c M0) (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) :
    { W : Bf (F := F) c M10 //
      ∀ (f10 : Bf (F := F) c M10) (f11 : Bf (F := F) c M11) (E : Set ℕ) (Q : PUnit → sProp 𝕄),
        iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11
          ∗ (iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9 ∗ pt c M10 W ∗ (∃ f, pt c M11 f)) -∗ Q ⟨⟩))
        ⊢ wp frame (wpE (defs₀ (F := F)) Variants.none c none) E
            (cc1__convblock_kernel i M0 h0 M1 h1 M2 h2 M3 h3 M4 h4 M5 h5 M6 h6 M7 h7 M8 h8 M9 h9 M10 h10 M11 h11) Q } := by
  refine ⟨?_, fun f10 f11 E Q => ?run⟩
  case run =>
    iintro ⟨H0, H1, H2, H3, H4, H5, H6, H7, H8, H9, H10, H11, Hk⟩
    sl_exec_parts!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexists _; iexact H11

end Cert.ReferenceIdeal.Body1

end
-- ==== Proof.RefRun1.lean ====
/-
  Region 1 of the idealized reference (its second kernel's pipeline: 11 windows, window 10 the output) at a parameter `V`, the
  TensorCore's buffer contents when the region is entered: each window's block at a point, the output block after the body as
  the body's run leaves it, the pipeline's proof data, and the body obligation at every point.
-/
import proofs.«120724_g2000406006432562_pallasbulk_1270_2_alg».proof.Proof.RefBody1
import proofs.«120724_g2000406006432562_pallasbulk_1270_2_alg».proof.Proof.RefRunBase
import proofs.«120724_g2000406006432562_pallasbulk_1270_2_alg».proof.Proof.Gen.ReferenceIdeal.Launch
import proofs.«120724_g2000406006432562_pallasbulk_1270_2_alg».proof.Proof.Gen.ReferenceIdeal.Skeleton
import proofs.«120724_g2000406006432562_pallasbulk_1270_2_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- a window's block indices at production extents: the elaborator's structural look recurses once per coordinate
set_option maxRecDepth 16384

noncomputable section

namespace Cert.ReferenceIdeal.Run

open Cert.ReferenceIdeal Cert.ReferenceIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data whose
    array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data whose
    array is `V`'s and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data whose
    array is `V`'s and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data whose
    array is `V`'s and whose body leaves the block in place: unfetched, the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof data whose
    array is `V`'s and whose body leaves the block in place: unfetched, the block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof data whose
    array is `V`'s and whose body leaves the block in place: unfetched, the block index has not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof data whose
    array is `V`'s and whose body leaves the block in place: unfetched, the block index has not moved. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not, for any proof data whose
    array is `V`'s and whose body leaves the block in place: unfetched, the block index has not moved. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, fetched there or not, for any proof data whose
    array is `V`'s and whose body leaves the block in place: unfetched, the block index has not moved. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- Input window 9's current staging buffer holds its block at every point, fetched there or not, for any proof data whose
    array is `V`'s and whose body leaves the block in place: unfetched, the block index has not moved. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output window's buffer -/

/-- Window 10's staging buffer after the body at point `t`: what the body's run leaves in the output block, from the input
    windows' blocks — each input buffer's raw contents the one that reads its block — read back through the staging memref. -/
def outBlk1 (c : Dev nD) (t : Fin cfg1.N) : (cfg1.win 10).block.Idx → Elt F (cfg1.win 10).elt :=
  (win1_10.stage (cfg1.slots t 10)).view.read (Elt F)
    (Body1.kernelRun (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (Memref.whole cc1_scratch0) (Memref.isWhole_whole _) ((hstage1_0 ((cfg1.slots t 0).cast nbuf1_0)).unread (iblk1 V c 0 t)) ((hstage1_1 ((cfg1.slots t 1).cast nbuf1_1)).unread (iblk1 V c 1 t)) ((hstage1_2 ((cfg1.slots t 2).cast nbuf1_2)).unread (iblk1 V c 2 t)) ((hstage1_3 ((cfg1.slots t 3).cast nbuf1_3)).unread (iblk1 V c 3 t)) ((hstage1_4 ((cfg1.slots t 4).cast nbuf1_4)).unread (iblk1 V c 4 t)) ((hstage1_5 ((cfg1.slots t 5).cast nbuf1_5)).unread (iblk1 V c 5 t)) ((hstage1_6 ((cfg1.slots t 6).cast nbuf1_6)).unread (iblk1 V c 6 t)) ((hstage1_7 ((cfg1.slots t 7).cast nbuf1_7)).unread (iblk1 V c 7 t)) ((hstage1_8 ((cfg1.slots t 8).cast nbuf1_8)).unread (iblk1 V c 8 t)) ((hstage1_9 ((cfg1.slots t 9).cast nbuf1_9)).unread (iblk1 V c 9 t))).1

/-! ## The pipeline's proof data -/

/-- The proof data of pipeline 1 on core `c`: the arrays as the region finds them (`V`); after the body at point `t` each
    input's buffer at its block and the output's at `outBlk1`; the invariant the scoped rest and the generator register,
    untouched between points; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => outBlk1 V c t
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = outBlk1 V c t := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

/-- Each window's current staging memref at a point is a whole buffer. -/
theorem whole1_0 (t : Fin cfg1.N) : (win1_0.stage (cfg1.slots t 0)).IsWhole := (hstage1_0 ((cfg1.slots t 0).cast nbuf1_0))
theorem whole1_1 (t : Fin cfg1.N) : (win1_1.stage (cfg1.slots t 1)).IsWhole := (hstage1_1 ((cfg1.slots t 1).cast nbuf1_1))
theorem whole1_2 (t : Fin cfg1.N) : (win1_2.stage (cfg1.slots t 2)).IsWhole := (hstage1_2 ((cfg1.slots t 2).cast nbuf1_2))
theorem whole1_3 (t : Fin cfg1.N) : (win1_3.stage (cfg1.slots t 3)).IsWhole := (hstage1_3 ((cfg1.slots t 3).cast nbuf1_3))
theorem whole1_4 (t : Fin cfg1.N) : (win1_4.stage (cfg1.slots t 4)).IsWhole := (hstage1_4 ((cfg1.slots t 4).cast nbuf1_4))
theorem whole1_5 (t : Fin cfg1.N) : (win1_5.stage (cfg1.slots t 5)).IsWhole := (hstage1_5 ((cfg1.slots t 5).cast nbuf1_5))
theorem whole1_6 (t : Fin cfg1.N) : (win1_6.stage (cfg1.slots t 6)).IsWhole := (hstage1_6 ((cfg1.slots t 6).cast nbuf1_6))
theorem whole1_7 (t : Fin cfg1.N) : (win1_7.stage (cfg1.slots t 7)).IsWhole := (hstage1_7 ((cfg1.slots t 7).cast nbuf1_7))
theorem whole1_8 (t : Fin cfg1.N) : (win1_8.stage (cfg1.slots t 8)).IsWhole := (hstage1_8 ((cfg1.slots t 8).cast nbuf1_8))
theorem whole1_9 (t : Fin cfg1.N) : (win1_9.stage (cfg1.slots t 9)).IsWhole := (hstage1_9 ((cfg1.slots t 9).cast nbuf1_9))
theorem whole1_10 (t : Fin cfg1.N) : (win1_10.stage (cfg1.slots t 10)).IsWhole := (hstage1_10 ((cfg1.slots t 10).cast nbuf1_10))

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (win1_0.stage (cfg1.slots t 0)) fullShare ((dat1 V c).before 0 t d))
    ∗ (∃ d, owns (c : Thread nD τ) (win1_1.stage (cfg1.slots t 1)) fullShare ((dat1 V c).before 1 t d))
    ∗ (∃ d, owns (c : Thread nD τ) (win1_2.stage (cfg1.slots t 2)) fullShare ((dat1 V c).before 2 t d))
    ∗ (∃ d, owns (c : Thread nD τ) (win1_3.stage (cfg1.slots t 3)) fullShare ((dat1 V c).before 3 t d))
    ∗ (∃ d, owns (c : Thread nD τ) (win1_4.stage (cfg1.slots t 4)) fullShare ((dat1 V c).before 4 t d))
    ∗ (∃ d, owns (c : Thread nD τ) (win1_5.stage (cfg1.slots t 5)) fullShare ((dat1 V c).before 5 t d))
    ∗ (∃ d, owns (c : Thread nD τ) (win1_6.stage (cfg1.slots t 6)) fullShare ((dat1 V c).before 6 t d))
    ∗ (∃ d, owns (c : Thread nD τ) (win1_7.stage (cfg1.slots t 7)) fullShare ((dat1 V c).before 7 t d))
    ∗ (∃ d, owns (c : Thread nD τ) (win1_8.stage (cfg1.slots t 8)) fullShare ((dat1 V c).before 8 t d))
    ∗ (∃ d, owns (c : Thread nD τ) (win1_9.stage (cfg1.slots t 9)) fullShare ((dat1 V c).before 9 t d))
    ∗ (∃ d, owns (c : Thread nD τ) (win1_10.stage (cfg1.slots t 10)) fullShare ((dat1 V c).before 10 t d)))

/-- and what it returns. -/
def bodyPost1 (c : Dev nD) (t : Fin cfg1.N) : sProp 𝕄 :=
  iprop((dat1 V c).Φ t.succ ∗ (dat1 V c).owesAt () t.succ
    ∗ owns (c : Thread nD τ) (win1_0.stage (cfg1.slots t 0)) fullShare ((dat1 V c).after 0 t)
    ∗ owns (c : Thread nD τ) (win1_1.stage (cfg1.slots t 1)) fullShare ((dat1 V c).after 1 t)
    ∗ owns (c : Thread nD τ) (win1_2.stage (cfg1.slots t 2)) fullShare ((dat1 V c).after 2 t)
    ∗ owns (c : Thread nD τ) (win1_3.stage (cfg1.slots t 3)) fullShare ((dat1 V c).after 3 t)
    ∗ owns (c : Thread nD τ) (win1_4.stage (cfg1.slots t 4)) fullShare ((dat1 V c).after 4 t)
    ∗ owns (c : Thread nD τ) (win1_5.stage (cfg1.slots t 5)) fullShare ((dat1 V c).after 5 t)
    ∗ owns (c : Thread nD τ) (win1_6.stage (cfg1.slots t 6)) fullShare ((dat1 V c).after 6 t)
    ∗ owns (c : Thread nD τ) (win1_7.stage (cfg1.slots t 7)) fullShare ((dat1 V c).after 7 t)
    ∗ owns (c : Thread nD τ) (win1_8.stage (cfg1.slots t 8)) fullShare ((dat1 V c).after 8 t)
    ∗ owns (c : Thread nD τ) (win1_9.stage (cfg1.slots t 9)) fullShare ((dat1 V c).after 9 t)
    ∗ owns (c : Thread nD τ) (win1_10.stage (cfg1.slots t 10)) fullShare ((dat1 V c).after 10 t))

set_option maxHeartbeats 4000000 in
/-- The body at any point: each input's memref holds its block (`before1_W`), every staging memref is a whole buffer, so
    its `owns` is the buffer's points-to at the raw contents reading the block, and the body's run applies; the scratch
    buffers come out of the invariant's scoped rest and go back at something; the generator register, the other
    scoped buffers and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = Pipeline.ΦA spec1 c from rfl, show (dat1 V c).Φ t.castSucc = Pipeline.ΦA spec1 c from rfl,
    show (dat1 V c).owesAt () t.succ = (dat1 V c).owesAt () t.castSucc from rfl,
    after1_0, after1_1, after1_2, after1_3, after1_4, after1_5, after1_6, after1_7, after1_8, after1_9, after1_10]
  unfold Pipeline.ΦA; rw [scopedRest1_split]
  simp only [owns_isWhole_tc c (whole1_0 t), owns_isWhole_tc c (whole1_1 t), owns_isWhole_tc c (whole1_2 t), owns_isWhole_tc c (whole1_3 t), owns_isWhole_tc c (whole1_4 t), owns_isWhole_tc c (whole1_5 t), owns_isWhole_tc c (whole1_6 t), owns_isWhole_tc c (whole1_7 t), owns_isWhole_tc c (whole1_8 t), owns_isWhole_tc c (whole1_9 t), owns_isWhole_tc c (whole1_10 t)]
  unfold outBlk1
  simp only [Memref.IsWhole.unread_read]
  generalize Body1.kernelRun (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (Memref.whole cc1_scratch0) (Memref.isWhole_whole _) ((hstage1_0 ((cfg1.slots t 0).cast nbuf1_0)).unread (iblk1 V c 0 t)) ((hstage1_1 ((cfg1.slots t 1).cast nbuf1_1)).unread (iblk1 V c 1 t)) ((hstage1_2 ((cfg1.slots t 2).cast nbuf1_2)).unread (iblk1 V c 2 t)) ((hstage1_3 ((cfg1.slots t 3).cast nbuf1_3)).unread (iblk1 V c 3 t)) ((hstage1_4 ((cfg1.slots t 4).cast nbuf1_4)).unread (iblk1 V c 4 t)) ((hstage1_5 ((cfg1.slots t 5).cast nbuf1_5)).unread (iblk1 V c 5 t)) ((hstage1_6 ((cfg1.slots t 6).cast nbuf1_6)).unread (iblk1 V c 6 t)) ((hstage1_7 ((cfg1.slots t 7).cast nbuf1_7)).unread (iblk1 V c 7 t)) ((hstage1_8 ((cfg1.slots t 8).cast nbuf1_8)).unread (iblk1 V c 8 t)) ((hstage1_9 ((cfg1.slots t 9).cast nbuf1_9)).unread (iblk1 V c 9 t)) = KR
  iintro ⟨⟨⟨⟨%s0, Hs0⟩, Hsr⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (KR.2 _ s0 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [Hs0]; · iexact Hs0
  iintro ⟨H0, H1, H2, H3, H4, H5, H6, H7, H8, H9, H10, Hs0⟩
  isplitl [Hs0 Hsr Hp]
  · isplitr [Hp]
    · isplitl [Hs0]; · iexact Hs0
      iexact Hsr
    · iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.ReferenceIdeal.Run

end
-- ==== Proof.RefRun.lean ====
/-
  The value-carrying run of the idealized reference: @main is a host stretch, region 0, a host stretch, region 1 and a last host
  stretch. The TensorCore's buffer contents at each boundary are a fold from the launch memory (a stretch's `StableHlo.after`; a
  region's arrays at what its write-backs leave, every other buffer as entered), each region's proof data taken at its entry
  contents. From any memory with zero counters every weakly fair execution of @main terminates, and every final state has each
  unscoped buffer at the last boundary's contents `W5`; the argument arrays read back through the fold to their launch contents.
-/
import proofs.«120724_g2000406006432562_pallasbulk_1270_2_alg».proof.Proof.RefRun0
import proofs.«120724_g2000406006432562_pallasbulk_1270_2_alg».proof.Proof.RefRun1
import proofs.«120724_g2000406006432562_pallasbulk_1270_2_alg».proof.Proof.Gen.ReferenceIdeal.Regions

-- a window's block indices at production extents: the elaborator's structural look recurses once per coordinate
set_option maxRecDepth 16384

noncomputable section

namespace Cert.ReferenceIdeal.Run

open Cert.ReferenceIdeal Cert.ReferenceIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core `c`'s buffers at launch. -/
abbrev W0 : Dev nD → Valuation τ sig (Elt F) := fun c b => (s₀ m ρ).mem ((c : Dev nD), b)
/-- After `hostOps0` (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, the output's write-backs folded), every
    other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (the return). -/
abbrev W5 : Dev nD → Valuation τ sig (Elt F) := fun c => StableHlo.after hostOps2 (W4 m ρ c)

/-! ### The arguments end as launched: no host operation writes one, and a region reads it through an input window or
    bypasses it, so the fold at an argument's buffer walks back to the launch memory -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := (W2_arr m ρ c 2).trans (((dat0 (V1 m ρ) c).arrAt_in 2 rfl _).trans (A_eq0 (V1 m ρ) c 2))
    _ = W0 m ρ c (Proc.devRef .tc main_arg5) := StableHlo.after_of_writes_sub hostOps0 _ hostOps0_writes (by decide)
    _ = m ((c : Thread nD τ).loc main_arg5) := rfl
theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := (W2_arr m ρ c 15).trans (((dat0 (V1 m ρ) c).arrAt_in 15 rfl _).trans (A_eq0 (V1 m ρ) c 15))
    _ = W0 m ρ c (Proc.devRef .tc main_arg6) := StableHlo.after_of_writes_sub hostOps0 _ hostOps0_writes (by decide)
    _ = m ((c : Thread nD τ).loc main_arg6) := rfl
theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := (W2_arr m ρ c 3).trans (((dat0 (V1 m ρ) c).arrAt_in 3 rfl _).trans (A_eq0 (V1 m ρ) c 3))
    _ = W0 m ρ c (Proc.devRef .tc main_arg7) := StableHlo.after_of_writes_sub hostOps0 _ hostOps0_writes (by decide)
    _ = m ((c : Thread nD τ).loc main_arg7) := rfl
theorem W5_main_arg8 (c : Dev nD) : W5 m ρ c (Proc.devRef .tc main_arg8) = m ((c : Thread nD τ).loc main_arg8) :=
  calc W5 m ρ c (Proc.devRef .tc main_arg8)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := (W2_arr m ρ c 4).trans (((dat0 (V1 m ρ) c).arrAt_in 4 rfl _).trans (A_eq0 (V1 m ρ) c 4))
    _ = W0 m ρ c (Proc.devRef .tc main_arg8) := StableHlo.after_of_writes_sub hostOps0 _ hostOps0_writes (by decide)
    _ = m ((c : Thread nD τ).loc main_arg8) := rfl
theorem W5_main_arg9 (c : Dev nD) : W5 m ρ c (Proc.devRef .tc main_arg9) = m ((c : Thread nD τ).loc main_arg9) :=
  calc W5 m ρ c (Proc.devRef .tc main_arg9)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := (W2_arr m ρ c 5).trans (((dat0 (V1 m ρ) c).arrAt_in 5 rfl _).trans (A_eq0 (V1 m ρ) c 5))
    _ = W0 m ρ c (Proc.devRef .tc main_arg9) := StableHlo.after_of_writes_sub hostOps0 _ hostOps0_writes (by decide)
    _ = m ((c : Thread nD τ).loc main_arg9) := rfl
theorem W5_main_arg10 (c : Dev nD) : W5 m ρ c (Proc.devRef .tc main_arg10) = m ((c : Thread nD τ).loc main_arg10) :=
  calc W5 m ρ c (Proc.devRef .tc main_arg10)
    _ = W4 m ρ c (Proc.devRef .tc main_arg10) := StableHlo.after_of_writes_sub hostOps2 _ hostOps2_writes (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := (W2_arr m ρ c 6).trans (((dat0 (V1 m ρ) c).arrAt_in 6 rfl _).trans (A_eq0 (V1 m ρ) c 6))
    _ = W0 m ρ c (Proc.devRef .tc main_arg10) := StableHlo.after_of_writes_sub hostOps0 _ hostOps0_writes (by decide)
    _ = m ((c : Thread nD τ).loc main_arg10) := rfl
theorem W5_main_arg11 (c : Dev nD) : W5 m ρ c (Proc.devRef .tc main_arg11) = m ((c : Thread nD τ).loc main_arg11) :=
  calc W5 m ρ c (Proc.devRef .tc main_arg11)
    _ = W4 m ρ c (Proc.devRef .tc main_arg11) := StableHlo.after_of_writes_sub hostOps2 _ hostOps2_writes (by decide)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := (W2_arr m ρ c 7).trans (((dat0 (V1 m ρ) c).arrAt_in 7 rfl _).trans (A_eq0 (V1 m ρ) c 7))
    _ = W0 m ρ c (Proc.devRef .tc main_arg11) := StableHlo.after_of_writes_sub hostOps0 _ hostOps0_writes (by decide)
    _ = m ((c : Thread nD τ).loc main_arg11) := rfl
theorem W5_main_arg12 (c : Dev nD) : W5 m ρ c (Proc.devRef .tc main_arg12) = m ((c : Thread nD τ).loc main_arg12) :=
  calc W5 m ρ c (Proc.devRef .tc main_arg12)
    _ = W4 m ρ c (Proc.devRef .tc main_arg12) := StableHlo.after_of_writes_sub hostOps2 _ hostOps2_writes (by decide)
    _ = W3 m ρ c (Proc.devRef .tc main_arg12) := W4_of_ne m ρ c main_arg12 (by decide)
    _ = W2 m ρ c (Proc.devRef .tc main_arg12) := StableHlo.after_of_writes_sub hostOps1 _ hostOps1_writes (by decide)
    _ = W1 m ρ c (Proc.devRef .tc main_arg12) := (W2_arr m ρ c 8).trans (((dat0 (V1 m ρ) c).arrAt_in 8 rfl _).trans (A_eq0 (V1 m ρ) c 8))
    _ = W0 m ρ c (Proc.devRef .tc main_arg12) := StableHlo.after_of_writes_sub hostOps0 _ hostOps0_writes (by decide)
    _ = m ((c : Thread nD τ).loc main_arg12) := rfl
theorem W5_main_arg13 (c : Dev nD) : W5 m ρ c (Proc.devRef .tc main_arg13) = m ((c : Thread nD τ).loc main_arg13) :=
  calc W5 m ρ c (Proc.devRef .tc main_arg13)
    _ = W4 m ρ c (Proc.devRef .tc main_arg13) := StableHlo.after_of_writes_sub hostOps2 _ hostOps2_writes (by decide)
    _ = W3 m ρ c (Proc.devRef .tc main_arg13) := W4_of_ne m ρ c main_arg13 (by decide)
    _ = W2 m ρ c (Proc.devRef .tc main_arg13) := StableHlo.after_of_writes_sub hostOps1 _ hostOps1_writes (by decide)
    _ = W1 m ρ c (Proc.devRef .tc main_arg13) := (W2_arr m ρ c 9).trans (((dat0 (V1 m ρ) c).arrAt_in 9 rfl _).trans (A_eq0 (V1 m ρ) c 9))
    _ = W0 m ρ c (Proc.devRef .tc main_arg13) := StableHlo.after_of_writes_sub hostOps0 _ hostOps0_writes (by decide)
    _ = m ((c : Thread nD τ).loc main_arg13) := rfl
theorem W5_main_arg14 (c : Dev nD) : W5 m ρ c (Proc.devRef .tc main_arg14) = m ((c : Thread nD τ).loc main_arg14) :=
  calc W5 m ρ c (Proc.devRef .tc main_arg14)
    _ = W4 m ρ c (Proc.devRef .tc main_arg14) := StableHlo.after_of_writes_sub hostOps2 _ hostOps2_writes (by decide)
    _ = W3 m ρ c (Proc.devRef .tc main_arg14) := W4_of_ne m ρ c main_arg14 (by decide)
    _ = W2 m ρ c (Proc.devRef .tc main_arg14) := StableHlo.after_of_writes_sub hostOps1 _ hostOps1_writes (by decide)
    _ = W1 m ρ c (Proc.devRef .tc main_arg14) := (W2_arr m ρ c 10).trans (((dat0 (V1 m ρ) c).arrAt_in 10 rfl _).trans (A_eq0 (V1 m ρ) c 10))
    _ = W0 m ρ c (Proc.devRef .tc main_arg14) := StableHlo.after_of_writes_sub hostOps0 _ hostOps0_writes (by decide)
    _ = m ((c : Thread nD τ).loc main_arg14) := rfl
theorem W5_main_arg15 (c : Dev nD) : W5 m ρ c (Proc.devRef .tc main_arg15) = m ((c : Thread nD τ).loc main_arg15) :=
  calc W5 m ρ c (Proc.devRef .tc main_arg15)
    _ = W4 m ρ c (Proc.devRef .tc main_arg15) := StableHlo.after_of_writes_sub hostOps2 _ hostOps2_writes (by decide)
    _ = W3 m ρ c (Proc.devRef .tc main_arg15) := W4_of_ne m ρ c main_arg15 (by decide)
    _ = W2 m ρ c (Proc.devRef .tc main_arg15) := StableHlo.after_of_writes_sub hostOps1 _ hostOps1_writes (by decide)
    _ = W1 m ρ c (Proc.devRef .tc main_arg15) := (W2_arr m ρ c 11).trans (((dat0 (V1 m ρ) c).arrAt_in 11 rfl _).trans (A_eq0 (V1 m ρ) c 11))
    _ = W0 m ρ c (Proc.devRef .tc main_arg15) := StableHlo.after_of_writes_sub hostOps0 _ hostOps0_writes (by decide)
    _ = m ((c : Thread nD τ).loc main_arg15) := rfl
theorem W5_main_arg16 (c : Dev nD) : W5 m ρ c (Proc.devRef .tc main_arg16) = m ((c : Thread nD τ).loc main_arg16) :=
  calc W5 m ρ c (Proc.devRef .tc main_arg16)
    _ = W4 m ρ c (Proc.devRef .tc main_arg16) := StableHlo.after_of_writes_sub hostOps2 _ hostOps2_writes (by decide)
    _ = W3 m ρ c (Proc.devRef .tc main_arg16) := W4_of_ne m ρ c main_arg16 (by decide)
    _ = W2 m ρ c (Proc.devRef .tc main_arg16) := StableHlo.after_of_writes_sub hostOps1 _ hostOps1_writes (by decide)
    _ = W1 m ρ c (Proc.devRef .tc main_arg16) := (W2_arr m ρ c 12).trans (((dat0 (V1 m ρ) c).arrAt_in 12 rfl _).trans (A_eq0 (V1 m ρ) c 12))
    _ = W0 m ρ c (Proc.devRef .tc main_arg16) := StableHlo.after_of_writes_sub hostOps0 _ hostOps0_writes (by decide)
    _ = m ((c : Thread nD τ).loc main_arg16) := rfl
theorem W5_main_arg17 (c : Dev nD) : W5 m ρ c (Proc.devRef .tc main_arg17) = m ((c : Thread nD τ).loc main_arg17) :=
  calc W5 m ρ c (Proc.devRef .tc main_arg17)
    _ = W4 m ρ c (Proc.devRef .tc main_arg17) := StableHlo.after_of_writes_sub hostOps2 _ hostOps2_writes (by decide)
    _ = W3 m ρ c (Proc.devRef .tc main_arg17) := W4_of_ne m ρ c main_arg17 (by decide)
    _ = W2 m ρ c (Proc.devRef .tc main_arg17) := StableHlo.after_of_writes_sub hostOps1 _ hostOps1_writes (by decide)
    _ = W1 m ρ c (Proc.devRef .tc main_arg17) := (W2_arr m ρ c 16).trans (((dat0 (V1 m ρ) c).arrAt_in 16 rfl _).trans (A_eq0 (V1 m ρ) c 16))
    _ = W0 m ρ c (Proc.devRef .tc main_arg17) := StableHlo.after_of_writes_sub hostOps0 _ hostOps0_writes (by decide)
    _ = m ((c : Thread nD τ).loc main_arg17) := rfl
theorem W5_main_arg18 (c : Dev nD) : W5 m ρ c (Proc.devRef .tc main_arg18) = m ((c : Thread nD τ).loc main_arg18) :=
  calc W5 m ρ c (Proc.devRef .tc main_arg18)
    _ = W4 m ρ c (Proc.devRef .tc main_arg18) := StableHlo.after_of_writes_sub hostOps2 _ hostOps2_writes (by decide)
    _ = W3 m ρ c (Proc.devRef .tc main_arg18) := W4_of_ne m ρ c main_arg18 (by decide)
    _ = W2 m ρ c (Proc.devRef .tc main_arg18) := StableHlo.after_of_writes_sub hostOps1 _ hostOps1_writes (by decide)
    _ = W1 m ρ c (Proc.devRef .tc main_arg18) := (W2_arr m ρ c 17).trans (((dat0 (V1 m ρ) c).arrAt_in 17 rfl _).trans (A_eq0 (V1 m ρ) c 17))
    _ = W0 m ρ c (Proc.devRef .tc main_arg18) := StableHlo.after_of_writes_sub hostOps0 _ hostOps0_writes (by decide)
    _ = m ((c : Thread nD τ).loc main_arg18) := rfl
theorem W5_main_arg19 (c : Dev nD) : W5 m ρ c (Proc.devRef .tc main_arg19) = m ((c : Thread nD τ).loc main_arg19) :=
  calc W5 m ρ c (Proc.devRef .tc main_arg19)
    _ = W4 m ρ c (Proc.devRef .tc main_arg19) := StableHlo.after_of_writes_sub hostOps2 _ hostOps2_writes (by decide)
    _ = W3 m ρ c (Proc.devRef .tc main_arg19) := W4_of_ne m ρ c main_arg19 (by decide)
    _ = W2 m ρ c (Proc.devRef .tc main_arg19) := StableHlo.after_of_writes_sub hostOps1 _ hostOps1_writes (by decide)
    _ = W1 m ρ c (Proc.devRef .tc main_arg19) := (W2_arr m ρ c 18).trans (((dat0 (V1 m ρ) c).arrAt_in 18 rfl _).trans (A_eq0 (V1 m ρ) c 18))
    _ = W0 m ρ c (Proc.devRef .tc main_arg19) := StableHlo.after_of_writes_sub hostOps0 _ hostOps0_writes (by decide)
    _ = m ((c : Thread nD τ).loc main_arg19) := rfl
theorem W5_main_arg20 (c : Dev nD) : W5 m ρ c (Proc.devRef .tc main_arg20) = m ((c : Thread nD τ).loc main_arg20) :=
  calc W5 m ρ c (Proc.devRef .tc main_arg20)
    _ = W4 m ρ c (Proc.devRef .tc main_arg20) := StableHlo.after_of_writes_sub hostOps2 _ hostOps2_writes (by decide)
    _ = W3 m ρ c (Proc.devRef .tc main_arg20) := W4_of_ne m ρ c main_arg20 (by decide)
    _ = W2 m ρ c (Proc.devRef .tc main_arg20) := StableHlo.after_of_writes_sub hostOps1 _ hostOps1_writes (by decide)
    _ = W1 m ρ c (Proc.devRef .tc main_arg20) := W2_of_ne m ρ c main_arg20 (by decide)
    _ = W0 m ρ c (Proc.devRef .tc main_arg20) := StableHlo.after_of_writes_sub hostOps0 _ hostOps0_writes (by decide)
    _ = m ((c : Thread nD τ).loc main_arg20) := rfl
theorem W5_main_arg21 (c : Dev nD) : W5 m ρ c (Proc.devRef .tc main_arg21) = m ((c : Thread nD τ).loc main_arg21) :=
  calc W5 m ρ c (Proc.devRef .tc main_arg21)
    _ = W4 m ρ c (Proc.devRef .tc main_arg21) := StableHlo.after_of_writes_sub hostOps2 _ hostOps2_writes (by decide)
    _ = W3 m ρ c (Proc.devRef .tc main_arg21) := W4_of_ne m ρ c main_arg21 (by decide)
    _ = W2 m ρ c (Proc.devRef .tc main_arg21) := StableHlo.after_of_writes_sub hostOps1 _ hostOps1_writes (by decide)
    _ = W1 m ρ c (Proc.devRef .tc main_arg21) := W2_of_ne m ρ c main_arg21 (by decide)
    _ = W0 m ρ c (Proc.devRef .tc main_arg21) := StableHlo.after_of_writes_sub hostOps0 _ hostOps0_writes (by decide)
    _ = m ((c : Thread nD τ).loc main_arg21) := rfl
theorem W5_main_arg22 (c : Dev nD) : W5 m ρ c (Proc.devRef .tc main_arg22) = m ((c : Thread nD τ).loc main_arg22) :=
  calc W5 m ρ c (Proc.devRef .tc main_arg22)
    _ = W4 m ρ c (Proc.devRef .tc main_arg22) := StableHlo.after_of_writes_sub hostOps2 _ hostOps2_writes (by decide)
    _ = W3 m ρ c (Proc.devRef .tc main_arg22) := (W4_arr m ρ c 5).trans (((dat1 (V3 m ρ) c).arrAt_in 5 rfl _).trans (A_eq1 (V3 m ρ) c 5))
    _ = W2 m ρ c (Proc.devRef .tc main_arg22) := StableHlo.after_of_writes_sub hostOps1 _ hostOps1_writes (by decide)
    _ = W1 m ρ c (Proc.devRef .tc main_arg22) := W2_of_ne m ρ c main_arg22 (by decide)
    _ = W0 m ρ c (Proc.devRef .tc main_arg22) := StableHlo.after_of_writes_sub hostOps0 _ hostOps0_writes (by decide)
    _ = m ((c : Thread nD τ).loc main_arg22) := rfl
theorem W5_main_arg23 (c : Dev nD) : W5 m ρ c (Proc.devRef .tc main_arg23) = m ((c : Thread nD τ).loc main_arg23) :=
  calc W5 m ρ c (Proc.devRef .tc main_arg23)
    _ = W4 m ρ c (Proc.devRef .tc main_arg23) := StableHlo.after_of_writes_sub hostOps2 _ hostOps2_writes (by decide)
    _ = W3 m ρ c (Proc.devRef .tc main_arg23) := W4_of_ne m ρ c main_arg23 (by decide)
    _ = W2 m ρ c (Proc.devRef .tc main_arg23) := StableHlo.after_of_writes_sub hostOps1 _ hostOps1_writes (by decide)
    _ = W1 m ρ c (Proc.devRef .tc main_arg23) := W2_of_ne m ρ c main_arg23 (by decide)
    _ = W0 m ρ c (Proc.devRef .tc main_arg23) := StableHlo.after_of_writes_sub hostOps0 _ hostOps0_writes (by decide)
    _ = m ((c : Thread nD τ).loc main_arg23) := rfl
theorem W5_main_arg24 (c : Dev nD) : W5 m ρ c (Proc.devRef .tc main_arg24) = m ((c : Thread nD τ).loc main_arg24) :=
  calc W5 m ρ c (Proc.devRef .tc main_arg24)
    _ = W4 m ρ c (Proc.devRef .tc main_arg24) := StableHlo.after_of_writes_sub hostOps2 _ hostOps2_writes (by decide)
    _ = W3 m ρ c (Proc.devRef .tc main_arg24) := W4_of_ne m ρ c main_arg24 (by decide)
    _ = W2 m ρ c (Proc.devRef .tc main_arg24) := StableHlo.after_of_writes_sub hostOps1 _ hostOps1_writes (by decide)
    _ = W1 m ρ c (Proc.devRef .tc main_arg24) := W2_of_ne m ρ c main_arg24 (by decide)
    _ = W0 m ρ c (Proc.devRef .tc main_arg24) := StableHlo.after_of_writes_sub hostOps0 _ hostOps0_writes (by decide)
    _ = m ((c : Thread nD τ).loc main_arg24) := rfl
theorem W5_main_arg25 (c : Dev nD) : W5 m ρ c (Proc.devRef .tc main_arg25) = m ((c : Thread nD τ).loc main_arg25) :=
  calc W5 m ρ c (Proc.devRef .tc main_arg25)
    _ = W4 m ρ c (Proc.devRef .tc main_arg25) := StableHlo.after_of_writes_sub hostOps2 _ hostOps2_writes (by decide)
    _ = W3 m ρ c (Proc.devRef .tc main_arg25) := W4_of_ne m ρ c main_arg25 (by decide)
    _ = W2 m ρ c (Proc.devRef .tc main_arg25) := StableHlo.after_of_writes_sub hostOps1 _ hostOps1_writes (by decide)
    _ = W1 m ρ c (Proc.devRef .tc main_arg25) := W2_of_ne m ρ c main_arg25 (by decide)
    _ = W0 m ρ c (Proc.devRef .tc main_arg25) := StableHlo.after_of_writes_sub hostOps0 _ hostOps0_writes (by decide)
    _ = m ((c : Thread nD τ).loc main_arg25) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W5`, the generator
    register at some state. -/
abbrev Tₙ (c : Dev nD) : sProp 𝕄 := iprop(StableHlo.held (c : Thread nD τ) (Pipeline.ucRefs τ sig) (W5 m ρ c) ∗ ∃ r, prngReg c r)

/-! ## The regions as segments -/

-- a library lemma stated over the pinned configuration unifies with the printed one only when unification may unfold plain
-- definitions in a metavariable's type
set_option backward.isDefEq.respectTransparency.types false in
/-- Region 0 over the thread state: entered from every unscoped buffer at `W1`, left at `W2`. Its arrays split out of the
    unscoped buffers and put back at the exit contents; the generator register into the invariant and out; nothing owed; no
    semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Region 1 over the thread state: entered from every unscoped buffer at `W3`, left at `W4`. Its arrays split out of the
    unscoped buffers and put back at the exit contents; the generator register into the invariant and out; nothing owed; no
    semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main is the run of the segments. -/
theorem main_run (c : Dev nD) : main (F := F) c = Pipeline.Seg.run (segs m ρ) := (main_chain c).trans (by chain_rfl)

-- the launch theorem's implicit arguments are found by unifying its conclusion with this one, which takes unfolding plain
-- definitions in a metavariable's type
set_option backward.isDefEq.respectTransparency.types false in
/-- The run: at the compiled mesh, from any memory with zero counters, every weakly fair execution of @main on the TensorCores
    terminates, nothing faulting, and every final state has each unscoped buffer at `W5`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c =>
      (show iprop(StableHlo.held (c : Thread nD τ) (Pipeline.ucRefs τ sig) (W5 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- The frame: from any memory with zero counters every weakly fair execution of @main terminates and every final state has each
    argument array as launched — each read off `W5`, which at an argument's buffer is the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c),
     (h c _ (mem_uc main_arg8 (by decide))).trans (W5_main_arg8 m ρ c),
     (h c _ (mem_uc main_arg9 (by decide))).trans (W5_main_arg9 m ρ c),
     (h c _ (mem_uc main_arg10 (by decide))).trans (W5_main_arg10 m ρ c),
     (h c _ (mem_uc main_arg11 (by decide))).trans (W5_main_arg11 m ρ c),
     (h c _ (mem_uc main_arg12 (by decide))).trans (W5_main_arg12 m ρ c),
     (h c _ (mem_uc main_arg13 (by decide))).trans (W5_main_arg13 m ρ c),
     (h c _ (mem_uc main_arg14 (by decide))).trans (W5_main_arg14 m ρ c),
     (h c _ (mem_uc main_arg15 (by decide))).trans (W5_main_arg15 m ρ c),
     (h c _ (mem_uc main_arg16 (by decide))).trans (W5_main_arg16 m ρ c),
     (h c _ (mem_uc main_arg17 (by decide))).trans (W5_main_arg17 m ρ c),
     (h c _ (mem_uc main_arg18 (by decide))).trans (W5_main_arg18 m ρ c),
     (h c _ (mem_uc main_arg19 (by decide))).trans (W5_main_arg19 m ρ c),
     (h c _ (mem_uc main_arg20 (by decide))).trans (W5_main_arg20 m ρ c),
     (h c _ (mem_uc main_arg21 (by decide))).trans (W5_main_arg21 m ρ c),
     (h c _ (mem_uc main_arg22 (by decide))).trans (W5_main_arg22 m ρ c),
     (h c _ (mem_uc main_arg23 (by decide))).trans (W5_main_arg23 m ρ c),
     (h c _ (mem_uc main_arg24 (by decide))).trans (W5_main_arg24 m ρ c),
     (h c _ (mem_uc main_arg25 (by decide))).trans (W5_main_arg25 m ρ c)⟩) (run_main m ρ)

end Cert.ReferenceIdeal.Run

end
-- ==== Proof.RefBlocks.lean ====
/-
  The geometry of the reference's two output windows: in each region grid point t writes back the t-th image of a (64, 32, 32, 128)
  array, so distinct points write disjoint blocks, the blocks cover the array, and the array after the region is, block by block,
  what the points wrote.
-/
import proofs.«120724_g2000406006432562_pallasbulk_1270_2_alg».proof.Proof.Gen.ReferenceIdeal.Launch
import proofs.«120724_g2000406006432562_pallasbulk_1270_2_alg».proof.Proof.Gen.ReferenceIdeal.Points
import Idealize.ShloMosaic.Lib.Pipeline.Value

noncomputable section

namespace Cert.ReferenceIdeal.Blocks

open Cert.ReferenceIdeal Cert.ReferenceIdeal.Gen Idealize.ShloMosaic Idealize.ShloMosaic.TcCoe Idealize.SL.Sem
open Idealize.ShloMosaic.Rounds
open Idealize.ShloMosaic.Pipeline (Dat)

variable {F : FTy → Type} [FloatOps F]

/-! ## Output window 20 of cfg0: blocks of one image each, laid along the leading axis -/

/-- The printed index map of the window, decided over the grid: point `t` addresses block `(t, 0, 0, 0)`. -/
theorem idx20_cfg0 : ∀ t : Fin cfg0.N, win0_20.index t (0 : Fin 4) = t.val ∧ win0_20.index t (1 : Fin 4) = 0
    ∧ win0_20.index t (2 : Fin 4) = 0 ∧ win0_20.index t (3 : Fin 4) = 0 :=
  (by decide +kernel : ∀ t : Fin grid0.N, _)

/-- Distinct grid points address distinct blocks. -/
theorem idx_inj20_cfg0 : ∀ t t' : Fin cfg0.N, win0_20.index t = win0_20.index t' → t = t' := fun t t' h => by
  have e := congrFun h (0 : Fin 4)
  rw [(idx20_cfg0 t).1, (idx20_cfg0 t').1] at e
  exact Fin.ext e

/-- So two points' blocks share no index of the array. -/
theorem disjoint20_cfg0 : ∀ t t' : Fin cfg0.N, (cfg0.win 20).flush t = true → (cfg0.win 20).flush t' = true → t ≠ t' →
    Disjoint ((cfg0.win 20).blk t).view.set ((cfg0.win 20).blk t').view.set :=
  fun t t' _ _ hne => (cfg0.win 20).disjoint_blk fun h => hne (idx_inj20_cfg0 t t' h)

/-- Block `t` of the array after the region, read back, is what point `t` wrote back. -/
theorem blocks20_cfg0 {c : Dev nD} (dat : Dat τ (Elt F) Unit ℕ (URounds (GSem nD τ sig) Unit) ℕ cfg0 c) (t : Fin cfg0.N) :
    ((cfg0.win 20).blk t).view.read (Elt F) (dat.arrAt 20 cfg0.N) = dat.flushed 20 t :=
  dat.read_blk_arrAt_eq_flushed 20 disjoint20_cfg0 cfg0.N t t.isLt (flush0_20 t)

/-- An index of the array lies in point `t`'s block iff each coordinate lies in the block's range on its axis. -/
theorem mem_blk20_cfg0 (t : Fin cfg0.N) (i : S64x32x32x128.Idx) :
    i ∈ ((cfg0.win 20).blk t).view.set ↔ ∀ a : Fin 4, win0_20.index t a * S1x32x32x128.size a ≤ (i a).val
      ∧ (i a).val < win0_20.index t a * S1x32x32x128.size a + S1x32x32x128.size a := by
  show i ∈ ((View.whole main_v5).slice (win0_20.rect t)).set ↔ _
  rw [View.set_slice_whole, Rect.mem_set_unit]
  exact Iff.rfl

/-- Every index of the array lies in the block of the point its leading coordinate names. -/
theorem cover20_cfg0 (i : S64x32x32x128.Idx) :
    ∃ t : Fin cfg0.N, (cfg0.win 20).flush t = true ∧ i ∈ ((cfg0.win 20).blk t).view.set := by
  have h0 : (i 0).val < 64 := (i 0).isLt
  have h1 : (i 1).val < 32 := (i 1).isLt
  have h2 : (i 2).val < 32 := (i 2).isLt
  have h3 : (i 3).val < 128 := (i 3).isLt
  have hN : cfg0.N = 64 := N_0
  refine ⟨⟨(i 0).val, by omega⟩, flush0_20 _, ?_⟩
  rw [mem_blk20_cfg0]
  obtain ⟨e0, e1, e2, e3⟩ := idx20_cfg0 ⟨(i 0).val, by omega⟩
  intro a
  match a with
  | ⟨0, _⟩ => show win0_20.index _ (0 : Fin 4) * 1 ≤ (i 0).val ∧ (i 0).val < win0_20.index _ (0 : Fin 4) * 1 + 1; rw [e0]; show (i 0).val * 1 ≤ (i 0).val ∧ (i 0).val < (i 0).val * 1 + 1; omega
  | ⟨1, _⟩ => show win0_20.index _ (1 : Fin 4) * 32 ≤ (i 1).val ∧ (i 1).val < win0_20.index _ (1 : Fin 4) * 32 + 32; rw [e1]; omega
  | ⟨2, _⟩ => show win0_20.index _ (2 : Fin 4) * 32 ≤ (i 2).val ∧ (i 2).val < win0_20.index _ (2 : Fin 4) * 32 + 32; rw [e2]; omega
  | ⟨3, _⟩ => show win0_20.index _ (3 : Fin 4) * 128 ≤ (i 3).val ∧ (i 3).val < win0_20.index _ (3 : Fin 4) * 128 + 128; rw [e3]; omega

/-- Hence an array that agrees, block by block, with what every point wrote back IS the array after the region. -/
theorem arrAt20_cfg0_eq {c : Dev nD} (dat : Dat τ (Elt F) Unit ℕ (URounds (GSem nD τ sig) Unit) ℕ cfg0 c)
    (G : Buf (Elt F) ((cfg0.win 20).arr.view.loc (c.tc : Thread nD τ)))
    (hG : ∀ t, dat.flushed 20 t = ((cfg0.win 20).blk t).view.read (Elt F) G) : dat.arrAt 20 cfg0.N = G :=
  dat.arrAt_eq_of_cover 20 G (fun t _ => hG t) cover20_cfg0

/-! ## Output window 10 of cfg1: blocks of one image each, laid along the leading axis -/

/-- The printed index map of the window, decided over the grid: point `t` addresses block `(t, 0, 0, 0)`. -/
theorem idx10_cfg1 : ∀ t : Fin cfg1.N, win1_10.index t (0 : Fin 4) = t.val ∧ win1_10.index t (1 : Fin 4) = 0
    ∧ win1_10.index t (2 : Fin 4) = 0 ∧ win1_10.index t (3 : Fin 4) = 0 :=
  (by decide +kernel : ∀ t : Fin grid1.N, _)

/-- Distinct grid points address distinct blocks. -/
theorem idx_inj10_cfg1 : ∀ t t' : Fin cfg1.N, win1_10.index t = win1_10.index t' → t = t' := fun t t' h => by
  have e := congrFun h (0 : Fin 4)
  rw [(idx10_cfg1 t).1, (idx10_cfg1 t').1] at e
  exact Fin.ext e

/-- So two points' blocks share no index of the array. -/
theorem disjoint10_cfg1 : ∀ t t' : Fin cfg1.N, (cfg1.win 10).flush t = true → (cfg1.win 10).flush t' = true → t ≠ t' →
    Disjoint ((cfg1.win 10).blk t).view.set ((cfg1.win 10).blk t').view.set :=
  fun t t' _ _ hne => (cfg1.win 10).disjoint_blk fun h => hne (idx_inj10_cfg1 t t' h)

/-- Block `t` of the array after the region, read back, is what point `t` wrote back. -/
theorem blocks10_cfg1 {c : Dev nD} (dat : Dat τ (Elt F) Unit ℕ (URounds (GSem nD τ sig) Unit) ℕ cfg1 c) (t : Fin cfg1.N) :
    ((cfg1.win 10).blk t).view.read (Elt F) (dat.arrAt 10 cfg1.N) = dat.flushed 10 t :=
  dat.read_blk_arrAt_eq_flushed 10 disjoint10_cfg1 cfg1.N t t.isLt (flush1_10 t)

/-- An index of the array lies in point `t`'s block iff each coordinate lies in the block's range on its axis. -/
theorem mem_blk10_cfg1 (t : Fin cfg1.N) (i : S64x32x32x128.Idx) :
    i ∈ ((cfg1.win 10).blk t).view.set ↔ ∀ a : Fin 4, win1_10.index t a * S1x32x32x128.size a ≤ (i a).val
      ∧ (i a).val < win1_10.index t a * S1x32x32x128.size a + S1x32x32x128.size a := by
  show i ∈ ((View.whole main_v13).slice (win1_10.rect t)).set ↔ _
  rw [View.set_slice_whole, Rect.mem_set_unit]
  exact Iff.rfl

/-- Every index of the array lies in the block of the point its leading coordinate names. -/
theorem cover10_cfg1 (i : S64x32x32x128.Idx) :
    ∃ t : Fin cfg1.N, (cfg1.win 10).flush t = true ∧ i ∈ ((cfg1.win 10).blk t).view.set := by
  have h0 : (i 0).val < 64 := (i 0).isLt
  have h1 : (i 1).val < 32 := (i 1).isLt
  have h2 : (i 2).val < 32 := (i 2).isLt
  have h3 : (i 3).val < 128 := (i 3).isLt
  have hN : cfg1.N = 64 := N_1
  refine ⟨⟨(i 0).val, by omega⟩, flush1_10 _, ?_⟩
  rw [mem_blk10_cfg1]
  obtain ⟨e0, e1, e2, e3⟩ := idx10_cfg1 ⟨(i 0).val, by omega⟩
  intro a
  match a with
  | ⟨0, _⟩ => show win1_10.index _ (0 : Fin 4) * 1 ≤ (i 0).val ∧ (i 0).val < win1_10.index _ (0 : Fin 4) * 1 + 1; rw [e0]; show (i 0).val * 1 ≤ (i 0).val ∧ (i 0).val < (i 0).val * 1 + 1; omega
  | ⟨1, _⟩ => show win1_10.index _ (1 : Fin 4) * 32 ≤ (i 1).val ∧ (i 1).val < win1_10.index _ (1 : Fin 4) * 32 + 32; rw [e1]; omega
  | ⟨2, _⟩ => show win1_10.index _ (2 : Fin 4) * 32 ≤ (i 2).val ∧ (i 2).val < win1_10.index _ (2 : Fin 4) * 32 + 32; rw [e2]; omega
  | ⟨3, _⟩ => show win1_10.index _ (3 : Fin 4) * 128 ≤ (i 3).val ∧ (i 3).val < win1_10.index _ (3 : Fin 4) * 128 + 128; rw [e3]; omega

/-- Hence an array that agrees, block by block, with what every point wrote back IS the array after the region. -/
theorem arrAt10_cfg1_eq {c : Dev nD} (dat : Dat τ (Elt F) Unit ℕ (URounds (GSem nD τ sig) Unit) ℕ cfg1 c)
    (G : Buf (Elt F) ((cfg1.win 10).arr.view.loc (c.tc : Thread nD τ)))
    (hG : ∀ t, dat.flushed 10 t = ((cfg1.win 10).blk t).view.read (Elt F) G) : dat.arrAt 10 cfg1.N = G :=
  dat.arrAt_eq_of_cover 10 G (fun t _ => hG t) cover10_cfg1

end Cert.ReferenceIdeal.Blocks

end
-- ==== Proof.RefLit.lean ====
/-
  The reference's two kernels' output blocks, each as one function of that kernel's input blocks, free of the staging buffers the
  runs were stated over.
-/
import proofs.«120724_g2000406006432562_pallasbulk_1270_2_alg».proof.Proof.RefBody0
import proofs.«120724_g2000406006432562_pallasbulk_1270_2_alg».proof.Proof.RefBody1
import Idealize.ShloMosaic.Lib.Pipeline.FrameBody

noncomputable section

namespace Cert.ReferenceIdeal.Lit

open Cert.ReferenceIdeal Cert.ReferenceIdeal.Gen
open Idealize.ShloMosaic Idealize.ShloMosaic.TcCoe Idealize.SL.Sem

variable {F : FTy → Type} [FloatOps F]

/-- The first kernel's output block as a function of its twenty input blocks: the canonical contents of the body's stores into the block, the staging buffers taken at their first slots. -/
def out0 (c : Dev nD) (x0 : S1x32x32x128.Idx → Elt F .f32) (x1 : S1x1x128.Idx → Elt F .f32) (x2 : S5x5x128.Idx → Elt F .f32) (x3 : S128x128.Idx → Elt F .f32) (x4 : S128x128.Idx → Elt F .f32) (x5 : S128x128.Idx → Elt F .f32) (x6 : S1x128.Idx → Elt F .f32) (x7 : S1x128.Idx → Elt F .f32) (x8 : S1x128.Idx → Elt F .f32) (x9 : S3x3x128.Idx → Elt F .f32) (x10 : S1x1x128.Idx → Elt F .f32) (x11 : S128x128.Idx → Elt F .f32) (x12 : S1x128.Idx → Elt F .f32) (x13 : S1x1x128.Idx → Elt F .f32) (x14 : S1x1x128.Idx → Elt F .f32) (x15 : S5x5x128.Idx → Elt F .f32) (x16 : S128x512.Idx → Elt F .f32) (x17 : S512x128.Idx → Elt F .f32) (x18 : S128x128.Idx → Elt F .f32) (x19 : S1x1x128.Idx → Elt F .f32) : S1x32x32x128.Idx → Elt F .f32 :=
  View.canon (Body0.kernelRun.sl.H20_1 (F := F) c (stage0_0 0) (stage0_1 0) (stage0_2 0) (stage0_3 0) (stage0_4 0) (stage0_5 0) (stage0_6 0) (stage0_7 0) (stage0_8 0) (stage0_9 0) (stage0_10 0) (stage0_11 0) (stage0_12 0) (stage0_13 0) (stage0_14 0) (stage0_15 0) (stage0_16 0) (stage0_17 0) (stage0_18 0) (stage0_19 0) (Memref.whole cc0_scratch0) (Memref.whole cc0_scratch1) (Memref.whole cc0_scratch2) x0 x1 x2 x3 x4 x5 x6 x7 x8 x9 x10 x11 x12 x13 x14 x15 x16 x17 x18 x19)

/-- The second kernel's output block as a function of its ten input blocks, likewise. -/
def out1 (c : Dev nD) (x0 : S1x32x32x128.Idx → Elt F .f32) (x1 : S1x32x32x128.Idx → Elt F .f32) (x2 : S3x3x128x128.Idx → Elt F .f32) (x3 : S3x3x128x128.Idx → Elt F .f32) (x4 : S1x128.Idx → Elt F .f32) (x5 : S3x3x128x128.Idx → Elt F .f32) (x6 : S1x128.Idx → Elt F .f32) (x7 : S128x128.Idx → Elt F .f32) (x8 : S128x128.Idx → Elt F .f32) (x9 : S1x128.Idx → Elt F .f32) : S1x32x32x128.Idx → Elt F .f32 :=
  View.canon (Body1.kernelRun.sl.H10_1 (F := F) c (stage1_0 0) (stage1_1 0) (stage1_2 0) (stage1_3 0) (stage1_4 0) (stage1_5 0) (stage1_6 0) (stage1_7 0) (stage1_8 0) (stage1_9 0) (Memref.whole cc1_scratch0) x0 x1 x2 x3 x4 x5 x6 x7 x8 x9)

end Cert.ReferenceIdeal.Lit

end
-- ==== Proof.BridgeR.lean ====
/-
  The reference's side of the assembly. In each of its two regions every operand window but the blocked ones is one block
  holding its whole array, so its block at any grid point is the array, which the host operations made of the argument arrays
  (the first region's arrays are untouched by the stretch between the regions). The image window of either region reads image t
  of the reshaped input at point t; the second region's second window reads image t of the first region's output array, which
  is what the first region's point t wrote back. The result is the last reshape of the second region's output array.
-/
import proofs.«120724_g2000406006432562_pallasbulk_1270_2_alg».proof.Proof.RefRun
import proofs.«120724_g2000406006432562_pallasbulk_1270_2_alg».proof.Proof.RefBlocks
import proofs.«120724_g2000406006432562_pallasbulk_1270_2_alg».proof.Proof.RefLit
import proofs.«120724_g2000406006432562_pallasbulk_1270_2_alg».proof.Proof.BridgeImg
import Idealize.ShloMosaic.PureOps.Ideal

set_option maxRecDepth 16384

noncomputable section

namespace Cert.Bridge.R

open Cert.ReferenceIdeal Cert.ReferenceIdeal.Gen Cert.Bridge
open Idealize.ShloMosaic Idealize.ShloMosaic.TcCoe Idealize.SL.Sem
open Idealize.ShloMosaic.StableHlo
open Idealize.ShloMosaic.Rounds
open Idealize.ShloMosaic.Pipeline (Dat)

variable {F : FTy → Type} [FloatOps F]

/-! ## The index maps, decided over the grids -/

theorem idx0_1 : ∀ t : Fin cfg0.N, ∀ a : Fin 3, win0_1.index t a = 0 := (by decide +kernel : ∀ t : Fin grid0.N, _)
theorem idx0_2 : ∀ t : Fin cfg0.N, ∀ a : Fin 3, win0_2.index t a = 0 := (by decide +kernel : ∀ t : Fin grid0.N, _)
theorem idx0_3 : ∀ t : Fin cfg0.N, ∀ a : Fin 2, win0_3.index t a = 0 := (by decide +kernel : ∀ t : Fin grid0.N, _)
theorem idx0_4 : ∀ t : Fin cfg0.N, ∀ a : Fin 2, win0_4.index t a = 0 := (by decide +kernel : ∀ t : Fin grid0.N, _)
theorem idx0_5 : ∀ t : Fin cfg0.N, ∀ a : Fin 2, win0_5.index t a = 0 := (by decide +kernel : ∀ t : Fin grid0.N, _)
theorem idx0_6 : ∀ t : Fin cfg0.N, ∀ a : Fin 2, win0_6.index t a = 0 := (by decide +kernel : ∀ t : Fin grid0.N, _)
theorem idx0_7 : ∀ t : Fin cfg0.N, ∀ a : Fin 2, win0_7.index t a = 0 := (by decide +kernel : ∀ t : Fin grid0.N, _)
theorem idx0_8 : ∀ t : Fin cfg0.N, ∀ a : Fin 2, win0_8.index t a = 0 := (by decide +kernel : ∀ t : Fin grid0.N, _)
theorem idx0_9 : ∀ t : Fin cfg0.N, ∀ a : Fin 3, win0_9.index t a = 0 := (by decide +kernel : ∀ t : Fin grid0.N, _)
theorem idx0_10 : ∀ t : Fin cfg0.N, ∀ a : Fin 3, win0_10.index t a = 0 := (by decide +kernel : ∀ t : Fin grid0.N, _)
theorem idx0_11 : ∀ t : Fin cfg0.N, ∀ a : Fin 2, win0_11.index t a = 0 := (by decide +kernel : ∀ t : Fin grid0.N, _)
theorem idx0_12 : ∀ t : Fin cfg0.N, ∀ a : Fin 2, win0_12.index t a = 0 := (by decide +kernel : ∀ t : Fin grid0.N, _)
theorem idx0_13 : ∀ t : Fin cfg0.N, ∀ a : Fin 3, win0_13.index t a = 0 := (by decide +kernel : ∀ t : Fin grid0.N, _)
theorem idx0_14 : ∀ t : Fin cfg0.N, ∀ a : Fin 3, win0_14.index t a = 0 := (by decide +kernel : ∀ t : Fin grid0.N, _)
theorem idx0_15 : ∀ t : Fin cfg0.N, ∀ a : Fin 3, win0_15.index t a = 0 := (by decide +kernel : ∀ t : Fin grid0.N, _)
theorem idx0_16 : ∀ t : Fin cfg0.N, ∀ a : Fin 2, win0_16.index t a = 0 := (by decide +kernel : ∀ t : Fin grid0.N, _)
theorem idx0_17 : ∀ t : Fin cfg0.N, ∀ a : Fin 2, win0_17.index t a = 0 := (by decide +kernel : ∀ t : Fin grid0.N, _)
theorem idx0_18 : ∀ t : Fin cfg0.N, ∀ a : Fin 2, win0_18.index t a = 0 := (by decide +kernel : ∀ t : Fin grid0.N, _)
theorem idx0_19 : ∀ t : Fin cfg0.N, ∀ a : Fin 3, win0_19.index t a = 0 := (by decide +kernel : ∀ t : Fin grid0.N, _)
theorem idx1_2 : ∀ t : Fin cfg1.N, ∀ a : Fin 4, win1_2.index t a = 0 := (by decide +kernel : ∀ t : Fin grid1.N, _)
theorem idx1_3 : ∀ t : Fin cfg1.N, ∀ a : Fin 4, win1_3.index t a = 0 := (by decide +kernel : ∀ t : Fin grid1.N, _)
theorem idx1_4 : ∀ t : Fin cfg1.N, ∀ a : Fin 2, win1_4.index t a = 0 := (by decide +kernel : ∀ t : Fin grid1.N, _)
theorem idx1_5 : ∀ t : Fin cfg1.N, ∀ a : Fin 4, win1_5.index t a = 0 := (by decide +kernel : ∀ t : Fin grid1.N, _)
theorem idx1_6 : ∀ t : Fin cfg1.N, ∀ a : Fin 2, win1_6.index t a = 0 := (by decide +kernel : ∀ t : Fin grid1.N, _)
theorem idx1_7 : ∀ t : Fin cfg1.N, ∀ a : Fin 2, win1_7.index t a = 0 := (by decide +kernel : ∀ t : Fin grid1.N, _)
theorem idx1_8 : ∀ t : Fin cfg1.N, ∀ a : Fin 2, win1_8.index t a = 0 := (by decide +kernel : ∀ t : Fin grid1.N, _)
theorem idx1_9 : ∀ t : Fin cfg1.N, ∀ a : Fin 2, win1_9.index t a = 0 := (by decide +kernel : ∀ t : Fin grid1.N, _)
/-- The image windows address image `t` at point `t`. -/
theorem idx0_0 : ∀ t : Fin cfg0.N, win0_0.index t (0 : Fin 4) = t.val ∧ win0_0.index t (1 : Fin 4) = 0
    ∧ win0_0.index t (2 : Fin 4) = 0 ∧ win0_0.index t (3 : Fin 4) = 0 :=
  (by decide +kernel : ∀ t : Fin grid0.N, _)
theorem idx1_0 : ∀ t : Fin cfg1.N, win1_0.index t (0 : Fin 4) = t.val ∧ win1_0.index t (1 : Fin 4) = 0
    ∧ win1_0.index t (2 : Fin 4) = 0 ∧ win1_0.index t (3 : Fin 4) = 0 :=
  (by decide +kernel : ∀ t : Fin grid1.N, _)
theorem idx1_1 : ∀ t : Fin cfg1.N, win1_1.index t (0 : Fin 4) = t.val ∧ win1_1.index t (1 : Fin 4) = 0
    ∧ win1_1.index t (2 : Fin 4) = 0 ∧ win1_1.index t (3 : Fin 4) = 0 :=
  (by decide +kernel : ∀ t : Fin grid1.N, _)

theorem lt64_0 (t : Fin cfg0.N) : t.val < 64 := by have h : cfg0.N = 64 := N_0; have := t.isLt; omega
theorem lt64_1 (t : Fin cfg1.N) : t.val < 64 := by have h : cfg1.N = 64 := N_1; have := t.isLt; omega

/-! ## The blocks the regions find -/

section Blocks
variable (V : (c : Dev nD) → (b : Ref sig .tc) → Buf (Elt F) ((c : Thread nD τ).loc b))

theorem blk0_1 (c : Dev nD) (t : Fin cfg0.N) : Run.iblk0 V c 1 t = (V c main_v1 : S1x1x128.Idx → Elt F .f32) := by
  funext y
  show V c main_v1 (((cfg0.win 1).blk t).view.emb y) = V c main_v1 y
  refine congrArg _ (funext fun a => Fin.ext ?_)
  show win0_1.index t a * S1x1x128.size a + 1 * (y a).val = (y a).val
  rw [idx0_1 t a]; omega
theorem blk0_2 (c : Dev nD) (t : Fin cfg0.N) : Run.iblk0 V c 2 t = (V c main_arg5 : S5x5x128.Idx → Elt F .f32) := by
  funext y
  show V c main_arg5 (((cfg0.win 2).blk t).view.emb y) = V c main_arg5 y
  refine congrArg _ (funext fun a => Fin.ext ?_)
  show win0_2.index t a * S5x5x128.size a + 1 * (y a).val = (y a).val
  rw [idx0_2 t a]; omega
theorem blk0_3 (c : Dev nD) (t : Fin cfg0.N) : Run.iblk0 V c 3 t = (V c main_arg7 : S128x128.Idx → Elt F .f32) := by
  funext y
  show V c main_arg7 (((cfg0.win 3).blk t).view.emb y) = V c main_arg7 y
  refine congrArg _ (funext fun a => Fin.ext ?_)
  show win0_3.index t a * S128x128.size a + 1 * (y a).val = (y a).val
  rw [idx0_3 t a]; omega
theorem blk0_4 (c : Dev nD) (t : Fin cfg0.N) : Run.iblk0 V c 4 t = (V c main_arg8 : S128x128.Idx → Elt F .f32) := by
  funext y
  show V c main_arg8 (((cfg0.win 4).blk t).view.emb y) = V c main_arg8 y
  refine congrArg _ (funext fun a => Fin.ext ?_)
  show win0_4.index t a * S128x128.size a + 1 * (y a).val = (y a).val
  rw [idx0_4 t a]; omega
theorem blk0_5 (c : Dev nD) (t : Fin cfg0.N) : Run.iblk0 V c 5 t = (V c main_arg9 : S128x128.Idx → Elt F .f32) := by
  funext y
  show V c main_arg9 (((cfg0.win 5).blk t).view.emb y) = V c main_arg9 y
  refine congrArg _ (funext fun a => Fin.ext ?_)
  show win0_5.index t a * S128x128.size a + 1 * (y a).val = (y a).val
  rw [idx0_5 t a]; omega
theorem blk0_6 (c : Dev nD) (t : Fin cfg0.N) : Run.iblk0 V c 6 t = (V c main_arg10 : S1x128.Idx → Elt F .f32) := by
  funext y
  show V c main_arg10 (((cfg0.win 6).blk t).view.emb y) = V c main_arg10 y
  refine congrArg _ (funext fun a => Fin.ext ?_)
  show win0_6.index t a * S1x128.size a + 1 * (y a).val = (y a).val
  rw [idx0_6 t a]; omega
theorem blk0_7 (c : Dev nD) (t : Fin cfg0.N) : Run.iblk0 V c 7 t = (V c main_arg11 : S1x128.Idx → Elt F .f32) := by
  funext y
  show V c main_arg11 (((cfg0.win 7).blk t).view.emb y) = V c main_arg11 y
  refine congrArg _ (funext fun a => Fin.ext ?_)
  show win0_7.index t a * S1x128.size a + 1 * (y a).val = (y a).val
  rw [idx0_7 t a]; omega
theorem blk0_8 (c : Dev nD) (t : Fin cfg0.N) : Run.iblk0 V c 8 t = (V c main_arg12 : S1x128.Idx → Elt F .f32) := by
  funext y
  show V c main_arg12 (((cfg0.win 8).blk t).view.emb y) = V c main_arg12 y
  refine congrArg _ (funext fun a => Fin.ext ?_)
  show win0_8.index t a * S1x128.size a + 1 * (y a).val = (y a).val
  rw [idx0_8 t a]; omega
theorem blk0_9 (c : Dev nD) (t : Fin cfg0.N) : Run.iblk0 V c 9 t = (V c main_arg13 : S3x3x128.Idx → Elt F .f32) := by
  funext y
  show V c main_arg13 (((cfg0.win 9).blk t).view.emb y) = V c main_arg13 y
  refine congrArg _ (funext fun a => Fin.ext ?_)
  show win0_9.index t a * S3x3x128.size a + 1 * (y a).val = (y a).val
  rw [idx0_9 t a]; omega
theorem blk0_10 (c : Dev nD) (t : Fin cfg0.N) : Run.iblk0 V c 10 t = (V c main_arg14 : S1x1x128.Idx → Elt F .f32) := by
  funext y
  show V c main_arg14 (((cfg0.win 10).blk t).view.emb y) = V c main_arg14 y
  refine congrArg _ (funext fun a => Fin.ext ?_)
  show win0_10.index t a * S1x1x128.size a + 1 * (y a).val = (y a).val
  rw [idx0_10 t a]; omega
theorem blk0_11 (c : Dev nD) (t : Fin cfg0.N) : Run.iblk0 V c 11 t = (V c main_arg15 : S128x128.Idx → Elt F .f32) := by
  funext y
  show V c main_arg15 (((cfg0.win 11).blk t).view.emb y) = V c main_arg15 y
  refine congrArg _ (funext fun a => Fin.ext ?_)
  show win0_11.index t a * S128x128.size a + 1 * (y a).val = (y a).val
  rw [idx0_11 t a]; omega
theorem blk0_12 (c : Dev nD) (t : Fin cfg0.N) : Run.iblk0 V c 12 t = (V c main_arg16 : S1x128.Idx → Elt F .f32) := by
  funext y
  show V c main_arg16 (((cfg0.win 12).blk t).view.emb y) = V c main_arg16 y
  refine congrArg _ (funext fun a => Fin.ext ?_)
  show win0_12.index t a * S1x128.size a + 1 * (y a).val = (y a).val
  rw [idx0_12 t a]; omega
theorem blk0_13 (c : Dev nD) (t : Fin cfg0.N) : Run.iblk0 V c 13 t = (V c main_v2 : S1x1x128.Idx → Elt F .f32) := by
  funext y
  show V c main_v2 (((cfg0.win 13).blk t).view.emb y) = V c main_v2 y
  refine congrArg _ (funext fun a => Fin.ext ?_)
  show win0_13.index t a * S1x1x128.size a + 1 * (y a).val = (y a).val
  rw [idx0_13 t a]; omega
theorem blk0_14 (c : Dev nD) (t : Fin cfg0.N) : Run.iblk0 V c 14 t = (V c main_v3 : S1x1x128.Idx → Elt F .f32) := by
  funext y
  show V c main_v3 (((cfg0.win 14).blk t).view.emb y) = V c main_v3 y
  refine congrArg _ (funext fun a => Fin.ext ?_)
  show win0_14.index t a * S1x1x128.size a + 1 * (y a).val = (y a).val
  rw [idx0_14 t a]; omega
theorem blk0_15 (c : Dev nD) (t : Fin cfg0.N) : Run.iblk0 V c 15 t = (V c main_arg6 : S5x5x128.Idx → Elt F .f32) := by
  funext y
  show V c main_arg6 (((cfg0.win 15).blk t).view.emb y) = V c main_arg6 y
  refine congrArg _ (funext fun a => Fin.ext ?_)
  show win0_15.index t a * S5x5x128.size a + 1 * (y a).val = (y a).val
  rw [idx0_15 t a]; omega
theorem blk0_16 (c : Dev nD) (t : Fin cfg0.N) : Run.iblk0 V c 16 t = (V c main_arg17 : S128x512.Idx → Elt F .f32) := by
  funext y
  show V c main_arg17 (((cfg0.win 16).blk t).view.emb y) = V c main_arg17 y
  refine congrArg _ (funext fun a => Fin.ext ?_)
  show win0_16.index t a * S128x512.size a + 1 * (y a).val = (y a).val
  rw [idx0_16 t a]; omega
theorem blk0_17 (c : Dev nD) (t : Fin cfg0.N) : Run.iblk0 V c 17 t = (V c main_arg18 : S512x128.Idx → Elt F .f32) := by
  funext y
  show V c main_arg18 (((cfg0.win 17).blk t).view.emb y) = V c main_arg18 y
  refine congrArg _ (funext fun a => Fin.ext ?_)
  show win0_17.index t a * S512x128.size a + 1 * (y a).val = (y a).val
  rw [idx0_17 t a]; omega
theorem blk0_18 (c : Dev nD) (t : Fin cfg0.N) : Run.iblk0 V c 18 t = (V c main_arg19 : S128x128.Idx → Elt F .f32) := by
  funext y
  show V c main_arg19 (((cfg0.win 18).blk t).view.emb y) = V c main_arg19 y
  refine congrArg _ (funext fun a => Fin.ext ?_)
  show win0_18.index t a * S128x128.size a + 1 * (y a).val = (y a).val
  rw [idx0_18 t a]; omega
theorem blk0_19 (c : Dev nD) (t : Fin cfg0.N) : Run.iblk0 V c 19 t = (V c main_v4 : S1x1x128.Idx → Elt F .f32) := by
  funext y
  show V c main_v4 (((cfg0.win 19).blk t).view.emb y) = V c main_v4 y
  refine congrArg _ (funext fun a => Fin.ext ?_)
  show win0_19.index t a * S1x1x128.size a + 1 * (y a).val = (y a).val
  rw [idx0_19 t a]; omega
theorem blk1_2 (c : Dev nD) (t : Fin cfg1.N) : Run.iblk1 V c 2 t = (V c main_v6 : S3x3x128x128.Idx → Elt F .f32) := by
  funext y
  show V c main_v6 (((cfg1.win 2).blk t).view.emb y) = V c main_v6 y
  refine congrArg _ (funext fun a => Fin.ext ?_)
  show win1_2.index t a * S3x3x128x128.size a + 1 * (y a).val = (y a).val
  rw [idx1_2 t a]; omega
theorem blk1_3 (c : Dev nD) (t : Fin cfg1.N) : Run.iblk1 V c 3 t = (V c main_v7 : S3x3x128x128.Idx → Elt F .f32) := by
  funext y
  show V c main_v7 (((cfg1.win 3).blk t).view.emb y) = V c main_v7 y
  refine congrArg _ (funext fun a => Fin.ext ?_)
  show win1_3.index t a * S3x3x128x128.size a + 1 * (y a).val = (y a).val
  rw [idx1_3 t a]; omega
theorem blk1_4 (c : Dev nD) (t : Fin cfg1.N) : Run.iblk1 V c 4 t = (V c main_v10 : S1x128.Idx → Elt F .f32) := by
  funext y
  show V c main_v10 (((cfg1.win 4).blk t).view.emb y) = V c main_v10 y
  refine congrArg _ (funext fun a => Fin.ext ?_)
  show win1_4.index t a * S1x128.size a + 1 * (y a).val = (y a).val
  rw [idx1_4 t a]; omega
theorem blk1_5 (c : Dev nD) (t : Fin cfg1.N) : Run.iblk1 V c 5 t = (V c main_arg22 : S3x3x128x128.Idx → Elt F .f32) := by
  funext y
  show V c main_arg22 (((cfg1.win 5).blk t).view.emb y) = V c main_arg22 y
  refine congrArg _ (funext fun a => Fin.ext ?_)
  show win1_5.index t a * S3x3x128x128.size a + 1 * (y a).val = (y a).val
  rw [idx1_5 t a]; omega
theorem blk1_6 (c : Dev nD) (t : Fin cfg1.N) : Run.iblk1 V c 6 t = (V c main_v11 : S1x128.Idx → Elt F .f32) := by
  funext y
  show V c main_v11 (((cfg1.win 6).blk t).view.emb y) = V c main_v11 y
  refine congrArg _ (funext fun a => Fin.ext ?_)
  show win1_6.index t a * S1x128.size a + 1 * (y a).val = (y a).val
  rw [idx1_6 t a]; omega
theorem blk1_7 (c : Dev nD) (t : Fin cfg1.N) : Run.iblk1 V c 7 t = (V c main_v8 : S128x128.Idx → Elt F .f32) := by
  funext y
  show V c main_v8 (((cfg1.win 7).blk t).view.emb y) = V c main_v8 y
  refine congrArg _ (funext fun a => Fin.ext ?_)
  show win1_7.index t a * S128x128.size a + 1 * (y a).val = (y a).val
  rw [idx1_7 t a]; omega
theorem blk1_8 (c : Dev nD) (t : Fin cfg1.N) : Run.iblk1 V c 8 t = (V c main_v9 : S128x128.Idx → Elt F .f32) := by
  funext y
  show V c main_v9 (((cfg1.win 8).blk t).view.emb y) = V c main_v9 y
  refine congrArg _ (funext fun a => Fin.ext ?_)
  show win1_8.index t a * S128x128.size a + 1 * (y a).val = (y a).val
  rw [idx1_8 t a]; omega
theorem blk1_9 (c : Dev nD) (t : Fin cfg1.N) : Run.iblk1 V c 9 t = (V c main_v12 : S1x128.Idx → Elt F .f32) := by
  funext y
  show V c main_v12 (((cfg1.win 9).blk t).view.emb y) = V c main_v12 y
  refine congrArg _ (funext fun a => Fin.ext ?_)
  show win1_9.index t a * S1x128.size a + 1 * (y a).val = (y a).val
  rw [idx1_9 t a]; omega
/-- The first region's image window's block at point `t` is image `t` of its array. -/
theorem blk0_0 (c : Dev nD) (t : Fin cfg0.N) :
    Run.iblk0 V c 0 t = fun y : S1x32x32x128.Idx => (V c main_v0 : S64x32x32x128.Idx → Elt F .f32) (img t.val (lt64_0 t) y) := by
  funext y
  show V c main_v0 (((cfg0.win 0).blk t).view.emb y) = V c main_v0 (img t.val (lt64_0 t) y)
  refine congrArg _ (funext fun a => Fin.ext ?_)
  obtain ⟨e0, e1, e2, e3⟩ := idx0_0 t
  match a with
  | ⟨0, _⟩ => show win0_0.index t (0 : Fin 4) * 1 + 1 * (y 0).val = t.val; rw [e0]; have h0 : (y 0).val < 1 := (y 0).isLt; omega
  | ⟨1, _⟩ => show win0_0.index t (1 : Fin 4) * 32 + 1 * (y 1).val = (y 1).val; rw [e1]; omega
  | ⟨2, _⟩ => show win0_0.index t (2 : Fin 4) * 32 + 1 * (y 2).val = (y 2).val; rw [e2]; omega
  | ⟨3, _⟩ => show win0_0.index t (3 : Fin 4) * 128 + 1 * (y 3).val = (y 3).val; rw [e3]; omega
/-- So is the second region's. -/
theorem blk1_0 (c : Dev nD) (t : Fin cfg1.N) :
    Run.iblk1 V c 0 t = fun y : S1x32x32x128.Idx => (V c main_v0 : S64x32x32x128.Idx → Elt F .f32) (img t.val (lt64_1 t) y) := by
  funext y
  show V c main_v0 (((cfg1.win 0).blk t).view.emb y) = V c main_v0 (img t.val (lt64_1 t) y)
  refine congrArg _ (funext fun a => Fin.ext ?_)
  obtain ⟨e0, e1, e2, e3⟩ := idx1_0 t
  match a with
  | ⟨0, _⟩ => show win1_0.index t (0 : Fin 4) * 1 + 1 * (y 0).val = t.val; rw [e0]; have h0 : (y 0).val < 1 := (y 0).isLt; omega
  | ⟨1, _⟩ => show win1_0.index t (1 : Fin 4) * 32 + 1 * (y 1).val = (y 1).val; rw [e1]; omega
  | ⟨2, _⟩ => show win1_0.index t (2 : Fin 4) * 32 + 1 * (y 2).val = (y 2).val; rw [e2]; omega
  | ⟨3, _⟩ => show win1_0.index t (3 : Fin 4) * 128 + 1 * (y 3).val = (y 3).val; rw [e3]; omega
/-- The second region's second window's block at point `t` is image `t` of the first region's output array. -/
theorem blk1_1 (c : Dev nD) (t : Fin cfg1.N) :
    Run.iblk1 V c 1 t = fun y : S1x32x32x128.Idx => (V c main_v5 : S64x32x32x128.Idx → Elt F .f32) (img t.val (lt64_1 t) y) := by
  funext y
  show V c main_v5 (((cfg1.win 1).blk t).view.emb y) = V c main_v5 (img t.val (lt64_1 t) y)
  refine congrArg _ (funext fun a => Fin.ext ?_)
  obtain ⟨e0, e1, e2, e3⟩ := idx1_1 t
  match a with
  | ⟨0, _⟩ => show win1_1.index t (0 : Fin 4) * 1 + 1 * (y 0).val = t.val; rw [e0]; have h0 : (y 0).val < 1 := (y 0).isLt; omega
  | ⟨1, _⟩ => show win1_1.index t (1 : Fin 4) * 32 + 1 * (y 1).val = (y 1).val; rw [e1]; omega
  | ⟨2, _⟩ => show win1_1.index t (2 : Fin 4) * 32 + 1 * (y 2).val = (y 2).val; rw [e2]; omega
  | ⟨3, _⟩ => show win1_1.index t (3 : Fin 4) * 128 + 1 * (y 3).val = (y 3).val; rw [e3]; omega
/-- Block `t` of any contents of the first region's output array is its image `t`. -/
theorem read20 (c : Dev nD) (G : Buf (Elt F) ((cfg0.win 20).arr.view.loc (c.tc : Thread nD τ))) (t : Fin cfg0.N) :
    ((cfg0.win 20).blk t).view.read (Elt F) G = fun y : S1x32x32x128.Idx => (G : S64x32x32x128.Idx → Elt F .f32) (img t.val (lt64_0 t) y) := by
  funext y
  show G (((cfg0.win 20).blk t).view.emb y) = G (img t.val (lt64_0 t) y)
  refine congrArg _ (funext fun a => Fin.ext ?_)
  obtain ⟨e0, e1, e2, e3⟩ := Blocks.idx20_cfg0 t
  match a with
  | ⟨0, _⟩ => show win0_20.index t (0 : Fin 4) * 1 + 1 * (y 0).val = t.val; rw [e0]; have h0 : (y 0).val < 1 := (y 0).isLt; omega
  | ⟨1, _⟩ => show win0_20.index t (1 : Fin 4) * 32 + 1 * (y 1).val = (y 1).val; rw [e1]; omega
  | ⟨2, _⟩ => show win0_20.index t (2 : Fin 4) * 32 + 1 * (y 2).val = (y 2).val; rw [e2]; omega
  | ⟨3, _⟩ => show win0_20.index t (3 : Fin 4) * 128 + 1 * (y 3).val = (y 3).val; rw [e3]; omega
/-- Block `t` of any contents of the second region's output array is its image `t`. -/
theorem read10 (c : Dev nD) (G : Buf (Elt F) ((cfg1.win 10).arr.view.loc (c.tc : Thread nD τ))) (t : Fin cfg1.N) :
    ((cfg1.win 10).blk t).view.read (Elt F) G = fun y : S1x32x32x128.Idx => (G : S64x32x32x128.Idx → Elt F .f32) (img t.val (lt64_1 t) y) := by
  funext y
  show G (((cfg1.win 10).blk t).view.emb y) = G (img t.val (lt64_1 t) y)
  refine congrArg _ (funext fun a => Fin.ext ?_)
  obtain ⟨e0, e1, e2, e3⟩ := Blocks.idx10_cfg1 t
  match a with
  | ⟨0, _⟩ => show win1_10.index t (0 : Fin 4) * 1 + 1 * (y 0).val = t.val; rw [e0]; have h0 : (y 0).val < 1 := (y 0).isLt; omega
  | ⟨1, _⟩ => show win1_10.index t (1 : Fin 4) * 32 + 1 * (y 1).val = (y 1).val; rw [e1]; omega
  | ⟨2, _⟩ => show win1_10.index t (2 : Fin 4) * 32 + 1 * (y 2).val = (y 2).val; rw [e2]; omega
  | ⟨3, _⟩ => show win1_10.index t (3 : Fin 4) * 128 + 1 * (y 3).val = (y 3).val; rw [e3]; omega
/-- What a point writes back is the whole output block the body left: neither output window is cut at the array's end. -/
theorem flushed20 (c : Dev nD) (t : Fin cfg0.N) : (Run.dat0 V c).flushed 20 t = Run.outBlk0 V c t := by
  show (cfg0.win 20).cut (grid0.coords t) ((Run.dat0 V c).after 20 t) = _
  rw [Run.after0_20]
theorem flushed10 (c : Dev nD) (t : Fin cfg1.N) : (Run.dat1 V c).flushed 10 t = Run.outBlk1 V c t := by
  show (cfg1.win 10).cut (grid1.coords t) ((Run.dat1 V c).after 10 t) = _
  rw [Run.after1_10]

end Blocks

/-! ## The arrays the host operations prepare, at the ideal instance -/

variable (m : (ℓ : Loc nD τ sig) → Buf (Elt Ideal) ℓ) (ρ : Dev nD → PrngReg)

theorem host0_1 (c : Dev nD) : Run.V1 (F := Ideal) m ρ c main_v1 = ((shapeCast Cert.ReferenceIdeal.S1x1x128 (m ((c : Thread Cert.ReferenceIdeal.nD Cert.ReferenceIdeal.τ).loc Cert.ReferenceIdeal.main_arg1) : Cert.ReferenceIdeal.S128.Idx → Elt Ideal .f32) Cert.ReferenceIdeal.Facts₀.shapeCasts_S128_S1x1x128) : S1x1x128.Idx → Elt Ideal .f32) := by
  show StableHlo.after hostOps0 _ _ = _
  after_results
  all_goals rfl
theorem host0_2 (c : Dev nD) : Run.V1 (F := Ideal) m ρ c main_arg5 = ((m ((c : Thread Cert.ReferenceIdeal.nD Cert.ReferenceIdeal.τ).loc Cert.ReferenceIdeal.main_arg5) : Cert.ReferenceIdeal.S5x5x128.Idx → Elt Ideal .f32) : S5x5x128.Idx → Elt Ideal .f32) := by
  show StableHlo.after hostOps0 _ _ = _
  after_results
  all_goals rfl
theorem host0_3 (c : Dev nD) : Run.V1 (F := Ideal) m ρ c main_arg7 = ((m ((c : Thread Cert.ReferenceIdeal.nD Cert.ReferenceIdeal.τ).loc Cert.ReferenceIdeal.main_arg7) : Cert.ReferenceIdeal.S128x128.Idx → Elt Ideal .f32) : S128x128.Idx → Elt Ideal .f32) := by
  show StableHlo.after hostOps0 _ _ = _
  after_results
  all_goals rfl
theorem host0_4 (c : Dev nD) : Run.V1 (F := Ideal) m ρ c main_arg8 = ((m ((c : Thread Cert.ReferenceIdeal.nD Cert.ReferenceIdeal.τ).loc Cert.ReferenceIdeal.main_arg8) : Cert.ReferenceIdeal.S128x128.Idx → Elt Ideal .f32) : S128x128.Idx → Elt Ideal .f32) := by
  show StableHlo.after hostOps0 _ _ = _
  after_results
  all_goals rfl
theorem host0_5 (c : Dev nD) : Run.V1 (F := Ideal) m ρ c main_arg9 = ((m ((c : Thread Cert.ReferenceIdeal.nD Cert.ReferenceIdeal.τ).loc Cert.ReferenceIdeal.main_arg9) : Cert.ReferenceIdeal.S128x128.Idx → Elt Ideal .f32) : S128x128.Idx → Elt Ideal .f32) := by
  show StableHlo.after hostOps0 _ _ = _
  after_results
  all_goals rfl
theorem host0_6 (c : Dev nD) : Run.V1 (F := Ideal) m ρ c main_arg10 = ((m ((c : Thread Cert.ReferenceIdeal.nD Cert.ReferenceIdeal.τ).loc Cert.ReferenceIdeal.main_arg10) : Cert.ReferenceIdeal.S1x128.Idx → Elt Ideal .f32) : S1x128.Idx → Elt Ideal .f32) := by
  show StableHlo.after hostOps0 _ _ = _
  after_results
  all_goals rfl
theorem host0_7 (c : Dev nD) : Run.V1 (F := Ideal) m ρ c main_arg11 = ((m ((c : Thread Cert.ReferenceIdeal.nD Cert.ReferenceIdeal.τ).loc Cert.ReferenceIdeal.main_arg11) : Cert.ReferenceIdeal.S1x128.Idx → Elt Ideal .f32) : S1x128.Idx → Elt Ideal .f32) := by
  show StableHlo.after hostOps0 _ _ = _
  after_results
  all_goals rfl
theorem host0_8 (c : Dev nD) : Run.V1 (F := Ideal) m ρ c main_arg12 = ((m ((c : Thread Cert.ReferenceIdeal.nD Cert.ReferenceIdeal.τ).loc Cert.ReferenceIdeal.main_arg12) : Cert.ReferenceIdeal.S1x128.Idx → Elt Ideal .f32) : S1x128.Idx → Elt Ideal .f32) := by
  show StableHlo.after hostOps0 _ _ = _
  after_results
  all_goals rfl
theorem host0_9 (c : Dev nD) : Run.V1 (F := Ideal) m ρ c main_arg13 = ((m ((c : Thread Cert.ReferenceIdeal.nD Cert.ReferenceIdeal.τ).loc Cert.ReferenceIdeal.main_arg13) : Cert.ReferenceIdeal.S3x3x128.Idx → Elt Ideal .f32) : S3x3x128.Idx → Elt Ideal .f32) := by
  show StableHlo.after hostOps0 _ _ = _
  after_results
  all_goals rfl
theorem host0_10 (c : Dev nD) : Run.V1 (F := Ideal) m ρ c main_arg14 = ((m ((c : Thread Cert.ReferenceIdeal.nD Cert.ReferenceIdeal.τ).loc Cert.ReferenceIdeal.main_arg14) : Cert.ReferenceIdeal.S1x1x128.Idx → Elt Ideal .f32) : S1x1x128.Idx → Elt Ideal .f32) := by
  show StableHlo.after hostOps0 _ _ = _
  after_results
  all_goals rfl
theorem host0_11 (c : Dev nD) : Run.V1 (F := Ideal) m ρ c main_arg15 = ((m ((c : Thread Cert.ReferenceIdeal.nD Cert.ReferenceIdeal.τ).loc Cert.ReferenceIdeal.main_arg15) : Cert.ReferenceIdeal.S128x128.Idx → Elt Ideal .f32) : S128x128.Idx → Elt Ideal .f32) := by
  show StableHlo.after hostOps0 _ _ = _
  after_results
  all_goals rfl
theorem host0_12 (c : Dev nD) : Run.V1 (F := Ideal) m ρ c main_arg16 = ((m ((c : Thread Cert.ReferenceIdeal.nD Cert.ReferenceIdeal.τ).loc Cert.ReferenceIdeal.main_arg16) : Cert.ReferenceIdeal.S1x128.Idx → Elt Ideal .f32) : S1x128.Idx → Elt Ideal .f32) := by
  show StableHlo.after hostOps0 _ _ = _
  after_results
  all_goals rfl
theorem host0_13 (c : Dev nD) : Run.V1 (F := Ideal) m ρ c main_v2 = ((shapeCast Cert.ReferenceIdeal.S1x1x128 (m ((c : Thread Cert.ReferenceIdeal.nD Cert.ReferenceIdeal.τ).loc Cert.ReferenceIdeal.main_arg3) : Cert.ReferenceIdeal.S128.Idx → Elt Ideal .f32) Cert.ReferenceIdeal.Facts₀.shapeCasts_S128_S1x1x128) : S1x1x128.Idx → Elt Ideal .f32) := by
  show StableHlo.after hostOps0 _ _ = _
  after_results
  all_goals rfl
theorem host0_14 (c : Dev nD) : Run.V1 (F := Ideal) m ρ c main_v3 = ((shapeCast Cert.ReferenceIdeal.S1x1x128 (m ((c : Thread Cert.ReferenceIdeal.nD Cert.ReferenceIdeal.τ).loc Cert.ReferenceIdeal.main_arg2) : Cert.ReferenceIdeal.S128.Idx → Elt Ideal .f32) Cert.ReferenceIdeal.Facts₀.shapeCasts_S128_S1x1x128) : S1x1x128.Idx → Elt Ideal .f32) := by
  show StableHlo.after hostOps0 _ _ = _
  after_results
  all_goals rfl
theorem host0_15 (c : Dev nD) : Run.V1 (F := Ideal) m ρ c main_arg6 = ((m ((c : Thread Cert.ReferenceIdeal.nD Cert.ReferenceIdeal.τ).loc Cert.ReferenceIdeal.main_arg6) : Cert.ReferenceIdeal.S5x5x128.Idx → Elt Ideal .f32) : S5x5x128.Idx → Elt Ideal .f32) := by
  show StableHlo.after hostOps0 _ _ = _
  after_results
  all_goals rfl
theorem host0_16 (c : Dev nD) : Run.V1 (F := Ideal) m ρ c main_arg17 = ((m ((c : Thread Cert.ReferenceIdeal.nD Cert.ReferenceIdeal.τ).loc Cert.ReferenceIdeal.main_arg17) : Cert.ReferenceIdeal.S128x512.Idx → Elt Ideal .f32) : S128x512.Idx → Elt Ideal .f32) := by
  show StableHlo.after hostOps0 _ _ = _
  after_results
  all_goals rfl
theorem host0_17 (c : Dev nD) : Run.V1 (F := Ideal) m ρ c main_arg18 = ((m ((c : Thread Cert.ReferenceIdeal.nD Cert.ReferenceIdeal.τ).loc Cert.ReferenceIdeal.main_arg18) : Cert.ReferenceIdeal.S512x128.Idx → Elt Ideal .f32) : S512x128.Idx → Elt Ideal .f32) := by
  show StableHlo.after hostOps0 _ _ = _
  after_results
  all_goals rfl
theorem host0_18 (c : Dev nD) : Run.V1 (F := Ideal) m ρ c main_arg19 = ((m ((c : Thread Cert.ReferenceIdeal.nD Cert.ReferenceIdeal.τ).loc Cert.ReferenceIdeal.main_arg19) : Cert.ReferenceIdeal.S128x128.Idx → Elt Ideal .f32) : S128x128.Idx → Elt Ideal .f32) := by
  show StableHlo.after hostOps0 _ _ = _
  after_results
  all_goals rfl
theorem host0_19 (c : Dev nD) : Run.V1 (F := Ideal) m ρ c main_v4 = ((shapeCast Cert.ReferenceIdeal.S1x1x128 (m ((c : Thread Cert.ReferenceIdeal.nD Cert.ReferenceIdeal.τ).loc Cert.ReferenceIdeal.main_arg4) : Cert.ReferenceIdeal.S128.Idx → Elt Ideal .f32) Cert.ReferenceIdeal.Facts₀.shapeCasts_S128_S1x1x128) : S1x1x128.Idx → Elt Ideal .f32) := by
  show StableHlo.after hostOps0 _ _ = _
  after_results
  all_goals rfl
theorem host0_0 (c : Dev nD) : Run.V1 (F := Ideal) m ρ c main_v0 = (shapeCast S64x32x32x128 (m ((c : Thread Cert.ReferenceIdeal.nD Cert.ReferenceIdeal.τ).loc Cert.ReferenceIdeal.main_arg0) : Cert.ReferenceIdeal.S64x1024x128.Idx → Elt Ideal .f32) Facts₀.shapeCasts_S64x1024x128_S64x32x32x128 : S64x32x32x128.Idx → Elt Ideal .f32) := by
  show StableHlo.after hostOps0 _ _ = _
  after_results
  all_goals rfl

/-- An argument array no window of the first region stages is, at that region's exit, as launched. -/
theorem W2_arg20 (c : Dev nD) : Run.W2 (F := Ideal) m ρ c (Proc.devRef .tc main_arg20) = m ((c : Thread nD τ).loc main_arg20) :=
  (Run.W2_of_ne m ρ c main_arg20 (by decide)).trans ((StableHlo.after_of_writes_sub hostOps0 _ hostOps0_writes (by decide)).trans rfl)
theorem W2_arg21 (c : Dev nD) : Run.W2 (F := Ideal) m ρ c (Proc.devRef .tc main_arg21) = m ((c : Thread nD τ).loc main_arg21) :=
  (Run.W2_of_ne m ρ c main_arg21 (by decide)).trans ((StableHlo.after_of_writes_sub hostOps0 _ hostOps0_writes (by decide)).trans rfl)
theorem W2_arg22 (c : Dev nD) : Run.W2 (F := Ideal) m ρ c (Proc.devRef .tc main_arg22) = m ((c : Thread nD τ).loc main_arg22) :=
  (Run.W2_of_ne m ρ c main_arg22 (by decide)).trans ((StableHlo.after_of_writes_sub hostOps0 _ hostOps0_writes (by decide)).trans rfl)
theorem W2_arg23 (c : Dev nD) : Run.W2 (F := Ideal) m ρ c (Proc.devRef .tc main_arg23) = m ((c : Thread nD τ).loc main_arg23) :=
  (Run.W2_of_ne m ρ c main_arg23 (by decide)).trans ((StableHlo.after_of_writes_sub hostOps0 _ hostOps0_writes (by decide)).trans rfl)
theorem W2_arg24 (c : Dev nD) : Run.W2 (F := Ideal) m ρ c (Proc.devRef .tc main_arg24) = m ((c : Thread nD τ).loc main_arg24) :=
  (Run.W2_of_ne m ρ c main_arg24 (by decide)).trans ((StableHlo.after_of_writes_sub hostOps0 _ hostOps0_writes (by decide)).trans rfl)
theorem W2_arg25 (c : Dev nD) : Run.W2 (F := Ideal) m ρ c (Proc.devRef .tc main_arg25) = m ((c : Thread nD τ).loc main_arg25) :=
  (Run.W2_of_ne m ρ c main_arg25 (by decide)).trans ((StableHlo.after_of_writes_sub hostOps0 _ hostOps0_writes (by decide)).trans rfl)
theorem host1_2 (c : Dev nD) : Run.V3 (F := Ideal) m ρ c main_v6 = ((extractStridedSlice Cert.ReferenceIdeal.S3x3x128x128 ![0, 0, 0, 0] (m ((c : Thread Cert.ReferenceIdeal.nD Cert.ReferenceIdeal.τ).loc Cert.ReferenceIdeal.main_arg20) : Cert.ReferenceIdeal.S3x3x256x128.Idx → Elt Ideal .f32) Cert.ReferenceIdeal.Facts₀.slices_S3x3x256x128_S3x3x128x128_0_0_0_0) : S3x3x128x128.Idx → Elt Ideal .f32) := by
  show StableHlo.after hostOps1 _ _ = _
  after_results
  rw [W2_arg20 m ρ c]
  all_goals rfl
theorem host1_3 (c : Dev nD) : Run.V3 (F := Ideal) m ρ c main_v7 = ((extractStridedSlice Cert.ReferenceIdeal.S3x3x128x128 ![0, 0, 128, 0] (m ((c : Thread Cert.ReferenceIdeal.nD Cert.ReferenceIdeal.τ).loc Cert.ReferenceIdeal.main_arg20) : Cert.ReferenceIdeal.S3x3x256x128.Idx → Elt Ideal .f32) Cert.ReferenceIdeal.Facts₀.slices_S3x3x256x128_S3x3x128x128_0_0_128_0) : S3x3x128x128.Idx → Elt Ideal .f32) := by
  show StableHlo.after hostOps1 _ _ = _
  after_results
  rw [W2_arg20 m ρ c]
  all_goals rfl
theorem host1_4 (c : Dev nD) : Run.V3 (F := Ideal) m ρ c main_v10 = ((shapeCast Cert.ReferenceIdeal.S1x128 (m ((c : Thread Cert.ReferenceIdeal.nD Cert.ReferenceIdeal.τ).loc Cert.ReferenceIdeal.main_arg21) : Cert.ReferenceIdeal.S128.Idx → Elt Ideal .f32) Cert.ReferenceIdeal.Facts₀.shapeCasts_S128_S1x128) : S1x128.Idx → Elt Ideal .f32) := by
  show StableHlo.after hostOps1 _ _ = _
  after_results
  rw [W2_arg21 m ρ c]
  all_goals rfl
theorem host1_5 (c : Dev nD) : Run.V3 (F := Ideal) m ρ c main_arg22 = ((m ((c : Thread Cert.ReferenceIdeal.nD Cert.ReferenceIdeal.τ).loc Cert.ReferenceIdeal.main_arg22) : Cert.ReferenceIdeal.S3x3x128x128.Idx → Elt Ideal .f32) : S3x3x128x128.Idx → Elt Ideal .f32) :=
  (StableHlo.after_of_writes_sub hostOps1 _ hostOps1_writes (by decide)).trans (W2_arg22 m ρ c)
theorem host1_6 (c : Dev nD) : Run.V3 (F := Ideal) m ρ c main_v11 = ((shapeCast Cert.ReferenceIdeal.S1x128 (m ((c : Thread Cert.ReferenceIdeal.nD Cert.ReferenceIdeal.τ).loc Cert.ReferenceIdeal.main_arg23) : Cert.ReferenceIdeal.S128.Idx → Elt Ideal .f32) Cert.ReferenceIdeal.Facts₀.shapeCasts_S128_S1x128) : S1x128.Idx → Elt Ideal .f32) := by
  show StableHlo.after hostOps1 _ _ = _
  after_results
  rw [W2_arg23 m ρ c]
  all_goals rfl
theorem host1_7 (c : Dev nD) : Run.V3 (F := Ideal) m ρ c main_v8 = ((extractStridedSlice Cert.ReferenceIdeal.S128x128 ![0, 0] (m ((c : Thread Cert.ReferenceIdeal.nD Cert.ReferenceIdeal.τ).loc Cert.ReferenceIdeal.main_arg24) : Cert.ReferenceIdeal.S256x128.Idx → Elt Ideal .f32) Cert.ReferenceIdeal.Facts₀.slices_S256x128_S128x128_0_0) : S128x128.Idx → Elt Ideal .f32) := by
  show StableHlo.after hostOps1 _ _ = _
  after_results
  rw [W2_arg24 m ρ c]
  all_goals rfl
theorem host1_8 (c : Dev nD) : Run.V3 (F := Ideal) m ρ c main_v9 = ((extractStridedSlice Cert.ReferenceIdeal.S128x128 ![128, 0] (m ((c : Thread Cert.ReferenceIdeal.nD Cert.ReferenceIdeal.τ).loc Cert.ReferenceIdeal.main_arg24) : Cert.ReferenceIdeal.S256x128.Idx → Elt Ideal .f32) Cert.ReferenceIdeal.Facts₀.slices_S256x128_S128x128_128_0) : S128x128.Idx → Elt Ideal .f32) := by
  show StableHlo.after hostOps1 _ _ = _
  after_results
  rw [W2_arg24 m ρ c]
  all_goals rfl
theorem host1_9 (c : Dev nD) : Run.V3 (F := Ideal) m ρ c main_v12 = ((shapeCast Cert.ReferenceIdeal.S1x128 (m ((c : Thread Cert.ReferenceIdeal.nD Cert.ReferenceIdeal.τ).loc Cert.ReferenceIdeal.main_arg25) : Cert.ReferenceIdeal.S128.Idx → Elt Ideal .f32) Cert.ReferenceIdeal.Facts₀.shapeCasts_S128_S1x128) : S1x128.Idx → Elt Ideal .f32) := by
  show StableHlo.after hostOps1 _ _ = _
  after_results
  rw [W2_arg25 m ρ c]
  all_goals rfl
/-- The reshaped input is untouched between the regions: the first region only reads it and the stretch after it does not write it. -/
theorem host1_0 (c : Dev nD) : Run.V3 (F := Ideal) m ρ c main_v0 = Run.V1 (F := Ideal) m ρ c main_v0 :=
  (StableHlo.after_of_writes_sub hostOps1 _ hostOps1_writes (by decide)).trans
    ((Run.W2_arr m ρ c 0).trans (((Run.dat0 (Run.V1 m ρ) c).arrAt_in 0 rfl _).trans (Run.A_eq0 (Run.V1 m ρ) c 0)))

/-- The second region finds the first region's output array as the first region left it. -/
theorem host1_1 (c : Dev nD) : Run.V3 (F := Ideal) m ρ c main_v5 = (Run.dat0 (Run.V1 m ρ) c).arrAt 20 cfg0.N :=
  (StableHlo.after_of_writes_sub hostOps1 _ hostOps1_writes (by decide)).trans (Run.W2_arr m ρ c 20)

/-- The result is the last reshape of the second region's output array. -/
theorem result (c : Dev nD) : Run.W5 (F := Ideal) m ρ c (Proc.devRef .tc main_v14)
    = (shapeCast S64x1024x128 ((Run.dat1 (Run.V3 m ρ) c).arrAt 10 cfg1.N : S64x32x32x128.Idx → Elt Ideal .f32) Facts₀.shapeCasts_S64x32x32x128_S64x1024x128 : S64x1024x128.Idx → Elt Ideal .f32) := by
  rw [← Run.W4_arr m ρ c 10]
  show StableHlo.after hostOps2 _ _ = _
  after_results
  all_goals rfl

/-! ## Each operand block as a host term of the argument arrays, and what the points write back -/

theorem bh0_1 (c : Dev nD) (t : Fin cfg0.N) : Run.iblk0 (Run.V1 (F := Ideal) m ρ) c 1 t = ((shapeCast Cert.ReferenceIdeal.S1x1x128 (m ((c : Thread Cert.ReferenceIdeal.nD Cert.ReferenceIdeal.τ).loc Cert.ReferenceIdeal.main_arg1) : Cert.ReferenceIdeal.S128.Idx → Elt Ideal .f32) Cert.ReferenceIdeal.Facts₀.shapeCasts_S128_S1x1x128) : S1x1x128.Idx → Elt Ideal .f32) :=
  (blk0_1 _ c t).trans (host0_1 m ρ c)
theorem bh0_2 (c : Dev nD) (t : Fin cfg0.N) : Run.iblk0 (Run.V1 (F := Ideal) m ρ) c 2 t = ((m ((c : Thread Cert.ReferenceIdeal.nD Cert.ReferenceIdeal.τ).loc Cert.ReferenceIdeal.main_arg5) : Cert.ReferenceIdeal.S5x5x128.Idx → Elt Ideal .f32) : S5x5x128.Idx → Elt Ideal .f32) :=
  (blk0_2 _ c t).trans (host0_2 m ρ c)
theorem bh0_3 (c : Dev nD) (t : Fin cfg0.N) : Run.iblk0 (Run.V1 (F := Ideal) m ρ) c 3 t = ((m ((c : Thread Cert.ReferenceIdeal.nD Cert.ReferenceIdeal.τ).loc Cert.ReferenceIdeal.main_arg7) : Cert.ReferenceIdeal.S128x128.Idx → Elt Ideal .f32) : S128x128.Idx → Elt Ideal .f32) :=
  (blk0_3 _ c t).trans (host0_3 m ρ c)
theorem bh0_4 (c : Dev nD) (t : Fin cfg0.N) : Run.iblk0 (Run.V1 (F := Ideal) m ρ) c 4 t = ((m ((c : Thread Cert.ReferenceIdeal.nD Cert.ReferenceIdeal.τ).loc Cert.ReferenceIdeal.main_arg8) : Cert.ReferenceIdeal.S128x128.Idx → Elt Ideal .f32) : S128x128.Idx → Elt Ideal .f32) :=
  (blk0_4 _ c t).trans (host0_4 m ρ c)
theorem bh0_5 (c : Dev nD) (t : Fin cfg0.N) : Run.iblk0 (Run.V1 (F := Ideal) m ρ) c 5 t = ((m ((c : Thread Cert.ReferenceIdeal.nD Cert.ReferenceIdeal.τ).loc Cert.ReferenceIdeal.main_arg9) : Cert.ReferenceIdeal.S128x128.Idx → Elt Ideal .f32) : S128x128.Idx → Elt Ideal .f32) :=
  (blk0_5 _ c t).trans (host0_5 m ρ c)
theorem bh0_6 (c : Dev nD) (t : Fin cfg0.N) : Run.iblk0 (Run.V1 (F := Ideal) m ρ) c 6 t = ((m ((c : Thread Cert.ReferenceIdeal.nD Cert.ReferenceIdeal.τ).loc Cert.ReferenceIdeal.main_arg10) : Cert.ReferenceIdeal.S1x128.Idx → Elt Ideal .f32) : S1x128.Idx → Elt Ideal .f32) :=
  (blk0_6 _ c t).trans (host0_6 m ρ c)
theorem bh0_7 (c : Dev nD) (t : Fin cfg0.N) : Run.iblk0 (Run.V1 (F := Ideal) m ρ) c 7 t = ((m ((c : Thread Cert.ReferenceIdeal.nD Cert.ReferenceIdeal.τ).loc Cert.ReferenceIdeal.main_arg11) : Cert.ReferenceIdeal.S1x128.Idx → Elt Ideal .f32) : S1x128.Idx → Elt Ideal .f32) :=
  (blk0_7 _ c t).trans (host0_7 m ρ c)
theorem bh0_8 (c : Dev nD) (t : Fin cfg0.N) : Run.iblk0 (Run.V1 (F := Ideal) m ρ) c 8 t = ((m ((c : Thread Cert.ReferenceIdeal.nD Cert.ReferenceIdeal.τ).loc Cert.ReferenceIdeal.main_arg12) : Cert.ReferenceIdeal.S1x128.Idx → Elt Ideal .f32) : S1x128.Idx → Elt Ideal .f32) :=
  (blk0_8 _ c t).trans (host0_8 m ρ c)
theorem bh0_9 (c : Dev nD) (t : Fin cfg0.N) : Run.iblk0 (Run.V1 (F := Ideal) m ρ) c 9 t = ((m ((c : Thread Cert.ReferenceIdeal.nD Cert.ReferenceIdeal.τ).loc Cert.ReferenceIdeal.main_arg13) : Cert.ReferenceIdeal.S3x3x128.Idx → Elt Ideal .f32) : S3x3x128.Idx → Elt Ideal .f32) :=
  (blk0_9 _ c t).trans (host0_9 m ρ c)
theorem bh0_10 (c : Dev nD) (t : Fin cfg0.N) : Run.iblk0 (Run.V1 (F := Ideal) m ρ) c 10 t = ((m ((c : Thread Cert.ReferenceIdeal.nD Cert.ReferenceIdeal.τ).loc Cert.ReferenceIdeal.main_arg14) : Cert.ReferenceIdeal.S1x1x128.Idx → Elt Ideal .f32) : S1x1x128.Idx → Elt Ideal .f32) :=
  (blk0_10 _ c t).trans (host0_10 m ρ c)
theorem bh0_11 (c : Dev nD) (t : Fin cfg0.N) : Run.iblk0 (Run.V1 (F := Ideal) m ρ) c 11 t = ((m ((c : Thread Cert.ReferenceIdeal.nD Cert.ReferenceIdeal.τ).loc Cert.ReferenceIdeal.main_arg15) : Cert.ReferenceIdeal.S128x128.Idx → Elt Ideal .f32) : S128x128.Idx → Elt Ideal .f32) :=
  (blk0_11 _ c t).trans (host0_11 m ρ c)
theorem bh0_12 (c : Dev nD) (t : Fin cfg0.N) : Run.iblk0 (Run.V1 (F := Ideal) m ρ) c 12 t = ((m ((c : Thread Cert.ReferenceIdeal.nD Cert.ReferenceIdeal.τ).loc Cert.ReferenceIdeal.main_arg16) : Cert.ReferenceIdeal.S1x128.Idx → Elt Ideal .f32) : S1x128.Idx → Elt Ideal .f32) :=
  (blk0_12 _ c t).trans (host0_12 m ρ c)
theorem bh0_13 (c : Dev nD) (t : Fin cfg0.N) : Run.iblk0 (Run.V1 (F := Ideal) m ρ) c 13 t = ((shapeCast Cert.ReferenceIdeal.S1x1x128 (m ((c : Thread Cert.ReferenceIdeal.nD Cert.ReferenceIdeal.τ).loc Cert.ReferenceIdeal.main_arg3) : Cert.ReferenceIdeal.S128.Idx → Elt Ideal .f32) Cert.ReferenceIdeal.Facts₀.shapeCasts_S128_S1x1x128) : S1x1x128.Idx → Elt Ideal .f32) :=
  (blk0_13 _ c t).trans (host0_13 m ρ c)
theorem bh0_14 (c : Dev nD) (t : Fin cfg0.N) : Run.iblk0 (Run.V1 (F := Ideal) m ρ) c 14 t = ((shapeCast Cert.ReferenceIdeal.S1x1x128 (m ((c : Thread Cert.ReferenceIdeal.nD Cert.ReferenceIdeal.τ).loc Cert.ReferenceIdeal.main_arg2) : Cert.ReferenceIdeal.S128.Idx → Elt Ideal .f32) Cert.ReferenceIdeal.Facts₀.shapeCasts_S128_S1x1x128) : S1x1x128.Idx → Elt Ideal .f32) :=
  (blk0_14 _ c t).trans (host0_14 m ρ c)
theorem bh0_15 (c : Dev nD) (t : Fin cfg0.N) : Run.iblk0 (Run.V1 (F := Ideal) m ρ) c 15 t = ((m ((c : Thread Cert.ReferenceIdeal.nD Cert.ReferenceIdeal.τ).loc Cert.ReferenceIdeal.main_arg6) : Cert.ReferenceIdeal.S5x5x128.Idx → Elt Ideal .f32) : S5x5x128.Idx → Elt Ideal .f32) :=
  (blk0_15 _ c t).trans (host0_15 m ρ c)
theorem bh0_16 (c : Dev nD) (t : Fin cfg0.N) : Run.iblk0 (Run.V1 (F := Ideal) m ρ) c 16 t = ((m ((c : Thread Cert.ReferenceIdeal.nD Cert.ReferenceIdeal.τ).loc Cert.ReferenceIdeal.main_arg17) : Cert.ReferenceIdeal.S128x512.Idx → Elt Ideal .f32) : S128x512.Idx → Elt Ideal .f32) :=
  (blk0_16 _ c t).trans (host0_16 m ρ c)
theorem bh0_17 (c : Dev nD) (t : Fin cfg0.N) : Run.iblk0 (Run.V1 (F := Ideal) m ρ) c 17 t = ((m ((c : Thread Cert.ReferenceIdeal.nD Cert.ReferenceIdeal.τ).loc Cert.ReferenceIdeal.main_arg18) : Cert.ReferenceIdeal.S512x128.Idx → Elt Ideal .f32) : S512x128.Idx → Elt Ideal .f32) :=
  (blk0_17 _ c t).trans (host0_17 m ρ c)
theorem bh0_18 (c : Dev nD) (t : Fin cfg0.N) : Run.iblk0 (Run.V1 (F := Ideal) m ρ) c 18 t = ((m ((c : Thread Cert.ReferenceIdeal.nD Cert.ReferenceIdeal.τ).loc Cert.ReferenceIdeal.main_arg19) : Cert.ReferenceIdeal.S128x128.Idx → Elt Ideal .f32) : S128x128.Idx → Elt Ideal .f32) :=
  (blk0_18 _ c t).trans (host0_18 m ρ c)
theorem bh0_19 (c : Dev nD) (t : Fin cfg0.N) : Run.iblk0 (Run.V1 (F := Ideal) m ρ) c 19 t = ((shapeCast Cert.ReferenceIdeal.S1x1x128 (m ((c : Thread Cert.ReferenceIdeal.nD Cert.ReferenceIdeal.τ).loc Cert.ReferenceIdeal.main_arg4) : Cert.ReferenceIdeal.S128.Idx → Elt Ideal .f32) Cert.ReferenceIdeal.Facts₀.shapeCasts_S128_S1x1x128) : S1x1x128.Idx → Elt Ideal .f32) :=
  (blk0_19 _ c t).trans (host0_19 m ρ c)
theorem bh0_0 (c : Dev nD) (t : Fin cfg0.N) : Run.iblk0 (Run.V1 (F := Ideal) m ρ) c 0 t = (fun y : S1x32x32x128.Idx => (shapeCast S64x32x32x128 (m ((c : Thread Cert.ReferenceIdeal.nD Cert.ReferenceIdeal.τ).loc Cert.ReferenceIdeal.main_arg0) : Cert.ReferenceIdeal.S64x1024x128.Idx → Elt Ideal .f32) Facts₀.shapeCasts_S64x1024x128_S64x32x32x128 : S64x32x32x128.Idx → Elt Ideal .f32) (img t.val (lt64_0 t) y)) := by
  rw [blk0_0, host0_0]
theorem bh1_2 (c : Dev nD) (t : Fin cfg1.N) : Run.iblk1 (Run.V3 (F := Ideal) m ρ) c 2 t = ((extractStridedSlice Cert.ReferenceIdeal.S3x3x128x128 ![0, 0, 0, 0] (m ((c : Thread Cert.ReferenceIdeal.nD Cert.ReferenceIdeal.τ).loc Cert.ReferenceIdeal.main_arg20) : Cert.ReferenceIdeal.S3x3x256x128.Idx → Elt Ideal .f32) Cert.ReferenceIdeal.Facts₀.slices_S3x3x256x128_S3x3x128x128_0_0_0_0) : S3x3x128x128.Idx → Elt Ideal .f32) :=
  (blk1_2 _ c t).trans (host1_2 m ρ c)
theorem bh1_3 (c : Dev nD) (t : Fin cfg1.N) : Run.iblk1 (Run.V3 (F := Ideal) m ρ) c 3 t = ((extractStridedSlice Cert.ReferenceIdeal.S3x3x128x128 ![0, 0, 128, 0] (m ((c : Thread Cert.ReferenceIdeal.nD Cert.ReferenceIdeal.τ).loc Cert.ReferenceIdeal.main_arg20) : Cert.ReferenceIdeal.S3x3x256x128.Idx → Elt Ideal .f32) Cert.ReferenceIdeal.Facts₀.slices_S3x3x256x128_S3x3x128x128_0_0_128_0) : S3x3x128x128.Idx → Elt Ideal .f32) :=
  (blk1_3 _ c t).trans (host1_3 m ρ c)
theorem bh1_4 (c : Dev nD) (t : Fin cfg1.N) : Run.iblk1 (Run.V3 (F := Ideal) m ρ) c 4 t = ((shapeCast Cert.ReferenceIdeal.S1x128 (m ((c : Thread Cert.ReferenceIdeal.nD Cert.ReferenceIdeal.τ).loc Cert.ReferenceIdeal.main_arg21) : Cert.ReferenceIdeal.S128.Idx → Elt Ideal .f32) Cert.ReferenceIdeal.Facts₀.shapeCasts_S128_S1x128) : S1x128.Idx → Elt Ideal .f32) :=
  (blk1_4 _ c t).trans (host1_4 m ρ c)
theorem bh1_5 (c : Dev nD) (t : Fin cfg1.N) : Run.iblk1 (Run.V3 (F := Ideal) m ρ) c 5 t = ((m ((c : Thread Cert.ReferenceIdeal.nD Cert.ReferenceIdeal.τ).loc Cert.ReferenceIdeal.main_arg22) : Cert.ReferenceIdeal.S3x3x128x128.Idx → Elt Ideal .f32) : S3x3x128x128.Idx → Elt Ideal .f32) :=
  (blk1_5 _ c t).trans (host1_5 m ρ c)
theorem bh1_6 (c : Dev nD) (t : Fin cfg1.N) : Run.iblk1 (Run.V3 (F := Ideal) m ρ) c 6 t = ((shapeCast Cert.ReferenceIdeal.S1x128 (m ((c : Thread Cert.ReferenceIdeal.nD Cert.ReferenceIdeal.τ).loc Cert.ReferenceIdeal.main_arg23) : Cert.ReferenceIdeal.S128.Idx → Elt Ideal .f32) Cert.ReferenceIdeal.Facts₀.shapeCasts_S128_S1x128) : S1x128.Idx → Elt Ideal .f32) :=
  (blk1_6 _ c t).trans (host1_6 m ρ c)
theorem bh1_7 (c : Dev nD) (t : Fin cfg1.N) : Run.iblk1 (Run.V3 (F := Ideal) m ρ) c 7 t = ((extractStridedSlice Cert.ReferenceIdeal.S128x128 ![0, 0] (m ((c : Thread Cert.ReferenceIdeal.nD Cert.ReferenceIdeal.τ).loc Cert.ReferenceIdeal.main_arg24) : Cert.ReferenceIdeal.S256x128.Idx → Elt Ideal .f32) Cert.ReferenceIdeal.Facts₀.slices_S256x128_S128x128_0_0) : S128x128.Idx → Elt Ideal .f32) :=
  (blk1_7 _ c t).trans (host1_7 m ρ c)
theorem bh1_8 (c : Dev nD) (t : Fin cfg1.N) : Run.iblk1 (Run.V3 (F := Ideal) m ρ) c 8 t = ((extractStridedSlice Cert.ReferenceIdeal.S128x128 ![128, 0] (m ((c : Thread Cert.ReferenceIdeal.nD Cert.ReferenceIdeal.τ).loc Cert.ReferenceIdeal.main_arg24) : Cert.ReferenceIdeal.S256x128.Idx → Elt Ideal .f32) Cert.ReferenceIdeal.Facts₀.slices_S256x128_S128x128_128_0) : S128x128.Idx → Elt Ideal .f32) :=
  (blk1_8 _ c t).trans (host1_8 m ρ c)
theorem bh1_9 (c : Dev nD) (t : Fin cfg1.N) : Run.iblk1 (Run.V3 (F := Ideal) m ρ) c 9 t = ((shapeCast Cert.ReferenceIdeal.S1x128 (m ((c : Thread Cert.ReferenceIdeal.nD Cert.ReferenceIdeal.τ).loc Cert.ReferenceIdeal.main_arg25) : Cert.ReferenceIdeal.S128.Idx → Elt Ideal .f32) Cert.ReferenceIdeal.Facts₀.shapeCasts_S128_S1x128) : S1x128.Idx → Elt Ideal .f32) :=
  (blk1_9 _ c t).trans (host1_9 m ρ c)
theorem bh1_0 (c : Dev nD) (t : Fin cfg1.N) : Run.iblk1 (Run.V3 (F := Ideal) m ρ) c 0 t = (fun y : S1x32x32x128.Idx => (shapeCast S64x32x32x128 (m ((c : Thread Cert.ReferenceIdeal.nD Cert.ReferenceIdeal.τ).loc Cert.ReferenceIdeal.main_arg0) : Cert.ReferenceIdeal.S64x1024x128.Idx → Elt Ideal .f32) Facts₀.shapeCasts_S64x1024x128_S64x32x32x128 : S64x32x32x128.Idx → Elt Ideal .f32) (img t.val (lt64_1 t) y)) := by
  rw [blk1_0, host1_0, host0_0]

/-- The same grid point, of the first region. -/
def to0 (t : Fin cfg1.N) : Fin cfg0.N := ⟨t.val, by have h : cfg0.N = 64 := N_0; have := lt64_1 t; omega⟩

/-- The second region's second operand at point `t` is what the first region's point `t` wrote back. -/
theorem bh1_1 (c : Dev nD) (t : Fin cfg1.N) :
    Run.iblk1 (Run.V3 (F := Ideal) m ρ) c 1 t = (Run.dat0 (Run.V1 (F := Ideal) m ρ) c).flushed 20 (to0 t) := by
  rw [blk1_1, host1_1, ← Blocks.blocks20_cfg0 (Run.dat0 (Run.V1 (F := Ideal) m ρ) c) (to0 t), read20]
  rfl

/-- Each body's output block is the block function of its input blocks (the hypotheses the assembly takes about the bodies). -/
def HR0 : Prop :=
  ∀ (V : (c : Dev nD) → (b : Ref sig .tc) → Buf (Elt Ideal) ((c : Thread nD τ).loc b)) (c : Dev nD) (t : Fin cfg0.N),
    Run.outBlk0 V c t = Lit.out0 (F := Ideal) c (Run.iblk0 V c 0 t) (Run.iblk0 V c 1 t) (Run.iblk0 V c 2 t) (Run.iblk0 V c 3 t) (Run.iblk0 V c 4 t) (Run.iblk0 V c 5 t) (Run.iblk0 V c 6 t) (Run.iblk0 V c 7 t) (Run.iblk0 V c 8 t) (Run.iblk0 V c 9 t) (Run.iblk0 V c 10 t) (Run.iblk0 V c 11 t) (Run.iblk0 V c 12 t) (Run.iblk0 V c 13 t) (Run.iblk0 V c 14 t) (Run.iblk0 V c 15 t) (Run.iblk0 V c 16 t) (Run.iblk0 V c 17 t) (Run.iblk0 V c 18 t) (Run.iblk0 V c 19 t)
def HR1 : Prop :=
  ∀ (V : (c : Dev nD) → (b : Ref sig .tc) → Buf (Elt Ideal) ((c : Thread nD τ).loc b)) (c : Dev nD) (t : Fin cfg1.N),
    Run.outBlk1 V c t = Lit.out1 (F := Ideal) c (Run.iblk1 V c 0 t) (Run.iblk1 V c 1 t) (Run.iblk1 V c 2 t) (Run.iblk1 V c 3 t) (Run.iblk1 V c 4 t) (Run.iblk1 V c 5 t) (Run.iblk1 V c 6 t) (Run.iblk1 V c 7 t) (Run.iblk1 V c 8 t) (Run.iblk1 V c 9 t)

/-- What the first region's point `t` writes back. -/
theorem flushed0_eq (hR0 : HR0) (c : Dev nD) (t : Fin cfg0.N) :
    (Run.dat0 (Run.V1 (F := Ideal) m ρ) c).flushed 20 t = Lit.out0 (F := Ideal) c (fun y : S1x32x32x128.Idx => (shapeCast S64x32x32x128 (m ((c : Thread Cert.ReferenceIdeal.nD Cert.ReferenceIdeal.τ).loc Cert.ReferenceIdeal.main_arg0) : Cert.ReferenceIdeal.S64x1024x128.Idx → Elt Ideal .f32) Facts₀.shapeCasts_S64x1024x128_S64x32x32x128 : S64x32x32x128.Idx → Elt Ideal .f32) (img t.val (lt64_0 t) y))
      (shapeCast Cert.ReferenceIdeal.S1x1x128 (m ((c : Thread Cert.ReferenceIdeal.nD Cert.ReferenceIdeal.τ).loc Cert.ReferenceIdeal.main_arg1) : Cert.ReferenceIdeal.S128.Idx → Elt Ideal .f32) Cert.ReferenceIdeal.Facts₀.shapeCasts_S128_S1x1x128)
      (m ((c : Thread Cert.ReferenceIdeal.nD Cert.ReferenceIdeal.τ).loc Cert.ReferenceIdeal.main_arg5) : Cert.ReferenceIdeal.S5x5x128.Idx → Elt Ideal .f32)
      (m ((c : Thread Cert.ReferenceIdeal.nD Cert.ReferenceIdeal.τ).loc Cert.ReferenceIdeal.main_arg7) : Cert.ReferenceIdeal.S128x128.Idx → Elt Ideal .f32)
      (m ((c : Thread Cert.ReferenceIdeal.nD Cert.ReferenceIdeal.τ).loc Cert.ReferenceIdeal.main_arg8) : Cert.ReferenceIdeal.S128x128.Idx → Elt Ideal .f32)
      (m ((c : Thread Cert.ReferenceIdeal.nD Cert.ReferenceIdeal.τ).loc Cert.ReferenceIdeal.main_arg9) : Cert.ReferenceIdeal.S128x128.Idx → Elt Ideal .f32)
      (m ((c : Thread Cert.ReferenceIdeal.nD Cert.ReferenceIdeal.τ).loc Cert.ReferenceIdeal.main_arg10) : Cert.ReferenceIdeal.S1x128.Idx → Elt Ideal .f32)
      (m ((c : Thread Cert.ReferenceIdeal.nD Cert.ReferenceIdeal.τ).loc Cert.ReferenceIdeal.main_arg11) : Cert.ReferenceIdeal.S1x128.Idx → Elt Ideal .f32)
      (m ((c : Thread Cert.ReferenceIdeal.nD Cert.ReferenceIdeal.τ).loc Cert.ReferenceIdeal.main_arg12) : Cert.ReferenceIdeal.S1x128.Idx → Elt Ideal .f32)
      (m ((c : Thread Cert.ReferenceIdeal.nD Cert.ReferenceIdeal.τ).loc Cert.ReferenceIdeal.main_arg13) : Cert.ReferenceIdeal.S3x3x128.Idx → Elt Ideal .f32)
      (m ((c : Thread Cert.ReferenceIdeal.nD Cert.ReferenceIdeal.τ).loc Cert.ReferenceIdeal.main_arg14) : Cert.ReferenceIdeal.S1x1x128.Idx → Elt Ideal .f32)
      (m ((c : Thread Cert.ReferenceIdeal.nD Cert.ReferenceIdeal.τ).loc Cert.ReferenceIdeal.main_arg15) : Cert.ReferenceIdeal.S128x128.Idx → Elt Ideal .f32)
      (m ((c : Thread Cert.ReferenceIdeal.nD Cert.ReferenceIdeal.τ).loc Cert.ReferenceIdeal.main_arg16) : Cert.ReferenceIdeal.S1x128.Idx → Elt Ideal .f32)
      (shapeCast Cert.ReferenceIdeal.S1x1x128 (m ((c : Thread Cert.ReferenceIdeal.nD Cert.ReferenceIdeal.τ).loc Cert.ReferenceIdeal.main_arg3) : Cert.ReferenceIdeal.S128.Idx → Elt Ideal .f32) Cert.ReferenceIdeal.Facts₀.shapeCasts_S128_S1x1x128)
      (shapeCast Cert.ReferenceIdeal.S1x1x128 (m ((c : Thread Cert.ReferenceIdeal.nD Cert.ReferenceIdeal.τ).loc Cert.ReferenceIdeal.main_arg2) : Cert.ReferenceIdeal.S128.Idx → Elt Ideal .f32) Cert.ReferenceIdeal.Facts₀.shapeCasts_S128_S1x1x128)
      (m ((c : Thread Cert.ReferenceIdeal.nD Cert.ReferenceIdeal.τ).loc Cert.ReferenceIdeal.main_arg6) : Cert.ReferenceIdeal.S5x5x128.Idx → Elt Ideal .f32)
      (m ((c : Thread Cert.ReferenceIdeal.nD Cert.ReferenceIdeal.τ).loc Cert.ReferenceIdeal.main_arg17) : Cert.ReferenceIdeal.S128x512.Idx → Elt Ideal .f32)
      (m ((c : Thread Cert.ReferenceIdeal.nD Cert.ReferenceIdeal.τ).loc Cert.ReferenceIdeal.main_arg18) : Cert.ReferenceIdeal.S512x128.Idx → Elt Ideal .f32)
      (m ((c : Thread Cert.ReferenceIdeal.nD Cert.ReferenceIdeal.τ).loc Cert.ReferenceIdeal.main_arg19) : Cert.ReferenceIdeal.S128x128.Idx → Elt Ideal .f32)
      (shapeCast Cert.ReferenceIdeal.S1x1x128 (m ((c : Thread Cert.ReferenceIdeal.nD Cert.ReferenceIdeal.τ).loc Cert.ReferenceIdeal.main_arg4) : Cert.ReferenceIdeal.S128.Idx → Elt Ideal .f32) Cert.ReferenceIdeal.Facts₀.shapeCasts_S128_S1x1x128) := by
  rw [flushed20, hR0, bh0_0, bh0_1, bh0_2, bh0_3, bh0_4, bh0_5, bh0_6, bh0_7, bh0_8, bh0_9, bh0_10, bh0_11, bh0_12, bh0_13, bh0_14, bh0_15, bh0_16, bh0_17, bh0_18, bh0_19]

/-- What the second region's point `t` writes back: its block function at image `t` of the reshaped input, at what the first
    region's point `t` wrote back, and at the host-prepared operands. -/
theorem flushed1_eq (hR0 : HR0) (hR1 : HR1) (c : Dev nD) (t : Fin cfg1.N) :
    (Run.dat1 (Run.V3 (F := Ideal) m ρ) c).flushed 10 t = Lit.out1 (F := Ideal) c (fun y : S1x32x32x128.Idx => (shapeCast S64x32x32x128 (m ((c : Thread Cert.ReferenceIdeal.nD Cert.ReferenceIdeal.τ).loc Cert.ReferenceIdeal.main_arg0) : Cert.ReferenceIdeal.S64x1024x128.Idx → Elt Ideal .f32) Facts₀.shapeCasts_S64x1024x128_S64x32x32x128 : S64x32x32x128.Idx → Elt Ideal .f32) (img t.val (lt64_1 t) y))
      (Lit.out0 (F := Ideal) c (fun y : S1x32x32x128.Idx => (shapeCast S64x32x32x128 (m ((c : Thread Cert.ReferenceIdeal.nD Cert.ReferenceIdeal.τ).loc Cert.ReferenceIdeal.main_arg0) : Cert.ReferenceIdeal.S64x1024x128.Idx → Elt Ideal .f32) Facts₀.shapeCasts_S64x1024x128_S64x32x32x128 : S64x32x32x128.Idx → Elt Ideal .f32) (img (to0 t).val (lt64_0 (to0 t)) y))
        (shapeCast Cert.ReferenceIdeal.S1x1x128 (m ((c : Thread Cert.ReferenceIdeal.nD Cert.ReferenceIdeal.τ).loc Cert.ReferenceIdeal.main_arg1) : Cert.ReferenceIdeal.S128.Idx → Elt Ideal .f32) Cert.ReferenceIdeal.Facts₀.shapeCasts_S128_S1x1x128)
        (m ((c : Thread Cert.ReferenceIdeal.nD Cert.ReferenceIdeal.τ).loc Cert.ReferenceIdeal.main_arg5) : Cert.ReferenceIdeal.S5x5x128.Idx → Elt Ideal .f32)
        (m ((c : Thread Cert.ReferenceIdeal.nD Cert.ReferenceIdeal.τ).loc Cert.ReferenceIdeal.main_arg7) : Cert.ReferenceIdeal.S128x128.Idx → Elt Ideal .f32)
        (m ((c : Thread Cert.ReferenceIdeal.nD Cert.ReferenceIdeal.τ).loc Cert.ReferenceIdeal.main_arg8) : Cert.ReferenceIdeal.S128x128.Idx → Elt Ideal .f32)
        (m ((c : Thread Cert.ReferenceIdeal.nD Cert.ReferenceIdeal.τ).loc Cert.ReferenceIdeal.main_arg9) : Cert.ReferenceIdeal.S128x128.Idx → Elt Ideal .f32)
        (m ((c : Thread Cert.ReferenceIdeal.nD Cert.ReferenceIdeal.τ).loc Cert.ReferenceIdeal.main_arg10) : Cert.ReferenceIdeal.S1x128.Idx → Elt Ideal .f32)
        (m ((c : Thread Cert.ReferenceIdeal.nD Cert.ReferenceIdeal.τ).loc Cert.ReferenceIdeal.main_arg11) : Cert.ReferenceIdeal.S1x128.Idx → Elt Ideal .f32)
        (m ((c : Thread Cert.ReferenceIdeal.nD Cert.ReferenceIdeal.τ).loc Cert.ReferenceIdeal.main_arg12) : Cert.ReferenceIdeal.S1x128.Idx → Elt Ideal .f32)
        (m ((c : Thread Cert.ReferenceIdeal.nD Cert.ReferenceIdeal.τ).loc Cert.ReferenceIdeal.main_arg13) : Cert.ReferenceIdeal.S3x3x128.Idx → Elt Ideal .f32)
        (m ((c : Thread Cert.ReferenceIdeal.nD Cert.ReferenceIdeal.τ).loc Cert.ReferenceIdeal.main_arg14) : Cert.ReferenceIdeal.S1x1x128.Idx → Elt Ideal .f32)
        (m ((c : Thread Cert.ReferenceIdeal.nD Cert.ReferenceIdeal.τ).loc Cert.ReferenceIdeal.main_arg15) : Cert.ReferenceIdeal.S128x128.Idx → Elt Ideal .f32)
        (m ((c : Thread Cert.ReferenceIdeal.nD Cert.ReferenceIdeal.τ).loc Cert.ReferenceIdeal.main_arg16) : Cert.ReferenceIdeal.S1x128.Idx → Elt Ideal .f32)
        (shapeCast Cert.ReferenceIdeal.S1x1x128 (m ((c : Thread Cert.ReferenceIdeal.nD Cert.ReferenceIdeal.τ).loc Cert.ReferenceIdeal.main_arg3) : Cert.ReferenceIdeal.S128.Idx → Elt Ideal .f32) Cert.ReferenceIdeal.Facts₀.shapeCasts_S128_S1x1x128)
        (shapeCast Cert.ReferenceIdeal.S1x1x128 (m ((c : Thread Cert.ReferenceIdeal.nD Cert.ReferenceIdeal.τ).loc Cert.ReferenceIdeal.main_arg2) : Cert.ReferenceIdeal.S128.Idx → Elt Ideal .f32) Cert.ReferenceIdeal.Facts₀.shapeCasts_S128_S1x1x128)
        (m ((c : Thread Cert.ReferenceIdeal.nD Cert.ReferenceIdeal.τ).loc Cert.ReferenceIdeal.main_arg6) : Cert.ReferenceIdeal.S5x5x128.Idx → Elt Ideal .f32)
        (m ((c : Thread Cert.ReferenceIdeal.nD Cert.ReferenceIdeal.τ).loc Cert.ReferenceIdeal.main_arg17) : Cert.ReferenceIdeal.S128x512.Idx → Elt Ideal .f32)
        (m ((c : Thread Cert.ReferenceIdeal.nD Cert.ReferenceIdeal.τ).loc Cert.ReferenceIdeal.main_arg18) : Cert.ReferenceIdeal.S512x128.Idx → Elt Ideal .f32)
        (m ((c : Thread Cert.ReferenceIdeal.nD Cert.ReferenceIdeal.τ).loc Cert.ReferenceIdeal.main_arg19) : Cert.ReferenceIdeal.S128x128.Idx → Elt Ideal .f32)
        (shapeCast Cert.ReferenceIdeal.S1x1x128 (m ((c : Thread Cert.ReferenceIdeal.nD Cert.ReferenceIdeal.τ).loc Cert.ReferenceIdeal.main_arg4) : Cert.ReferenceIdeal.S128.Idx → Elt Ideal .f32) Cert.ReferenceIdeal.Facts₀.shapeCasts_S128_S1x1x128))
      (extractStridedSlice Cert.ReferenceIdeal.S3x3x128x128 ![0, 0, 0, 0] (m ((c : Thread Cert.ReferenceIdeal.nD Cert.ReferenceIdeal.τ).loc Cert.ReferenceIdeal.main_arg20) : Cert.ReferenceIdeal.S3x3x256x128.Idx → Elt Ideal .f32) Cert.ReferenceIdeal.Facts₀.slices_S3x3x256x128_S3x3x128x128_0_0_0_0)
      (extractStridedSlice Cert.ReferenceIdeal.S3x3x128x128 ![0, 0, 128, 0] (m ((c : Thread Cert.ReferenceIdeal.nD Cert.ReferenceIdeal.τ).loc Cert.ReferenceIdeal.main_arg20) : Cert.ReferenceIdeal.S3x3x256x128.Idx → Elt Ideal .f32) Cert.ReferenceIdeal.Facts₀.slices_S3x3x256x128_S3x3x128x128_0_0_128_0)
      (shapeCast Cert.ReferenceIdeal.S1x128 (m ((c : Thread Cert.ReferenceIdeal.nD Cert.ReferenceIdeal.τ).loc Cert.ReferenceIdeal.main_arg21) : Cert.ReferenceIdeal.S128.Idx → Elt Ideal .f32) Cert.ReferenceIdeal.Facts₀.shapeCasts_S128_S1x128)
      (m ((c : Thread Cert.ReferenceIdeal.nD Cert.ReferenceIdeal.τ).loc Cert.ReferenceIdeal.main_arg22) : Cert.ReferenceIdeal.S3x3x128x128.Idx → Elt Ideal .f32)
      (shapeCast Cert.ReferenceIdeal.S1x128 (m ((c : Thread Cert.ReferenceIdeal.nD Cert.ReferenceIdeal.τ).loc Cert.ReferenceIdeal.main_arg23) : Cert.ReferenceIdeal.S128.Idx → Elt Ideal .f32) Cert.ReferenceIdeal.Facts₀.shapeCasts_S128_S1x128)
      (extractStridedSlice Cert.ReferenceIdeal.S128x128 ![0, 0] (m ((c : Thread Cert.ReferenceIdeal.nD Cert.ReferenceIdeal.τ).loc Cert.ReferenceIdeal.main_arg24) : Cert.ReferenceIdeal.S256x128.Idx → Elt Ideal .f32) Cert.ReferenceIdeal.Facts₀.slices_S256x128_S128x128_0_0)
      (extractStridedSlice Cert.ReferenceIdeal.S128x128 ![128, 0] (m ((c : Thread Cert.ReferenceIdeal.nD Cert.ReferenceIdeal.τ).loc Cert.ReferenceIdeal.main_arg24) : Cert.ReferenceIdeal.S256x128.Idx → Elt Ideal .f32) Cert.ReferenceIdeal.Facts₀.slices_S256x128_S128x128_128_0)
      (shapeCast Cert.ReferenceIdeal.S1x128 (m ((c : Thread Cert.ReferenceIdeal.nD Cert.ReferenceIdeal.τ).loc Cert.ReferenceIdeal.main_arg25) : Cert.ReferenceIdeal.S128.Idx → Elt Ideal .f32) Cert.ReferenceIdeal.Facts₀.shapeCasts_S128_S1x128) := by
  rw [flushed10, hR1, bh1_0, bh1_1, flushed0_eq m ρ hR0, bh1_2, bh1_3, bh1_4, bh1_5, bh1_6, bh1_7, bh1_8, bh1_9]

/-- The same, with the argument arrays named: for a launch memory holding `a0 … a25` at the arguments. -/
theorem flushed1_eq_of (hR0 : HR0) (hR1 : HR1) (c : Dev nD) (t : Fin cfg1.N)
    (a0 : Cert.ReferenceIdeal.S64x1024x128.Idx → Elt Ideal .f32) (a1 : Cert.ReferenceIdeal.S128.Idx → Elt Ideal .f32) (a2 : Cert.ReferenceIdeal.S128.Idx → Elt Ideal .f32) (a3 : Cert.ReferenceIdeal.S128.Idx → Elt Ideal .f32) (a4 : Cert.ReferenceIdeal.S128.Idx → Elt Ideal .f32) (a5 : Cert.ReferenceIdeal.S5x5x128.Idx → Elt Ideal .f32) (a6 : Cert.ReferenceIdeal.S5x5x128.Idx → Elt Ideal .f32) (a7 : Cert.ReferenceIdeal.S128x128.Idx → Elt Ideal .f32) (a8 : Cert.ReferenceIdeal.S128x128.Idx → Elt Ideal .f32) (a9 : Cert.ReferenceIdeal.S128x128.Idx → Elt Ideal .f32) (a10 : Cert.ReferenceIdeal.S1x128.Idx → Elt Ideal .f32) (a11 : Cert.ReferenceIdeal.S1x128.Idx → Elt Ideal .f32) (a12 : Cert.ReferenceIdeal.S1x128.Idx → Elt Ideal .f32) (a13 : Cert.ReferenceIdeal.S3x3x128.Idx → Elt Ideal .f32) (a14 : Cert.ReferenceIdeal.S1x1x128.Idx → Elt Ideal .f32) (a15 : Cert.ReferenceIdeal.S128x128.Idx → Elt Ideal .f32) (a16 : Cert.ReferenceIdeal.S1x128.Idx → Elt Ideal .f32) (a17 : Cert.ReferenceIdeal.S128x512.Idx → Elt Ideal .f32) (a18 : Cert.ReferenceIdeal.S512x128.Idx → Elt Ideal .f32) (a19 : Cert.ReferenceIdeal.S128x128.Idx → Elt Ideal .f32) (a20 : Cert.ReferenceIdeal.S3x3x256x128.Idx → Elt Ideal .f32) (a21 : Cert.ReferenceIdeal.S128.Idx → Elt Ideal .f32) (a22 : Cert.ReferenceIdeal.S3x3x128x128.Idx → Elt Ideal .f32) (a23 : Cert.ReferenceIdeal.S128.Idx → Elt Ideal .f32) (a24 : Cert.ReferenceIdeal.S256x128.Idx → Elt Ideal .f32) (a25 : Cert.ReferenceIdeal.S128.Idx → Elt Ideal .f32)
    (e0 : m ((c : Thread Cert.ReferenceIdeal.nD Cert.ReferenceIdeal.τ).loc Cert.ReferenceIdeal.main_arg0) = a0) (e1 : m ((c : Thread Cert.ReferenceIdeal.nD Cert.ReferenceIdeal.τ).loc Cert.ReferenceIdeal.main_arg1) = a1) (e2 : m ((c : Thread Cert.ReferenceIdeal.nD Cert.ReferenceIdeal.τ).loc Cert.ReferenceIdeal.main_arg2) = a2) (e3 : m ((c : Thread Cert.ReferenceIdeal.nD Cert.ReferenceIdeal.τ).loc Cert.ReferenceIdeal.main_arg3) = a3) (e4 : m ((c : Thread Cert.ReferenceIdeal.nD Cert.ReferenceIdeal.τ).loc Cert.ReferenceIdeal.main_arg4) = a4) (e5 : m ((c : Thread Cert.ReferenceIdeal.nD Cert.ReferenceIdeal.τ).loc Cert.ReferenceIdeal.main_arg5) = a5) (e6 : m ((c : Thread Cert.ReferenceIdeal.nD Cert.ReferenceIdeal.τ).loc Cert.ReferenceIdeal.main_arg6) = a6) (e7 : m ((c : Thread Cert.ReferenceIdeal.nD Cert.ReferenceIdeal.τ).loc Cert.ReferenceIdeal.main_arg7) = a7) (e8 : m ((c : Thread Cert.ReferenceIdeal.nD Cert.ReferenceIdeal.τ).loc Cert.ReferenceIdeal.main_arg8) = a8) (e9 : m ((c : Thread Cert.ReferenceIdeal.nD Cert.ReferenceIdeal.τ).loc Cert.ReferenceIdeal.main_arg9) = a9) (e10 : m ((c : Thread Cert.ReferenceIdeal.nD Cert.ReferenceIdeal.τ).loc Cert.ReferenceIdeal.main_arg10) = a10) (e11 : m ((c : Thread Cert.ReferenceIdeal.nD Cert.ReferenceIdeal.τ).loc Cert.ReferenceIdeal.main_arg11) = a11) (e12 : m ((c : Thread Cert.ReferenceIdeal.nD Cert.ReferenceIdeal.τ).loc Cert.ReferenceIdeal.main_arg12) = a12) (e13 : m ((c : Thread Cert.ReferenceIdeal.nD Cert.ReferenceIdeal.τ).loc Cert.ReferenceIdeal.main_arg13) = a13) (e14 : m ((c : Thread Cert.ReferenceIdeal.nD Cert.ReferenceIdeal.τ).loc Cert.ReferenceIdeal.main_arg14) = a14) (e15 : m ((c : Thread Cert.ReferenceIdeal.nD Cert.ReferenceIdeal.τ).loc Cert.ReferenceIdeal.main_arg15) = a15) (e16 : m ((c : Thread Cert.ReferenceIdeal.nD Cert.ReferenceIdeal.τ).loc Cert.ReferenceIdeal.main_arg16) = a16) (e17 : m ((c : Thread Cert.ReferenceIdeal.nD Cert.ReferenceIdeal.τ).loc Cert.ReferenceIdeal.main_arg17) = a17) (e18 : m ((c : Thread Cert.ReferenceIdeal.nD Cert.ReferenceIdeal.τ).loc Cert.ReferenceIdeal.main_arg18) = a18) (e19 : m ((c : Thread Cert.ReferenceIdeal.nD Cert.ReferenceIdeal.τ).loc Cert.ReferenceIdeal.main_arg19) = a19) (e20 : m ((c : Thread Cert.ReferenceIdeal.nD Cert.ReferenceIdeal.τ).loc Cert.ReferenceIdeal.main_arg20) = a20) (e21 : m ((c : Thread Cert.ReferenceIdeal.nD Cert.ReferenceIdeal.τ).loc Cert.ReferenceIdeal.main_arg21) = a21) (e22 : m ((c : Thread Cert.ReferenceIdeal.nD Cert.ReferenceIdeal.τ).loc Cert.ReferenceIdeal.main_arg22) = a22) (e23 : m ((c : Thread Cert.ReferenceIdeal.nD Cert.ReferenceIdeal.τ).loc Cert.ReferenceIdeal.main_arg23) = a23) (e24 : m ((c : Thread Cert.ReferenceIdeal.nD Cert.ReferenceIdeal.τ).loc Cert.ReferenceIdeal.main_arg24) = a24) (e25 : m ((c : Thread Cert.ReferenceIdeal.nD Cert.ReferenceIdeal.τ).loc Cert.ReferenceIdeal.main_arg25) = a25) :
    (Run.dat1 (Run.V3 (F := Ideal) m ρ) c).flushed 10 t = Lit.out1 (F := Ideal) c (fun y : S1x32x32x128.Idx => (shapeCast S64x32x32x128 a0 Facts₀.shapeCasts_S64x1024x128_S64x32x32x128 : S64x32x32x128.Idx → Elt Ideal .f32) (img t.val (lt64_1 t) y))
      (Lit.out0 (F := Ideal) c (fun y : S1x32x32x128.Idx => (shapeCast S64x32x32x128 a0 Facts₀.shapeCasts_S64x1024x128_S64x32x32x128 : S64x32x32x128.Idx → Elt Ideal .f32) (img (to0 t).val (lt64_0 (to0 t)) y))
        (shapeCast Cert.ReferenceIdeal.S1x1x128 a1 Cert.ReferenceIdeal.Facts₀.shapeCasts_S128_S1x1x128)
        a5
        a7
        a8
        a9
        a10
        a11
        a12
        a13
        a14
        a15
        a16
        (shapeCast Cert.ReferenceIdeal.S1x1x128 a3 Cert.ReferenceIdeal.Facts₀.shapeCasts_S128_S1x1x128)
        (shapeCast Cert.ReferenceIdeal.S1x1x128 a2 Cert.ReferenceIdeal.Facts₀.shapeCasts_S128_S1x1x128)
        a6
        a17
        a18
        a19
        (shapeCast Cert.ReferenceIdeal.S1x1x128 a4 Cert.ReferenceIdeal.Facts₀.shapeCasts_S128_S1x1x128))
      (extractStridedSlice Cert.ReferenceIdeal.S3x3x128x128 ![0, 0, 0, 0] a20 Cert.ReferenceIdeal.Facts₀.slices_S3x3x256x128_S3x3x128x128_0_0_0_0)
      (extractStridedSlice Cert.ReferenceIdeal.S3x3x128x128 ![0, 0, 128, 0] a20 Cert.ReferenceIdeal.Facts₀.slices_S3x3x256x128_S3x3x128x128_0_0_128_0)
      (shapeCast Cert.ReferenceIdeal.S1x128 a21 Cert.ReferenceIdeal.Facts₀.shapeCasts_S128_S1x128)
      a22
      (shapeCast Cert.ReferenceIdeal.S1x128 a23 Cert.ReferenceIdeal.Facts₀.shapeCasts_S128_S1x128)
      (extractStridedSlice Cert.ReferenceIdeal.S128x128 ![0, 0] a24 Cert.ReferenceIdeal.Facts₀.slices_S256x128_S128x128_0_0)
      (extractStridedSlice Cert.ReferenceIdeal.S128x128 ![128, 0] a24 Cert.ReferenceIdeal.Facts₀.slices_S256x128_S128x128_128_0)
      (shapeCast Cert.ReferenceIdeal.S1x128 a25 Cert.ReferenceIdeal.Facts₀.shapeCasts_S128_S1x128) := by
  subst e0 e1 e2 e3 e4 e5 e6 e7 e8 e9 e10 e11 e12 e13 e14 e15 e16 e17 e18 e19 e20 e21 e22 e23 e24 e25
  exact flushed1_eq m ρ hR0 hR1 c t

end Cert.Bridge.R

end
-- ==== Proof.BridgeStmt.lean ====
/-
  The statement that joins the two programs' arithmetic: the fused kernel's output block, as a function of one image block and of
  the operands its host side prepares from the argument arrays (reshapes, the concatenated and truncated projection weights and
  biases, the truncated matmul weights, the two halves of the sliced convolution and shortcut weights), equals the reference's
  second kernel's output block at the same image, at the first kernel's output block and at the operands the reference's host
  side prepares from the same argument arrays. It is stated here, apart from its proof and from the runs, so that the assembly
  and the proof of the equality meet at one text.
-/
import proofs.«120724_g2000406006432562_pallasbulk_1270_2_alg».proof.Proof.KernelIdealLit
import proofs.«120724_g2000406006432562_pallasbulk_1270_2_alg».proof.Proof.RefLit
import Idealize.ShloMosaic.PureOps.Ideal

noncomputable section

namespace Cert.Bridge

open Idealize.ShloMosaic Idealize.ShloMosaic.TcCoe Idealize.SL.Sem

/-- The core equality: at every device, for every image block `X` and all argument arrays, the fused kernel's output block at
    its host-prepared operands is the reference's second output block at the first one and at its own host-prepared operands. -/
def CoreEq : Prop :=
  ∀ (c : Dev Cert.KernelIdeal.nD) (X : Cert.KernelIdeal.S1x32x32x128.Idx → Elt Ideal .f32)
    (a1 : Cert.KernelIdeal.S128.Idx → Elt Ideal .f32) (a2 : Cert.KernelIdeal.S128.Idx → Elt Ideal .f32) (a3 : Cert.KernelIdeal.S128.Idx → Elt Ideal .f32) (a4 : Cert.KernelIdeal.S128.Idx → Elt Ideal .f32) (a5 : Cert.KernelIdeal.S5x5x128.Idx → Elt Ideal .f32) (a6 : Cert.KernelIdeal.S5x5x128.Idx → Elt Ideal .f32) (a7 : Cert.KernelIdeal.S128x128.Idx → Elt Ideal .f32) (a8 : Cert.KernelIdeal.S128x128.Idx → Elt Ideal .f32) (a9 : Cert.KernelIdeal.S128x128.Idx → Elt Ideal .f32) (a10 : Cert.KernelIdeal.S1x128.Idx → Elt Ideal .f32) (a11 : Cert.KernelIdeal.S1x128.Idx → Elt Ideal .f32) (a12 : Cert.KernelIdeal.S1x128.Idx → Elt Ideal .f32) (a13 : Cert.KernelIdeal.S3x3x128.Idx → Elt Ideal .f32) (a14 : Cert.KernelIdeal.S1x1x128.Idx → Elt Ideal .f32) (a15 : Cert.KernelIdeal.S128x128.Idx → Elt Ideal .f32) (a16 : Cert.KernelIdeal.S1x128.Idx → Elt Ideal .f32) (a17 : Cert.KernelIdeal.S128x512.Idx → Elt Ideal .f32) (a18 : Cert.KernelIdeal.S512x128.Idx → Elt Ideal .f32) (a19 : Cert.KernelIdeal.S128x128.Idx → Elt Ideal .f32) (a20 : Cert.KernelIdeal.S3x3x256x128.Idx → Elt Ideal .f32) (a21 : Cert.KernelIdeal.S128.Idx → Elt Ideal .f32) (a22 : Cert.KernelIdeal.S3x3x128x128.Idx → Elt Ideal .f32) (a23 : Cert.KernelIdeal.S128.Idx → Elt Ideal .f32) (a24 : Cert.KernelIdeal.S256x128.Idx → Elt Ideal .f32) (a25 : Cert.KernelIdeal.S128.Idx → Elt Ideal .f32),
    Cert.KernelIdeal.Lit.out (F := Ideal) c X
      (shapeCast Cert.KernelIdeal.S1x1x128 a1 Cert.KernelIdeal.Facts₀.shapeCasts_S128_S1x1x128)
      a5
      (truncf (F := Ideal) .bf16 (concatenate Cert.KernelIdeal.S128x384 1 [⟨Cert.KernelIdeal.S128x128, a7⟩, ⟨Cert.KernelIdeal.S128x128, a8⟩, ⟨Cert.KernelIdeal.S128x128, a9⟩] Cert.KernelIdeal.Facts₀.concatenates_S128x128_S128x128_S128x128_S128x384_d1) Cert.KernelIdeal.Facts₀.bitsLt_bf16_f32)
      (concatenate Cert.KernelIdeal.S1x384 1 [⟨Cert.KernelIdeal.S1x128, a10⟩, ⟨Cert.KernelIdeal.S1x128, a11⟩, ⟨Cert.KernelIdeal.S1x128, a12⟩] Cert.KernelIdeal.Facts₀.concatenates_S1x128_S1x128_S1x128_S1x384_d1)
      a13
      a14
      (truncf (F := Ideal) .bf16 a15 Cert.KernelIdeal.Facts₀.bitsLt_bf16_f32)
      a16
      (shapeCast Cert.KernelIdeal.S1x1x128 a3 Cert.KernelIdeal.Facts₀.shapeCasts_S128_S1x1x128)
      (shapeCast Cert.KernelIdeal.S1x1x128 a2 Cert.KernelIdeal.Facts₀.shapeCasts_S128_S1x1x128)
      a6
      (truncf (F := Ideal) .bf16 a17 Cert.KernelIdeal.Facts₀.bitsLt_bf16_f32)
      (truncf (F := Ideal) .bf16 a18 Cert.KernelIdeal.Facts₀.bitsLt_bf16_f32)
      (truncf (F := Ideal) .bf16 a19 Cert.KernelIdeal.Facts₀.bitsLt_bf16_f32)
      (shapeCast Cert.KernelIdeal.S1x1x128 a4 Cert.KernelIdeal.Facts₀.shapeCasts_S128_S1x1x128)
      (truncf (F := Ideal) .bf16 (extractStridedSlice Cert.KernelIdeal.S3x3x128x128 ![0, 0, 0, 0] a20 Cert.KernelIdeal.Facts₀.slices_S3x3x256x128_S3x3x128x128_0_0_0_0) Cert.KernelIdeal.Facts₀.bitsLt_bf16_f32)
      (truncf (F := Ideal) .bf16 (extractStridedSlice Cert.KernelIdeal.S3x3x128x128 ![0, 0, 128, 0] a20 Cert.KernelIdeal.Facts₀.slices_S3x3x256x128_S3x3x128x128_0_0_128_0) Cert.KernelIdeal.Facts₀.bitsLt_bf16_f32)
      (shapeCast Cert.KernelIdeal.S1x128 a21 Cert.KernelIdeal.Facts₀.shapeCasts_S128_S1x128)
      (truncf (F := Ideal) .bf16 a22 Cert.KernelIdeal.Facts₀.bitsLt_bf16_f32)
      (shapeCast Cert.KernelIdeal.S1x128 a23 Cert.KernelIdeal.Facts₀.shapeCasts_S128_S1x128)
      (truncf (F := Ideal) .bf16 (extractStridedSlice Cert.KernelIdeal.S128x128 ![0, 0] a24 Cert.KernelIdeal.Facts₀.slices_S256x128_S128x128_0_0) Cert.KernelIdeal.Facts₀.bitsLt_bf16_f32)
      (truncf (F := Ideal) .bf16 (extractStridedSlice Cert.KernelIdeal.S128x128 ![128, 0] a24 Cert.KernelIdeal.Facts₀.slices_S256x128_S128x128_128_0) Cert.KernelIdeal.Facts₀.bitsLt_bf16_f32)
      (shapeCast Cert.KernelIdeal.S1x128 a25 Cert.KernelIdeal.Facts₀.shapeCasts_S128_S1x128)
    = Cert.ReferenceIdeal.Lit.out1 (F := Ideal) c X
        (Cert.ReferenceIdeal.Lit.out0 (F := Ideal) c X
          (shapeCast Cert.ReferenceIdeal.S1x1x128 a1 Cert.ReferenceIdeal.Facts₀.shapeCasts_S128_S1x1x128)
          a5
          a7
          a8
          a9
          a10
          a11
          a12
          a13
          a14
          a15
          a16
          (shapeCast Cert.ReferenceIdeal.S1x1x128 a3 Cert.ReferenceIdeal.Facts₀.shapeCasts_S128_S1x1x128)
          (shapeCast Cert.ReferenceIdeal.S1x1x128 a2 Cert.ReferenceIdeal.Facts₀.shapeCasts_S128_S1x1x128)
          a6
          a17
          a18
          a19
          (shapeCast Cert.ReferenceIdeal.S1x1x128 a4 Cert.ReferenceIdeal.Facts₀.shapeCasts_S128_S1x1x128))
        (extractStridedSlice Cert.ReferenceIdeal.S3x3x128x128 ![0, 0, 0, 0] a20 Cert.ReferenceIdeal.Facts₀.slices_S3x3x256x128_S3x3x128x128_0_0_0_0)
        (extractStridedSlice Cert.ReferenceIdeal.S3x3x128x128 ![0, 0, 128, 0] a20 Cert.ReferenceIdeal.Facts₀.slices_S3x3x256x128_S3x3x128x128_0_0_128_0)
        (shapeCast Cert.ReferenceIdeal.S1x128 a21 Cert.ReferenceIdeal.Facts₀.shapeCasts_S128_S1x128)
        a22
        (shapeCast Cert.ReferenceIdeal.S1x128 a23 Cert.ReferenceIdeal.Facts₀.shapeCasts_S128_S1x128)
        (extractStridedSlice Cert.ReferenceIdeal.S128x128 ![0, 0] a24 Cert.ReferenceIdeal.Facts₀.slices_S256x128_S128x128_0_0)
        (extractStridedSlice Cert.ReferenceIdeal.S128x128 ![128, 0] a24 Cert.ReferenceIdeal.Facts₀.slices_S256x128_S128x128_128_0)
        (shapeCast Cert.ReferenceIdeal.S1x128 a25 Cert.ReferenceIdeal.Facts₀.shapeCasts_S128_S1x128)

end Cert.Bridge

end
-- ==== Proof.Bridge.lean ====
/-
  The assembly: from the two value-carrying runs to the claim that the fused kernel and the reference end with equal results.
  Both results are the last reshape of an output array of sixty-four images, and two such arrays are equal when they are equal
  image by image. Image t of the kernel's output array is what its grid point t wrote back, the kernel's block function at image
  t of the reshaped input and at the operands its host side prepares; image t of the reference's output array is what its
  second region's point t wrote back, the second block function at the same image, at what the first region's point t wrote
  back (the first block function at that image and the first region's operands), and at the second region's operands. The two
  programs start from memories that agree on the arguments, so both sides are functions of the same argument arrays, and the
  core equality between the block functions joins them. The three facts about the bodies (each output block is the block
  function of the input blocks) and the core equality are taken as hypotheses here.
-/
import proofs.«120724_g2000406006432562_pallasbulk_1270_2_alg».proof.Proof.BridgeK
import proofs.«120724_g2000406006432562_pallasbulk_1270_2_alg».proof.Proof.BridgeR
import proofs.«120724_g2000406006432562_pallasbulk_1270_2_alg».proof.Proof.BridgeStmt
import proofs.«120724_g2000406006432562_pallasbulk_1270_2_alg».proof.Defs
import proofs.«120724_g2000406006432562_pallasbulk_1270_2_alg».proof.Proof.Gen.Pre_finite_inputs

set_option maxRecDepth 16384

noncomputable section

namespace Cert.Bridge

open Idealize.ShloMosaic Idealize.ShloMosaic.TcCoe Idealize.SL.Sem

variable (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg)

/-- The two launch memories agree on every argument array. -/
def Agree : Prop :=
  ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)

/-- The same grid point, of the reference's second region. -/
def to1 (t : Fin Cert.KernelIdeal.cfg0.N) : Fin Cert.ReferenceIdeal.cfg1.N :=
  ⟨t.val, by have h : Cert.ReferenceIdeal.cfg1.N = 64 := Cert.ReferenceIdeal.Gen.N_1; have := K.lt64 t; omega⟩

/-- The two output arrays are equal: they are equal image by image. -/
theorem arr_eq (hagree : Agree m m') (hK : K.HK) (hR0 : R.HR0) (hR1 : R.HR1) (hcore : CoreEq) (c : Dev Cert.KernelIdeal.nD) :
    (Cert.KernelIdeal.Run.dat0 (Cert.KernelIdeal.Run.V1 (F := Ideal) m g) c).arrAt 24 Cert.KernelIdeal.cfg0.N
      = ((Cert.ReferenceIdeal.Run.dat1 (Cert.ReferenceIdeal.Run.V3 (F := Ideal) m' g') c).arrAt 10 Cert.ReferenceIdeal.cfg1.N : SBatch.Idx → Elt Ideal .f32) := by
  refine Cert.KernelIdeal.Blocks.arrAt24_cfg0_eq (Cert.KernelIdeal.Run.dat0 (Cert.KernelIdeal.Run.V1 (F := Ideal) m g) c) _ (fun t => ?_)
  rw [K.read24 c _ t, K.flushed_eq m g hK c t]
  have e : (fun y : SImg.Idx => ((Cert.ReferenceIdeal.Run.dat1 (Cert.ReferenceIdeal.Run.V3 (F := Ideal) m' g') c).arrAt 10 Cert.ReferenceIdeal.cfg1.N : SBatch.Idx → Elt Ideal .f32) (img t.val (K.lt64 t) y))
      = (Cert.ReferenceIdeal.Run.dat1 (Cert.ReferenceIdeal.Run.V3 (F := Ideal) m' g') c).flushed 10 (to1 t) := by
    rw [← Cert.ReferenceIdeal.Blocks.blocks10_cfg1 (Cert.ReferenceIdeal.Run.dat1 (Cert.ReferenceIdeal.Run.V3 (F := Ideal) m' g') c) (to1 t), R.read10 c _ (to1 t)]
    rfl
  refine Eq.trans ?_ e.symm
  obtain ⟨h0, h1, h2, h3, h4, h5, h6, h7, h8, h9, h10, h11, h12, h13, h14, h15, h16, h17, h18, h19, h20, h21, h22, h23, h24, h25⟩ := hagree c
  rw [R.flushed1_eq_of m' g' hR0 hR1 c (to1 t) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))
    h0 h1 h2 h3 h4 h5 h6 h7 h8 h9 h10 h11 h12 h13 h14 h15 h16 h17 h18 h19 h20 h21 h22 h23 h24 h25]
  exact hcore c _ (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))

/-- The two results are equal. -/
theorem result_eq (hagree : Agree m m') (hK : K.HK) (hR0 : R.HR0) (hR1 : R.HR1) (hcore : CoreEq) (c : Dev Cert.KernelIdeal.nD) :
    Cert.ReferenceIdeal.Run.W5 (F := Ideal) m' g' c (Proc.devRef .tc Cert.ReferenceIdeal.main_v14) = Cert.KernelIdeal.Run.W3 (F := Ideal) m g c (Proc.devRef .tc Cert.KernelIdeal.main_v25) := by
  rw [R.result m' g' c, K.result m g c, arr_eq m g m' g' hagree hK hR0 hR1 hcore c]

/-- The claim, from the three facts about the bodies and the core equality: the kernel's run with its result named, and the
    reference's run with its result rewritten to the same contents. -/
theorem algebraic_of (hK : K.HK) (hR0 : R.HR0) (hR1 : R.HR1) (hcore : CoreEq) : Cert.algebraic_KernelIdeal_ReferenceIdeal :=
  fun m g m' g' _ hagree => ⟨fun c => Cert.KernelIdeal.Run.W3 (F := Ideal) m g c (Proc.devRef .tc Cert.KernelIdeal.main_v25),
    (θ_run Cert.KernelIdeal.defs _ _).mono (fun r h c => ⟨h c _ (Cert.KernelIdeal.Run.mem_uc Cert.KernelIdeal.main_v25 (by decide)),
      (h c _ (Cert.KernelIdeal.Run.mem_uc Cert.KernelIdeal.main_arg0 (by decide))).trans (Cert.KernelIdeal.Run.W3_main_arg0 m g c),
      (h c _ (Cert.KernelIdeal.Run.mem_uc Cert.KernelIdeal.main_arg1 (by decide))).trans (Cert.KernelIdeal.Run.W3_main_arg1 m g c),
      (h c _ (Cert.KernelIdeal.Run.mem_uc Cert.KernelIdeal.main_arg2 (by decide))).trans (Cert.KernelIdeal.Run.W3_main_arg2 m g c),
      (h c _ (Cert.KernelIdeal.Run.mem_uc Cert.KernelIdeal.main_arg3 (by decide))).trans (Cert.KernelIdeal.Run.W3_main_arg3 m g c),
      (h c _ (Cert.KernelIdeal.Run.mem_uc Cert.KernelIdeal.main_arg4 (by decide))).trans (Cert.KernelIdeal.Run.W3_main_arg4 m g c),
      (h c _ (Cert.KernelIdeal.Run.mem_uc Cert.KernelIdeal.main_arg5 (by decide))).trans (Cert.KernelIdeal.Run.W3_main_arg5 m g c),
      (h c _ (Cert.KernelIdeal.Run.mem_uc Cert.KernelIdeal.main_arg6 (by decide))).trans (Cert.KernelIdeal.Run.W3_main_arg6 m g c),
      (h c _ (Cert.KernelIdeal.Run.mem_uc Cert.KernelIdeal.main_arg7 (by decide))).trans (Cert.KernelIdeal.Run.W3_main_arg7 m g c),
      (h c _ (Cert.KernelIdeal.Run.mem_uc Cert.KernelIdeal.main_arg8 (by decide))).trans (Cert.KernelIdeal.Run.W3_main_arg8 m g c),
      (h c _ (Cert.KernelIdeal.Run.mem_uc Cert.KernelIdeal.main_arg9 (by decide))).trans (Cert.KernelIdeal.Run.W3_main_arg9 m g c),
      (h c _ (Cert.KernelIdeal.Run.mem_uc Cert.KernelIdeal.main_arg10 (by decide))).trans (Cert.KernelIdeal.Run.W3_main_arg10 m g c),
      (h c _ (Cert.KernelIdeal.Run.mem_uc Cert.KernelIdeal.main_arg11 (by decide))).trans (Cert.KernelIdeal.Run.W3_main_arg11 m g c),
      (h c _ (Cert.KernelIdeal.Run.mem_uc Cert.KernelIdeal.main_arg12 (by decide))).trans (Cert.KernelIdeal.Run.W3_main_arg12 m g c),
      (h c _ (Cert.KernelIdeal.Run.mem_uc Cert.KernelIdeal.main_arg13 (by decide))).trans (Cert.KernelIdeal.Run.W3_main_arg13 m g c),
      (h c _ (Cert.KernelIdeal.Run.mem_uc Cert.KernelIdeal.main_arg14 (by decide))).trans (Cert.KernelIdeal.Run.W3_main_arg14 m g c),
      (h c _ (Cert.KernelIdeal.Run.mem_uc Cert.KernelIdeal.main_arg15 (by decide))).trans (Cert.KernelIdeal.Run.W3_main_arg15 m g c),
      (h c _ (Cert.KernelIdeal.Run.mem_uc Cert.KernelIdeal.main_arg16 (by decide))).trans (Cert.KernelIdeal.Run.W3_main_arg16 m g c),
      (h c _ (Cert.KernelIdeal.Run.mem_uc Cert.KernelIdeal.main_arg17 (by decide))).trans (Cert.KernelIdeal.Run.W3_main_arg17 m g c),
      (h c _ (Cert.KernelIdeal.Run.mem_uc Cert.KernelIdeal.main_arg18 (by decide))).trans (Cert.KernelIdeal.Run.W3_main_arg18 m g c),
      (h c _ (Cert.KernelIdeal.Run.mem_uc Cert.KernelIdeal.main_arg19 (by decide))).trans (Cert.KernelIdeal.Run.W3_main_arg19 m g c),
      (h c _ (Cert.KernelIdeal.Run.mem_uc Cert.KernelIdeal.main_arg20 (by decide))).trans (Cert.KernelIdeal.Run.W3_main_arg20 m g c),
      (h c _ (Cert.KernelIdeal.Run.mem_uc Cert.KernelIdeal.main_arg21 (by decide))).trans (Cert.KernelIdeal.Run.W3_main_arg21 m g c),
      (h c _ (Cert.KernelIdeal.Run.mem_uc Cert.KernelIdeal.main_arg22 (by decide))).trans (Cert.KernelIdeal.Run.W3_main_arg22 m g c),
      (h c _ (Cert.KernelIdeal.Run.mem_uc Cert.KernelIdeal.main_arg23 (by decide))).trans (Cert.KernelIdeal.Run.W3_main_arg23 m g c),
      (h c _ (Cert.KernelIdeal.Run.mem_uc Cert.KernelIdeal.main_arg24 (by decide))).trans (Cert.KernelIdeal.Run.W3_main_arg24 m g c),
      (h c _ (Cert.KernelIdeal.Run.mem_uc Cert.KernelIdeal.main_arg25 (by decide))).trans (Cert.KernelIdeal.Run.W3_main_arg25 m g c)⟩) (Cert.KernelIdeal.Run.run_main m g),
    (θ_run Cert.ReferenceIdeal.defs _ _).mono (fun r h c => ⟨(h c _ (Cert.ReferenceIdeal.Run.mem_uc Cert.ReferenceIdeal.main_v14 (by decide))).trans (result_eq m g m' g' hagree hK hR0 hR1 hcore c),
      (h c _ (Cert.ReferenceIdeal.Run.mem_uc Cert.ReferenceIdeal.main_arg0 (by decide))).trans (Cert.ReferenceIdeal.Run.W5_main_arg0 m' g' c),
      (h c _ (Cert.ReferenceIdeal.Run.mem_uc Cert.ReferenceIdeal.main_arg1 (by decide))).trans (Cert.ReferenceIdeal.Run.W5_main_arg1 m' g' c),
      (h c _ (Cert.ReferenceIdeal.Run.mem_uc Cert.ReferenceIdeal.main_arg2 (by decide))).trans (Cert.ReferenceIdeal.Run.W5_main_arg2 m' g' c),
      (h c _ (Cert.ReferenceIdeal.Run.mem_uc Cert.ReferenceIdeal.main_arg3 (by decide))).trans (Cert.ReferenceIdeal.Run.W5_main_arg3 m' g' c),
      (h c _ (Cert.ReferenceIdeal.Run.mem_uc Cert.ReferenceIdeal.main_arg4 (by decide))).trans (Cert.ReferenceIdeal.Run.W5_main_arg4 m' g' c),
      (h c _ (Cert.ReferenceIdeal.Run.mem_uc Cert.ReferenceIdeal.main_arg5 (by decide))).trans (Cert.ReferenceIdeal.Run.W5_main_arg5 m' g' c),
      (h c _ (Cert.ReferenceIdeal.Run.mem_uc Cert.ReferenceIdeal.main_arg6 (by decide))).trans (Cert.ReferenceIdeal.Run.W5_main_arg6 m' g' c),
      (h c _ (Cert.ReferenceIdeal.Run.mem_uc Cert.ReferenceIdeal.main_arg7 (by decide))).trans (Cert.ReferenceIdeal.Run.W5_main_arg7 m' g' c),
      (h c _ (Cert.ReferenceIdeal.Run.mem_uc Cert.ReferenceIdeal.main_arg8 (by decide))).trans (Cert.ReferenceIdeal.Run.W5_main_arg8 m' g' c),
      (h c _ (Cert.ReferenceIdeal.Run.mem_uc Cert.ReferenceIdeal.main_arg9 (by decide))).trans (Cert.ReferenceIdeal.Run.W5_main_arg9 m' g' c),
      (h c _ (Cert.ReferenceIdeal.Run.mem_uc Cert.ReferenceIdeal.main_arg10 (by decide))).trans (Cert.ReferenceIdeal.Run.W5_main_arg10 m' g' c),
      (h c _ (Cert.ReferenceIdeal.Run.mem_uc Cert.ReferenceIdeal.main_arg11 (by decide))).trans (Cert.ReferenceIdeal.Run.W5_main_arg11 m' g' c),
      (h c _ (Cert.ReferenceIdeal.Run.mem_uc Cert.ReferenceIdeal.main_arg12 (by decide))).trans (Cert.ReferenceIdeal.Run.W5_main_arg12 m' g' c),
      (h c _ (Cert.ReferenceIdeal.Run.mem_uc Cert.ReferenceIdeal.main_arg13 (by decide))).trans (Cert.ReferenceIdeal.Run.W5_main_arg13 m' g' c),
      (h c _ (Cert.ReferenceIdeal.Run.mem_uc Cert.ReferenceIdeal.main_arg14 (by decide))).trans (Cert.ReferenceIdeal.Run.W5_main_arg14 m' g' c),
      (h c _ (Cert.ReferenceIdeal.Run.mem_uc Cert.ReferenceIdeal.main_arg15 (by decide))).trans (Cert.ReferenceIdeal.Run.W5_main_arg15 m' g' c),
      (h c _ (Cert.ReferenceIdeal.Run.mem_uc Cert.ReferenceIdeal.main_arg16 (by decide))).trans (Cert.ReferenceIdeal.Run.W5_main_arg16 m' g' c),
      (h c _ (Cert.ReferenceIdeal.Run.mem_uc Cert.ReferenceIdeal.main_arg17 (by decide))).trans (Cert.ReferenceIdeal.Run.W5_main_arg17 m' g' c),
      (h c _ (Cert.ReferenceIdeal.Run.mem_uc Cert.ReferenceIdeal.main_arg18 (by decide))).trans (Cert.ReferenceIdeal.Run.W5_main_arg18 m' g' c),
      (h c _ (Cert.ReferenceIdeal.Run.mem_uc Cert.ReferenceIdeal.main_arg19 (by decide))).trans (Cert.ReferenceIdeal.Run.W5_main_arg19 m' g' c),
      (h c _ (Cert.ReferenceIdeal.Run.mem_uc Cert.ReferenceIdeal.main_arg20 (by decide))).trans (Cert.ReferenceIdeal.Run.W5_main_arg20 m' g' c),
      (h c _ (Cert.ReferenceIdeal.Run.mem_uc Cert.ReferenceIdeal.main_arg21 (by decide))).trans (Cert.ReferenceIdeal.Run.W5_main_arg21 m' g' c),
      (h c _ (Cert.ReferenceIdeal.Run.mem_uc Cert.ReferenceIdeal.main_arg22 (by decide))).trans (Cert.ReferenceIdeal.Run.W5_main_arg22 m' g' c),
      (h c _ (Cert.ReferenceIdeal.Run.mem_uc Cert.ReferenceIdeal.main_arg23 (by decide))).trans (Cert.ReferenceIdeal.Run.W5_main_arg23 m' g' c),
      (h c _ (Cert.ReferenceIdeal.Run.mem_uc Cert.ReferenceIdeal.main_arg24 (by decide))).trans (Cert.ReferenceIdeal.Run.W5_main_arg24 m' g' c),
      (h c _ (Cert.ReferenceIdeal.Run.mem_uc Cert.ReferenceIdeal.main_arg25 (by decide))).trans (Cert.ReferenceIdeal.Run.W5_main_arg25 m' g' c)⟩) (Cert.ReferenceIdeal.Run.run_main m' g')⟩

end Cert.Bridge

end
-- ==== Proof.KernelIdealOut.lean ====
/-
  What the fused kernel leaves in its output block: the body stores the block once, through the whole-block rectangle, so the
  block read back through its (whole) staging buffer is the canonical contents of that one store.
-/
import proofs.«120724_g2000406006432562_pallasbulk_1270_2_alg».proof.Proof.KernelIdealBody
import Idealize.ShloMosaic.Lib.Pipeline.FrameBody
import Idealize.ShloMosaic.Lib.Pipeline.Value

noncomputable section

namespace Cert.KernelIdeal.Body

open Cert.KernelIdeal Cert.KernelIdeal.Gen
open Idealize.ShloMosaic Idealize.ShloMosaic.TcCoe Idealize.SL.Sem

variable {F : FTy → Type} [FloatOps F]

theorem hz4 : (![0, 0, 0, 0] : Fin 4 → Nat) = fun _ => 0 := funext fun a => by fin_cases a <;> rfl

/-- The output block read back through its whole staging buffer is the canonical contents of the body's stores into it. -/
theorem read_out (c : Dev nD) (i : grid0.Coords) (M0 : Memref sig .tc .vmem S1x32x32x128 .f32) (h0 : M0.IsWhole) (M1 : Memref sig .tc .vmem S1x1x128 .f32) (h1 : M1.IsWhole) (M2 : Memref sig .tc .vmem S5x5x128 .f32) (h2 : M2.IsWhole) (M3 : Memref sig .tc .vmem S128x384 .bf16) (h3 : M3.IsWhole) (M4 : Memref sig .tc .vmem S1x384 .f32) (h4 : M4.IsWhole) (M5 : Memref sig .tc .vmem S3x3x128 .f32) (h5 : M5.IsWhole) (M6 : Memref sig .tc .vmem S1x1x128 .f32) (h6 : M6.IsWhole) (M7 : Memref sig .tc .vmem S128x128 .bf16) (h7 : M7.IsWhole) (M8 : Memref sig .tc .vmem S1x128 .f32) (h8 : M8.IsWhole) (M9 : Memref sig .tc .vmem S1x1x128 .f32) (h9 : M9.IsWhole) (M10 : Memref sig .tc .vmem S1x1x128 .f32) (h10 : M10.IsWhole) (M11 : Memref sig .tc .vmem S5x5x128 .f32) (h11 : M11.IsWhole) (M12 : Memref sig .tc .vmem S128x512 .bf16) (h12 : M12.IsWhole) (M13 : Memref sig .tc .vmem S512x128 .bf16) (h13 : M13.IsWhole) (M14 : Memref sig .tc .vmem S128x128 .bf16) (h14 : M14.IsWhole) (M15 : Memref sig .tc .vmem S1x1x128 .f32) (h15 : M15.IsWhole) (M16 : Memref sig .tc .vmem S3x3x128x128 .bf16) (h16 : M16.IsWhole) (M17 : Memref sig .tc .vmem S3x3x128x128 .bf16) (h17 : M17.IsWhole) (M18 : Memref sig .tc .vmem S1x128 .f32) (h18 : M18.IsWhole) (M19 : Memref sig .tc .vmem S3x3x128x128 .bf16) (h19 : M19.IsWhole) (M20 : Memref sig .tc .vmem S1x128 .f32) (h20 : M20.IsWhole) (M21 : Memref sig .tc .vmem S128x128 .bf16) (h21 : M21.IsWhole) (M22 : Memref sig .tc .vmem S128x128 .bf16) (h22 : M22.IsWhole) (M23 : Memref sig .tc .vmem S1x128 .f32) (h23 : M23.IsWhole) (M24 : Memref sig .tc .vmem S1x32x32x128 .f32) (h24 : M24.IsWhole) (M25 : Memref sig .tc .vmem S36x36x128 .f32) (h25 : M25.IsWhole) (M26 : Memref sig .tc .vmem S34x34x128 .bf16) (h26 : M26.IsWhole) (M27 : Memref sig .tc .vmem S16x10x10x128 .f32) (h27 : M27.IsWhole) (M28 : Memref sig .tc .vmem S32x32x128 .f32) (h28 : M28.IsWhole) (f0 : Bf (F := F) c M0) (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16) (f17 : Bf (F := F) c M17) (f18 : Bf (F := F) c M18) (f19 : Bf (F := F) c M19) (f20 : Bf (F := F) c M20) (f21 : Bf (F := F) c M21) (f22 : Bf (F := F) c M22) (f23 : Bf (F := F) c M23) :
    M24.view.read (Elt F) (kernelRun c i M0 h0 M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 f0 f1 f2 f3 f4 f5 f6 f7 f8 f9 f10 f11 f12 f13 f14 f15 f16 f17 f18 f19 f20 f21 f22 f23).1
      = View.canon (kernelRun.sl.H24_1 c M0 M1 M2 M3 M4 M5 M6 M7 M8 M9 M10 M11 M12 M13 M14 M15 M16 M17 M18 M19 M20 M21 M22 M23 M25 M26 M27 M28 f0 f1 f2 f3 f4 f5 f6 f7 f8 f9 f10 f11 f12 f13 f14 f15 f16 f17 f18 f19 f20 f21 f22 f23) := by
  unfold kernelRun
  dsimp only
  refine View.read_writes_eq_canon _ _ _ fun y => ?_
  unfold kernelRun.sl.H24_1
  refine ⟨_, List.mem_singleton_self _, ?_⟩
  exact View.mem_set_unit_zero hz4 inb_S1x32x32x128_S1x32x32x128_0_0_0_0 y

end Cert.KernelIdeal.Body

end
-- ==== Proof.KernelIdealBlk.lean ====
/-
  The fused kernel, block by block: what its run leaves in the output block at a grid point is the kernel's block-level term
  at its input blocks there. The run is stated over the staging buffers the pipeline is in at the point; the term does not
  depend on which of a window's buffers holds a block, only on what the buffer reads.
-/
import proofs.«120724_g2000406006432562_pallasbulk_1270_2_alg».proof.Proof.KernelIdealRun
import proofs.«120724_g2000406006432562_pallasbulk_1270_2_alg».proof.Proof.KernelIdealOut
import proofs.«120724_g2000406006432562_pallasbulk_1270_2_alg».proof.Proof.KernelIdealLit
import Idealize.ShloMosaic.Lib.Pipeline.FrameBody
import Idealize.ShloMosaic.Lib.Pipeline.Value
import Idealize.ShloMosaic.Lib.Tactic

-- a window's block indices at production extents: the elaborator's structural look recurses once per coordinate
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.Sem

variable {F : FTy → Type} [FloatOps F]

/-- A double-buffered window sits in one of its two staging buffers. -/
theorem fin2_cases (s : Fin 2) : s = 0 ∨ s = 1 := by omega

-- each slot's substitution re-checks the statement's dependent types
set_option maxHeartbeats 4000000 in
/-- The fused kernel's one store, over whichever staging buffers hold its blocks and at any raw contents of them, is the
    block-level term at what those contents read: each input enters the body's term only through its own buffer's view, and a
    whole buffer's view reads its raw contents as they are. -/
theorem canon0_raw (c : Dev nD) (s0 : Fin 2) (s1 : Fin 1) (s2 : Fin 1) (s3 : Fin 1) (s4 : Fin 1) (s5 : Fin 1) (s6 : Fin 1) (s7 : Fin 1) (s8 : Fin 1) (s9 : Fin 1) (s10 : Fin 1) (s11 : Fin 1) (s12 : Fin 1) (s13 : Fin 1) (s14 : Fin 1) (s15 : Fin 1) (s16 : Fin 1) (s17 : Fin 1) (s18 : Fin 1) (s19 : Fin 1) (s20 : Fin 1) (s21 : Fin 1) (s22 : Fin 1) (s23 : Fin 1) (f0 : Body.Bf (F := F) c (stage0_0 s0)) (f1 : Body.Bf (F := F) c (stage0_1 s1)) (f2 : Body.Bf (F := F) c (stage0_2 s2)) (f3 : Body.Bf (F := F) c (stage0_3 s3)) (f4 : Body.Bf (F := F) c (stage0_4 s4)) (f5 : Body.Bf (F := F) c (stage0_5 s5)) (f6 : Body.Bf (F := F) c (stage0_6 s6)) (f7 : Body.Bf (F := F) c (stage0_7 s7)) (f8 : Body.Bf (F := F) c (stage0_8 s8)) (f9 : Body.Bf (F := F) c (stage0_9 s9)) (f10 : Body.Bf (F := F) c (stage0_10 s10)) (f11 : Body.Bf (F := F) c (stage0_11 s11)) (f12 : Body.Bf (F := F) c (stage0_12 s12)) (f13 : Body.Bf (F := F) c (stage0_13 s13)) (f14 : Body.Bf (F := F) c (stage0_14 s14)) (f15 : Body.Bf (F := F) c (stage0_15 s15)) (f16 : Body.Bf (F := F) c (stage0_16 s16)) (f17 : Body.Bf (F := F) c (stage0_17 s17)) (f18 : Body.Bf (F := F) c (stage0_18 s18)) (f19 : Body.Bf (F := F) c (stage0_19 s19)) (f20 : Body.Bf (F := F) c (stage0_20 s20)) (f21 : Body.Bf (F := F) c (stage0_21 s21)) (f22 : Body.Bf (F := F) c (stage0_22 s22)) (f23 : Body.Bf (F := F) c (stage0_23 s23)) :
    View.canon (Body.kernelRun.sl.H24_1 (F := F) c (stage0_0 s0) (stage0_1 s1) (stage0_2 s2) (stage0_3 s3) (stage0_4 s4) (stage0_5 s5) (stage0_6 s6) (stage0_7 s7) (stage0_8 s8) (stage0_9 s9) (stage0_10 s10) (stage0_11 s11) (stage0_12 s12) (stage0_13 s13) (stage0_14 s14) (stage0_15 s15) (stage0_16 s16) (stage0_17 s17) (stage0_18 s18) (stage0_19 s19) (stage0_20 s20) (stage0_21 s21) (stage0_22 s22) (stage0_23 s23) (Memref.whole cc0_scratch0) (Memref.whole cc0_scratch1) (Memref.whole cc0_scratch2) (Memref.whole cc0_scratch3) f0 f1 f2 f3 f4 f5 f6 f7 f8 f9 f10 f11 f12 f13 f14 f15 f16 f17 f18 f19 f20 f21 f22 f23)
      = Lit.out c ((stage0_0 s0).view.read (Elt F) f0) ((stage0_1 s1).view.read (Elt F) f1) ((stage0_2 s2).view.read (Elt F) f2) ((stage0_3 s3).view.read (Elt F) f3) ((stage0_4 s4).view.read (Elt F) f4) ((stage0_5 s5).view.read (Elt F) f5) ((stage0_6 s6).view.read (Elt F) f6) ((stage0_7 s7).view.read (Elt F) f7) ((stage0_8 s8).view.read (Elt F) f8) ((stage0_9 s9).view.read (Elt F) f9) ((stage0_10 s10).view.read (Elt F) f10) ((stage0_11 s11).view.read (Elt F) f11) ((stage0_12 s12).view.read (Elt F) f12) ((stage0_13 s13).view.read (Elt F) f13) ((stage0_14 s14).view.read (Elt F) f14) ((stage0_15 s15).view.read (Elt F) f15) ((stage0_16 s16).view.read (Elt F) f16) ((stage0_17 s17).view.read (Elt F) f17) ((stage0_18 s18).view.read (Elt F) f18) ((stage0_19 s19).view.read (Elt F) f19) ((stage0_20 s20).view.read (Elt F) f20) ((stage0_21 s21).view.read (Elt F) f21) ((stage0_22 s22).view.read (Elt F) f22) ((stage0_23 s23).view.read (Elt F) f23) := by
  unfold Lit.out
  obtain rfl := Fin.fin_one_eq_zero s1
  obtain rfl := Fin.fin_one_eq_zero s2
  obtain rfl := Fin.fin_one_eq_zero s3
  obtain rfl := Fin.fin_one_eq_zero s4
  obtain rfl := Fin.fin_one_eq_zero s5
  obtain rfl := Fin.fin_one_eq_zero s6
  obtain rfl := Fin.fin_one_eq_zero s7
  obtain rfl := Fin.fin_one_eq_zero s8
  obtain rfl := Fin.fin_one_eq_zero s9
  obtain rfl := Fin.fin_one_eq_zero s10
  obtain rfl := Fin.fin_one_eq_zero s11
  obtain rfl := Fin.fin_one_eq_zero s12
  obtain rfl := Fin.fin_one_eq_zero s13
  obtain rfl := Fin.fin_one_eq_zero s14
  obtain rfl := Fin.fin_one_eq_zero s15
  obtain rfl := Fin.fin_one_eq_zero s16
  obtain rfl := Fin.fin_one_eq_zero s17
  obtain rfl := Fin.fin_one_eq_zero s18
  obtain rfl := Fin.fin_one_eq_zero s19
  obtain rfl := Fin.fin_one_eq_zero s20
  obtain rfl := Fin.fin_one_eq_zero s21
  obtain rfl := Fin.fin_one_eq_zero s22
  obtain rfl := Fin.fin_one_eq_zero s23
  rcases fin2_cases s0 with rfl | rfl
  · -- window 0 in its staging buffer 0
    sl_kernel_rfl
  · -- window 0 in its staging buffer 1
    sl_kernel_rfl

/-- So at the raw contents that read given blocks the store is the block-level term at those blocks, whichever staging buffers hold them. -/
theorem canon0_slots (c : Dev nD) (s0 : Fin 2) (s1 : Fin 1) (s2 : Fin 1) (s3 : Fin 1) (s4 : Fin 1) (s5 : Fin 1) (s6 : Fin 1) (s7 : Fin 1) (s8 : Fin 1) (s9 : Fin 1) (s10 : Fin 1) (s11 : Fin 1) (s12 : Fin 1) (s13 : Fin 1) (s14 : Fin 1) (s15 : Fin 1) (s16 : Fin 1) (s17 : Fin 1) (s18 : Fin 1) (s19 : Fin 1) (s20 : Fin 1) (s21 : Fin 1) (s22 : Fin 1) (s23 : Fin 1) (x0 : S1x32x32x128.Idx → Elt F .f32) (x1 : S1x1x128.Idx → Elt F .f32) (x2 : S5x5x128.Idx → Elt F .f32) (x3 : S128x384.Idx → Elt F .bf16) (x4 : S1x384.Idx → Elt F .f32) (x5 : S3x3x128.Idx → Elt F .f32) (x6 : S1x1x128.Idx → Elt F .f32) (x7 : S128x128.Idx → Elt F .bf16) (x8 : S1x128.Idx → Elt F .f32) (x9 : S1x1x128.Idx → Elt F .f32) (x10 : S1x1x128.Idx → Elt F .f32) (x11 : S5x5x128.Idx → Elt F .f32) (x12 : S128x512.Idx → Elt F .bf16) (x13 : S512x128.Idx → Elt F .bf16) (x14 : S128x128.Idx → Elt F .bf16) (x15 : S1x1x128.Idx → Elt F .f32) (x16 : S3x3x128x128.Idx → Elt F .bf16) (x17 : S3x3x128x128.Idx → Elt F .bf16) (x18 : S1x128.Idx → Elt F .f32) (x19 : S3x3x128x128.Idx → Elt F .bf16) (x20 : S1x128.Idx → Elt F .f32) (x21 : S128x128.Idx → Elt F .bf16) (x22 : S128x128.Idx → Elt F .bf16) (x23 : S1x128.Idx → Elt F .f32) :
    View.canon (Body.kernelRun.sl.H24_1 (F := F) c (stage0_0 s0) (stage0_1 s1) (stage0_2 s2) (stage0_3 s3) (stage0_4 s4) (stage0_5 s5) (stage0_6 s6) (stage0_7 s7) (stage0_8 s8) (stage0_9 s9) (stage0_10 s10) (stage0_11 s11) (stage0_12 s12) (stage0_13 s13) (stage0_14 s14) (stage0_15 s15) (stage0_16 s16) (stage0_17 s17) (stage0_18 s18) (stage0_19 s19) (stage0_20 s20) (stage0_21 s21) (stage0_22 s22) (stage0_23 s23) (Memref.whole cc0_scratch0) (Memref.whole cc0_scratch1) (Memref.whole cc0_scratch2) (Memref.whole cc0_scratch3) ((hstage0_0 s0).unread x0) ((hstage0_1 s1).unread x1) ((hstage0_2 s2).unread x2) ((hstage0_3 s3).unread x3) ((hstage0_4 s4).unread x4) ((hstage0_5 s5).unread x5) ((hstage0_6 s6).unread x6) ((hstage0_7 s7).unread x7) ((hstage0_8 s8).unread x8) ((hstage0_9 s9).unread x9) ((hstage0_10 s10).unread x10) ((hstage0_11 s11).unread x11) ((hstage0_12 s12).unread x12) ((hstage0_13 s13).unread x13) ((hstage0_14 s14).unread x14) ((hstage0_15 s15).unread x15) ((hstage0_16 s16).unread x16) ((hstage0_17 s17).unread x17) ((hstage0_18 s18).unread x18) ((hstage0_19 s19).unread x19) ((hstage0_20 s20).unread x20) ((hstage0_21 s21).unread x21) ((hstage0_22 s22).unread x22) ((hstage0_23 s23).unread x23))
      = Lit.out c x0 x1 x2 x3 x4 x5 x6 x7 x8 x9 x10 x11 x12 x13 x14 x15 x16 x17 x18 x19 x20 x21 x22 x23 :=
  (canon0_raw c s0 s1 s2 s3 s4 s5 s6 s7 s8 s9 s10 s11 s12 s13 s14 s15 s16 s17 s18 s19 s20 s21 s22 s23 _ _ _ _ _ _ _ _ _ _ _ _ _ _ _ _ _ _ _ _ _ _ _ _).trans (by simp only [Memref.IsWhole.read_unread])

variable (V : (c : Dev nD) → (b : Ref sig .tc) → Buf (Elt F) ((c : Thread nD τ).loc b))

set_option maxHeartbeats 4000000 in
/-- What the fused kernel's run leaves in its output block at a grid point is the block-level term at the twenty-four input blocks there. -/
theorem outBlk0_eq (c : Dev nD) (t : Fin cfg0.N) :
    outBlk0 V c t = Lit.out c (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t) := by
  unfold outBlk0 runAt0
  rw [Body.read_out]
  exact canon0_slots c (cfg0.slots t 0) (cfg0.slots t 1) (cfg0.slots t 2) (cfg0.slots t 3) (cfg0.slots t 4) (cfg0.slots t 5) (cfg0.slots t 6) (cfg0.slots t 7) (cfg0.slots t 8) (cfg0.slots t 9) (cfg0.slots t 10) (cfg0.slots t 11) (cfg0.slots t 12) (cfg0.slots t 13) (cfg0.slots t 14) (cfg0.slots t 15) (cfg0.slots t 16) (cfg0.slots t 17) (cfg0.slots t 18) (cfg0.slots t 19) (cfg0.slots t 20) (cfg0.slots t 21) (cfg0.slots t 22) (cfg0.slots t 23) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t)

end Cert.KernelIdeal.Run

end
-- ==== Proof.RefOut0.lean ====
/-
  What the reference's first kernel leaves in its output block: one store through the whole-block rectangle, so the block read
  back through its (whole) staging buffer is the canonical contents of that one store.
-/
import proofs.«120724_g2000406006432562_pallasbulk_1270_2_alg».proof.Proof.RefBody0
import Idealize.ShloMosaic.Lib.Pipeline.FrameBody
import Idealize.ShloMosaic.Lib.Pipeline.Value

noncomputable section

namespace Cert.ReferenceIdeal.Body0

open Cert.ReferenceIdeal Cert.ReferenceIdeal.Gen
open Idealize.ShloMosaic Idealize.ShloMosaic.TcCoe Idealize.SL.Sem

variable {F : FTy → Type} [FloatOps F]

theorem hz4 : (![0, 0, 0, 0] : Fin 4 → Nat) = fun _ => 0 := funext fun a => by fin_cases a <;> rfl

/-- The output block read back through its whole staging buffer is the canonical contents of the body's stores into it. -/
theorem read_out (c : Dev nD) (i : grid0.Coords) (M0 : Memref sig .tc .vmem S1x32x32x128 .f32) (h0 : M0.IsWhole) (M1 : Memref sig .tc .vmem S1x1x128 .f32) (h1 : M1.IsWhole) (M2 : Memref sig .tc .vmem S5x5x128 .f32) (h2 : M2.IsWhole) (M3 : Memref sig .tc .vmem S128x128 .f32) (h3 : M3.IsWhole) (M4 : Memref sig .tc .vmem S128x128 .f32) (h4 : M4.IsWhole) (M5 : Memref sig .tc .vmem S128x128 .f32) (h5 : M5.IsWhole) (M6 : Memref sig .tc .vmem S1x128 .f32) (h6 : M6.IsWhole) (M7 : Memref sig .tc .vmem S1x128 .f32) (h7 : M7.IsWhole) (M8 : Memref sig .tc .vmem S1x128 .f32) (h8 : M8.IsWhole) (M9 : Memref sig .tc .vmem S3x3x128 .f32) (h9 : M9.IsWhole) (M10 : Memref sig .tc .vmem S1x1x128 .f32) (h10 : M10.IsWhole) (M11 : Memref sig .tc .vmem S128x128 .f32) (h11 : M11.IsWhole) (M12 : Memref sig .tc .vmem S1x128 .f32) (h12 : M12.IsWhole) (M13 : Memref sig .tc .vmem S1x1x128 .f32) (h13 : M13.IsWhole) (M14 : Memref sig .tc .vmem S1x1x128 .f32) (h14 : M14.IsWhole) (M15 : Memref sig .tc .vmem S5x5x128 .f32) (h15 : M15.IsWhole) (M16 : Memref sig .tc .vmem S128x512 .f32) (h16 : M16.IsWhole) (M17 : Memref sig .tc .vmem S512x128 .f32) (h17 : M17.IsWhole) (M18 : Memref sig .tc .vmem S128x128 .f32) (h18 : M18.IsWhole) (M19 : Memref sig .tc .vmem S1x1x128 .f32) (h19 : M19.IsWhole) (M20 : Memref sig .tc .vmem S1x32x32x128 .f32) (h20 : M20.IsWhole) (M21 : Memref sig .tc .vmem S36x36x128 .f32) (h21 : M21.IsWhole) (M22 : Memref sig .tc .vmem S16x10x10x128 .f32) (h22 : M22.IsWhole) (M23 : Memref sig .tc .vmem S32x32x128 .f32) (h23 : M23.IsWhole) (f0 : Bf (F := F) c M0) (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16) (f17 : Bf (F := F) c M17) (f18 : Bf (F := F) c M18) (f19 : Bf (F := F) c M19) :
    M20.view.read (Elt F) (kernelRun c i M0 h0 M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 f0 f1 f2 f3 f4 f5 f6 f7 f8 f9 f10 f11 f12 f13 f14 f15 f16 f17 f18 f19).1
      = View.canon (kernelRun.sl.H20_1 c M0 M1 M2 M3 M4 M5 M6 M7 M8 M9 M10 M11 M12 M13 M14 M15 M16 M17 M18 M19 M21 M22 M23 f0 f1 f2 f3 f4 f5 f6 f7 f8 f9 f10 f11 f12 f13 f14 f15 f16 f17 f18 f19) := by
  unfold kernelRun
  dsimp only
  refine View.read_writes_eq_canon _ _ _ fun y => ?_
  unfold kernelRun.sl.H20_1
  refine ⟨_, List.mem_singleton_self _, ?_⟩
  exact View.mem_set_unit_zero hz4 inb_S1x32x32x128_S1x32x32x128_0_0_0_0 y

end Cert.ReferenceIdeal.Body0

end
-- ==== Proof.RefOut1.lean ====
/-
  What the reference's second kernel leaves in its output block: one store through the whole-block rectangle, so the block read
  back through its (whole) staging buffer is the canonical contents of that one store.
-/
import proofs.«120724_g2000406006432562_pallasbulk_1270_2_alg».proof.Proof.RefBody1
import Idealize.ShloMosaic.Lib.Pipeline.FrameBody
import Idealize.ShloMosaic.Lib.Pipeline.Value

noncomputable section

namespace Cert.ReferenceIdeal.Body1

open Cert.ReferenceIdeal Cert.ReferenceIdeal.Gen
open Idealize.ShloMosaic Idealize.ShloMosaic.TcCoe Idealize.SL.Sem

variable {F : FTy → Type} [FloatOps F]

theorem hz4 : (![0, 0, 0, 0] : Fin 4 → Nat) = fun _ => 0 := funext fun a => by fin_cases a <;> rfl

/-- The output block read back through its whole staging buffer is the canonical contents of the body's stores into it. -/
theorem read_out (c : Dev nD) (i : grid1.Coords) (M0 : Memref sig .tc .vmem S1x32x32x128 .f32) (h0 : M0.IsWhole) (M1 : Memref sig .tc .vmem S1x32x32x128 .f32) (h1 : M1.IsWhole) (M2 : Memref sig .tc .vmem S3x3x128x128 .f32) (h2 : M2.IsWhole) (M3 : Memref sig .tc .vmem S3x3x128x128 .f32) (h3 : M3.IsWhole) (M4 : Memref sig .tc .vmem S1x128 .f32) (h4 : M4.IsWhole) (M5 : Memref sig .tc .vmem S3x3x128x128 .f32) (h5 : M5.IsWhole) (M6 : Memref sig .tc .vmem S1x128 .f32) (h6 : M6.IsWhole) (M7 : Memref sig .tc .vmem S128x128 .f32) (h7 : M7.IsWhole) (M8 : Memref sig .tc .vmem S128x128 .f32) (h8 : M8.IsWhole) (M9 : Memref sig .tc .vmem S1x128 .f32) (h9 : M9.IsWhole) (M10 : Memref sig .tc .vmem S1x32x32x128 .f32) (h10 : M10.IsWhole) (M11 : Memref sig .tc .vmem S34x34x128 .f32) (h11 : M11.IsWhole) (f0 : Bf (F := F) c M0) (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) :
    M10.view.read (Elt F) (kernelRun c i M0 h0 M1 h1 M2 h2 M3 h3 M4 h4 M5 h5 M6 h6 M7 h7 M8 h8 M9 h9 M10 h10 M11 h11 f0 f1 f2 f3 f4 f5 f6 f7 f8 f9).1
      = View.canon (kernelRun.sl.H10_1 c M0 M1 M2 M3 M4 M5 M6 M7 M8 M9 M11 f0 f1 f2 f3 f4 f5 f6 f7 f8 f9) := by
  unfold kernelRun
  dsimp only
  refine View.read_writes_eq_canon _ _ _ fun y => ?_
  unfold kernelRun.sl.H10_1
  refine ⟨_, List.mem_singleton_self _, ?_⟩
  exact View.mem_set_unit_zero hz4 inb_S1x32x32x128_S1x32x32x128_0_0_0_0 y

end Cert.ReferenceIdeal.Body1

end
-- ==== Proof.RefBlk.lean ====
/-
  The reference's two kernels, block by block: what each kernel's run leaves in its output block at a grid point is that
  kernel's block-level term at its input blocks there. The run is stated over the staging buffers the pipeline is in at the
  point; the term does not depend on which of a window's buffers holds a block, only on what the buffer reads.
-/
import proofs.«120724_g2000406006432562_pallasbulk_1270_2_alg».proof.Proof.RefRun0
import proofs.«120724_g2000406006432562_pallasbulk_1270_2_alg».proof.Proof.RefRun1
import proofs.«120724_g2000406006432562_pallasbulk_1270_2_alg».proof.Proof.RefOut0
import proofs.«120724_g2000406006432562_pallasbulk_1270_2_alg».proof.Proof.RefOut1
import proofs.«120724_g2000406006432562_pallasbulk_1270_2_alg».proof.Proof.RefLit
import Idealize.ShloMosaic.Lib.Pipeline.FrameBody
import Idealize.ShloMosaic.Lib.Pipeline.Value
import Idealize.ShloMosaic.Lib.Tactic

-- a window's block indices at production extents: the elaborator's structural look recurses once per coordinate
set_option maxRecDepth 16384

noncomputable section

namespace Cert.ReferenceIdeal.Run

open Cert.ReferenceIdeal Cert.ReferenceIdeal.Gen
open Idealize.ShloMosaic Idealize.ShloMosaic.TcCoe Idealize.ShloMosaic.Tactic
open Idealize.SL Idealize.SL.Sem

variable {F : FTy → Type} [FloatOps F]

/-- A double-buffered window sits in one of its two staging buffers. -/
theorem fin2_cases (s : Fin 2) : s = 0 ∨ s = 1 := by omega

/-! ## The first kernel -/

-- each slot's substitution re-checks the statement's dependent types
set_option maxHeartbeats 4000000 in
/-- The first kernel's one store, over whichever staging buffers hold its blocks and at any raw contents of them, is the
    block-level term at what those contents read: each input enters the body's term only through its own buffer's view, and a
    whole buffer's view reads its raw contents as they are. -/
theorem canon0_raw (c : Dev nD) (s0 : Fin 2) (s1 : Fin 1) (s2 : Fin 1) (s3 : Fin 1) (s4 : Fin 1) (s5 : Fin 1) (s6 : Fin 1) (s7 : Fin 1) (s8 : Fin 1) (s9 : Fin 1) (s10 : Fin 1) (s11 : Fin 1) (s12 : Fin 1) (s13 : Fin 1) (s14 : Fin 1) (s15 : Fin 1) (s16 : Fin 1) (s17 : Fin 1) (s18 : Fin 1) (s19 : Fin 1) (f0 : Body0.Bf (F := F) c (stage0_0 s0)) (f1 : Body0.Bf (F := F) c (stage0_1 s1)) (f2 : Body0.Bf (F := F) c (stage0_2 s2)) (f3 : Body0.Bf (F := F) c (stage0_3 s3)) (f4 : Body0.Bf (F := F) c (stage0_4 s4)) (f5 : Body0.Bf (F := F) c (stage0_5 s5)) (f6 : Body0.Bf (F := F) c (stage0_6 s6)) (f7 : Body0.Bf (F := F) c (stage0_7 s7)) (f8 : Body0.Bf (F := F) c (stage0_8 s8)) (f9 : Body0.Bf (F := F) c (stage0_9 s9)) (f10 : Body0.Bf (F := F) c (stage0_10 s10)) (f11 : Body0.Bf (F := F) c (stage0_11 s11)) (f12 : Body0.Bf (F := F) c (stage0_12 s12)) (f13 : Body0.Bf (F := F) c (stage0_13 s13)) (f14 : Body0.Bf (F := F) c (stage0_14 s14)) (f15 : Body0.Bf (F := F) c (stage0_15 s15)) (f16 : Body0.Bf (F := F) c (stage0_16 s16)) (f17 : Body0.Bf (F := F) c (stage0_17 s17)) (f18 : Body0.Bf (F := F) c (stage0_18 s18)) (f19 : Body0.Bf (F := F) c (stage0_19 s19)) :
    View.canon (Body0.kernelRun.sl.H20_1 (F := F) c (stage0_0 s0) (stage0_1 s1) (stage0_2 s2) (stage0_3 s3) (stage0_4 s4) (stage0_5 s5) (stage0_6 s6) (stage0_7 s7) (stage0_8 s8) (stage0_9 s9) (stage0_10 s10) (stage0_11 s11) (stage0_12 s12) (stage0_13 s13) (stage0_14 s14) (stage0_15 s15) (stage0_16 s16) (stage0_17 s17) (stage0_18 s18) (stage0_19 s19) (Memref.whole cc0_scratch0) (Memref.whole cc0_scratch1) (Memref.whole cc0_scratch2) f0 f1 f2 f3 f4 f5 f6 f7 f8 f9 f10 f11 f12 f13 f14 f15 f16 f17 f18 f19)
      = Lit.out0 c ((stage0_0 s0).view.read (Elt F) f0) ((stage0_1 s1).view.read (Elt F) f1) ((stage0_2 s2).view.read (Elt F) f2) ((stage0_3 s3).view.read (Elt F) f3) ((stage0_4 s4).view.read (Elt F) f4) ((stage0_5 s5).view.read (Elt F) f5) ((stage0_6 s6).view.read (Elt F) f6) ((stage0_7 s7).view.read (Elt F) f7) ((stage0_8 s8).view.read (Elt F) f8) ((stage0_9 s9).view.read (Elt F) f9) ((stage0_10 s10).view.read (Elt F) f10) ((stage0_11 s11).view.read (Elt F) f11) ((stage0_12 s12).view.read (Elt F) f12) ((stage0_13 s13).view.read (Elt F) f13) ((stage0_14 s14).view.read (Elt F) f14) ((stage0_15 s15).view.read (Elt F) f15) ((stage0_16 s16).view.read (Elt F) f16) ((stage0_17 s17).view.read (Elt F) f17) ((stage0_18 s18).view.read (Elt F) f18) ((stage0_19 s19).view.read (Elt F) f19) := by
  unfold Lit.out0
  obtain rfl := Fin.fin_one_eq_zero s1
  obtain rfl := Fin.fin_one_eq_zero s2
  obtain rfl := Fin.fin_one_eq_zero s3
  obtain rfl := Fin.fin_one_eq_zero s4
  obtain rfl := Fin.fin_one_eq_zero s5
  obtain rfl := Fin.fin_one_eq_zero s6
  obtain rfl := Fin.fin_one_eq_zero s7
  obtain rfl := Fin.fin_one_eq_zero s8
  obtain rfl := Fin.fin_one_eq_zero s9
  obtain rfl := Fin.fin_one_eq_zero s10
  obtain rfl := Fin.fin_one_eq_zero s11
  obtain rfl := Fin.fin_one_eq_zero s12
  obtain rfl := Fin.fin_one_eq_zero s13
  obtain rfl := Fin.fin_one_eq_zero s14
  obtain rfl := Fin.fin_one_eq_zero s15
  obtain rfl := Fin.fin_one_eq_zero s16
  obtain rfl := Fin.fin_one_eq_zero s17
  obtain rfl := Fin.fin_one_eq_zero s18
  obtain rfl := Fin.fin_one_eq_zero s19
  rcases fin2_cases s0 with rfl | rfl
  · -- window 0 in its staging buffer 0
    sl_kernel_rfl
  · -- window 0 in its staging buffer 1
    sl_kernel_rfl

/-- So at the raw contents that read given blocks the store is the block-level term at those blocks, whichever staging buffers hold them. -/
theorem canon0_slots (c : Dev nD) (s0 : Fin 2) (s1 : Fin 1) (s2 : Fin 1) (s3 : Fin 1) (s4 : Fin 1) (s5 : Fin 1) (s6 : Fin 1) (s7 : Fin 1) (s8 : Fin 1) (s9 : Fin 1) (s10 : Fin 1) (s11 : Fin 1) (s12 : Fin 1) (s13 : Fin 1) (s14 : Fin 1) (s15 : Fin 1) (s16 : Fin 1) (s17 : Fin 1) (s18 : Fin 1) (s19 : Fin 1) (x0 : S1x32x32x128.Idx → Elt F .f32) (x1 : S1x1x128.Idx → Elt F .f32) (x2 : S5x5x128.Idx → Elt F .f32) (x3 : S128x128.Idx → Elt F .f32) (x4 : S128x128.Idx → Elt F .f32) (x5 : S128x128.Idx → Elt F .f32) (x6 : S1x128.Idx → Elt F .f32) (x7 : S1x128.Idx → Elt F .f32) (x8 : S1x128.Idx → Elt F .f32) (x9 : S3x3x128.Idx → Elt F .f32) (x10 : S1x1x128.Idx → Elt F .f32) (x11 : S128x128.Idx → Elt F .f32) (x12 : S1x128.Idx → Elt F .f32) (x13 : S1x1x128.Idx → Elt F .f32) (x14 : S1x1x128.Idx → Elt F .f32) (x15 : S5x5x128.Idx → Elt F .f32) (x16 : S128x512.Idx → Elt F .f32) (x17 : S512x128.Idx → Elt F .f32) (x18 : S128x128.Idx → Elt F .f32) (x19 : S1x1x128.Idx → Elt F .f32) :
    View.canon (Body0.kernelRun.sl.H20_1 (F := F) c (stage0_0 s0) (stage0_1 s1) (stage0_2 s2) (stage0_3 s3) (stage0_4 s4) (stage0_5 s5) (stage0_6 s6) (stage0_7 s7) (stage0_8 s8) (stage0_9 s9) (stage0_10 s10) (stage0_11 s11) (stage0_12 s12) (stage0_13 s13) (stage0_14 s14) (stage0_15 s15) (stage0_16 s16) (stage0_17 s17) (stage0_18 s18) (stage0_19 s19) (Memref.whole cc0_scratch0) (Memref.whole cc0_scratch1) (Memref.whole cc0_scratch2) ((hstage0_0 s0).unread x0) ((hstage0_1 s1).unread x1) ((hstage0_2 s2).unread x2) ((hstage0_3 s3).unread x3) ((hstage0_4 s4).unread x4) ((hstage0_5 s5).unread x5) ((hstage0_6 s6).unread x6) ((hstage0_7 s7).unread x7) ((hstage0_8 s8).unread x8) ((hstage0_9 s9).unread x9) ((hstage0_10 s10).unread x10) ((hstage0_11 s11).unread x11) ((hstage0_12 s12).unread x12) ((hstage0_13 s13).unread x13) ((hstage0_14 s14).unread x14) ((hstage0_15 s15).unread x15) ((hstage0_16 s16).unread x16) ((hstage0_17 s17).unread x17) ((hstage0_18 s18).unread x18) ((hstage0_19 s19).unread x19))
      = Lit.out0 c x0 x1 x2 x3 x4 x5 x6 x7 x8 x9 x10 x11 x12 x13 x14 x15 x16 x17 x18 x19 :=
  (canon0_raw c s0 s1 s2 s3 s4 s5 s6 s7 s8 s9 s10 s11 s12 s13 s14 s15 s16 s17 s18 s19 _ _ _ _ _ _ _ _ _ _ _ _ _ _ _ _ _ _ _ _).trans (by simp only [Memref.IsWhole.read_unread])

/-! ## The second kernel -/

-- each slot's substitution re-checks the statement's dependent types
set_option maxHeartbeats 4000000 in
/-- The second kernel's one store, over whichever staging buffers hold its blocks and at any raw contents of them, is the
    block-level term at what those contents read: each input enters the body's term only through its own buffer's view, and a
    whole buffer's view reads its raw contents as they are. -/
theorem canon1_raw (c : Dev nD) (s0 : Fin 2) (s1 : Fin 2) (s2 : Fin 1) (s3 : Fin 1) (s4 : Fin 1) (s5 : Fin 1) (s6 : Fin 1) (s7 : Fin 1) (s8 : Fin 1) (s9 : Fin 1) (f0 : Body1.Bf (F := F) c (stage1_0 s0)) (f1 : Body1.Bf (F := F) c (stage1_1 s1)) (f2 : Body1.Bf (F := F) c (stage1_2 s2)) (f3 : Body1.Bf (F := F) c (stage1_3 s3)) (f4 : Body1.Bf (F := F) c (stage1_4 s4)) (f5 : Body1.Bf (F := F) c (stage1_5 s5)) (f6 : Body1.Bf (F := F) c (stage1_6 s6)) (f7 : Body1.Bf (F := F) c (stage1_7 s7)) (f8 : Body1.Bf (F := F) c (stage1_8 s8)) (f9 : Body1.Bf (F := F) c (stage1_9 s9)) :
    View.canon (Body1.kernelRun.sl.H10_1 (F := F) c (stage1_0 s0) (stage1_1 s1) (stage1_2 s2) (stage1_3 s3) (stage1_4 s4) (stage1_5 s5) (stage1_6 s6) (stage1_7 s7) (stage1_8 s8) (stage1_9 s9) (Memref.whole cc1_scratch0) f0 f1 f2 f3 f4 f5 f6 f7 f8 f9)
      = Lit.out1 c ((stage1_0 s0).view.read (Elt F) f0) ((stage1_1 s1).view.read (Elt F) f1) ((stage1_2 s2).view.read (Elt F) f2) ((stage1_3 s3).view.read (Elt F) f3) ((stage1_4 s4).view.read (Elt F) f4) ((stage1_5 s5).view.read (Elt F) f5) ((stage1_6 s6).view.read (Elt F) f6) ((stage1_7 s7).view.read (Elt F) f7) ((stage1_8 s8).view.read (Elt F) f8) ((stage1_9 s9).view.read (Elt F) f9) := by
  unfold Lit.out1
  obtain rfl := Fin.fin_one_eq_zero s2
  obtain rfl := Fin.fin_one_eq_zero s3
  obtain rfl := Fin.fin_one_eq_zero s4
  obtain rfl := Fin.fin_one_eq_zero s5
  obtain rfl := Fin.fin_one_eq_zero s6
  obtain rfl := Fin.fin_one_eq_zero s7
  obtain rfl := Fin.fin_one_eq_zero s8
  obtain rfl := Fin.fin_one_eq_zero s9
  rcases fin2_cases s0 with rfl | rfl
  · -- window 0 in its staging buffer 0
    rcases fin2_cases s1 with rfl | rfl
    · -- window 1 in its staging buffer 0
      sl_kernel_rfl
    · -- window 1 in its staging buffer 1
      sl_kernel_rfl
  · -- window 0 in its staging buffer 1
    rcases fin2_cases s1 with rfl | rfl
    · -- window 1 in its staging buffer 0
      sl_kernel_rfl
    · -- window 1 in its staging buffer 1
      sl_kernel_rfl

/-- So at the raw contents that read given blocks the store is the block-level term at those blocks, whichever staging buffers hold them. -/
theorem canon1_slots (c : Dev nD) (s0 : Fin 2) (s1 : Fin 2) (s2 : Fin 1) (s3 : Fin 1) (s4 : Fin 1) (s5 : Fin 1) (s6 : Fin 1) (s7 : Fin 1) (s8 : Fin 1) (s9 : Fin 1) (x0 : S1x32x32x128.Idx → Elt F .f32) (x1 : S1x32x32x128.Idx → Elt F .f32) (x2 : S3x3x128x128.Idx → Elt F .f32) (x3 : S3x3x128x128.Idx → Elt F .f32) (x4 : S1x128.Idx → Elt F .f32) (x5 : S3x3x128x128.Idx → Elt F .f32) (x6 : S1x128.Idx → Elt F .f32) (x7 : S128x128.Idx → Elt F .f32) (x8 : S128x128.Idx → Elt F .f32) (x9 : S1x128.Idx → Elt F .f32) :
    View.canon (Body1.kernelRun.sl.H10_1 (F := F) c (stage1_0 s0) (stage1_1 s1) (stage1_2 s2) (stage1_3 s3) (stage1_4 s4) (stage1_5 s5) (stage1_6 s6) (stage1_7 s7) (stage1_8 s8) (stage1_9 s9) (Memref.whole cc1_scratch0) ((hstage1_0 s0).unread x0) ((hstage1_1 s1).unread x1) ((hstage1_2 s2).unread x2) ((hstage1_3 s3).unread x3) ((hstage1_4 s4).unread x4) ((hstage1_5 s5).unread x5) ((hstage1_6 s6).unread x6) ((hstage1_7 s7).unread x7) ((hstage1_8 s8).unread x8) ((hstage1_9 s9).unread x9))
      = Lit.out1 c x0 x1 x2 x3 x4 x5 x6 x7 x8 x9 :=
  (canon1_raw c s0 s1 s2 s3 s4 s5 s6 s7 s8 s9 _ _ _ _ _ _ _ _ _ _).trans (by simp only [Memref.IsWhole.read_unread])

/-! ## At the grid points -/

variable (V : (c : Dev nD) → (b : Ref sig .tc) → Buf (Elt F) ((c : Thread nD τ).loc b))

set_option maxHeartbeats 4000000 in
/-- What the first kernel's run leaves in its output block at a grid point is the block-level term at the twenty input blocks there. -/
theorem outBlk0_eq (c : Dev nD) (t : Fin cfg0.N) :
    outBlk0 V c t = Lit.out0 c (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) := by
  unfold outBlk0
  rw [Body0.read_out]
  exact canon0_slots c (cfg0.slots t 0) (cfg0.slots t 1) (cfg0.slots t 2) (cfg0.slots t 3) (cfg0.slots t 4) (cfg0.slots t 5) (cfg0.slots t 6) (cfg0.slots t 7) (cfg0.slots t 8) (cfg0.slots t 9) (cfg0.slots t 10) (cfg0.slots t 11) (cfg0.slots t 12) (cfg0.slots t 13) (cfg0.slots t 14) (cfg0.slots t 15) (cfg0.slots t 16) (cfg0.slots t 17) (cfg0.slots t 18) (cfg0.slots t 19) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t)

set_option maxHeartbeats 4000000 in
/-- What the second kernel's run leaves in its output block at a grid point is the block-level term at the ten input blocks there. -/
theorem outBlk1_eq (c : Dev nD) (t : Fin cfg1.N) :
    outBlk1 V c t = Lit.out1 c (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := by
  unfold outBlk1
  rw [Body1.read_out]
  exact canon1_slots c (cfg1.slots t 0) (cfg1.slots t 1) (cfg1.slots t 2) (cfg1.slots t 3) (cfg1.slots t 4) (cfg1.slots t 5) (cfg1.slots t 6) (cfg1.slots t 7) (cfg1.slots t 8) (cfg1.slots t 9) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)

end Cert.ReferenceIdeal.Run

end
-- ==== Proof.QkvSplit.lean ====
/-
  The projections q, k, v of the attention block, computed two ways.  One side multiplies the window-partitioned rows by the
  three 128x128 weight matrices laid side by side as one 128x384 matrix, adds the three bias rows laid side by side, and cuts the
  1024x384 result into three blocks of 128 columns.  The other side multiplies by each weight matrix separately and adds its own
  bias row.  Column 128·j + n of the side-by-side matrix is column n of the j-th matrix, so each block of columns of the wide
  product is the separate product: entry (r, n) of either is  Σ_c x(r, c) · w_j(c, n) + b_j(0, n).  No law beyond reading the
  same sum at the same index is used, so nothing here needs finiteness.  A change of float format is the identity at the ideal
  values.
-/
import proofs.«120724_g2000406006432562_pallasbulk_1270_2_alg».proof.Proof.Gen.KernelIdeal.Skeleton
import proofs.«120724_g2000406006432562_pallasbulk_1270_2_alg».proof.Proof.Gen.ReferenceIdeal.Skeleton
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember
import Idealize.ShloMosaic.Lib.Tactic

noncomputable section

namespace Cert.Qkv

open Idealize.ShloMosaic Idealize.ShloMosaic.ValueIdx

/-! ## A plain matrix product into a zero accumulator, read at an index -/

/-- Entry (a, b) of an m×k by k×n product accumulated into zero is the sum over the contracted coordinate of the products of
    the entries. -/
theorem matmul_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

/-! ## Three matrices of 128 columns laid side by side, read at a column -/

section Cols
variable {α : Type} {R : Nat}

/-- Column n of the first block is column n of the first matrix. -/
theorem cols3_apply0 (x0 x1 x2 : (⟨2, ![R, 128]⟩ : Shape).Idx → α)
    (h : Shape.Concatenates [(⟨2, ![R, 128]⟩ : Shape), ⟨2, ![R, 128]⟩, ⟨2, ![R, 128]⟩] ⟨2, ![R, 384]⟩ 1) (r : Fin R) (n : Fin 128) :
    concatenate (⟨2, ![R, 384]⟩ : Shape) 1 [⟨⟨2, ![R, 128]⟩, x0⟩, ⟨⟨2, ![R, 128]⟩, x1⟩, ⟨⟨2, ![R, 128]⟩, x2⟩] h
        (ix2 r (⟨n.val, by omega⟩ : Fin 384)) = x0 (ix2 r n) := by
  refine concatenate_apply_piece (t := ⟨2, ![R, 384]⟩) (1 : Fin 2) [⟨⟨2, ![R, 128]⟩, x0⟩, ⟨⟨2, ![R, 128]⟩, x1⟩, ⟨⟨2, ![R, 128]⟩, x2⟩] h _ 0 (show 0 < 3 by omega) ⟨2, ![R, 128]⟩ x0 rfl rfl 0 rfl (ix2 r n) (fun b hb => ?_) ?_
  · match b with
    | ⟨0, _⟩ => rfl
    | ⟨1, _⟩ => exact absurd rfl hb
  · show 0 + n.val = n.val
    omega

/-- Column 128 + n is column n of the second matrix. -/
theorem cols3_apply1 (x0 x1 x2 : (⟨2, ![R, 128]⟩ : Shape).Idx → α)
    (h : Shape.Concatenates [(⟨2, ![R, 128]⟩ : Shape), ⟨2, ![R, 128]⟩, ⟨2, ![R, 128]⟩] ⟨2, ![R, 384]⟩ 1) (r : Fin R) (n : Fin 128) :
    concatenate (⟨2, ![R, 384]⟩ : Shape) 1 [⟨⟨2, ![R, 128]⟩, x0⟩, ⟨⟨2, ![R, 128]⟩, x1⟩, ⟨⟨2, ![R, 128]⟩, x2⟩] h
        (ix2 r (⟨128 + n.val, by omega⟩ : Fin 384)) = x1 (ix2 r n) := by
  refine concatenate_apply_piece (t := ⟨2, ![R, 384]⟩) (1 : Fin 2) [⟨⟨2, ![R, 128]⟩, x0⟩, ⟨⟨2, ![R, 128]⟩, x1⟩, ⟨⟨2, ![R, 128]⟩, x2⟩] h _ 1 (show 1 < 3 by omega) ⟨2, ![R, 128]⟩ x1 rfl rfl 128 rfl (ix2 r n) (fun b hb => ?_) ?_
  · match b with
    | ⟨0, _⟩ => rfl
    | ⟨1, _⟩ => exact absurd rfl hb
  · rfl

/-- Column 256 + n is column n of the third matrix. -/
theorem cols3_apply2 (x0 x1 x2 : (⟨2, ![R, 128]⟩ : Shape).Idx → α)
    (h : Shape.Concatenates [(⟨2, ![R, 128]⟩ : Shape), ⟨2, ![R, 128]⟩, ⟨2, ![R, 128]⟩] ⟨2, ![R, 384]⟩ 1) (r : Fin R) (n : Fin 128) :
    concatenate (⟨2, ![R, 384]⟩ : Shape) 1 [⟨⟨2, ![R, 128]⟩, x0⟩, ⟨⟨2, ![R, 128]⟩, x1⟩, ⟨⟨2, ![R, 128]⟩, x2⟩] h
        (ix2 r (⟨256 + n.val, by omega⟩ : Fin 384)) = x2 (ix2 r n) := by
  refine concatenate_apply_piece (t := ⟨2, ![R, 384]⟩) (1 : Fin 2) [⟨⟨2, ![R, 128]⟩, x0⟩, ⟨⟨2, ![R, 128]⟩, x1⟩, ⟨⟨2, ![R, 128]⟩, x2⟩] h _ 2 (show 2 < 3 by omega) ⟨2, ![R, 128]⟩ x2 rfl rfl 256 rfl (ix2 r n) (fun b hb => ?_) ?_
  · match b with
    | ⟨0, _⟩ => rfl
    | ⟨1, _⟩ => exact absurd rfl hb
  · rfl

end Cols

/-! ## The projection, and the two ways of computing it -/

/-- Rows of `x` against the columns of `w`, plus the bias row: entry (r, n) is Σ_c x(r, c) · w(c, n) + b(0, n). -/
def proj (x : FVec Ideal ⟨2, ![1024, 128]⟩ .f32) (w : FVec Ideal ⟨2, ![128, 128]⟩ .f32) (b : FVec Ideal ⟨2, ![1, 128]⟩ .f32) :
    FVec Ideal ⟨2, ![1024, 128]⟩ .f32 :=
  fun j => (∑ c : Fin 128, x (ix2 (j 0) c) * w (ix2 c (j 1))) + b (ix2 (0 : Fin 1) (j 1))

/-- The separate computation: the product with one weight matrix into a zero accumulator, plus its broadcast bias row. -/
theorem separate_eq (D : DotDims ⟨2, ![1024, 128]⟩ ⟨2, ![128, 128]⟩ ⟨2, ![1024, 128]⟩) (hD : D = DotDims.plain 1024 128 128)
    (x : FVec Ideal ⟨2, ![1024, 128]⟩ .f32) (w : FVec Ideal ⟨2, ![128, 128]⟩ .f32) (b : FVec Ideal ⟨2, ![1, 128]⟩ .f32)
    (hb : (⟨2, ![1, 128]⟩ : Shape).Broadcasts ⟨2, ![1024, 128]⟩) :
    addf (matmul D none x w (constant (F := Ideal) ⟨2, ![1024, 128]⟩ .f32 0x00000000#32)) (broadcastTo ⟨2, ![1024, 128]⟩ b hb)
      = proj x w b := by
  subst hD
  funext j
  obtain ⟨r, n, rfl⟩ : ∃ (r : Fin 1024) (n : Fin 128), j = ix2 r n := ⟨j 0, j 1, eq_ix2 j⟩
  rw [addf_apply, matmul_plain_apply, broadcastTo_1b_ab_apply]
  rfl

/-- The wide computation read at an index: the product with the 128x384 matrix into a zero accumulator plus the broadcast
    384-wide bias row, the left operand and the matrix passed through a change of format and casts to their own shapes. -/
theorem wide_apply (D : DotDims ⟨2, ![1024, 128]⟩ ⟨2, ![128, 384]⟩ ⟨2, ![1024, 384]⟩) (hD : D = DotDims.plain 1024 128 384)
    (x : FVec Ideal ⟨2, ![1024, 128]⟩ .f32) (W : FVec Ideal ⟨2, ![128, 384]⟩ .bf16) (B : FVec Ideal ⟨2, ![1, 384]⟩ .f32)
    (h1 : FTy.bits .bf16 < FTy.bits .f32) (h2 : (⟨2, ![128, 384]⟩ : Shape).ShapeCasts ⟨2, ![128, 384]⟩)
    (h3 : (⟨2, ![1, 384]⟩ : Shape).ShapeCasts ⟨2, ![1, 384]⟩) (h4 : (⟨2, ![1, 384]⟩ : Shape).Broadcasts ⟨2, ![1024, 384]⟩)
    (r : Fin 1024) (c : Fin 384) :
    addf (matmul D none (truncf .bf16 x h1) (shapeCast ⟨2, ![128, 384]⟩ W h2)
          (constant (F := Ideal) ⟨2, ![1024, 384]⟩ .f32 0x00000000#32))
        (broadcastTo ⟨2, ![1024, 384]⟩ (shapeCast ⟨2, ![1, 384]⟩ B h3) h4) (ix2 r c)
      = (∑ k : Fin 128, x (ix2 r k) * W (ix2 k c)) + B (ix2 (0 : Fin 1) c) := by
  subst hD
  rw [shapeCast_self, shapeCast_self, addf_apply, matmul_plain_apply, broadcastTo_1b_ab_apply]
  rfl

/-! ## The blocks of columns of the wide computation -/

/-- Columns 0 to 127 of the wide computation against the side-by-side weights and biases are the separate computation
    with the first weight matrix and bias row. -/
theorem slice0_eq (D : DotDims ⟨2, ![1024, 128]⟩ ⟨2, ![128, 384]⟩ ⟨2, ![1024, 384]⟩) (hD : D = DotDims.plain 1024 128 384)
    (x : FVec Ideal ⟨2, ![1024, 128]⟩ .f32) (wq wk wv : FVec Ideal ⟨2, ![128, 128]⟩ .f32) (bq bk bv : FVec Ideal ⟨2, ![1, 128]⟩ .f32)
    (hcw : Shape.Concatenates [(⟨2, ![128, 128]⟩ : Shape), ⟨2, ![128, 128]⟩, ⟨2, ![128, 128]⟩] ⟨2, ![128, 384]⟩ 1)
    (hcb : Shape.Concatenates [(⟨2, ![1, 128]⟩ : Shape), ⟨2, ![1, 128]⟩, ⟨2, ![1, 128]⟩] ⟨2, ![1, 384]⟩ 1)
    (h1 : FTy.bits .bf16 < FTy.bits .f32) (h2 : (⟨2, ![128, 384]⟩ : Shape).ShapeCasts ⟨2, ![128, 384]⟩)
    (h3 : (⟨2, ![1, 384]⟩ : Shape).ShapeCasts ⟨2, ![1, 384]⟩) (h4 : (⟨2, ![1, 384]⟩ : Shape).Broadcasts ⟨2, ![1024, 384]⟩)
    (hs : (⟨2, ![1024, 384]⟩ : Shape).Slices ![0, 0] ⟨2, ![1024, 128]⟩) :
    extractStridedSlice ⟨2, ![1024, 128]⟩ ![0, 0]
      (addf (matmul D none (truncf .bf16 x h1) (shapeCast ⟨2, ![128, 384]⟩ (truncf (F := Ideal) .bf16 (concatenate ⟨2, ![128, 384]⟩ 1 [⟨⟨2, ![128, 128]⟩, wq⟩, ⟨⟨2, ![128, 128]⟩, wk⟩, ⟨⟨2, ![128, 128]⟩, wv⟩] hcw) h1) h2)
          (constant (F := Ideal) ⟨2, ![1024, 384]⟩ .f32 0x00000000#32))
        (broadcastTo ⟨2, ![1024, 384]⟩ (shapeCast ⟨2, ![1, 384]⟩ (concatenate ⟨2, ![1, 384]⟩ 1 [⟨⟨2, ![1, 128]⟩, bq⟩, ⟨⟨2, ![1, 128]⟩, bk⟩, ⟨⟨2, ![1, 128]⟩, bv⟩] hcb) h3) h4)) hs
      = proj x wq bq := by
  funext j
  obtain ⟨r, n, rfl⟩ : ∃ (r : Fin 1024) (n : Fin 128), j = ix2 r n := ⟨j 0, j 1, eq_ix2 j⟩
  rw [extractStridedSlice_apply ![0, 0] _ hs (ix2 r n) (ix2 r (⟨n.val, by omega⟩ : Fin 384))
        (fun a => match a with | ⟨0, _⟩ => (Nat.zero_add _).symm | ⟨1, _⟩ => (Nat.zero_add _).symm),
    wide_apply D hD]
  refine congrArg₂ (· + ·) (Finset.sum_congr rfl fun k _ => congrArg (x (ix2 r k) * ·) ?_) ?_
  · exact cols3_apply0 wq wk wv hcw k n
  · exact cols3_apply0 bq bk bv hcb 0 n

/-- Columns 128 to 255 of the wide computation against the side-by-side weights and biases are the separate computation
    with the second weight matrix and bias row. -/
theorem slice1_eq (D : DotDims ⟨2, ![1024, 128]⟩ ⟨2, ![128, 384]⟩ ⟨2, ![1024, 384]⟩) (hD : D = DotDims.plain 1024 128 384)
    (x : FVec Ideal ⟨2, ![1024, 128]⟩ .f32) (wq wk wv : FVec Ideal ⟨2, ![128, 128]⟩ .f32) (bq bk bv : FVec Ideal ⟨2, ![1, 128]⟩ .f32)
    (hcw : Shape.Concatenates [(⟨2, ![128, 128]⟩ : Shape), ⟨2, ![128, 128]⟩, ⟨2, ![128, 128]⟩] ⟨2, ![128, 384]⟩ 1)
    (hcb : Shape.Concatenates [(⟨2, ![1, 128]⟩ : Shape), ⟨2, ![1, 128]⟩, ⟨2, ![1, 128]⟩] ⟨2, ![1, 384]⟩ 1)
    (h1 : FTy.bits .bf16 < FTy.bits .f32) (h2 : (⟨2, ![128, 384]⟩ : Shape).ShapeCasts ⟨2, ![128, 384]⟩)
    (h3 : (⟨2, ![1, 384]⟩ : Shape).ShapeCasts ⟨2, ![1, 384]⟩) (h4 : (⟨2, ![1, 384]⟩ : Shape).Broadcasts ⟨2, ![1024, 384]⟩)
    (hs : (⟨2, ![1024, 384]⟩ : Shape).Slices ![0, 128] ⟨2, ![1024, 128]⟩) :
    extractStridedSlice ⟨2, ![1024, 128]⟩ ![0, 128]
      (addf (matmul D none (truncf .bf16 x h1) (shapeCast ⟨2, ![128, 384]⟩ (truncf (F := Ideal) .bf16 (concatenate ⟨2, ![128, 384]⟩ 1 [⟨⟨2, ![128, 128]⟩, wq⟩, ⟨⟨2, ![128, 128]⟩, wk⟩, ⟨⟨2, ![128, 128]⟩, wv⟩] hcw) h1) h2)
          (constant (F := Ideal) ⟨2, ![1024, 384]⟩ .f32 0x00000000#32))
        (broadcastTo ⟨2, ![1024, 384]⟩ (shapeCast ⟨2, ![1, 384]⟩ (concatenate ⟨2, ![1, 384]⟩ 1 [⟨⟨2, ![1, 128]⟩, bq⟩, ⟨⟨2, ![1, 128]⟩, bk⟩, ⟨⟨2, ![1, 128]⟩, bv⟩] hcb) h3) h4)) hs
      = proj x wk bk := by
  funext j
  obtain ⟨r, n, rfl⟩ : ∃ (r : Fin 1024) (n : Fin 128), j = ix2 r n := ⟨j 0, j 1, eq_ix2 j⟩
  rw [extractStridedSlice_apply ![0, 128] _ hs (ix2 r n) (ix2 r (⟨128 + n.val, by omega⟩ : Fin 384))
        (fun a => match a with | ⟨0, _⟩ => (Nat.zero_add _).symm | ⟨1, _⟩ => rfl),
    wide_apply D hD]
  refine congrArg₂ (· + ·) (Finset.sum_congr rfl fun k _ => congrArg (x (ix2 r k) * ·) ?_) ?_
  · exact cols3_apply1 wq wk wv hcw k n
  · exact cols3_apply1 bq bk bv hcb 0 n

/-- Columns 256 to 383 of the wide computation against the side-by-side weights and biases are the separate computation
    with the third weight matrix and bias row. -/
theorem slice2_eq (D : DotDims ⟨2, ![1024, 128]⟩ ⟨2, ![128, 384]⟩ ⟨2, ![1024, 384]⟩) (hD : D = DotDims.plain 1024 128 384)
    (x : FVec Ideal ⟨2, ![1024, 128]⟩ .f32) (wq wk wv : FVec Ideal ⟨2, ![128, 128]⟩ .f32) (bq bk bv : FVec Ideal ⟨2, ![1, 128]⟩ .f32)
    (hcw : Shape.Concatenates [(⟨2, ![128, 128]⟩ : Shape), ⟨2, ![128, 128]⟩, ⟨2, ![128, 128]⟩] ⟨2, ![128, 384]⟩ 1)
    (hcb : Shape.Concatenates [(⟨2, ![1, 128]⟩ : Shape), ⟨2, ![1, 128]⟩, ⟨2, ![1, 128]⟩] ⟨2, ![1, 384]⟩ 1)
    (h1 : FTy.bits .bf16 < FTy.bits .f32) (h2 : (⟨2, ![128, 384]⟩ : Shape).ShapeCasts ⟨2, ![128, 384]⟩)
    (h3 : (⟨2, ![1, 384]⟩ : Shape).ShapeCasts ⟨2, ![1, 384]⟩) (h4 : (⟨2, ![1, 384]⟩ : Shape).Broadcasts ⟨2, ![1024, 384]⟩)
    (hs : (⟨2, ![1024, 384]⟩ : Shape).Slices ![0, 256] ⟨2, ![1024, 128]⟩) :
    extractStridedSlice ⟨2, ![1024, 128]⟩ ![0, 256]
      (addf (matmul D none (truncf .bf16 x h1) (shapeCast ⟨2, ![128, 384]⟩ (truncf (F := Ideal) .bf16 (concatenate ⟨2, ![128, 384]⟩ 1 [⟨⟨2, ![128, 128]⟩, wq⟩, ⟨⟨2, ![128, 128]⟩, wk⟩, ⟨⟨2, ![128, 128]⟩, wv⟩] hcw) h1) h2)
          (constant (F := Ideal) ⟨2, ![1024, 384]⟩ .f32 0x00000000#32))
        (broadcastTo ⟨2, ![1024, 384]⟩ (shapeCast ⟨2, ![1, 384]⟩ (concatenate ⟨2, ![1, 384]⟩ 1 [⟨⟨2, ![1, 128]⟩, bq⟩, ⟨⟨2, ![1, 128]⟩, bk⟩, ⟨⟨2, ![1, 128]⟩, bv⟩] hcb) h3) h4)) hs
      = proj x wv bv := by
  funext j
  obtain ⟨r, n, rfl⟩ : ∃ (r : Fin 1024) (n : Fin 128), j = ix2 r n := ⟨j 0, j 1, eq_ix2 j⟩
  rw [extractStridedSlice_apply ![0, 256] _ hs (ix2 r n) (ix2 r (⟨256 + n.val, by omega⟩ : Fin 384))
        (fun a => match a with | ⟨0, _⟩ => (Nat.zero_add _).symm | ⟨1, _⟩ => rfl),
    wide_apply D hD]
  refine congrArg₂ (· + ·) (Finset.sum_congr rfl fun k _ => congrArg (x (ix2 r k) * ·) ?_) ?_
  · exact cols3_apply2 wq wk wv hcw k n
  · exact cols3_apply2 bq bk bv hcb 0 n

/-! ## The two programs' payloads -/

/-- The fused side's 1024x384 result is the wide computation at the window-partitioned rows, and the window partition (sixteen
    8x8 windows of the 32x32 image, each flattened to 64 rows, stacked) is the same term on both sides. -/
theorem pay10_eq (v199 : FVec Ideal Cert.KernelIdeal.S32x32x128 .f32) (v200 : FVec Ideal Cert.KernelIdeal.S8x8x128 .f32)
    (W : FVec Ideal Cert.KernelIdeal.S128x384 .bf16) (B : FVec Ideal Cert.KernelIdeal.S1x384 .f32) :
    Cert.KernelIdeal.Gen.k0_pay10 (F := Ideal) v199 v200 W B
      = addf (matmul Cert.KernelIdeal.dot_S1024x128_S128x384_S1024x384_1_0_0_1_n_n none
            (truncf .bf16 (Cert.ReferenceIdeal.Gen.k0_pay11 (F := Ideal) v199 v200) Cert.KernelIdeal.Facts₀.bitsLt_bf16_f32)
            (shapeCast Cert.KernelIdeal.S128x384 W Cert.KernelIdeal.Facts₀.shapeCasts_S128x384_S128x384)
            (constant (F := Ideal) Cert.KernelIdeal.S1024x384 .f32 0x00000000#32))
          (broadcastTo Cert.KernelIdeal.S1024x384 (shapeCast Cert.KernelIdeal.S1x384 B Cert.KernelIdeal.Facts₀.shapeCasts_S1x384_S1x384)
            Cert.KernelIdeal.Facts₀.broadcasts_S1x384_S1024x384) := rfl

/-- q: the first block of columns of the fused product is the reference's product with the q weights plus the q bias. -/
theorem q_eq (v199 : FVec Ideal Cert.KernelIdeal.S32x32x128 .f32) (v200 : FVec Ideal Cert.KernelIdeal.S8x8x128 .f32)
    (wq wk wv : Cert.KernelIdeal.S128x128.Idx → Elt Ideal .f32) (bq bk bv : Cert.KernelIdeal.S1x128.Idx → Elt Ideal .f32) :
    Cert.KernelIdeal.Gen.k0_pay11 (F := Ideal) v199 v200
        (truncf (F := Ideal) .bf16 (concatenate Cert.KernelIdeal.S128x384 1 [⟨Cert.KernelIdeal.S128x128, wq⟩, ⟨Cert.KernelIdeal.S128x128, wk⟩, ⟨Cert.KernelIdeal.S128x128, wv⟩] Cert.KernelIdeal.Facts₀.concatenates_S128x128_S128x128_S128x128_S128x384_d1) Cert.KernelIdeal.Facts₀.bitsLt_bf16_f32)
        (concatenate Cert.KernelIdeal.S1x384 1 [⟨Cert.KernelIdeal.S1x128, bq⟩, ⟨Cert.KernelIdeal.S1x128, bk⟩, ⟨Cert.KernelIdeal.S1x128, bv⟩] Cert.KernelIdeal.Facts₀.concatenates_S1x128_S1x128_S1x128_S1x384_d1)
      = Cert.ReferenceIdeal.Gen.k0_pay12 (F := Ideal) v199 v200 wq bq := by
  show extractStridedSlice Cert.KernelIdeal.S1024x128 ![0, 0] (Cert.KernelIdeal.Gen.k0_pay10 (F := Ideal) v199 v200 _ _)
      Cert.KernelIdeal.Facts₀.slices_S1024x384_o0_0_S1024x128 = _
  rw [pay10_eq]
  exact (slice0_eq _ rfl _ wq wk wv bq bk bv _ _ _ _ _ _ _).trans
    (separate_eq Cert.ReferenceIdeal.dot_S1024x128_S128x128_S1024x128_1_0_0_1_n_n rfl _ wq bq
      Cert.ReferenceIdeal.Facts₀.broadcasts_S1x128_S1024x128).symm

/-- k: the second block of columns is the reference's product with the k weights plus the k bias. -/
theorem k_eq (v199 : FVec Ideal Cert.KernelIdeal.S32x32x128 .f32) (v200 : FVec Ideal Cert.KernelIdeal.S8x8x128 .f32)
    (wq wk wv : Cert.KernelIdeal.S128x128.Idx → Elt Ideal .f32) (bq bk bv : Cert.KernelIdeal.S1x128.Idx → Elt Ideal .f32) :
    Cert.KernelIdeal.Gen.k0_pay12 (F := Ideal) v199 v200
        (truncf (F := Ideal) .bf16 (concatenate Cert.KernelIdeal.S128x384 1 [⟨Cert.KernelIdeal.S128x128, wq⟩, ⟨Cert.KernelIdeal.S128x128, wk⟩, ⟨Cert.KernelIdeal.S128x128, wv⟩] Cert.KernelIdeal.Facts₀.concatenates_S128x128_S128x128_S128x128_S128x384_d1) Cert.KernelIdeal.Facts₀.bitsLt_bf16_f32)
        (concatenate Cert.KernelIdeal.S1x384 1 [⟨Cert.KernelIdeal.S1x128, bq⟩, ⟨Cert.KernelIdeal.S1x128, bk⟩, ⟨Cert.KernelIdeal.S1x128, bv⟩] Cert.KernelIdeal.Facts₀.concatenates_S1x128_S1x128_S1x128_S1x384_d1)
      = Cert.ReferenceIdeal.Gen.k0_pay13 (F := Ideal) v199 v200 wk bk := by
  show extractStridedSlice Cert.KernelIdeal.S1024x128 ![0, 128] (Cert.KernelIdeal.Gen.k0_pay10 (F := Ideal) v199 v200 _ _)
      Cert.KernelIdeal.Facts₀.slices_S1024x384_o0_128_S1024x128 = _
  rw [pay10_eq]
  exact (slice1_eq _ rfl _ wq wk wv bq bk bv _ _ _ _ _ _ _).trans
    (separate_eq Cert.ReferenceIdeal.dot_S1024x128_S128x128_S1024x128_1_0_0_1_n_n rfl _ wk bk
      Cert.ReferenceIdeal.Facts₀.broadcasts_S1x128_S1024x128).symm

/-- v: the third block of columns is the reference's product with the v weights, to which the reference adds the v bias in a
    separate step. -/
theorem v_eq (v199 : FVec Ideal Cert.KernelIdeal.S32x32x128 .f32) (v200 : FVec Ideal Cert.KernelIdeal.S8x8x128 .f32)
    (wq wk wv : Cert.KernelIdeal.S128x128.Idx → Elt Ideal .f32) (bq bk bv : Cert.KernelIdeal.S1x128.Idx → Elt Ideal .f32) :
    Cert.KernelIdeal.Gen.k0_pay13 (F := Ideal) v199 v200
        (truncf (F := Ideal) .bf16 (concatenate Cert.KernelIdeal.S128x384 1 [⟨Cert.KernelIdeal.S128x128, wq⟩, ⟨Cert.KernelIdeal.S128x128, wk⟩, ⟨Cert.KernelIdeal.S128x128, wv⟩] Cert.KernelIdeal.Facts₀.concatenates_S128x128_S128x128_S128x128_S128x384_d1) Cert.KernelIdeal.Facts₀.bitsLt_bf16_f32)
        (concatenate Cert.KernelIdeal.S1x384 1 [⟨Cert.KernelIdeal.S1x128, bq⟩, ⟨Cert.KernelIdeal.S1x128, bk⟩, ⟨Cert.KernelIdeal.S1x128, bv⟩] Cert.KernelIdeal.Facts₀.concatenates_S1x128_S1x128_S1x128_S1x384_d1)
      = Cert.ReferenceIdeal.Gen.k0_pay15 (F := Ideal) (Cert.ReferenceIdeal.Gen.k0_pay14 (F := Ideal) v199 v200 wv) bv := by
  show extractStridedSlice Cert.KernelIdeal.S1024x128 ![0, 256] (Cert.KernelIdeal.Gen.k0_pay10 (F := Ideal) v199 v200 _ _)
      Cert.KernelIdeal.Facts₀.slices_S1024x384_o0_256_S1024x128 = _
  rw [pay10_eq]
  exact (slice2_eq _ rfl _ wq wk wv bq bk bv _ _ _ _ _ _ _).trans
    (separate_eq Cert.ReferenceIdeal.dot_S1024x128_S128x128_S1024x128_1_0_0_1_n_n rfl _ wv bv
      Cert.ReferenceIdeal.Facts₀.broadcasts_S1x128_S1024x128).symm

/-- v as sixteen 8x8 windows: the same cast of the same 1024x128 array on both sides, the reference's followed by a cast to its
    own shape, which is the identity. -/
theorem v4_eq (v199 : FVec Ideal Cert.KernelIdeal.S32x32x128 .f32) (v200 : FVec Ideal Cert.KernelIdeal.S8x8x128 .f32)
    (wq wk wv : Cert.KernelIdeal.S128x128.Idx → Elt Ideal .f32) (bq bk bv : Cert.KernelIdeal.S1x128.Idx → Elt Ideal .f32) :
    Cert.KernelIdeal.Gen.k0_pay15 (F := Ideal) v199 v200
        (truncf (F := Ideal) .bf16 (concatenate Cert.KernelIdeal.S128x384 1 [⟨Cert.KernelIdeal.S128x128, wq⟩, ⟨Cert.KernelIdeal.S128x128, wk⟩, ⟨Cert.KernelIdeal.S128x128, wv⟩] Cert.KernelIdeal.Facts₀.concatenates_S128x128_S128x128_S128x128_S128x384_d1) Cert.KernelIdeal.Facts₀.bitsLt_bf16_f32)
        (concatenate Cert.KernelIdeal.S1x384 1 [⟨Cert.KernelIdeal.S1x128, bq⟩, ⟨Cert.KernelIdeal.S1x128, bk⟩, ⟨Cert.KernelIdeal.S1x128, bv⟩] Cert.KernelIdeal.Facts₀.concatenates_S1x128_S1x128_S1x128_S1x384_d1)
      = Cert.ReferenceIdeal.Gen.k0_pay17 (F := Ideal) (Cert.ReferenceIdeal.Gen.k0_pay14 (F := Ideal) v199 v200 wv) bv := by
  show shapeCast Cert.KernelIdeal.S16x8x8x128 (Cert.KernelIdeal.Gen.k0_pay13 (F := Ideal) v199 v200 _ _) Cert.KernelIdeal.Facts₀.shapeCasts_S1024x128_S16x8x8x128
    = shapeCast Cert.ReferenceIdeal.S16x8x8x128
        (shapeCast Cert.ReferenceIdeal.S16x8x8x128 (Cert.ReferenceIdeal.Gen.k0_pay15 (F := Ideal) (Cert.ReferenceIdeal.Gen.k0_pay14 (F := Ideal) v199 v200 wv) bv)
          Cert.ReferenceIdeal.Facts₀.shapeCasts_S1024x128_S16x8x8x128)
        Cert.ReferenceIdeal.Facts₀.shapeCasts_S16x8x8x128_S16x8x8x128
  rw [shapeCast_self, v_eq]

end Cert.Qkv

end
-- ==== Proof.HaloStore.lean ====
import proofs.«120724_g2000406006432562_pallasbulk_1270_2_alg».proof.Proof.Gen.KernelIdeal
import Idealize.ShloMosaic.Lib.Pipeline.FrameBody
import Idealize.ShloMosaic.Lib.Pipeline.Value

/-! # Two ways of storing the interior of a zero-padded halo image

A 34x34x128 buffer holds a 32x32x128 image at rows and columns 1..32. One program stores the image directly
through the interior rectangle. The other stores the rows 1..32 over ALL 34 columns, with the payload the old
contents of those rows in which the columns 1..32 are replaced by the image (an update-slice of the old rows).
Both leave the same contents: outside the rows 1..32 nothing changes on either side; on those rows, the columns
1..32 take the image on both sides, and the columns 0 and 33 are rewritten with what they held. -/

namespace Cert.Halo

open Idealize.ShloMosaic

/-- An element of an update-slice inside the updated block is the update's, at the index moved back by the offsets. -/
theorem updateSlice_apply_of_mem {α : Type} {s u : Shape} (x : s.Idx → α) (upd : u.Idx → α) (start : Fin s.rank → Nat)
    (h : s.Slices start u) (i : s.Idx) (j : u.Idx)
    (hj : ∀ a : Fin s.rank, (i a).val = start a + (j (a.cast h.1.symm)).val) :
    updateSlice x upd start h i = upd j := by
  unfold updateSlice
  have hin : ∀ a : Fin s.rank, start a ≤ (i a).val ∧ (i a).val < start a + u.size (a.cast h.1.symm) := fun a => by
    have := (j (a.cast h.1.symm)).isLt
    have := hj a
    omega
  rw [dif_pos hin]
  congr 1
  funext b
  apply Fin.ext
  have := hj (b.cast h.1)
  have e : (b.cast h.1).cast h.1.symm = b := rfl
  rw [e] at this
  show (i (b.cast h.1)).val - start (b.cast h.1) = (j b).val
  omega

/-- An element outside the updated block is the operand's. -/
theorem updateSlice_apply_of_not_mem {α : Type} {s u : Shape} (x : s.Idx → α) (upd : u.Idx → α) (start : Fin s.rank → Nat)
    (h : s.Slices start u) (i : s.Idx)
    (hi : ¬ ∀ a : Fin s.rank, start a ≤ (i a).val ∧ (i a).val < start a + u.size (a.cast h.1.symm)) :
    updateSlice x upd start h i = x i := by
  unfold updateSlice
  rw [dif_neg hi]

theorem forall_fin3 {p : Fin 3 → Prop} : (∀ a, p a) ↔ p 0 ∧ p 1 ∧ p 2 :=
  ⟨fun h => ⟨h 0, h 1, h 2⟩, fun ⟨h0, h1, h2⟩ a => by fin_cases a <;> assumption⟩

section
variable {α : Type}
  (inb1 : ∀ a, (![1, 0, 0] : Fin 3 → Nat) a + Cert.KernelIdeal.S32x34x128.size a ≤ Cert.KernelIdeal.S34x34x128.size a)
  (inb2 : ∀ a, (![1, 1, 0] : Fin 3 → Nat) a + Cert.KernelIdeal.S32x32x128.size a ≤ Cert.KernelIdeal.S34x34x128.size a)
  (hs : Cert.KernelIdeal.S32x34x128.Slices ![0, 1, 0] Cert.KernelIdeal.S32x32x128)

/-- The rows 1..32 over all 34 columns. -/
abbrev r1 : Rect Cert.KernelIdeal.S34x34x128 := Rect.unit (s := Cert.KernelIdeal.S34x34x128) ![1, 0, 0] Cert.KernelIdeal.S32x34x128.size inb1
/-- The interior: rows 1..32, columns 1..32. -/
abbrev r2 : Rect Cert.KernelIdeal.S34x34x128 := Rect.unit (s := Cert.KernelIdeal.S34x34x128) ![1, 1, 0] Cert.KernelIdeal.S32x32x128.size inb2

theorem mem_r1 (i : Cert.KernelIdeal.S34x34x128.Idx) : i ∈ (r1 inb1).set ↔ 1 ≤ (i 0).val ∧ (i 0).val < 33 := by
  have h1 : (i 1).val < 34 := (i 1).isLt
  have h2 : (i 2).val < 128 := (i 2).isLt
  rw [Rect.mem_set_unit, forall_fin3]
  show (1 ≤ (i 0).val ∧ (i 0).val < 1 + 32) ∧ (0 ≤ (i 1).val ∧ (i 1).val < 0 + 34) ∧ (0 ≤ (i 2).val ∧ (i 2).val < 0 + 128) ↔ _
  omega

theorem mem_r2 (i : Cert.KernelIdeal.S34x34x128.Idx) :
    i ∈ (r2 inb2).set ↔ (1 ≤ (i 0).val ∧ (i 0).val < 33) ∧ (1 ≤ (i 1).val ∧ (i 1).val < 33) := by
  have h2 : (i 2).val < 128 := (i 2).isLt
  rw [Rect.mem_set_unit, forall_fin3]
  show (1 ≤ (i 0).val ∧ (i 0).val < 1 + 32) ∧ (1 ≤ (i 1).val ∧ (i 1).val < 1 + 32) ∧ (0 ≤ (i 2).val ∧ (i 2).val < 0 + 128) ↔ _
  omega

theorem overlay_rmw (Z : Cert.KernelIdeal.S34x34x128.Idx → α) (P : Cert.KernelIdeal.S32x32x128.Idx → α) :
    (r1 inb1).overlay Z (updateSlice (fun j : (r1 inb1).shape.Idx => Z ((r1 inb1).toLoadRect.idx j)) P ![0, 1, 0] hs)
      = (r2 inb2).overlay Z P := by
  funext i
  by_cases h2 : i ∈ (r2 inb2).set
  · have h1 : i ∈ (r1 inb1).set := (mem_r1 inb1 i).mpr ((mem_r2 inb2 i).mp h2).1
    obtain ⟨x, hx⟩ := (r1 inb1).toLoadRect.exists_idx_of_mem h1
    obtain ⟨y, hy⟩ := (r2 inb2).toLoadRect.exists_idx_of_mem h2
    have eR : (r2 inb2).overlay Z P i = P y := by
      rw [← hy]; exact Rect.overlay_emb _ _ _ y
    rw [eR, ← hx]
    show (r1 inb1).overlay Z _ ((r1 inb1).emb x) = P y
    rw [Rect.overlay_emb]
    have key : ∀ a : Fin 3, ((r1 inb1).idx x a).val = ((r2 inb2).idx y a).val :=
      fun a => congrArg (fun k : Cert.KernelIdeal.S34x34x128.Idx => (k a).val) (hx.trans hy.symm)
    have k0 : 1 + 1 * (x 0).val = 1 + 1 * (y 0).val := key 0
    have k1 : 0 + 1 * (x 1).val = 1 + 1 * (y 1).val := key 1
    have k2 : 0 + 1 * (x 2).val = 0 + 1 * (y 2).val := key 2
    apply updateSlice_apply_of_mem
    refine forall_fin3.mpr ⟨?_, ?_, ?_⟩
    · show (x 0).val = 0 + (y 0).val
      omega
    · show (x 1).val = 1 + (y 1).val
      omega
    · show (x 2).val = 0 + (y 2).val
      omega
  · rw [Rect.overlay_of_not_mem _ _ _ h2]
    by_cases h1 : i ∈ (r1 inb1).set
    · obtain ⟨x, rfl⟩ := (r1 inb1).toLoadRect.exists_idx_of_mem h1
      show (r1 inb1).overlay Z _ ((r1 inb1).emb x) = _
      rw [Rect.overlay_emb, updateSlice_apply_of_not_mem]
      intro hin
      apply h2
      rw [mem_r2]
      rw [mem_r1] at h1
      have t : 1 ≤ (x 1).val ∧ (x 1).val < 1 + 32 := hin 1
      have h1' : 1 ≤ 1 + 1 * (x 0).val ∧ 1 + 1 * (x 0).val < 33 := h1
      show (1 ≤ 1 + 1 * (x 0).val ∧ 1 + 1 * (x 0).val < 33) ∧ 1 ≤ 0 + 1 * (x 1).val ∧ 0 + 1 * (x 1).val < 33
      omega
    · rw [Rect.overlay_of_not_mem _ _ _ h1]

end

/-! ## The same inside a list of stores

Over a store of the WHOLE buffer (the zero fill, payload `Zv`), whatever came before it: the read-modify-write
store of the rows 1..32 (whose old contents are read back from the stores so far) and the direct store of the
interior both leave `Zv` with the interior replaced by the image. -/

section Canon
variable {Val : EltTy → Type} [∀ e, Nonempty (Val e)] {e : EltTy}
  (inb1 : ∀ a, (![1, 0, 0] : Fin 3 → Nat) a + Cert.KernelIdeal.S32x34x128.size a ≤ Cert.KernelIdeal.S34x34x128.size a)
  (inb2 : ∀ a, (![1, 1, 0] : Fin 3 → Nat) a + Cert.KernelIdeal.S32x32x128.size a ≤ Cert.KernelIdeal.S34x34x128.size a)
  (hs : Cert.KernelIdeal.S32x34x128.Slices ![0, 1, 0] Cert.KernelIdeal.S32x32x128)
  (inbW : ∀ a, (![0, 0, 0] : Fin 3 → Nat) a + Cert.KernelIdeal.S34x34x128.size a ≤ Cert.KernelIdeal.S34x34x128.size a)

/-- The whole buffer. -/
abbrev rW : Rect Cert.KernelIdeal.S34x34x128 := Rect.unit (s := Cert.KernelIdeal.S34x34x128) ![0, 0, 0] Cert.KernelIdeal.S34x34x128.size inbW

theorem off_zero : (![0, 0, 0] : Fin 3 → Nat) = fun _ => 0 := by
  funext a; fin_cases a <;> rfl

/-- A store of the whole buffer, last, leaves its payload. -/
theorem canon_whole (Zv : Cert.KernelIdeal.S34x34x128.Idx → Val e) (L : List (View.Piece Val Cert.KernelIdeal.S34x34x128 e)) :
    View.canon ((⟨rW inbW, Zv⟩ : View.Piece Val Cert.KernelIdeal.S34x34x128 e) :: L) = Zv :=
  View.canon_cons_unit_zero off_zero inbW Zv L

theorem canon_direct (Zv : Cert.KernelIdeal.S34x34x128.Idx → Val e) (P : Cert.KernelIdeal.S32x32x128.Idx → Val e)
    (L : List (View.Piece Val Cert.KernelIdeal.S34x34x128 e)) :
    View.canon ((⟨r2 inb2, P⟩ : View.Piece Val Cert.KernelIdeal.S34x34x128 e) :: ⟨rW inbW, Zv⟩ :: L) = (r2 inb2).overlay Zv P := by
  show (r2 inb2).overlay (View.canon ((⟨rW inbW, Zv⟩ : View.Piece Val Cert.KernelIdeal.S34x34x128 e) :: L)) P = _
  rw [canon_whole]

theorem canon_rmw (Zv : Cert.KernelIdeal.S34x34x128.Idx → Val e) (P : Cert.KernelIdeal.S32x32x128.Idx → Val e)
    (L : List (View.Piece Val Cert.KernelIdeal.S34x34x128 e)) :
    View.canon ((⟨r1 inb1, updateSlice (fun j : (r1 inb1).shape.Idx =>
          View.canon ((⟨rW inbW, Zv⟩ : View.Piece Val Cert.KernelIdeal.S34x34x128 e) :: L) ((r1 inb1).toLoadRect.idx j)) P ![0, 1, 0] hs⟩ :
        View.Piece Val Cert.KernelIdeal.S34x34x128 e) :: ⟨rW inbW, Zv⟩ :: L) = (r2 inb2).overlay Zv P := by
  show (r1 inb1).overlay (View.canon ((⟨rW inbW, Zv⟩ : View.Piece Val Cert.KernelIdeal.S34x34x128 e) :: L))
      (updateSlice (fun j : (r1 inb1).shape.Idx =>
          View.canon ((⟨rW inbW, Zv⟩ : View.Piece Val Cert.KernelIdeal.S34x34x128 e) :: L) ((r1 inb1).toLoadRect.idx j)) P ![0, 1, 0] hs) = _
  rw [canon_whole]
  exact overlay_rmw inb1 inb2 hs Zv P

end Canon
end Cert.Halo
-- ==== Proof.Core.lean ====
/-
  The core equality of the certificate, at the ideal reading: the fused kernel's output block, as a function of the image
  block and of the host-prepared operands, is the second reference call's output block at the first call's output block.

  The fused body is the first call's body followed by the second's: a root-mean-square norm, a 5x5 depthwise convolution
  through a zero-padded halo, windowed attention with a 3x3 depthwise positional term, a residual, a second norm and
  convolution, a gated channel mix, a second residual; then two 3x3 convolutions with a Mish after each, written as nine
  shifted matrix products over a zero-padded halo, and a 1x1 shortcut. Both sides are opened down to the vector operations
  over the operands, and the places where they differ are brought to one form, each by an identity over the extended reals:
    * an operand loaded whole through its staging buffer is the operand;
    * q, k, v are three column slices of one product against the concatenated weights plus the concatenated bias, against
      three products (module QkvSplit);
    * a read after stores is a read of the stores' canonical contents; two stores of which the earlier fills the whole
      buffer leave the later payload over the fill; the halo of the 3x3 convolutions is a packed half-width buffer whose
      interior is stored by reading the rows 1..32 over all 34 columns back, overwriting the columns 1..32 and storing the
      rows, against a direct store of the interior (module HaloStore);
    * the second residual stays in registers, against a round trip through the first call's output block: a shape cast to
      1x32x32x128 and back is the identity, as is a shape cast to the same shape;
    * each 128x128 tap of a 3x3x128x128 weight is loaded through its own rectangle, against a slice of the loaded whole;
    * operands of the matrix products are narrowed to half width, the identity at the ideal reading, and a matrix product
      there is the accumulator plus the sum of products whatever its operands' formats; both zero words are zero.
  What is left on the two sides is the same term up to the names of the two programs' shape and fact constants.
-/
import proofs.«120724_g2000406006432562_pallasbulk_1270_2_alg».proof.Proof.BridgeStmt
import proofs.«120724_g2000406006432562_pallasbulk_1270_2_alg».proof.Proof.QkvSplit
import proofs.«120724_g2000406006432562_pallasbulk_1270_2_alg».proof.Proof.HaloStore
import Idealize.ShloMosaic.Lib.Tactic
import Idealize.ShloMosaic.Lib.Pipeline.Value
import Idealize.ShloMosaic.Lib.Pipeline.FrameBody
import Idealize.ShloMosaic.Lib.IdealHost
import Idealize.ShloMosaic.PureOps.Ideal
import Idealize.ShloMosaic.PureOps.Ideal.Laws

set_option maxRecDepth 16384
set_option maxHeartbeats 40000000

noncomputable section

namespace Cert.Core

open Idealize.ShloMosaic Idealize.ShloMosaic.Tactic

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- Narrowing a vector to a smaller float format is the identity at the ideal reading. -/
theorem truncf_id {s : Shape} {φ ψ : FTy} (a : FVec Ideal s φ) (h : ψ.bits < φ.bits) :
    (truncf ψ a h : FVec Ideal s ψ) = a := rfl

/-! ## A load through the rectangle of the whole array reads the array (ranks 2, 3, 4; the sizes as literals) -/

theorem ld_whole2 {Val : EltTy → Type} {e : EltTy} (d : Fin 2 → Nat) (X : (⟨2, d⟩ : Shape).Idx → Val e) (inb : ∀ a, (![0, 0] : Fin 2 → Nat) a + d a ≤ d a) :
    View.ld X (Rect.unit (s := ⟨2, d⟩) ![0, 0] d inb) = X := View.ld_unit_zero (S := ⟨2, d⟩) hz2 inb X
theorem ld_whole3 {Val : EltTy → Type} {e : EltTy} (d : Fin 3 → Nat) (X : (⟨3, d⟩ : Shape).Idx → Val e) (inb : ∀ a, (![0, 0, 0] : Fin 3 → Nat) a + d a ≤ d a) :
    View.ld X (Rect.unit (s := ⟨3, d⟩) ![0, 0, 0] d inb) = X := View.ld_unit_zero (S := ⟨3, d⟩) hz3 inb X
theorem ld_whole4 {Val : EltTy → Type} {e : EltTy} (d : Fin 4 → Nat) (X : (⟨4, d⟩ : Shape).Idx → Val e) (inb : ∀ a, (![0, 0, 0, 0] : Fin 4 → Nat) a + d a ≤ d a) :
    View.ld X (Rect.unit (s := ⟨4, d⟩) ![0, 0, 0, 0] d inb) = X := View.ld_unit_zero (S := ⟨4, d⟩) hz4 inb X

/-! ## Stores: the earlier of two fills the whole buffer; one store of the whole buffer -/

/-- Two stores, the earlier one of the whole buffer: the later one's payload over the earlier one's, whatever was stored before. -/
theorem canon_cons_cons_whole {Val : EltTy → Type} [∀ e, Nonempty (Val e)] {S : Shape} {e : EltTy} (p : View.Piece Val S e)
    {off : Fin S.rank → Nat} (h : off = fun _ => 0) (inb : ∀ a, off a + S.size a ≤ S.size a) (w : S.Idx → Val e)
    (L : List (View.Piece Val S e)) :
    View.canon (p :: (⟨Rect.unit off S.size inb, w⟩ : View.Piece Val S e) :: L) = p.1.overlay w p.2 := by
  rw [View.canon_cons, View.canon_cons_unit_zero h]

theorem canon2_whole3 {Val : EltTy → Type} [∀ e, Nonempty (Val e)] {e : EltTy} (d : Fin 3 → Nat) (p : View.Piece Val ⟨3, d⟩ e)
    (inb : ∀ a, (![0, 0, 0] : Fin 3 → Nat) a + d a ≤ d a) (w : (⟨3, d⟩ : Shape).Idx → Val e) (L : List (View.Piece Val ⟨3, d⟩ e)) :
    View.canon (p :: (⟨Rect.unit (s := ⟨3, d⟩) ![0, 0, 0] d inb, w⟩ : View.Piece Val ⟨3, d⟩ e) :: L) = p.1.overlay w p.2 :=
  canon_cons_cons_whole (S := ⟨3, d⟩) p hz3 inb w L
theorem canon2_whole4 {Val : EltTy → Type} [∀ e, Nonempty (Val e)] {e : EltTy} (d : Fin 4 → Nat) (p : View.Piece Val ⟨4, d⟩ e)
    (inb : ∀ a, (![0, 0, 0, 0] : Fin 4 → Nat) a + d a ≤ d a) (w : (⟨4, d⟩ : Shape).Idx → Val e) (L : List (View.Piece Val ⟨4, d⟩ e)) :
    View.canon (p :: (⟨Rect.unit (s := ⟨4, d⟩) ![0, 0, 0, 0] d inb, w⟩ : View.Piece Val ⟨4, d⟩ e) :: L) = p.1.overlay w p.2 :=
  canon_cons_cons_whole (S := ⟨4, d⟩) p hz4 inb w L
theorem canon1_whole4 {Val : EltTy → Type} [∀ e, Nonempty (Val e)] {e : EltTy} (d : Fin 4 → Nat)
    (inb : ∀ a, (![0, 0, 0, 0] : Fin 4 → Nat) a + d a ≤ d a) (w : (⟨4, d⟩ : Shape).Idx → Val e) :
    View.canon [(⟨Rect.unit (s := ⟨4, d⟩) ![0, 0, 0, 0] d inb, w⟩ : View.Piece Val ⟨4, d⟩ e)] = w :=
  View.canon_unit_zero (S := ⟨4, d⟩) hz4 inb w

/-! ## A weight tap -/

/-- A tap of a rank-4 array loaded through its own unit-stride rectangle is the slice of the whole at the rectangle's offsets. -/
theorem ld_tap4 {Val : EltTy → Type} {e : EltTy} (d d' off : Fin 4 → Nat) (W : (⟨4, d⟩ : Shape).Idx → Val e)
    (inb : ∀ a, off a + d' a ≤ d a) :
    View.ld W (Rect.unit (s := ⟨4, d⟩) off d' inb) = extractStridedSlice (s := ⟨4, d⟩) ⟨4, d'⟩ off W ⟨rfl, inb⟩ := by
  funext j
  unfold extractStridedSlice
  show W _ = W _
  congr 1
  funext a
  apply Fin.ext
  show off a + 1 * (j a).val = off a + (j a).val
  rw [Nat.one_mul]

/-! ## Opening the payloads -/

open Lean Meta Elab Tactic in
/-- open every payload definition (a name whose last component begins k0_pay or k1_pay) in the goal, a few rounds -/
elab "unfold_pays" : tactic => do
  let g ← getMainGoal
  let isPay (n : Name) : Bool := match n with
    | .str _ last => last.startsWith "k0_pay" || last.startsWith "k1_pay"
    | _ => false
  let mut t ← instantiateMVars (← g.getType)
  for _ in [0:8] do
    let t' ← Meta.deltaExpand t isPay
    if t' == t then break
    t := t'
  replaceMainGoal [← g.replaceTargetDefEq t]

/-! ## The core equality -/

theorem out_eq : Cert.Bridge.CoreEq := by
  intro c X a1 a2 a3 a4 a5 a6 a7 a8 a9 a10 a11 a12 a13 a14 a15 a16 a17 a18 a19 a20 a21 a22 a23 a24 a25
  unfold Cert.KernelIdeal.Lit.out Cert.ReferenceIdeal.Lit.out1 Cert.ReferenceIdeal.Lit.out0
  iterate 14 sl_unfold_run_names
  simp only [View.readAt_eq_ld, View.read_whole]
  simp only [ld_whole2, ld_whole3, ld_whole4]
  conv in (occs := *) Cert.KernelIdeal.Gen.k0_pay11 _ _ _ _ => all_goals rw [Cert.Qkv.q_eq]
  conv in (occs := *) Cert.KernelIdeal.Gen.k0_pay12 _ _ _ _ => all_goals rw [Cert.Qkv.k_eq]
  conv in (occs := *) Cert.KernelIdeal.Gen.k0_pay13 _ _ _ _ => all_goals rw [Cert.Qkv.v_eq]
  conv in (occs := *) Cert.KernelIdeal.Gen.k0_pay15 _ _ _ _ => all_goals rw [Cert.Qkv.v4_eq]
  simp only [View.readCov_eq_canon']
  simp only [Cert.Halo.canon_rmw Cert.KernelIdeal.Gen.inb_S34x34x128_S32x34x128_1_0_0 Cert.KernelIdeal.Gen.inb_S34x34x128_S32x32x128_1_1_0 Cert.KernelIdeal.Gen.slices_S32x34x128_S32x32x128_0_1_0 Cert.KernelIdeal.Gen.inb_S34x34x128_S34x34x128_0_0_0]
  simp only [canon2_whole3, canon2_whole4, canon1_whole4]
  unfold_pays
  simp only [matmul, Ideal.matmul_def, truncf_id, shapeCast_self, shapeCast_shapeCast, ld_tap4, Ideal.ofBits_def, Ideal.ofBits_zero_bf16, Ideal.ofBits_zero_f32]
  sl_kernel_rfl

end Cert.Core

end
-- ==== Proof.lean ====
/-
  The certificate's claim, from the core equality of the module Core. The word-level kernel, its idealization and the idealized reference each run to the end with
  their argument arrays unchanged: each is followed as a value-carrying run (KernelRun, KernelIdealRun, RefRun), every unscoped
  buffer's contents at the end a fold from the launch memory, and the frames drop all but the arguments. The idealization is the
  kernel's own text read over the extended reals, so nothing is owed for it. At the ideal instance the fused kernel and the
  reference (a transformer block, then a convolution block fed with the first one's output) end with equal results: both
  results are the reshape of an array of sixty-four images, each image written back by one grid point as a function of that
  image of the input and of weights the host side prepares (Bridge, with BridgeK and BridgeR); each body's output block is a
  function of its input blocks (KernelIdealBlk, RefBlk); and the fused kernel's block function at its merged, truncated weights
  is the composite of the reference's two block functions at the separate weights (Core): truncation to bf16 is the identity on
  the extended reals, one matrix product against concatenated weights is the three products side by side, and the intermediate
  image passes unchanged from the first block function to the second.
-/
import proofs.«120724_g2000406006432562_pallasbulk_1270_2_alg».proof.Defs
import proofs.«120724_g2000406006432562_pallasbulk_1270_2_alg».proof.Proof.Gen.Kernel
import proofs.«120724_g2000406006432562_pallasbulk_1270_2_alg».proof.Proof.Gen.Kernel.Skeleton
import proofs.«120724_g2000406006432562_pallasbulk_1270_2_alg».proof.Proof.Gen.Kernel.Launch
import proofs.«120724_g2000406006432562_pallasbulk_1270_2_alg».proof.Proof.Gen.Kernel.Points
import proofs.«120724_g2000406006432562_pallasbulk_1270_2_alg».proof.Proof.Gen.KernelIdeal
import proofs.«120724_g2000406006432562_pallasbulk_1270_2_alg».proof.Proof.Gen.KernelIdeal.Skeleton
import proofs.«120724_g2000406006432562_pallasbulk_1270_2_alg».proof.Proof.Gen.KernelIdeal.Launch
import proofs.«120724_g2000406006432562_pallasbulk_1270_2_alg».proof.Proof.Gen.KernelIdeal.Points
import proofs.«120724_g2000406006432562_pallasbulk_1270_2_alg».proof.Proof.Gen.ReferenceIdeal
import proofs.«120724_g2000406006432562_pallasbulk_1270_2_alg».proof.Proof.Gen.ReferenceIdeal.Skeleton
import proofs.«120724_g2000406006432562_pallasbulk_1270_2_alg».proof.Proof.Gen.ReferenceIdeal.Launch
import proofs.«120724_g2000406006432562_pallasbulk_1270_2_alg».proof.Proof.Gen.ReferenceIdeal.Regions
import proofs.«120724_g2000406006432562_pallasbulk_1270_2_alg».proof.Proof.Gen.ReferenceIdeal.Points
import proofs.«120724_g2000406006432562_pallasbulk_1270_2_alg».proof.Proof.Gen.Pre_finite_inputs
import proofs.«120724_g2000406006432562_pallasbulk_1270_2_alg».proof.Proof.KernelRun
import proofs.«120724_g2000406006432562_pallasbulk_1270_2_alg».proof.Proof.Bridge
import proofs.«120724_g2000406006432562_pallasbulk_1270_2_alg».proof.Proof.KernelIdealBlk
import proofs.«120724_g2000406006432562_pallasbulk_1270_2_alg».proof.Proof.RefBlk
import proofs.«120724_g2000406006432562_pallasbulk_1270_2_alg».proof.Proof.Core
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m g _ => Cert.Kernel.Run.frame m g,
  fun m g _ => Cert.KernelIdeal.Run.frame m g,
  fun m g _ => Cert.ReferenceIdeal.Run.frame m g,
  trivial,
  Cert.Bridge.algebraic_of
    (fun V c t => Cert.KernelIdeal.Run.outBlk0_eq V c t)
    (fun V c t => Cert.ReferenceIdeal.Run.outBlk0_eq V c t)
    (fun V c t => Cert.ReferenceIdeal.Run.outBlk1_eq V c t)
    Cert.Core.out_eq⟩

end Cert.Proof

end
